-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S3x128x256 : Shape := ⟨3, ![3, 128, 256]⟩
abbrev S3x256 : Shape := ⟨2, ![3, 256]⟩
abbrev S3x256x128 : Shape := ⟨3, ![3, 256, 128]⟩
abbrev S3x128 : Shape := ⟨2, ![3, 128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x256 : S_.BroadcastsInDim S3x128x256 (![] : Fin 0 → Fin S3x128x256.rank)
  reducesTo_S3x128x256_S_d0_1_2 : S3x128x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x128 : S_.BroadcastsInDim S3x256x128 (![] : Fin 0 → Fin S3x256x128.rank)
  reducesTo_S3x256x128_S_d0_1_2 : S3x256x128.ReducesTo [0, 1, 2] S_
  bcast_S_S3x128 : S_.BroadcastsInDim S3x128 (![] : Fin 0 → Fin S3x128.rank)
  reducesTo_S3x128_S_d0_1 : S3x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg21 : FVec F S10 .f32) (main_v83 : IVec S_ 1) (main_v84 : FVec F S128x10 .f32) (main_cst_32 : FVec F S_ .f32) : IVec S_ 1 :=
  let main_v85 : FVec F S128x10 .f32 := broadcastInDim S128x10 ![] bcast_S_S128x10 main_cst_32
  let main_v86 : IVec S128x10 1 := cmpf .olt main_v84 main_v85
  let main_c_33 : IVec S_ 1 := constantI S_ 1 1#1
  let main_v87 : IVec S_ 1 := (fun x v => Host.reduce IntOp.andi x v reducesTo_S128x10_S_d0_1 h_S_) main_v86 main_c_33
  let main_v88 : IVec S_ 1 := andi main_v83 main_v87
  let main_v89 : FVec F S10 .f32 := Host.absf main_arg21
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  main_v93

def fn_part4 {F : FTy → Type} [FloatOps F] (main_arg17 : FVec F S3x128 .f32) (main_arg18 : FVec F S128x128 .f32) (main_arg19 : FVec F S128 .f32) (main_arg20 : FVec F S128x10 .f32) (main_arg21 : FVec F S10 .f32) (main_v63 : IVec S_ 1) (main_v67 : IVec S_ 1) : IVec S_ 1 :=
  let main_v68 : IVec S_ 1 := andi main_v63 main_v67
  let main_v69 : FVec F S3x128 .f32 := Host.absf main_arg17
  let main_cst_26 : FVec F S_ .f32 := constant S_ .f32 0x7F800000#32
  let main_v70 : FVec F S3x128 .f32 := broadcastInDim S3x128 ![] bcast_S_S3x128 main_cst_26
  let main_v71 : IVec S3x128 1 := cmpf .olt main_v69 main_v70
  let main_c_27 : IVec S_ 1 := constantI S_ 1 1#1
  let main_v72 : IVec S_ 1 := (fun x v => Host.reduce IntOp.andi x v reducesTo_S3x128_S_d0_1 h_S_) main_v71 main_c_27
  let main_v73 : IVec S_ 1 := andi main_v68 main_v72
  let main_v74 : FVec F S128x128 .f32 := Host.absf main_arg18
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x10 .f32 := Host.absf main_arg20
  let main_cst_32 : FVec F S_ .f32 := constant S_ .f32 0x7F800000#32
  fn_part5 (F := F) main_arg21 main_v83 main_v84 main_cst_32

def fn_part3 {F : FTy → Type} [FloatOps F] (main_arg14 : FVec F S3x128 .f32) (main_arg15 : FVec F S3x128 .f32) (main_arg16 : FVec F S3x128 .f32) (main_arg17 : FVec F S3x128 .f32) (main_arg18 : FVec F S128x128 .f32) (main_arg19 : FVec F S128 .f32) (main_arg20 : FVec F S128x10 .f32) (main_arg21 : FVec F S10 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg14
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128 .f32 := Host.absf main_arg15
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  let main_v64 : FVec F S3x128 .f32 := Host.absf main_arg16
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg17 main_arg18 main_arg19 main_arg20 main_arg21 main_v63 main_v67

def fn_part2 {F : FTy → Type} [FloatOps F] (main_arg10 : FVec F S3x256 .f32) (main_arg11 : FVec F S3x256 .f32) (main_arg12 : FVec F S3x256x128 .f32) (main_arg13 : FVec F S3x128 .f32) (main_arg14 : FVec F S3x128 .f32) (main_arg15 : FVec F S3x128 .f32) (main_arg16 : FVec F S3x128 .f32) (main_arg17 : FVec F S3x128 .f32) (main_arg18 : FVec F S128x128 .f32) (main_arg19 : FVec F S128 .f32) (main_arg20 : FVec F S128x10 .f32) (main_arg21 : FVec F S10 .f32) (main_v33 : IVec S_ 1) : IVec S_ 1 :=
  let main_v34 : FVec F S3x256 .f32 := Host.absf main_arg10
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256 .f32 := Host.absf main_arg11
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S3x256x128 .f32 := Host.absf main_arg12
  let main_cst_16 : FVec F S_ .f32 := constant S_ .f32 0x7F800000#32
  let main_v45 : FVec F S3x256x128 .f32 := broadcastInDim S3x256x128 ![] bcast_S_S3x256x128 main_cst_16
  let main_v46 : IVec S3x256x128 1 := cmpf .olt main_v44 main_v45
  let main_c_17 : IVec S_ 1 := constantI S_ 1 1#1
  let main_v47 : IVec S_ 1 := (fun x v => Host.reduce IntOp.andi x v reducesTo_S3x256x128_S_d0_1_2 h_S_) main_v46 main_c_17
  let main_v48 : IVec S_ 1 := andi main_v43 main_v47
  let main_v49 : FVec F S3x128 .f32 := Host.absf main_arg13
  let main_cst_18 : FVec F S_ .f32 := constant S_ .f32 0x7F800000#32
  let main_v50 : FVec F S3x128 .f32 := broadcastInDim S3x128 ![] bcast_S_S3x128 main_cst_18
  fn_part3 (F := F) main_arg14 main_arg15 main_arg16 main_arg17 main_arg18 main_arg19 main_arg20 main_arg21 main_v48 main_v49 main_v50

def fn_part1 {F : FTy → Type} [FloatOps F] (main_arg7 : FVec F S3x256 .f32) (main_arg8 : FVec F S3x256 .f32) (main_arg9 : FVec F S3x256 .f32) (main_arg10 : FVec F S3x256 .f32) (main_arg11 : FVec F S3x256 .f32) (main_arg12 : FVec F S3x256x128 .f32) (main_arg13 : FVec F S3x128 .f32) (main_arg14 : FVec F S3x128 .f32) (main_arg15 : FVec F S3x128 .f32) (main_arg16 : FVec F S3x128 .f32) (main_arg17 : FVec F S3x128 .f32) (main_arg18 : FVec F S128x128 .f32) (main_arg19 : FVec F S128 .f32) (main_arg20 : FVec F S128x10 .f32) (main_arg21 : FVec F S10 .f32) (main_v13 : IVec S_ 1) (main_v16 : IVec S3x128x256 1) : IVec S_ 1 :=
  let main_c_5 : IVec S_ 1 := constantI S_ 1 1#1
  let main_v17 : IVec S_ 1 := (fun x v => Host.reduce IntOp.andi x v reducesTo_S3x128x256_S_d0_1_2 h_S_) main_v16 main_c_5
  let main_v18 : IVec S_ 1 := andi main_v13 main_v17
  let main_v19 : FVec F S3x256 .f32 := Host.absf main_arg7
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3x256 .f32 := Host.absf main_arg8
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S3x256 .f32 := Host.absf main_arg9
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_v33

def fn {F : FTy → Type} [FloatOps F] (main_arg0 : FVec F S50000x128 .f32) (main_arg1 : IVec S800000 32) (main_arg2 : IVec S800000 32) (main_arg3 : IVec S50000 32) (main_arg4 : FVec F S128x128 .f32) (main_arg5 : FVec F S128 .f32) (main_arg6 : FVec F S3x128x256 .f32) (main_arg7 : FVec F S3x256 .f32) (main_arg8 : FVec F S3x256 .f32) (main_arg9 : FVec F S3x256 .f32) (main_arg10 : FVec F S3x256 .f32) (main_arg11 : FVec F S3x256 .f32) (main_arg12 : FVec F S3x256x128 .f32) (main_arg13 : FVec F S3x128 .f32) (main_arg14 : FVec F S3x128 .f32) (main_arg15 : FVec F S3x128 .f32) (main_arg16 : FVec F S3x128 .f32) (main_arg17 : FVec F S3x128 .f32) (main_arg18 : FVec F S128x128 .f32) (main_arg19 : FVec F S128 .f32) (main_arg20 : FVec F S128x10 .f32) (main_arg21 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x256 .f32 := Host.absf main_arg6
  let main_cst_4 : FVec F S_ .f32 := constant S_ .f32 0x7F800000#32
  let main_v15 : FVec F S3x128x256 .f32 := broadcastInDim S3x128x256 ![] bcast_S_S3x128x256 main_cst_4
  let main_v16 : IVec S3x128x256 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_v13 main_v16
-- ==== Kernel.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S3x128x256 : Shape := ⟨3, ![3, 128, 256]⟩
abbrev S3x256 : Shape := ⟨2, ![3, 256]⟩
abbrev S3x256x128 : Shape := ⟨3, ![3, 256, 128]⟩
abbrev S3x128 : Shape := ⟨2, ![3, 128]⟩
abbrev S128x10 : Shape := ⟨2, ![128, 10]⟩
abbrev S10 : Shape := ⟨1, ![10]⟩
abbrev S1x128 : Shape := ⟨2, ![1, 128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S5000x256 : Shape := ⟨2, ![5000, 256]⟩
abbrev S64x128 : Shape := ⟨2, ![64, 128]⟩
abbrev S50000x1 : Shape := ⟨2, ![50000, 1]⟩
abbrev S1x10 : Shape := ⟨2, ![1, 10]⟩
abbrev S64x10 : Shape := ⟨2, ![64, 10]⟩

abbrev nBuf : Space → Nat
  | .hbm => 175
  | .vmem => 66
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S50000, .i32⟩
  | 4 => ⟨S128x128, .f32⟩
  | 5 => ⟨S128, .f32⟩
  | 6 => ⟨S3x128x256, .f32⟩
  | 7 => ⟨S3x256, .f32⟩
  | 8 => ⟨S3x256, .f32⟩
  | 9 => ⟨S3x256, .f32⟩
  | 10 => ⟨S3x256, .f32⟩
  | 11 => ⟨S3x256, .f32⟩
  | 12 => ⟨S3x256x128, .f32⟩
  | 13 => ⟨S3x128, .f32⟩
  | 14 => ⟨S3x128, .f32⟩
  | 15 => ⟨S3x128, .f32⟩
  | 16 => ⟨S3x128, .f32⟩
  | 17 => ⟨S3x128, .f32⟩
  | 18 => ⟨S128x128, .f32⟩
  | 19 => ⟨S128, .f32⟩
  | 20 => ⟨S128x10, .f32⟩
  | 21 => ⟨S10, .f32⟩
  | 22 => ⟨S1x128, .f32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S1x128x256, .f32⟩
  | 38 => ⟨S128x256, .f32⟩
  | 39 => ⟨S1x256, .f32⟩
  | 40 => ⟨S256, .f32⟩
  | 41 => ⟨S1x256, .f32⟩
  | 42 => ⟨S256, .f32⟩
  | 43 => ⟨S1x256, .f32⟩
  | 44 => ⟨S256, .f32⟩
  | 45 => ⟨S1x256, .f32⟩
  | 46 => ⟨S256, .f32⟩
  | 47 => ⟨S1x256, .f32⟩
  | 48 => ⟨S256, .f32⟩
  | 49 => ⟨S1x256x128, .f32⟩
  | 50 => ⟨S256x128, .f32⟩
  | 51 => ⟨S1x128, .f32⟩
  | 52 => ⟨S128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S128, .f32⟩
  | 59 => ⟨S1x128, .f32⟩
  | 60 => ⟨S128, .f32⟩
  | 61 => ⟨S1x256, .f32⟩
  | 62 => ⟨S1x256, .f32⟩
  | 63 => ⟨S1x256, .f32⟩
  | 64 => ⟨S1x256, .f32⟩
  | 65 => ⟨S1x256, .f32⟩
  | 66 => ⟨S1x128, .f32⟩
  | 67 => ⟨S1x128, .f32⟩
  | 68 => ⟨S1x128, .f32⟩
  | 69 => ⟨S1x128, .f32⟩
  | 70 => ⟨S1x128, .f32⟩
  | 71 => ⟨S50000x128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S1x128x256, .f32⟩
  | 86 => ⟨S128x256, .f32⟩
  | 87 => ⟨S1x256, .f32⟩
  | 88 => ⟨S256, .f32⟩
  | 89 => ⟨S1x256, .f32⟩
  | 90 => ⟨S256, .f32⟩
  | 91 => ⟨S1x256, .f32⟩
  | 92 => ⟨S256, .f32⟩
  | 93 => ⟨S1x256, .f32⟩
  | 94 => ⟨S256, .f32⟩
  | 95 => ⟨S1x256, .f32⟩
  | 96 => ⟨S256, .f32⟩
  | 97 => ⟨S1x256x128, .f32⟩
  | 98 => ⟨S256x128, .f32⟩
  | 99 => ⟨S1x128, .f32⟩
  | 100 => ⟨S128, .f32⟩
  | 101 => ⟨S1x128, .f32⟩
  | 102 => ⟨S128, .f32⟩
  | 103 => ⟨S1x128, .f32⟩
  | 104 => ⟨S128, .f32⟩
  | 105 => ⟨S1x128, .f32⟩
  | 106 => ⟨S128, .f32⟩
  | 107 => ⟨S1x128, .f32⟩
  | 108 => ⟨S128, .f32⟩
  | 109 => ⟨S1x256, .f32⟩
  | 110 => ⟨S1x256, .f32⟩
  | 111 => ⟨S1x256, .f32⟩
  | 112 => ⟨S1x256, .f32⟩
  | 113 => ⟨S1x256, .f32⟩
  | 114 => ⟨S1x128, .f32⟩
  | 115 => ⟨S1x128, .f32⟩
  | 116 => ⟨S1x128, .f32⟩
  | 117 => ⟨S1x128, .f32⟩
  | 118 => ⟨S1x128, .f32⟩
  | 119 => ⟨S50000x128, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000x128, .f32⟩
  | 1 => ⟨S_, .f32⟩
  | 2 => ⟨S50000x128, .f32⟩
  | 3 => ⟨S800000x1, .i32⟩
  | 4 => ⟨S50000x128, .f32⟩
  | 5 => ⟨S1x128x256, .f32⟩
  | 6 => ⟨S128x256, .f32⟩
  | 7 => ⟨S1x256, .f32⟩
  | 8 => ⟨S256, .f32⟩
  | 9 => ⟨S1x256, .f32⟩
  | 10 => ⟨S256, .f32⟩
  | 11 => ⟨S1x256, .f32⟩
  | 12 => ⟨S256, .f32⟩
  | 13 => ⟨S1x256, .f32⟩
  | 14 => ⟨S256, .f32⟩
  | 15 => ⟨S1x256, .f32⟩
  | 16 => ⟨S256, .f32⟩
  | 17 => ⟨S1x256x128, .f32⟩
  | 18 => ⟨S256x128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1x256, .f32⟩
  | 30 => ⟨S1x256, .f32⟩
  | 31 => ⟨S1x256, .f32⟩
  | 32 => ⟨S1x256, .f32⟩
  | 33 => ⟨S1x256, .f32⟩
  | 34 => ⟨S1x128, .f32⟩
  | 35 => ⟨S1x128, .f32⟩
  | 36 => ⟨S1x128, .f32⟩
  | 37 => ⟨S1x128, .f32⟩
  | 38 => ⟨S1x128, .f32⟩
  | 39 => ⟨S50000x128, .f32⟩
  | 40 => ⟨S_, .f32⟩
  | 41 => ⟨S64x128, .f32⟩
  | 42 => ⟨S50000x1, .i32⟩
  | 43 => ⟨S64x128, .f32⟩
  | 44 => ⟨S1x128, .f32⟩
  | 45 => ⟨S1x10, .f32⟩
  | 46 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S256x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S256x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x256, .f32⟩
  | .local _ .vmem, ⟨47, _⟩ => ⟨S1x256, .f32⟩
  | .local _ .vmem, ⟨48, _⟩ => ⟨S1x256, .f32⟩
  | .local _ .vmem, ⟨49, _⟩ => ⟨S1x256, .f32⟩
  | .local _ .vmem, ⟨50, _⟩ => ⟨S1x256, .f32⟩
  | .local _ .vmem, ⟨51, _⟩ => ⟨S1x256, .f32⟩
  | .local _ .vmem, ⟨52, _⟩ => ⟨S256x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S64x128, .f32⟩
  | .local _ .vmem, ⟨61, _⟩ => ⟨S128x128, .f32⟩
  | .local _ .vmem, ⟨62, _⟩ => ⟨S1x128, .f32⟩
  | .local _ .vmem, ⟨63, _⟩ => ⟨S128x10, .f32⟩
  | .local _ .vmem, ⟨64, _⟩ => ⟨S1x10, .f32⟩
  | .local _ .vmem, ⟨65, _⟩ => ⟨S64x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_c : Ref sig .tc := ⟨.hbm, 24, rfl⟩
abbrev main_v2 : Ref sig .tc := ⟨.hbm, 25, rfl⟩
abbrev main_v3 : Ref sig .tc := ⟨.hbm, 26, rfl⟩
abbrev main_c_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_1 : Ref sig .tc := ⟨.hbm, 72, rfl⟩
abbrev main_v47 : Ref sig .tc := ⟨.hbm, 73, rfl⟩
abbrev main_v48 : Ref sig .tc := ⟨.hbm, 74, rfl⟩
abbrev main_c_2 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_3 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_c_4 : Ref sig .tc := ⟨.hbm, 120, rfl⟩
abbrev main_v92 : Ref sig .tc := ⟨.hbm, 121, rfl⟩
abbrev main_v93 : Ref sig .tc := ⟨.hbm, 122, rfl⟩
abbrev main_c_5 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_6 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_cst_7 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg13_0 : Ref sig .tc := ⟨.vmem, 21, rfl⟩
abbrev cc1_stg14_0 : Ref sig .tc := ⟨.vmem, 22, rfl⟩
abbrev cc1_stg14_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg11_0 : Ref sig .tc := ⟨.vmem, 37, rfl⟩
abbrev cc2_stg12_0 : Ref sig .tc := ⟨.vmem, 38, rfl⟩
abbrev cc2_stg13_0 : Ref sig .tc := ⟨.vmem, 39, rfl⟩
abbrev cc2_stg14_0 : Ref sig .tc := ⟨.vmem, 40, rfl⟩
abbrev cc2_stg14_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg7_0 : Ref sig .tc := ⟨.vmem, 51, rfl⟩
abbrev cc3_stg8_0 : Ref sig .tc := ⟨.vmem, 52, rfl⟩
abbrev cc3_stg9_0 : Ref sig .tc := ⟨.vmem, 53, rfl⟩
abbrev cc3_stg10_0 : Ref sig .tc := ⟨.vmem, 54, rfl⟩
abbrev cc3_stg11_0 : Ref sig .tc := ⟨.vmem, 55, rfl⟩
abbrev cc3_stg12_0 : Ref sig .tc := ⟨.vmem, 56, rfl⟩
abbrev cc3_stg13_0 : Ref sig .tc := ⟨.vmem, 57, rfl⟩
abbrev cc3_stg14_0 : Ref sig .tc := ⟨.vmem, 58, rfl⟩
abbrev cc3_stg14_1 : Ref sig .tc := ⟨.vmem, 59, rfl⟩
abbrev cc4_stg0_0 : Ref sig .tc := ⟨.vmem, 60, rfl⟩
abbrev cc4_stg1_0 : Ref sig .tc := ⟨.vmem, 61, rfl⟩
abbrev cc4_stg2_0 : Ref sig .tc := ⟨.vmem, 62, rfl⟩
abbrev cc4_stg3_0 : Ref sig .tc := ⟨.vmem, 63, rfl⟩
abbrev cc4_stg4_0 : Ref sig .tc := ⟨.vmem, 64, rfl⟩
abbrev cc4_stg5_0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem14_0 : DmaSem sig := 22
abbrev cc1_sem14_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem11_0 : DmaSem sig := 37
abbrev cc2_sem12_0 : DmaSem sig := 38
abbrev cc2_sem13_0 : DmaSem sig := 39
abbrev cc2_sem14_0 : DmaSem sig := 40
abbrev cc2_sem14_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem7_0 : DmaSem sig := 51
abbrev cc3_sem8_0 : DmaSem sig := 52
abbrev cc3_sem9_0 : DmaSem sig := 53
abbrev cc3_sem10_0 : DmaSem sig := 54
abbrev cc3_sem11_0 : DmaSem sig := 55
abbrev cc3_sem12_0 : DmaSem sig := 56
abbrev cc3_sem13_0 : DmaSem sig := 57
abbrev cc3_sem14_0 : DmaSem sig := 58
abbrev cc3_sem14_1 : DmaSem sig := 59
abbrev cc4_sem0_0 : DmaSem sig := 60
abbrev cc4_sem1_0 : DmaSem sig := 61
abbrev cc4_sem2_0 : DmaSem sig := 62
abbrev cc4_sem3_0 : DmaSem sig := 63
abbrev cc4_sem4_0 : DmaSem sig := 64
abbrev cc4_sem5_0 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S5000x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S5000x128 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S5000x128 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  shapeCasts_S256_S1x256 : S256.ShapeCasts S1x256
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S3x128_S1x128_1_0 : S3x128.Slices ![1, 0] S1x128
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  slices_S3x128_S1x128_2_0 : S3x128.Slices ![2, 0] S1x128
  bcast_S_S64x128 : S_.BroadcastsInDim S64x128 (![] : Fin 0 → Fin S64x128.rank)
  bcast_S50000_S50000x1_0 : S50000.BroadcastsInDim S50000x1 (![0] : Fin 1 → Fin S50000x1.rank)
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S64x128 : S1x128.Broadcasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  scatter_S64x128_S50000x1_S50000x128_1_0_0_1_wf : ScatterDims.WF S64x128 S50000x1 S50000x128 [1] [0] [0] 1
  dot_S64x128_S128x128_S64x128_1_0_0_1_n_n_wf : DotDims.WF S64x128 S128x128 S64x128 [1] [0] [0] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x128.size a ≤ S256x128.size a
  hwx1_8 : ∀ i : grid1.Coords, EltTy.bits .f32 = 32 ∨ (Rect.block (s := S256x128) S256x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x128.size a ≤ S1x128.size a
  hwx1_13 : ∀ i : grid1.Coords, EltTy.bits .f32 = 32 ∨ (Rect.block (s := S1x128) S1x128.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S5000x128.size a ≤ S50000x128.size a
  hwx1_14 : ∀ i : grid1.Coords, EltTy.bits .f32 = 32 ∨ (Rect.block (s := S50000x128) S5000x128.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x128.size a ≤ S256x128.size a
  hwx2_8 : ∀ i : grid2.Coords, EltTy.bits .f32 = 32 ∨ (Rect.block (s := S256x128) S256x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x128.size a ≤ S1x128.size a
  hwx2_13 : ∀ i : grid2.Coords, EltTy.bits .f32 = 32 ∨ (Rect.block (s := S1x128) S1x128.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S5000x128.size a ≤ S50000x128.size a
  hwx2_14 : ∀ i : grid2.Coords, EltTy.bits .f32 = 32 ∨ (Rect.block (s := S50000x128) S5000x128.size (cc2_transform_14 i) (hinb2_14 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x256.size a ≤ S128x256.size a
  hwx3_2 : ∀ i : grid3.Coords, EltTy.bits .f32 = 32 ∨ (Rect.block (s := S128x256) S128x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x128.size a ≤ S256x128.size a
  hwx3_8 : ∀ i : grid3.Coords, EltTy.bits .f32 = 32 ∨ (Rect.block (s := S256x128) S256x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x128.size a ≤ S1x128.size a
  hwx3_11 : ∀ i : grid3.Coords, EltTy.bits .f32 = 32 ∨ (Rect.block (s := S1x128) S1x128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x128.size a ≤ S1x128.size a
  hwx3_12 : ∀ i : grid3.Coords, EltTy.bits .f32 = 32 ∨ (Rect.block (s := S1x128) S1x128.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x128.size a ≤ S1x128.size a
  hwx3_13 : ∀ i : grid3.Coords, EltTy.bits .f32 = 32 ∨ (Rect.block (s := S1x128) S1x128.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S5000x128.size a ≤ S50000x128.size a
  hwx3_14 : ∀ i : grid3.Coords, EltTy.bits .f32 = 32 ∨ (Rect.block (s := S50000x128) S5000x128.size (cc3_transform_14 i) (hinb3_14 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x10.size a ≤ S128x10.size a
  hwx4_3 : ∀ i : grid4.Coords, EltTy.bits .f32 = 32 ∨ (Rect.block (s := S128x10) S128x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x10.size a ≤ S1x10.size a
  hwx4_4 : ∀ i : grid4.Coords, EltTy.bits .f32 = 32 ∨ (Rect.block (s := S1x10) S1x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x10.size a ≤ S64x10.size a
  hwx4_5 : ∀ i : grid4.Coords, EltTy.bits .f32 = 32 ∨ (Rect.block (s := S64x10) S64x10.size (cc4_transform_5 i) (hinb4_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v25) S256x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v41) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v42) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v43) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v44) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v45) S1x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v46) S5000x128.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v81) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v82) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v83) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v84) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v85) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v70) S256x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v86) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v87) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v88) S1x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v89) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v90) S1x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v91) S5000x128.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

abbrev win3_0 : Pipeline.Window sig grid3 :=
  Pipeline.Window.ofSpec (Memref.whole main_v91) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v101) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v103) S128x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v126) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v127) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v128) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v129) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v130) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v115) S256x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v131) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v132) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v133) S1x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v134) S1x128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v135) S1x128.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v136) S5000x128.size cc3_transform_14 reads3_14 true false 2 stage3_14 sem3_14
    hrank3 hreads3_14 hinb3_14 nbuf3_14 (Memref.isWhole_whole _) hwx3_14 hstage3_14

abbrev win3 : Fin 15 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | ⟨_ + 15, h⟩ => absurd h (Nat.not_lt.2 (Nat.le_add_left _ _))
abbrev spec3 : Fin 15 → Pipeline.WinSpec sig grid3.rank := fun w => (win3 w).toWinSpec

abbrev win4_0 : Pipeline.Window sig grid4 :=
  Pipeline.Window.ofSpec (Memref.whole main_v139) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg18) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v140) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg20) S128x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v141) S1x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v142) S64x10.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S3x128x256 : Shape := ⟨3, ![3, 128, 256]⟩
abbrev S3x256 : Shape := ⟨2, ![3, 256]⟩
abbrev S3x256x128 : Shape := ⟨3, ![3, 256, 128]⟩
abbrev S3x128 : Shape := ⟨2, ![3, 128]⟩
abbrev S128x10 : Shape := ⟨2, ![128, 10]⟩
abbrev S10 : Shape := ⟨1, ![10]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S1x128x256 : Shape := ⟨3, ![1, 128, 256]⟩
abbrev S128x256 : Shape := ⟨2, ![128, 256]⟩
abbrev S50000x256 : Shape := ⟨2, ![50000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S64x128 : Shape := ⟨2, ![64, 128]⟩
abbrev S50000x1 : Shape := ⟨2, ![50000, 1]⟩
abbrev S64x10 : Shape := ⟨2, ![64, 10]⟩
abbrev S1x10 : Shape := ⟨2, ![1, 10]⟩

abbrev nBuf : Space → Nat
  | .hbm => 293
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S50000, .i32⟩
  | 4 => ⟨S128x128, .f32⟩
  | 5 => ⟨S128, .f32⟩
  | 6 => ⟨S3x128x256, .f32⟩
  | 7 => ⟨S3x256, .f32⟩
  | 8 => ⟨S3x256, .f32⟩
  | 9 => ⟨S3x256, .f32⟩
  | 10 => ⟨S3x256, .f32⟩
  | 11 => ⟨S3x256, .f32⟩
  | 12 => ⟨S3x256x128, .f32⟩
  | 13 => ⟨S3x128, .f32⟩
  | 14 => ⟨S3x128, .f32⟩
  | 15 => ⟨S3x128, .f32⟩
  | 16 => ⟨S3x128, .f32⟩
  | 17 => ⟨S3x128, .f32⟩
  | 18 => ⟨S128x128, .f32⟩
  | 19 => ⟨S128, .f32⟩
  | 20 => ⟨S128x10, .f32⟩
  | 21 => ⟨S10, .f32⟩
  | 22 => ⟨S50000x128, .f32⟩
  | 23 => ⟨S1x128, .f32⟩
  | 24 => ⟨S50000x128, .f32⟩
  | 25 => ⟨S50000x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S50000x128, .f32⟩
  | 40 => ⟨S1x128x256, .f32⟩
  | 41 => ⟨S128x256, .f32⟩
  | 42 => ⟨S50000x256, .f32⟩
  | 43 => ⟨S1x256, .f32⟩
  | 44 => ⟨S256, .f32⟩
  | 45 => ⟨S1x256, .f32⟩
  | 46 => ⟨S50000x256, .f32⟩
  | 47 => ⟨S50000x256, .f32⟩
  | 48 => ⟨S1x256, .f32⟩
  | 49 => ⟨S256, .f32⟩
  | 50 => ⟨S1x256, .f32⟩
  | 51 => ⟨S256, .f32⟩
  | 52 => ⟨S1x256, .f32⟩
  | 53 => ⟨S256, .f32⟩
  | 54 => ⟨S1x256, .f32⟩
  | 55 => ⟨S256, .f32⟩
  | 56 => ⟨S1x256, .f32⟩
  | 57 => ⟨S50000x256, .f32⟩
  | 58 => ⟨S50000x256, .f32⟩
  | 59 => ⟨S_, .f32⟩
  | 60 => ⟨S256, .f32⟩
  | 61 => ⟨S256, .f32⟩
  | 62 => ⟨S256, .f32⟩
  | 63 => ⟨S1x256, .f32⟩
  | 64 => ⟨S50000x256, .f32⟩
  | 65 => ⟨S50000x256, .f32⟩
  | 66 => ⟨S1x256, .f32⟩
  | 67 => ⟨S50000x256, .f32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S1x256x128, .f32⟩
  | 76 => ⟨S256x128, .f32⟩
  | 77 => ⟨S50000x128, .f32⟩
  | 78 => ⟨S1x128, .f32⟩
  | 79 => ⟨S128, .f32⟩
  | 80 => ⟨S1x128, .f32⟩
  | 81 => ⟨S50000x128, .f32⟩
  | 82 => ⟨S50000x128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S50000x128, .f32⟩
  | 93 => ⟨S50000x128, .f32⟩
  | 94 => ⟨S_, .f32⟩
  | 95 => ⟨S128, .f32⟩
  | 96 => ⟨S128, .f32⟩
  | 97 => ⟨S128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S50000x128, .f32⟩
  | 124 => ⟨S1x128x256, .f32⟩
  | 125 => ⟨S128x256, .f32⟩
  | 126 => ⟨S50000x256, .f32⟩
  | 127 => ⟨S1x256, .f32⟩
  | _ => ⟨S50000x128, .f32⟩

abbrev hbmTy0_1 (i : Nat) : BufTy := match i % 128 with
  | 0 => ⟨S256, .f32⟩
  | 1 => ⟨S1x256, .f32⟩
  | 2 => ⟨S50000x256, .f32⟩
  | 3 => ⟨S50000x256, .f32⟩
  | 4 => ⟨S1x256, .f32⟩
  | 5 => ⟨S256, .f32⟩
  | 6 => ⟨S1x256, .f32⟩
  | 7 => ⟨S256, .f32⟩
  | 8 => ⟨S1x256, .f32⟩
  | 9 => ⟨S256, .f32⟩
  | 10 => ⟨S1x256, .f32⟩
  | 11 => ⟨S256, .f32⟩
  | 12 => ⟨S1x256, .f32⟩
  | 13 => ⟨S50000x256, .f32⟩
  | 14 => ⟨S50000x256, .f32⟩
  | 15 => ⟨S_, .f32⟩
  | 16 => ⟨S256, .f32⟩
  | 17 => ⟨S256, .f32⟩
  | 18 => ⟨S256, .f32⟩
  | 19 => ⟨S1x256, .f32⟩
  | 20 => ⟨S50000x256, .f32⟩
  | 21 => ⟨S50000x256, .f32⟩
  | 22 => ⟨S1x256, .f32⟩
  | 23 => ⟨S50000x256, .f32⟩
  | 24 => ⟨S50000x256, .f32⟩
  | 25 => ⟨S1x256, .f32⟩
  | 26 => ⟨S50000x256, .f32⟩
  | 27 => ⟨S50000x256, .f32⟩
  | 28 => ⟨S_, .f32⟩
  | 29 => ⟨S50000x256, .f32⟩
  | 30 => ⟨S50000x256, .f32⟩
  | 31 => ⟨S1x256x128, .f32⟩
  | 32 => ⟨S256x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S1x128, .f32⟩
  | 40 => ⟨S128, .f32⟩
  | 41 => ⟨S1x128, .f32⟩
  | 42 => ⟨S128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S50000x128, .f32⟩
  | 49 => ⟨S50000x128, .f32⟩
  | 50 => ⟨S_, .f32⟩
  | 51 => ⟨S128, .f32⟩
  | 52 => ⟨S128, .f32⟩
  | 53 => ⟨S128, .f32⟩
  | 54 => ⟨S1x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S50000x128, .f32⟩
  | 80 => ⟨S1x128x256, .f32⟩
  | 81 => ⟨S128x256, .f32⟩
  | 82 => ⟨S50000x256, .f32⟩
  | 83 => ⟨S1x256, .f32⟩
  | 84 => ⟨S256, .f32⟩
  | 85 => ⟨S1x256, .f32⟩
  | 86 => ⟨S50000x256, .f32⟩
  | 87 => ⟨S50000x256, .f32⟩
  | 88 => ⟨S1x256, .f32⟩
  | 89 => ⟨S256, .f32⟩
  | 90 => ⟨S1x256, .f32⟩
  | 91 => ⟨S256, .f32⟩
  | 92 => ⟨S1x256, .f32⟩
  | 93 => ⟨S256, .f32⟩
  | 94 => ⟨S1x256, .f32⟩
  | 95 => ⟨S256, .f32⟩
  | 96 => ⟨S1x256, .f32⟩
  | 97 => ⟨S50000x256, .f32⟩
  | 98 => ⟨S50000x256, .f32⟩
  | 99 => ⟨S_, .f32⟩
  | 100 => ⟨S256, .f32⟩
  | 101 => ⟨S256, .f32⟩
  | 102 => ⟨S256, .f32⟩
  | 103 => ⟨S1x256, .f32⟩
  | 104 => ⟨S50000x256, .f32⟩
  | 105 => ⟨S50000x256, .f32⟩
  | 106 => ⟨S1x256, .f32⟩
  | 107 => ⟨S50000x256, .f32⟩
  | 108 => ⟨S50000x256, .f32⟩
  | 109 => ⟨S1x256, .f32⟩
  | 110 => ⟨S50000x256, .f32⟩
  | 111 => ⟨S50000x256, .f32⟩
  | 112 => ⟨S_, .f32⟩
  | 113 => ⟨S50000x256, .f32⟩
  | 114 => ⟨S50000x256, .f32⟩
  | 115 => ⟨S1x256x128, .f32⟩
  | 116 => ⟨S256x128, .f32⟩
  | 117 => ⟨S50000x128, .f32⟩
  | 118 => ⟨S1x128, .f32⟩
  | 119 => ⟨S128, .f32⟩
  | 120 => ⟨S1x128, .f32⟩
  | 121 => ⟨S50000x128, .f32⟩
  | 122 => ⟨S50000x128, .f32⟩
  | 123 => ⟨S1x128, .f32⟩
  | 124 => ⟨S128, .f32⟩
  | 125 => ⟨S1x128, .f32⟩
  | 126 => ⟨S128, .f32⟩
  | 127 => ⟨S1x128, .f32⟩
  | _ => ⟨S50000x128, .f32⟩

abbrev hbmTy0_2 (i : Nat) : BufTy := match i % 128 with
  | 0 => ⟨S128, .f32⟩
  | 1 => ⟨S1x128, .f32⟩
  | 2 => ⟨S128, .f32⟩
  | 3 => ⟨S1x128, .f32⟩
  | 4 => ⟨S50000x128, .f32⟩
  | 5 => ⟨S50000x128, .f32⟩
  | 6 => ⟨S_, .f32⟩
  | 7 => ⟨S128, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S_, .f32⟩
  | 23 => ⟨S64x128, .f32⟩
  | 24 => ⟨S50000x1, .i32⟩
  | 25 => ⟨S64x128, .f32⟩
  | 26 => ⟨S64x128, .f32⟩
  | 27 => ⟨S1x128, .f32⟩
  | 28 => ⟨S64x128, .f32⟩
  | 29 => ⟨S64x128, .f32⟩
  | 30 => ⟨S_, .f32⟩
  | 31 => ⟨S64x128, .f32⟩
  | 32 => ⟨S64x128, .f32⟩
  | 33 => ⟨S64x10, .f32⟩
  | 34 => ⟨S1x10, .f32⟩
  | 35 => ⟨S64x10, .f32⟩
  | 36 => ⟨S64x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_1 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call0_cst : Ref sig .tc := ⟨.hbm, 72, rfl⟩
abbrev main_call0_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_2 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_call1_cst : Ref sig .tc := ⟨.hbm, 107, rfl⟩
abbrev main_call1_v0 : Ref sig .tc := ⟨.hbm, 108, rfl⟩
abbrev main_v78 : Ref sig .tc := ⟨.hbm, 109, rfl⟩
abbrev main_c_3 : Ref sig .tc := ⟨.hbm, 110, rfl⟩
abbrev main_v79 : Ref sig .tc := ⟨.hbm, 111, rfl⟩
abbrev main_v80 : Ref sig .tc := ⟨.hbm, 112, rfl⟩
abbrev main_c_4 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_5 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_6 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_call2_cst : Ref sig .tc := ⟨.hbm, 156, rfl⟩
abbrev main_call2_v0 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_7 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_call3_cst : Ref sig .tc := ⟨.hbm, 191, rfl⟩
abbrev main_call3_v0 : Ref sig .tc := ⟨.hbm, 192, rfl⟩
abbrev main_v153 : Ref sig .tc := ⟨.hbm, 193, rfl⟩
abbrev main_c_8 : Ref sig .tc := ⟨.hbm, 194, rfl⟩
abbrev main_v154 : Ref sig .tc := ⟨.hbm, 195, rfl⟩
abbrev main_v155 : Ref sig .tc := ⟨.hbm, 196, rfl⟩
abbrev main_c_9 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_cst_10 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_cst_11 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_call4_cst : Ref sig .tc := ⟨.hbm, 240, rfl⟩
abbrev main_call4_v0 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_cst_12 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_call5_cst : Ref sig .tc := ⟨.hbm, 275, rfl⟩
abbrev main_call5_v0 : Ref sig .tc := ⟨.hbm, 276, rfl⟩
abbrev main_v228 : Ref sig .tc := ⟨.hbm, 277, rfl⟩
abbrev main_cst_13 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_call6_cst : Ref sig .tc := ⟨.hbm, 286, rfl⟩
abbrev main_call6_v0 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S_S50000x256 : S_.BroadcastsInDim S50000x256 (![] : Fin 0 → Fin S50000x256.rank)
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  bcast_S_S128 : S_.BroadcastsInDim S128 (![] : Fin 0 → Fin S128.rank)
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S3x128_S1x128_1_0 : S3x128.Slices ![1, 0] S1x128
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  slices_S3x128_S1x128_2_0 : S3x128.Slices ![2, 0] S1x128
  bcast_S_S64x128 : S_.BroadcastsInDim S64x128 (![] : Fin 0 → Fin S64x128.rank)
  bcast_S50000_S50000x1_0 : S50000.BroadcastsInDim S50000x1 (![0] : Fin 1 → Fin S50000x1.rank)
  bcast_S1x128_S64x128_0_1 : S1x128.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []
  scatter_S64x128_S50000x1_S50000x128_1_0_0_1_wf : ScatterDims.WF S64x128 S50000x1 S50000x128 [1] [0] [0] 1
  dot_S64x128_S128x128_S64x128_1_0_0_1_n_n_wf : DotDims.WF S64x128 S128x128 S64x128 [1] [0] [0] [1] [] []
  dot_S64x128_S128x10_S64x10_1_0_0_1_n_n_wf : DotDims.WF S64x128 S128x10 S64x10 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.RunValue.lean ====
/-
  The idealized kernel's run with its RESULT named.  @main is ten segments: a stretch of host operations, then a
  pipelined region, five times over.  The buffer contents at each boundary are a fold from the launch memory
  (`W0`, …, `W10`): a host stretch applies its operations, a region replaces each of its windows' arrays by what its
  write-backs leave.  Every weakly fair execution terminates with EVERY unscoped buffer at the fold's last stage; the
  frame keeps of that only the argument arrays, and here the result buffer is kept as well: it ends at `W10`'s value.
-/
import proofs.«171844_j32538672234672_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last stage of the
    fold and the argument arrays as launched. -/
theorem run_result : θ_run defs (onTc (τ := τ) (main (F := F))) ⟨m, fun _ => 0, ρ⟩ (fun r => ∀ c : Dev nD,
      r.2.mem ((c.tc : Thread nD τ).loc main_v142) = W10 m ρ c (Proc.devRef .tc main_v142)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v142 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c)⟩)

end Cert.KernelIdeal.RunValue

end
-- ==== Proof.FoldArgs.lean ====
/-
  The argument arrays through the fold.  No host operation writes an argument and no region before the last has one
  among the arrays it writes back, so at every boundary up to the last region's entry an argument buffer still holds
  its launch contents: a region step keeps every buffer that is not one of its windows' arrays, a host stretch keeps
  every buffer none of its operations writes.
-/
import proofs.«171844_j32538672234672_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- A buffer that none of a host stretch's operations writes is unchanged by the stretch. -/
macro "host_keep" : tactic => `(tactic|
  exact StableHlo.after_of_forall_not_mem _ _ (List.forall_iff_forall_mem.mp (by
    simp only [hostOps0, hostOps1, hostOps2, hostOps3, hostOps4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

theorem W2_arg1 : W2 m ρ c (Proc.devRef .tc main_arg1) = m ((c : Thread nD τ).loc main_arg1) :=
  (W2_of_ne m ρ c main_arg1 (by decide)).trans
    ((show W1 m ρ c (Proc.devRef .tc main_arg1) = W0 m ρ c (Proc.devRef .tc main_arg1) by host_keep).trans rfl)
theorem W4_arg1 : W4 m ρ c (Proc.devRef .tc main_arg1) = m ((c : Thread nD τ).loc main_arg1) :=
  (W4_of_ne m ρ c main_arg1 (by decide)).trans
    ((show W3 m ρ c (Proc.devRef .tc main_arg1) = W2 m ρ c (Proc.devRef .tc main_arg1) by host_keep).trans (W2_arg1 m ρ c))
theorem W6_arg1 : W6 m ρ c (Proc.devRef .tc main_arg1) = m ((c : Thread nD τ).loc main_arg1) :=
  (W6_of_ne m ρ c main_arg1 (by decide)).trans
    ((show W5 m ρ c (Proc.devRef .tc main_arg1) = W4 m ρ c (Proc.devRef .tc main_arg1) by host_keep).trans (W4_arg1 m ρ c))
theorem W2_arg2 : W2 m ρ c (Proc.devRef .tc main_arg2) = m ((c : Thread nD τ).loc main_arg2) :=
  (W2_of_ne m ρ c main_arg2 (by decide)).trans
    ((show W1 m ρ c (Proc.devRef .tc main_arg2) = W0 m ρ c (Proc.devRef .tc main_arg2) by host_keep).trans rfl)
theorem W4_arg2 : W4 m ρ c (Proc.devRef .tc main_arg2) = m ((c : Thread nD τ).loc main_arg2) :=
  (W4_of_ne m ρ c main_arg2 (by decide)).trans
    ((show W3 m ρ c (Proc.devRef .tc main_arg2) = W2 m ρ c (Proc.devRef .tc main_arg2) by host_keep).trans (W2_arg2 m ρ c))
theorem W6_arg2 : W6 m ρ c (Proc.devRef .tc main_arg2) = m ((c : Thread nD τ).loc main_arg2) :=
  (W6_of_ne m ρ c main_arg2 (by decide)).trans
    ((show W5 m ρ c (Proc.devRef .tc main_arg2) = W4 m ρ c (Proc.devRef .tc main_arg2) by host_keep).trans (W4_arg2 m ρ c))
theorem W2_arg3 : W2 m ρ c (Proc.devRef .tc main_arg3) = m ((c : Thread nD τ).loc main_arg3) :=
  (W2_of_ne m ρ c main_arg3 (by decide)).trans
    ((show W1 m ρ c (Proc.devRef .tc main_arg3) = W0 m ρ c (Proc.devRef .tc main_arg3) by host_keep).trans rfl)
theorem W4_arg3 : W4 m ρ c (Proc.devRef .tc main_arg3) = m ((c : Thread nD τ).loc main_arg3) :=
  (W4_of_ne m ρ c main_arg3 (by decide)).trans
    ((show W3 m ρ c (Proc.devRef .tc main_arg3) = W2 m ρ c (Proc.devRef .tc main_arg3) by host_keep).trans (W2_arg3 m ρ c))
theorem W6_arg3 : W6 m ρ c (Proc.devRef .tc main_arg3) = m ((c : Thread nD τ).loc main_arg3) :=
  (W6_of_ne m ρ c main_arg3 (by decide)).trans
    ((show W5 m ρ c (Proc.devRef .tc main_arg3) = W4 m ρ c (Proc.devRef .tc main_arg3) by host_keep).trans (W4_arg3 m ρ c))
theorem W8_arg3 : W8 m ρ c (Proc.devRef .tc main_arg3) = m ((c : Thread nD τ).loc main_arg3) :=
  (W8_of_ne m ρ c main_arg3 (by decide)).trans
    ((show W7 m ρ c (Proc.devRef .tc main_arg3) = W6 m ρ c (Proc.devRef .tc main_arg3) by host_keep).trans (W6_arg3 m ρ c))
theorem W2_arg6 : W2 m ρ c (Proc.devRef .tc main_arg6) = m ((c : Thread nD τ).loc main_arg6) :=
  (W2_of_ne m ρ c main_arg6 (by decide)).trans
    ((show W1 m ρ c (Proc.devRef .tc main_arg6) = W0 m ρ c (Proc.devRef .tc main_arg6) by host_keep).trans rfl)
theorem W4_arg6 : W4 m ρ c (Proc.devRef .tc main_arg6) = m ((c : Thread nD τ).loc main_arg6) :=
  (W4_of_ne m ρ c main_arg6 (by decide)).trans
    ((show W3 m ρ c (Proc.devRef .tc main_arg6) = W2 m ρ c (Proc.devRef .tc main_arg6) by host_keep).trans (W2_arg6 m ρ c))
theorem W6_arg6 : W6 m ρ c (Proc.devRef .tc main_arg6) = m ((c : Thread nD τ).loc main_arg6) :=
  (W6_of_ne m ρ c main_arg6 (by decide)).trans
    ((show W5 m ρ c (Proc.devRef .tc main_arg6) = W4 m ρ c (Proc.devRef .tc main_arg6) by host_keep).trans (W4_arg6 m ρ c))
theorem W2_arg7 : W2 m ρ c (Proc.devRef .tc main_arg7) = m ((c : Thread nD τ).loc main_arg7) :=
  (W2_of_ne m ρ c main_arg7 (by decide)).trans
    ((show W1 m ρ c (Proc.devRef .tc main_arg7) = W0 m ρ c (Proc.devRef .tc main_arg7) by host_keep).trans rfl)
theorem W4_arg7 : W4 m ρ c (Proc.devRef .tc main_arg7) = m ((c : Thread nD τ).loc main_arg7) :=
  (W4_of_ne m ρ c main_arg7 (by decide)).trans
    ((show W3 m ρ c (Proc.devRef .tc main_arg7) = W2 m ρ c (Proc.devRef .tc main_arg7) by host_keep).trans (W2_arg7 m ρ c))
theorem W6_arg7 : W6 m ρ c (Proc.devRef .tc main_arg7) = m ((c : Thread nD τ).loc main_arg7) :=
  (W6_of_ne m ρ c main_arg7 (by decide)).trans
    ((show W5 m ρ c (Proc.devRef .tc main_arg7) = W4 m ρ c (Proc.devRef .tc main_arg7) by host_keep).trans (W4_arg7 m ρ c))
theorem W2_arg8 : W2 m ρ c (Proc.devRef .tc main_arg8) = m ((c : Thread nD τ).loc main_arg8) :=
  (W2_of_ne m ρ c main_arg8 (by decide)).trans
    ((show W1 m ρ c (Proc.devRef .tc main_arg8) = W0 m ρ c (Proc.devRef .tc main_arg8) by host_keep).trans rfl)
theorem W4_arg8 : W4 m ρ c (Proc.devRef .tc main_arg8) = m ((c : Thread nD τ).loc main_arg8) :=
  (W4_of_ne m ρ c main_arg8 (by decide)).trans
    ((show W3 m ρ c (Proc.devRef .tc main_arg8) = W2 m ρ c (Proc.devRef .tc main_arg8) by host_keep).trans (W2_arg8 m ρ c))
theorem W6_arg8 : W6 m ρ c (Proc.devRef .tc main_arg8) = m ((c : Thread nD τ).loc main_arg8) :=
  (W6_of_ne m ρ c main_arg8 (by decide)).trans
    ((show W5 m ρ c (Proc.devRef .tc main_arg8) = W4 m ρ c (Proc.devRef .tc main_arg8) by host_keep).trans (W4_arg8 m ρ c))
theorem W2_arg9 : W2 m ρ c (Proc.devRef .tc main_arg9) = m ((c : Thread nD τ).loc main_arg9) :=
  (W2_of_ne m ρ c main_arg9 (by decide)).trans
    ((show W1 m ρ c (Proc.devRef .tc main_arg9) = W0 m ρ c (Proc.devRef .tc main_arg9) by host_keep).trans rfl)
theorem W4_arg9 : W4 m ρ c (Proc.devRef .tc main_arg9) = m ((c : Thread nD τ).loc main_arg9) :=
  (W4_of_ne m ρ c main_arg9 (by decide)).trans
    ((show W3 m ρ c (Proc.devRef .tc main_arg9) = W2 m ρ c (Proc.devRef .tc main_arg9) by host_keep).trans (W2_arg9 m ρ c))
theorem W6_arg9 : W6 m ρ c (Proc.devRef .tc main_arg9) = m ((c : Thread nD τ).loc main_arg9) :=
  (W6_of_ne m ρ c main_arg9 (by decide)).trans
    ((show W5 m ρ c (Proc.devRef .tc main_arg9) = W4 m ρ c (Proc.devRef .tc main_arg9) by host_keep).trans (W4_arg9 m ρ c))
theorem W2_arg10 : W2 m ρ c (Proc.devRef .tc main_arg10) = m ((c : Thread nD τ).loc main_arg10) :=
  (W2_of_ne m ρ c main_arg10 (by decide)).trans
    ((show W1 m ρ c (Proc.devRef .tc main_arg10) = W0 m ρ c (Proc.devRef .tc main_arg10) by host_keep).trans rfl)
theorem W4_arg10 : W4 m ρ c (Proc.devRef .tc main_arg10) = m ((c : Thread nD τ).loc main_arg10) :=
  (W4_of_ne m ρ c main_arg10 (by decide)).trans
    ((show W3 m ρ c (Proc.devRef .tc main_arg10) = W2 m ρ c (Proc.devRef .tc main_arg10) by host_keep).trans (W2_arg10 m ρ c))
theorem W6_arg10 : W6 m ρ c (Proc.devRef .tc main_arg10) = m ((c : Thread nD τ).loc main_arg10) :=
  (W6_of_ne m ρ c main_arg10 (by decide)).trans
    ((show W5 m ρ c (Proc.devRef .tc main_arg10) = W4 m ρ c (Proc.devRef .tc main_arg10) by host_keep).trans (W4_arg10 m ρ c))
theorem W2_arg11 : W2 m ρ c (Proc.devRef .tc main_arg11) = m ((c : Thread nD τ).loc main_arg11) :=
  (W2_of_ne m ρ c main_arg11 (by decide)).trans
    ((show W1 m ρ c (Proc.devRef .tc main_arg11) = W0 m ρ c (Proc.devRef .tc main_arg11) by host_keep).trans rfl)
theorem W4_arg11 : W4 m ρ c (Proc.devRef .tc main_arg11) = m ((c : Thread nD τ).loc main_arg11) :=
  (W4_of_ne m ρ c main_arg11 (by decide)).trans
    ((show W3 m ρ c (Proc.devRef .tc main_arg11) = W2 m ρ c (Proc.devRef .tc main_arg11) by host_keep).trans (W2_arg11 m ρ c))
theorem W6_arg11 : W6 m ρ c (Proc.devRef .tc main_arg11) = m ((c : Thread nD τ).loc main_arg11) :=
  (W6_of_ne m ρ c main_arg11 (by decide)).trans
    ((show W5 m ρ c (Proc.devRef .tc main_arg11) = W4 m ρ c (Proc.devRef .tc main_arg11) by host_keep).trans (W4_arg11 m ρ c))
theorem W2_arg12 : W2 m ρ c (Proc.devRef .tc main_arg12) = m ((c : Thread nD τ).loc main_arg12) :=
  (W2_of_ne m ρ c main_arg12 (by decide)).trans
    ((show W1 m ρ c (Proc.devRef .tc main_arg12) = W0 m ρ c (Proc.devRef .tc main_arg12) by host_keep).trans rfl)
theorem W4_arg12 : W4 m ρ c (Proc.devRef .tc main_arg12) = m ((c : Thread nD τ).loc main_arg12) :=
  (W4_of_ne m ρ c main_arg12 (by decide)).trans
    ((show W3 m ρ c (Proc.devRef .tc main_arg12) = W2 m ρ c (Proc.devRef .tc main_arg12) by host_keep).trans (W2_arg12 m ρ c))
theorem W6_arg12 : W6 m ρ c (Proc.devRef .tc main_arg12) = m ((c : Thread nD τ).loc main_arg12) :=
  (W6_of_ne m ρ c main_arg12 (by decide)).trans
    ((show W5 m ρ c (Proc.devRef .tc main_arg12) = W4 m ρ c (Proc.devRef .tc main_arg12) by host_keep).trans (W4_arg12 m ρ c))
theorem W2_arg13 : W2 m ρ c (Proc.devRef .tc main_arg13) = m ((c : Thread nD τ).loc main_arg13) :=
  (W2_of_ne m ρ c main_arg13 (by decide)).trans
    ((show W1 m ρ c (Proc.devRef .tc main_arg13) = W0 m ρ c (Proc.devRef .tc main_arg13) by host_keep).trans rfl)
theorem W4_arg13 : W4 m ρ c (Proc.devRef .tc main_arg13) = m ((c : Thread nD τ).loc main_arg13) :=
  (W4_of_ne m ρ c main_arg13 (by decide)).trans
    ((show W3 m ρ c (Proc.devRef .tc main_arg13) = W2 m ρ c (Proc.devRef .tc main_arg13) by host_keep).trans (W2_arg13 m ρ c))
theorem W6_arg13 : W6 m ρ c (Proc.devRef .tc main_arg13) = m ((c : Thread nD τ).loc main_arg13) :=
  (W6_of_ne m ρ c main_arg13 (by decide)).trans
    ((show W5 m ρ c (Proc.devRef .tc main_arg13) = W4 m ρ c (Proc.devRef .tc main_arg13) by host_keep).trans (W4_arg13 m ρ c))
theorem W2_arg14 : W2 m ρ c (Proc.devRef .tc main_arg14) = m ((c : Thread nD τ).loc main_arg14) :=
  (W2_of_ne m ρ c main_arg14 (by decide)).trans
    ((show W1 m ρ c (Proc.devRef .tc main_arg14) = W0 m ρ c (Proc.devRef .tc main_arg14) by host_keep).trans rfl)
theorem W4_arg14 : W4 m ρ c (Proc.devRef .tc main_arg14) = m ((c : Thread nD τ).loc main_arg14) :=
  (W4_of_ne m ρ c main_arg14 (by decide)).trans
    ((show W3 m ρ c (Proc.devRef .tc main_arg14) = W2 m ρ c (Proc.devRef .tc main_arg14) by host_keep).trans (W2_arg14 m ρ c))
theorem W6_arg14 : W6 m ρ c (Proc.devRef .tc main_arg14) = m ((c : Thread nD τ).loc main_arg14) :=
  (W6_of_ne m ρ c main_arg14 (by decide)).trans
    ((show W5 m ρ c (Proc.devRef .tc main_arg14) = W4 m ρ c (Proc.devRef .tc main_arg14) by host_keep).trans (W4_arg14 m ρ c))
theorem W2_arg15 : W2 m ρ c (Proc.devRef .tc main_arg15) = m ((c : Thread nD τ).loc main_arg15) :=
  (W2_of_ne m ρ c main_arg15 (by decide)).trans
    ((show W1 m ρ c (Proc.devRef .tc main_arg15) = W0 m ρ c (Proc.devRef .tc main_arg15) by host_keep).trans rfl)
theorem W4_arg15 : W4 m ρ c (Proc.devRef .tc main_arg15) = m ((c : Thread nD τ).loc main_arg15) :=
  (W4_of_ne m ρ c main_arg15 (by decide)).trans
    ((show W3 m ρ c (Proc.devRef .tc main_arg15) = W2 m ρ c (Proc.devRef .tc main_arg15) by host_keep).trans (W2_arg15 m ρ c))
theorem W6_arg15 : W6 m ρ c (Proc.devRef .tc main_arg15) = m ((c : Thread nD τ).loc main_arg15) :=
  (W6_of_ne m ρ c main_arg15 (by decide)).trans
    ((show W5 m ρ c (Proc.devRef .tc main_arg15) = W4 m ρ c (Proc.devRef .tc main_arg15) by host_keep).trans (W4_arg15 m ρ c))
theorem W2_arg16 : W2 m ρ c (Proc.devRef .tc main_arg16) = m ((c : Thread nD τ).loc main_arg16) :=
  (W2_of_ne m ρ c main_arg16 (by decide)).trans
    ((show W1 m ρ c (Proc.devRef .tc main_arg16) = W0 m ρ c (Proc.devRef .tc main_arg16) by host_keep).trans rfl)
theorem W4_arg16 : W4 m ρ c (Proc.devRef .tc main_arg16) = m ((c : Thread nD τ).loc main_arg16) :=
  (W4_of_ne m ρ c main_arg16 (by decide)).trans
    ((show W3 m ρ c (Proc.devRef .tc main_arg16) = W2 m ρ c (Proc.devRef .tc main_arg16) by host_keep).trans (W2_arg16 m ρ c))
theorem W6_arg16 : W6 m ρ c (Proc.devRef .tc main_arg16) = m ((c : Thread nD τ).loc main_arg16) :=
  (W6_of_ne m ρ c main_arg16 (by decide)).trans
    ((show W5 m ρ c (Proc.devRef .tc main_arg16) = W4 m ρ c (Proc.devRef .tc main_arg16) by host_keep).trans (W4_arg16 m ρ c))
theorem W2_arg17 : W2 m ρ c (Proc.devRef .tc main_arg17) = m ((c : Thread nD τ).loc main_arg17) :=
  (W2_of_ne m ρ c main_arg17 (by decide)).trans
    ((show W1 m ρ c (Proc.devRef .tc main_arg17) = W0 m ρ c (Proc.devRef .tc main_arg17) by host_keep).trans rfl)
theorem W4_arg17 : W4 m ρ c (Proc.devRef .tc main_arg17) = m ((c : Thread nD τ).loc main_arg17) :=
  (W4_of_ne m ρ c main_arg17 (by decide)).trans
    ((show W3 m ρ c (Proc.devRef .tc main_arg17) = W2 m ρ c (Proc.devRef .tc main_arg17) by host_keep).trans (W2_arg17 m ρ c))
theorem W6_arg17 : W6 m ρ c (Proc.devRef .tc main_arg17) = m ((c : Thread nD τ).loc main_arg17) :=
  (W6_of_ne m ρ c main_arg17 (by decide)).trans
    ((show W5 m ρ c (Proc.devRef .tc main_arg17) = W4 m ρ c (Proc.devRef .tc main_arg17) by host_keep).trans (W4_arg17 m ρ c))
theorem W2_arg18 : W2 m ρ c (Proc.devRef .tc main_arg18) = m ((c : Thread nD τ).loc main_arg18) :=
  (W2_of_ne m ρ c main_arg18 (by decide)).trans
    ((show W1 m ρ c (Proc.devRef .tc main_arg18) = W0 m ρ c (Proc.devRef .tc main_arg18) by host_keep).trans rfl)
theorem W4_arg18 : W4 m ρ c (Proc.devRef .tc main_arg18) = m ((c : Thread nD τ).loc main_arg18) :=
  (W4_of_ne m ρ c main_arg18 (by decide)).trans
    ((show W3 m ρ c (Proc.devRef .tc main_arg18) = W2 m ρ c (Proc.devRef .tc main_arg18) by host_keep).trans (W2_arg18 m ρ c))
theorem W6_arg18 : W6 m ρ c (Proc.devRef .tc main_arg18) = m ((c : Thread nD τ).loc main_arg18) :=
  (W6_of_ne m ρ c main_arg18 (by decide)).trans
    ((show W5 m ρ c (Proc.devRef .tc main_arg18) = W4 m ρ c (Proc.devRef .tc main_arg18) by host_keep).trans (W4_arg18 m ρ c))
theorem W8_arg18 : W8 m ρ c (Proc.devRef .tc main_arg18) = m ((c : Thread nD τ).loc main_arg18) :=
  (W8_of_ne m ρ c main_arg18 (by decide)).trans
    ((show W7 m ρ c (Proc.devRef .tc main_arg18) = W6 m ρ c (Proc.devRef .tc main_arg18) by host_keep).trans (W6_arg18 m ρ c))
theorem W2_arg19 : W2 m ρ c (Proc.devRef .tc main_arg19) = m ((c : Thread nD τ).loc main_arg19) :=
  (W2_of_ne m ρ c main_arg19 (by decide)).trans
    ((show W1 m ρ c (Proc.devRef .tc main_arg19) = W0 m ρ c (Proc.devRef .tc main_arg19) by host_keep).trans rfl)
theorem W4_arg19 : W4 m ρ c (Proc.devRef .tc main_arg19) = m ((c : Thread nD τ).loc main_arg19) :=
  (W4_of_ne m ρ c main_arg19 (by decide)).trans
    ((show W3 m ρ c (Proc.devRef .tc main_arg19) = W2 m ρ c (Proc.devRef .tc main_arg19) by host_keep).trans (W2_arg19 m ρ c))
theorem W6_arg19 : W6 m ρ c (Proc.devRef .tc main_arg19) = m ((c : Thread nD τ).loc main_arg19) :=
  (W6_of_ne m ρ c main_arg19 (by decide)).trans
    ((show W5 m ρ c (Proc.devRef .tc main_arg19) = W4 m ρ c (Proc.devRef .tc main_arg19) by host_keep).trans (W4_arg19 m ρ c))
theorem W8_arg19 : W8 m ρ c (Proc.devRef .tc main_arg19) = m ((c : Thread nD τ).loc main_arg19) :=
  (W8_of_ne m ρ c main_arg19 (by decide)).trans
    ((show W7 m ρ c (Proc.devRef .tc main_arg19) = W6 m ρ c (Proc.devRef .tc main_arg19) by host_keep).trans (W6_arg19 m ρ c))
theorem W2_arg20 : W2 m ρ c (Proc.devRef .tc main_arg20) = m ((c : Thread nD τ).loc main_arg20) :=
  (W2_of_ne m ρ c main_arg20 (by decide)).trans
    ((show W1 m ρ c (Proc.devRef .tc main_arg20) = W0 m ρ c (Proc.devRef .tc main_arg20) by host_keep).trans rfl)
theorem W4_arg20 : W4 m ρ c (Proc.devRef .tc main_arg20) = m ((c : Thread nD τ).loc main_arg20) :=
  (W4_of_ne m ρ c main_arg20 (by decide)).trans
    ((show W3 m ρ c (Proc.devRef .tc main_arg20) = W2 m ρ c (Proc.devRef .tc main_arg20) by host_keep).trans (W2_arg20 m ρ c))
theorem W6_arg20 : W6 m ρ c (Proc.devRef .tc main_arg20) = m ((c : Thread nD τ).loc main_arg20) :=
  (W6_of_ne m ρ c main_arg20 (by decide)).trans
    ((show W5 m ρ c (Proc.devRef .tc main_arg20) = W4 m ρ c (Proc.devRef .tc main_arg20) by host_keep).trans (W4_arg20 m ρ c))
theorem W8_arg20 : W8 m ρ c (Proc.devRef .tc main_arg20) = m ((c : Thread nD τ).loc main_arg20) :=
  (W8_of_ne m ρ c main_arg20 (by decide)).trans
    ((show W7 m ρ c (Proc.devRef .tc main_arg20) = W6 m ρ c (Proc.devRef .tc main_arg20) by host_keep).trans (W6_arg20 m ρ c))
theorem W2_arg21 : W2 m ρ c (Proc.devRef .tc main_arg21) = m ((c : Thread nD τ).loc main_arg21) :=
  (W2_of_ne m ρ c main_arg21 (by decide)).trans
    ((show W1 m ρ c (Proc.devRef .tc main_arg21) = W0 m ρ c (Proc.devRef .tc main_arg21) by host_keep).trans rfl)
theorem W4_arg21 : W4 m ρ c (Proc.devRef .tc main_arg21) = m ((c : Thread nD τ).loc main_arg21) :=
  (W4_of_ne m ρ c main_arg21 (by decide)).trans
    ((show W3 m ρ c (Proc.devRef .tc main_arg21) = W2 m ρ c (Proc.devRef .tc main_arg21) by host_keep).trans (W2_arg21 m ρ c))
theorem W6_arg21 : W6 m ρ c (Proc.devRef .tc main_arg21) = m ((c : Thread nD τ).loc main_arg21) :=
  (W6_of_ne m ρ c main_arg21 (by decide)).trans
    ((show W5 m ρ c (Proc.devRef .tc main_arg21) = W4 m ρ c (Proc.devRef .tc main_arg21) by host_keep).trans (W4_arg21 m ρ c))
theorem W8_arg21 : W8 m ρ c (Proc.devRef .tc main_arg21) = m ((c : Thread nD τ).loc main_arg21) :=
  (W8_of_ne m ρ c main_arg21 (by decide)).trans
    ((show W7 m ρ c (Proc.devRef .tc main_arg21) = W6 m ρ c (Proc.devRef .tc main_arg21) by host_keep).trans (W6_arg21 m ρ c))

end Cert.KernelIdeal.Fold

end
-- ==== Proof.Spec.lean ====
/-
  The mathematics both programs compute, as functions of the argument arrays read index by index over the extended
  reals.  A graph network on 50000 nodes with 128 features: a linear embedding; three rounds, each adding to every node
  the sum of its in-neighbours' rows and passing the sum through two affine maps, each followed by a batch normalisation
  with stored statistics and a clamp at zero; a per-graph sum of rows; and a two-layer readout.  The neighbour sums and
  the per-graph sums are the same indexed additions in both programs and are never opened; what is stated here is what
  lies between them.
    affine x W b (r, q)  =  (sum over k of x[r,k] * W[k,q]) + b[q]
    norm z g bt mu var   =  (z - mu) * (var + eps)^(-1/2) * g + bt
    clamp z              =  max z 0
  No law of the extended reals beyond reading a sum term by term is used: both programs apply these operations in this
  order, so nothing here needs the inputs to be finite.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with literal extents. -/
abbrev Mat (a b : Nat) : Type := (⟨2, ![a, b]⟩ : Shape).Idx → EReal
/-- A vector of extended reals with a literal extent. -/
abbrev Row (a : Nat) : Type := (⟨1, ![a]⟩ : Shape).Idx → EReal

/-- The stabiliser under the square root: the one binary32 word both programs carry (about 1e-5), never evaluated. -/
abbrev eps : EReal := Ideal.ofBits .f32 0x3727C5AC#32
/-- The clamp's floor: the zero word. -/
abbrev floor0 : EReal := Ideal.ofBits .f32 0x00000000#32

/-- A one-row matrix read as a vector. -/
def row {n : Nat} (v : Mat 1 n) : Row n := fun j => v (ix2 0 (j 0))

theorem row_apply {n : Nat} (v : Mat 1 n) (q : Fin n) : row v (ix1 q) = v (ix2 0 q) := rfl

/-- Round `l`'s matrix out of a stack of three. -/
def slab {a b : Nat} (l : Fin 3) (W : (⟨3, ![3, a, b]⟩ : Shape).Idx → EReal) : Mat a b := fun i => W (ix3 l (i 0) (i 1))
/-- Round `l`'s vector out of a stack of three. -/
def rowOf {n : Nat} (l : Fin 3) (v : Mat 3 n) : Row n := fun j => v (ix2 l (j 0))

theorem slab_apply {a b : Nat} (l : Fin 3) (W : (⟨3, ![3, a, b]⟩ : Shape).Idx → EReal) (p : Fin a) (q : Fin b) :
    slab l W (ix2 p q) = W (ix3 l p q) := rfl
theorem rowOf_apply {n : Nat} (l : Fin 3) (v : Mat 3 n) (q : Fin n) : rowOf l v (ix1 q) = v (ix2 l q) := rfl

/-- One entry of `x · W + b`. -/
def affine {R K C : Nat} (x : Mat R K) (W : Mat K C) (b : Row C) (r : Fin R) (q : Fin C) : EReal :=
  (∑ k : Fin K, x (ix2 r k) * W (ix2 k q)) + b (ix1 q)

/-- Batch normalisation with stored mean `mu`, variance `var`, scale `g` and shift `bt`, in the order both programs
    apply it. -/
def norm (z g bt mu var : EReal) : EReal := (z - mu) * Ideal.rsqrt (var + eps) * g + bt

/-- The clamp at zero. -/
def clamp (z : EReal) : EReal := max z floor0

/-- The embedding: `x · We + be`. -/
def embedG (x : Mat 50000 128) (We : Mat 128 128) (be : Row 128) : Mat 50000 128 :=
  fun i => affine x We be (i 0) (i 1)

/-- A round's hidden activation at node `r`, channel `q`: the first affine map of `h + agg`, normalised and clamped. -/
def hidden (h agg : Mat 50000 128) (W1 : Mat 128 256) (b1 g1 bt1 m1 v1 : Row 256) (r : Fin 50000) (q : Fin 256) : EReal :=
  clamp (norm (affine (fun j => h j + agg j) W1 b1 r q) (g1 (ix1 q)) (bt1 (ix1 q)) (m1 (ix1 q)) (v1 (ix1 q)))

/-- One round: the second affine map of the hidden activations, normalised and clamped. -/
def layerG (h agg : Mat 50000 128) (W1 : Mat 128 256) (b1 g1 bt1 m1 v1 : Row 256)
    (W2 : Mat 256 128) (b2 g2 bt2 m2 v2 : Row 128) : Mat 50000 128 :=
  fun i => clamp (norm ((∑ q : Fin 256, hidden h agg W1 b1 g1 bt1 m1 v1 (i 0) q * W2 (ix2 q (i 1))) + b2 (ix1 (i 1)))
    (g2 (ix1 (i 1))) (bt2 (ix1 (i 1))) (m2 (ix1 (i 1))) (v2 (ix1 (i 1))))

/-- The readout of the per-graph sums `p`: an affine map, the clamp, a second affine map. -/
def readoutG (p : Mat 64 128) (Wr1 : Mat 128 128) (br1 : Row 128) (Wr2 : Mat 128 10) (br2 : Row 10) : Mat 64 10 :=
  fun i => (∑ q : Fin 128, clamp (affine p Wr1 br1 (i 0) q) * Wr2 (ix2 q (i 1))) + br2 (ix1 (i 1))

end Cert.Spec

end
-- ==== Proof.HostGlue.lean ====
/-
  Reading the host side's parameter plumbing.  Between the pipelined regions the program cuts each round's weights
  and statistics out of stacks of three and reshapes vectors into one-row matrices, which is how the kernels receive
  them.  Index by index these are the identity on the data: a one-row matrix read back as a vector is the vector, and
  the slice at offset `l` of a stack, its unit axis dropped, is the stack at `(l, ·)`.
-/
import proofs.«171844_j32538672234672_1_alg».proof.Proof.Spec
import Idealize.ShloMosaic.Lib.Pipeline.Value
import Idealize.ShloMosaic.Lib.ValueLayout

noncomputable section

namespace Cert.Glue

open Idealize.ShloMosaic Idealize.ShloMosaic.ValueIdx Cert.Spec

/-! ## Rows and slabs out of the host side's casts and slices

The host side hands each kernel its per-round parameters by cutting row `l` out of a stack of three (a unit-stride
slice at offset `l` on the first axis), dropping the unit axis, and, for a vector, adding it back in front.  Read at
an index these are the stack at `(l, ·)`. -/

/-- A vector cast to one row and read back as a vector is itself. -/
theorem row_cast {n : Nat} (v : Row n) (h : (⟨1, ![n]⟩ : Shape).ShapeCasts ⟨2, ![1, n]⟩) :
    row (shapeCast ⟨2, ![1, n]⟩ v h) = v := by
  funext j
  obtain ⟨q, rfl⟩ : ∃ q : Fin n, j = ix1 q := ⟨j 0, eq_ix1 j⟩
  exact shapeCast_a_1a_apply v h 0 q

/-- Row `l` of a stack of three vectors, sliced out, flattened and cast back to one row, read as a vector. -/
theorem row_of_slice {n : Nat} (l : Fin 3) (off : Fin 2 → Nat) (h0 : off 0 = l.val) (h1 : off 1 = 0) (v : Mat 3 n)
    (hs : (⟨2, ![3, n]⟩ : Shape).Slices off ⟨2, ![1, n]⟩)
    (hc : (⟨2, ![1, n]⟩ : Shape).ShapeCasts ⟨1, ![n]⟩) (hc' : (⟨1, ![n]⟩ : Shape).ShapeCasts ⟨2, ![1, n]⟩) :
    row (shapeCast ⟨2, ![1, n]⟩ (shapeCast ⟨1, ![n]⟩ (extractStridedSlice ⟨2, ![1, n]⟩ off v hs) hc) hc') = rowOf l v := by
  rw [row_cast]
  funext j
  obtain ⟨q, rfl⟩ : ∃ q : Fin n, j = ix1 q := ⟨j 0, eq_ix1 j⟩
  rw [shapeCast_1a_a_apply]
  refine extractStridedSlice_apply off v hs _ (ix2 l q) fun a => ?_
  match a with
  | ⟨0, _⟩ => show l.val = off 0 + 0; omega
  | ⟨1, _⟩ => show q.val = off 1 + q.val; omega

/-- Matrix `l` of a stack of three, sliced out with its unit axis dropped. -/
theorem slab_of_slice {a b : Nat} (l : Fin 3) (off : Fin 3 → Nat) (h0 : off 0 = l.val) (h1 : off 1 = 0) (h2 : off 2 = 0)
    (W : (⟨3, ![3, a, b]⟩ : Shape).Idx → EReal)
    (hs : (⟨3, ![3, a, b]⟩ : Shape).Slices off ⟨3, ![1, a, b]⟩)
    (hc : (⟨3, ![1, a, b]⟩ : Shape).ShapeCasts ⟨2, ![a, b]⟩) :
    shapeCast ⟨2, ![a, b]⟩ (extractStridedSlice ⟨3, ![1, a, b]⟩ off W hs) hc = slab l W := by
  funext j
  obtain ⟨p, q, rfl⟩ : ∃ (p : Fin a) (q : Fin b), j = ix2 p q := ⟨j 0, j 1, eq_ix2 j⟩
  rw [shapeCast_1ab_ab_apply]
  refine extractStridedSlice_apply off W hs _ (ix3 l p q) fun d => ?_
  match d with
  | ⟨0, _⟩ => show l.val = off 0 + 0; omega
  | ⟨1, _⟩ => show p.val = off 1 + p.val; omega
  | ⟨2, _⟩ => show q.val = off 2 + q.val; omega

end Cert.Glue

end
-- ==== Proof.Sums.lean ====
/-
  The two indexed sums of the host side, as the operations the program applies.  The neighbour sum adds, for every
  edge, the source node's row into the destination node's row of a zero array (the source indices first brought into
  range by adding the node count to a negative one); the per-graph sum adds every node's row into its graph's row.
  Both programs apply exactly these operations, so the sums are carried through the proof unopened.
-/
import proofs.«171844_j32538672234672_1_alg».proof.Proof.Gen.KernelIdeal
import Idealize.ShloMosaic.PureOps.Ideal

noncomputable section

namespace Cert.KernelIdeal.Fold

open Cert.KernelIdeal Cert.KernelIdeal.Facts₀ Cert.KernelIdeal.Facts Idealize.ShloMosaic

/-- The sum over each node's incoming edges of the source rows of `h`. -/
def neighbourSum (h : Vec Ideal S50000x128 .f32) (src dst : (⟨S800000, .i32⟩ : BufTy).Contents (Elt Ideal)) : Vec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The sum of the rows of `h` over each graph's nodes. -/
def graphSum (h : Vec Ideal S50000x128 .f32) (batch : (⟨S50000, .i32⟩ : BufTy).Contents (Elt Ideal)) : Vec Ideal S64x128 .f32 :=
  Host.scatterAdd scatter_S64x128_S50000x1_S50000x128_1_0_0_1
    (broadcastInDim S64x128 ![] bcast_S_S64x128 (constant (F := Ideal) S_ .f32 0x00000000#32))
    (broadcastInDim S50000x1 ![0] bcast_S50000_S50000x1_0 batch)
    h

end Cert.KernelIdeal.Fold

end
-- ==== Proof.FoldEntryEnds.lean ====
/-
  What the first and the last region find in their windows' arrays.  The embedding's windows are the node features
  and the embedding matrix as launched and the bias cast to one row; the readout's are the per-graph sum of the last
  round's result, the two readout matrices as launched and the two biases cast to one row.
-/
import proofs.«171844_j32538672234672_1_alg».proof.Proof.FoldArgs
import proofs.«171844_j32538672234672_1_alg».proof.Proof.HostGlue
import proofs.«171844_j32538672234672_1_alg».proof.Proof.Sums
import Idealize.ShloMosaic.PureOps.Ideal

set_option maxRecDepth 16384
set_option maxHeartbeats 4000000

noncomputable section

namespace Cert.KernelIdeal.Fold

open Cert.KernelIdeal Cert.KernelIdeal.Gen
open Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

theorem V1_x : V1 m ρ c main_arg0 = (m ((c : Thread nD τ).loc main_arg0)) :=
  (show W1 m ρ c (Proc.devRef .tc main_arg0) = W0 m ρ c (Proc.devRef .tc main_arg0) by host_keep).trans rfl
theorem V1_We : V1 m ρ c main_arg4 = (m ((c : Thread nD τ).loc main_arg4)) :=
  (show W1 m ρ c (Proc.devRef .tc main_arg4) = W0 m ρ c (Proc.devRef .tc main_arg4) by host_keep).trans rfl
theorem V1_be : row (V1 m ρ c main_v0) = (m ((c : Thread nD τ).loc main_arg5)) := by
  have e : V1 m ρ c main_v0 = shapeCast S1x128 (m ((c : Thread nD τ).loc main_arg5)) shapeCasts_S128_S1x128 := by
    show StableHlo.after hostOps0 (W0 m ρ c) (Proc.devRef .tc main_v0) = _
    after_results
    rfl
  rw [e]
  exact Cert.Glue.row_cast _ _

theorem V9_pooled : V9 m ρ c main_v139 = graphSum (W8 m ρ c (Proc.devRef .tc main_v136)) (m ((c : Thread nD τ).loc main_arg3)) := by
  show StableHlo.after hostOps4 (W8 m ρ c) (Proc.devRef .tc main_v139) = _
  after_results
  rw [W8_arg3]
  rfl
theorem V9_Wr1 : V9 m ρ c main_arg18 = (m ((c : Thread nD τ).loc main_arg18)) :=
  (show W9 m ρ c (Proc.devRef .tc main_arg18) = W8 m ρ c (Proc.devRef .tc main_arg18) by host_keep).trans (W8_arg18 m ρ c)
theorem V9_Wr2 : V9 m ρ c main_arg20 = (m ((c : Thread nD τ).loc main_arg20)) :=
  (show W9 m ρ c (Proc.devRef .tc main_arg20) = W8 m ρ c (Proc.devRef .tc main_arg20) by host_keep).trans (W8_arg20 m ρ c)
theorem V9_br1 : row (V9 m ρ c main_v140) = (m ((c : Thread nD τ).loc main_arg19)) := by
  have e : V9 m ρ c main_v140 = shapeCast S1x128 (m ((c : Thread nD τ).loc main_arg19)) shapeCasts_S128_S1x128 := by
    show StableHlo.after hostOps4 (W8 m ρ c) (Proc.devRef .tc main_v140) = _
    after_results
    rw [W8_arg19]
    rfl
  rw [e]
  exact Cert.Glue.row_cast _ _
theorem V9_br2 : row (V9 m ρ c main_v141) = (m ((c : Thread nD τ).loc main_arg21)) := by
  have e : V9 m ρ c main_v141 = shapeCast S1x10 (m ((c : Thread nD τ).loc main_arg21)) shapeCasts_S10_S1x10 := by
    show StableHlo.after hostOps4 (W8 m ρ c) (Proc.devRef .tc main_v141) = _
    after_results
    rw [W8_arg21]
    rfl
  rw [e]
  exact Cert.Glue.row_cast _ _

end Cert.KernelIdeal.Fold

end
-- ==== Proof.FoldEntry1.lean ====
/-
  What round 1's region finds in its windows' arrays: the previous region's result, the neighbour sum of it, and the
  round's two weight matrices and ten parameter vectors, cut out of the stacked arguments at row 0.
-/
import proofs.«171844_j32538672234672_1_alg».proof.Proof.FoldArgs
import proofs.«171844_j32538672234672_1_alg».proof.Proof.HostGlue
import proofs.«171844_j32538672234672_1_alg».proof.Proof.Sums
import Idealize.ShloMosaic.PureOps.Ideal

set_option maxRecDepth 16384
set_option maxHeartbeats 4000000

noncomputable section

namespace Cert.KernelIdeal.Fold

open Cert.KernelIdeal Cert.KernelIdeal.Gen
open Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

theorem V3_h : V3 m ρ c main_v1 = W2 m ρ c (Proc.devRef .tc main_v1) :=
  show W3 m ρ c (Proc.devRef .tc main_v1) = W2 m ρ c (Proc.devRef .tc main_v1) by host_keep
theorem V3_agg : V3 m ρ c main_v11 = neighbourSum (W2 m ρ c (Proc.devRef .tc main_v1)) (m ((c : Thread nD τ).loc main_arg1)) (m ((c : Thread nD τ).loc main_arg2)) := by
  show StableHlo.after hostOps1 (W2 m ρ c) (Proc.devRef .tc main_v11) = _
  after_results
  rw [W2_arg1, W2_arg2]
  rfl
theorem V3_W1 : V3 m ρ c main_v13 = slab 0 (m ((c : Thread nD τ).loc main_arg6)) := by
  have e : V3 m ρ c main_v13 = shapeCast S128x256 (extractStridedSlice S1x128x256 ![0, 0, 0] (m ((c : Thread nD τ).loc main_arg6)) slices_S3x128x256_S1x128x256_0_0_0) shapeCasts_S1x128x256_S128x256 := by
    show StableHlo.after hostOps1 (W2 m ρ c) (Proc.devRef .tc main_v13) = _
    after_results
    rw [W2_arg6]
    rfl
  rw [e]
  exact Cert.Glue.slab_of_slice 0 ![0, 0, 0] rfl rfl rfl _ _ _
theorem V3_W2 : V3 m ρ c main_v25 = slab 0 (m ((c : Thread nD τ).loc main_arg12)) := by
  have e : V3 m ρ c main_v25 = shapeCast S256x128 (extractStridedSlice S1x256x128 ![0, 0, 0] (m ((c : Thread nD τ).loc main_arg12)) slices_S3x256x128_S1x256x128_0_0_0) shapeCasts_S1x256x128_S256x128 := by
    show StableHlo.after hostOps1 (W2 m ρ c) (Proc.devRef .tc main_v25) = _
    after_results
    rw [W2_arg12]
    rfl
  rw [e]
  exact Cert.Glue.slab_of_slice 0 ![0, 0, 0] rfl rfl rfl _ _ _
theorem V3_b1 : row (V3 m ρ c main_v36) = rowOf 0 (m ((c : Thread nD τ).loc main_arg7)) := by
  have e : V3 m ρ c main_v36 = shapeCast S1x256 (shapeCast S256 (extractStridedSlice S1x256 ![0, 0] (m ((c : Thread nD τ).loc main_arg7)) slices_S3x256_S1x256_0_0) shapeCasts_S1x256_S256) shapeCasts_S256_S1x256 := by
    show StableHlo.after hostOps1 (W2 m ρ c) (Proc.devRef .tc main_v36) = _
    after_results
    rw [W2_arg7]
    rfl
  rw [e]
  exact Cert.Glue.row_of_slice 0 ![0, 0] rfl rfl _ _ _ _
theorem V3_g1 : row (V3 m ρ c main_v37) = rowOf 0 (m ((c : Thread nD τ).loc main_arg8)) := by
  have e : V3 m ρ c main_v37 = shapeCast S1x256 (shapeCast S256 (extractStridedSlice S1x256 ![0, 0] (m ((c : Thread nD τ).loc main_arg8)) slices_S3x256_S1x256_0_0) shapeCasts_S1x256_S256) shapeCasts_S256_S1x256 := by
    show StableHlo.after hostOps1 (W2 m ρ c) (Proc.devRef .tc main_v37) = _
    after_results
    rw [W2_arg8]
    rfl
  rw [e]
  exact Cert.Glue.row_of_slice 0 ![0, 0] rfl rfl _ _ _ _
theorem V3_bt1 : row (V3 m ρ c main_v38) = rowOf 0 (m ((c : Thread nD τ).loc main_arg9)) := by
  have e : V3 m ρ c main_v38 = shapeCast S1x256 (shapeCast S256 (extractStridedSlice S1x256 ![0, 0] (m ((c : Thread nD τ).loc main_arg9)) slices_S3x256_S1x256_0_0) shapeCasts_S1x256_S256) shapeCasts_S256_S1x256 := by
    show StableHlo.after hostOps1 (W2 m ρ c) (Proc.devRef .tc main_v38) = _
    after_results
    rw [W2_arg9]
    rfl
  rw [e]
  exact Cert.Glue.row_of_slice 0 ![0, 0] rfl rfl _ _ _ _
theorem V3_m1 : row (V3 m ρ c main_v39) = rowOf 0 (m ((c : Thread nD τ).loc main_arg10)) := by
  have e : V3 m ρ c main_v39 = shapeCast S1x256 (shapeCast S256 (extractStridedSlice S1x256 ![0, 0] (m ((c : Thread nD τ).loc main_arg10)) slices_S3x256_S1x256_0_0) shapeCasts_S1x256_S256) shapeCasts_S256_S1x256 := by
    show StableHlo.after hostOps1 (W2 m ρ c) (Proc.devRef .tc main_v39) = _
    after_results
    rw [W2_arg10]
    rfl
  rw [e]
  exact Cert.Glue.row_of_slice 0 ![0, 0] rfl rfl _ _ _ _
theorem V3_v1 : row (V3 m ρ c main_v40) = rowOf 0 (m ((c : Thread nD τ).loc main_arg11)) := by
  have e : V3 m ρ c main_v40 = shapeCast S1x256 (shapeCast S256 (extractStridedSlice S1x256 ![0, 0] (m ((c : Thread nD τ).loc main_arg11)) slices_S3x256_S1x256_0_0) shapeCasts_S1x256_S256) shapeCasts_S256_S1x256 := by
    show StableHlo.after hostOps1 (W2 m ρ c) (Proc.devRef .tc main_v40) = _
    after_results
    rw [W2_arg11]
    rfl
  rw [e]
  exact Cert.Glue.row_of_slice 0 ![0, 0] rfl rfl _ _ _ _
theorem V3_b2 : row (V3 m ρ c main_v41) = rowOf 0 (m ((c : Thread nD τ).loc main_arg13)) := by
  have e : V3 m ρ c main_v41 = shapeCast S1x128 (shapeCast S128 (extractStridedSlice S1x128 ![0, 0] (m ((c : Thread nD τ).loc main_arg13)) slices_S3x128_S1x128_0_0) shapeCasts_S1x128_S128) shapeCasts_S128_S1x128 := by
    show StableHlo.after hostOps1 (W2 m ρ c) (Proc.devRef .tc main_v41) = _
    after_results
    rw [W2_arg13]
    rfl
  rw [e]
  exact Cert.Glue.row_of_slice 0 ![0, 0] rfl rfl _ _ _ _
theorem V3_g2 : row (V3 m ρ c main_v42) = rowOf 0 (m ((c : Thread nD τ).loc main_arg14)) := by
  have e : V3 m ρ c main_v42 = shapeCast S1x128 (shapeCast S128 (extractStridedSlice S1x128 ![0, 0] (m ((c : Thread nD τ).loc main_arg14)) slices_S3x128_S1x128_0_0) shapeCasts_S1x128_S128) shapeCasts_S128_S1x128 := by
    show StableHlo.after hostOps1 (W2 m ρ c) (Proc.devRef .tc main_v42) = _
    after_results
    rw [W2_arg14]
    rfl
  rw [e]
  exact Cert.Glue.row_of_slice 0 ![0, 0] rfl rfl _ _ _ _
theorem V3_bt2 : row (V3 m ρ c main_v43) = rowOf 0 (m ((c : Thread nD τ).loc main_arg15)) := by
  have e : V3 m ρ c main_v43 = shapeCast S1x128 (shapeCast S128 (extractStridedSlice S1x128 ![0, 0] (m ((c : Thread nD τ).loc main_arg15)) slices_S3x128_S1x128_0_0) shapeCasts_S1x128_S128) shapeCasts_S128_S1x128 := by
    show StableHlo.after hostOps1 (W2 m ρ c) (Proc.devRef .tc main_v43) = _
    after_results
    rw [W2_arg15]
    rfl
  rw [e]
  exact Cert.Glue.row_of_slice 0 ![0, 0] rfl rfl _ _ _ _
theorem V3_m2 : row (V3 m ρ c main_v44) = rowOf 0 (m ((c : Thread nD τ).loc main_arg16)) := by
  have e : V3 m ρ c main_v44 = shapeCast S1x128 (shapeCast S128 (extractStridedSlice S1x128 ![0, 0] (m ((c : Thread nD τ).loc main_arg16)) slices_S3x128_S1x128_0_0) shapeCasts_S1x128_S128) shapeCasts_S128_S1x128 := by
    show StableHlo.after hostOps1 (W2 m ρ c) (Proc.devRef .tc main_v44) = _
    after_results
    rw [W2_arg16]
    rfl
  rw [e]
  exact Cert.Glue.row_of_slice 0 ![0, 0] rfl rfl _ _ _ _
theorem V3_v2 : row (V3 m ρ c main_v45) = rowOf 0 (m ((c : Thread nD τ).loc main_arg17)) := by
  have e : V3 m ρ c main_v45 = shapeCast S1x128 (shapeCast S128 (extractStridedSlice S1x128 ![0, 0] (m ((c : Thread nD τ).loc main_arg17)) slices_S3x128_S1x128_0_0) shapeCasts_S1x128_S128) shapeCasts_S128_S1x128 := by
    show StableHlo.after hostOps1 (W2 m ρ c) (Proc.devRef .tc main_v45) = _
    after_results
    rw [W2_arg17]
    rfl
  rw [e]
  exact Cert.Glue.row_of_slice 0 ![0, 0] rfl rfl _ _ _ _

end Cert.KernelIdeal.Fold

end
-- ==== Proof.FoldEntry2.lean ====
/-
  What round 2's region finds in its windows' arrays: the previous region's result, the neighbour sum of it, and the
  round's two weight matrices and ten parameter vectors, cut out of the stacked arguments at row 1.
-/
import proofs.«171844_j32538672234672_1_alg».proof.Proof.FoldArgs
import proofs.«171844_j32538672234672_1_alg».proof.Proof.HostGlue
import proofs.«171844_j32538672234672_1_alg».proof.Proof.Sums
import Idealize.ShloMosaic.PureOps.Ideal

set_option maxRecDepth 16384
set_option maxHeartbeats 4000000

noncomputable section

namespace Cert.KernelIdeal.Fold

open Cert.KernelIdeal Cert.KernelIdeal.Gen
open Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

theorem V5_h : V5 m ρ c main_v46 = W4 m ρ c (Proc.devRef .tc main_v46) :=
  show W5 m ρ c (Proc.devRef .tc main_v46) = W4 m ρ c (Proc.devRef .tc main_v46) by host_keep
theorem V5_agg : V5 m ρ c main_v56 = neighbourSum (W4 m ρ c (Proc.devRef .tc main_v46)) (m ((c : Thread nD τ).loc main_arg1)) (m ((c : Thread nD τ).loc main_arg2)) := by
  show StableHlo.after hostOps2 (W4 m ρ c) (Proc.devRef .tc main_v56) = _
  after_results
  rw [W4_arg1, W4_arg2]
  rfl
theorem V5_W1 : V5 m ρ c main_v58 = slab 1 (m ((c : Thread nD τ).loc main_arg6)) := by
  have e : V5 m ρ c main_v58 = shapeCast S128x256 (extractStridedSlice S1x128x256 ![1, 0, 0] (m ((c : Thread nD τ).loc main_arg6)) slices_S3x128x256_S1x128x256_1_0_0) shapeCasts_S1x128x256_S128x256 := by
    show StableHlo.after hostOps2 (W4 m ρ c) (Proc.devRef .tc main_v58) = _
    after_results
    rw [W4_arg6]
    rfl
  rw [e]
  exact Cert.Glue.slab_of_slice 1 ![1, 0, 0] rfl rfl rfl _ _ _
theorem V5_W2 : V5 m ρ c main_v70 = slab 1 (m ((c : Thread nD τ).loc main_arg12)) := by
  have e : V5 m ρ c main_v70 = shapeCast S256x128 (extractStridedSlice S1x256x128 ![1, 0, 0] (m ((c : Thread nD τ).loc main_arg12)) slices_S3x256x128_S1x256x128_1_0_0) shapeCasts_S1x256x128_S256x128 := by
    show StableHlo.after hostOps2 (W4 m ρ c) (Proc.devRef .tc main_v70) = _
    after_results
    rw [W4_arg12]
    rfl
  rw [e]
  exact Cert.Glue.slab_of_slice 1 ![1, 0, 0] rfl rfl rfl _ _ _
theorem V5_b1 : row (V5 m ρ c main_v81) = rowOf 1 (m ((c : Thread nD τ).loc main_arg7)) := by
  have e : V5 m ρ c main_v81 = shapeCast S1x256 (shapeCast S256 (extractStridedSlice S1x256 ![1, 0] (m ((c : Thread nD τ).loc main_arg7)) slices_S3x256_S1x256_1_0) shapeCasts_S1x256_S256) shapeCasts_S256_S1x256 := by
    show StableHlo.after hostOps2 (W4 m ρ c) (Proc.devRef .tc main_v81) = _
    after_results
    rw [W4_arg7]
    rfl
  rw [e]
  exact Cert.Glue.row_of_slice 1 ![1, 0] rfl rfl _ _ _ _
theorem V5_g1 : row (V5 m ρ c main_v82) = rowOf 1 (m ((c : Thread nD τ).loc main_arg8)) := by
  have e : V5 m ρ c main_v82 = shapeCast S1x256 (shapeCast S256 (extractStridedSlice S1x256 ![1, 0] (m ((c : Thread nD τ).loc main_arg8)) slices_S3x256_S1x256_1_0) shapeCasts_S1x256_S256) shapeCasts_S256_S1x256 := by
    show StableHlo.after hostOps2 (W4 m ρ c) (Proc.devRef .tc main_v82) = _
    after_results
    rw [W4_arg8]
    rfl
  rw [e]
  exact Cert.Glue.row_of_slice 1 ![1, 0] rfl rfl _ _ _ _
theorem V5_bt1 : row (V5 m ρ c main_v83) = rowOf 1 (m ((c : Thread nD τ).loc main_arg9)) := by
  have e : V5 m ρ c main_v83 = shapeCast S1x256 (shapeCast S256 (extractStridedSlice S1x256 ![1, 0] (m ((c : Thread nD τ).loc main_arg9)) slices_S3x256_S1x256_1_0) shapeCasts_S1x256_S256) shapeCasts_S256_S1x256 := by
    show StableHlo.after hostOps2 (W4 m ρ c) (Proc.devRef .tc main_v83) = _
    after_results
    rw [W4_arg9]
    rfl
  rw [e]
  exact Cert.Glue.row_of_slice 1 ![1, 0] rfl rfl _ _ _ _
theorem V5_m1 : row (V5 m ρ c main_v84) = rowOf 1 (m ((c : Thread nD τ).loc main_arg10)) := by
  have e : V5 m ρ c main_v84 = shapeCast S1x256 (shapeCast S256 (extractStridedSlice S1x256 ![1, 0] (m ((c : Thread nD τ).loc main_arg10)) slices_S3x256_S1x256_1_0) shapeCasts_S1x256_S256) shapeCasts_S256_S1x256 := by
    show StableHlo.after hostOps2 (W4 m ρ c) (Proc.devRef .tc main_v84) = _
    after_results
    rw [W4_arg10]
    rfl
  rw [e]
  exact Cert.Glue.row_of_slice 1 ![1, 0] rfl rfl _ _ _ _
theorem V5_v1 : row (V5 m ρ c main_v85) = rowOf 1 (m ((c : Thread nD τ).loc main_arg11)) := by
  have e : V5 m ρ c main_v85 = shapeCast S1x256 (shapeCast S256 (extractStridedSlice S1x256 ![1, 0] (m ((c : Thread nD τ).loc main_arg11)) slices_S3x256_S1x256_1_0) shapeCasts_S1x256_S256) shapeCasts_S256_S1x256 := by
    show StableHlo.after hostOps2 (W4 m ρ c) (Proc.devRef .tc main_v85) = _
    after_results
    rw [W4_arg11]
    rfl
  rw [e]
  exact Cert.Glue.row_of_slice 1 ![1, 0] rfl rfl _ _ _ _
theorem V5_b2 : row (V5 m ρ c main_v86) = rowOf 1 (m ((c : Thread nD τ).loc main_arg13)) := by
  have e : V5 m ρ c main_v86 = shapeCast S1x128 (shapeCast S128 (extractStridedSlice S1x128 ![1, 0] (m ((c : Thread nD τ).loc main_arg13)) slices_S3x128_S1x128_1_0) shapeCasts_S1x128_S128) shapeCasts_S128_S1x128 := by
    show StableHlo.after hostOps2 (W4 m ρ c) (Proc.devRef .tc main_v86) = _
    after_results
    rw [W4_arg13]
    rfl
  rw [e]
  exact Cert.Glue.row_of_slice 1 ![1, 0] rfl rfl _ _ _ _
theorem V5_g2 : row (V5 m ρ c main_v87) = rowOf 1 (m ((c : Thread nD τ).loc main_arg14)) := by
  have e : V5 m ρ c main_v87 = shapeCast S1x128 (shapeCast S128 (extractStridedSlice S1x128 ![1, 0] (m ((c : Thread nD τ).loc main_arg14)) slices_S3x128_S1x128_1_0) shapeCasts_S1x128_S128) shapeCasts_S128_S1x128 := by
    show StableHlo.after hostOps2 (W4 m ρ c) (Proc.devRef .tc main_v87) = _
    after_results
    rw [W4_arg14]
    rfl
  rw [e]
  exact Cert.Glue.row_of_slice 1 ![1, 0] rfl rfl _ _ _ _
theorem V5_bt2 : row (V5 m ρ c main_v88) = rowOf 1 (m ((c : Thread nD τ).loc main_arg15)) := by
  have e : V5 m ρ c main_v88 = shapeCast S1x128 (shapeCast S128 (extractStridedSlice S1x128 ![1, 0] (m ((c : Thread nD τ).loc main_arg15)) slices_S3x128_S1x128_1_0) shapeCasts_S1x128_S128) shapeCasts_S128_S1x128 := by
    show StableHlo.after hostOps2 (W4 m ρ c) (Proc.devRef .tc main_v88) = _
    after_results
    rw [W4_arg15]
    rfl
  rw [e]
  exact Cert.Glue.row_of_slice 1 ![1, 0] rfl rfl _ _ _ _
theorem V5_m2 : row (V5 m ρ c main_v89) = rowOf 1 (m ((c : Thread nD τ).loc main_arg16)) := by
  have e : V5 m ρ c main_v89 = shapeCast S1x128 (shapeCast S128 (extractStridedSlice S1x128 ![1, 0] (m ((c : Thread nD τ).loc main_arg16)) slices_S3x128_S1x128_1_0) shapeCasts_S1x128_S128) shapeCasts_S128_S1x128 := by
    show StableHlo.after hostOps2 (W4 m ρ c) (Proc.devRef .tc main_v89) = _
    after_results
    rw [W4_arg16]
    rfl
  rw [e]
  exact Cert.Glue.row_of_slice 1 ![1, 0] rfl rfl _ _ _ _
theorem V5_v2 : row (V5 m ρ c main_v90) = rowOf 1 (m ((c : Thread nD τ).loc main_arg17)) := by
  have e : V5 m ρ c main_v90 = shapeCast S1x128 (shapeCast S128 (extractStridedSlice S1x128 ![1, 0] (m ((c : Thread nD τ).loc main_arg17)) slices_S3x128_S1x128_1_0) shapeCasts_S1x128_S128) shapeCasts_S128_S1x128 := by
    show StableHlo.after hostOps2 (W4 m ρ c) (Proc.devRef .tc main_v90) = _
    after_results
    rw [W4_arg17]
    rfl
  rw [e]
  exact Cert.Glue.row_of_slice 1 ![1, 0] rfl rfl _ _ _ _

end Cert.KernelIdeal.Fold

end
-- ==== Proof.FoldEntry3.lean ====
/-
  What round 3's region finds in its windows' arrays: the previous region's result, the neighbour sum of it, and the
  round's two weight matrices and ten parameter vectors, cut out of the stacked arguments at row 2.
-/
import proofs.«171844_j32538672234672_1_alg».proof.Proof.FoldArgs
import proofs.«171844_j32538672234672_1_alg».proof.Proof.HostGlue
import proofs.«171844_j32538672234672_1_alg».proof.Proof.Sums
import Idealize.ShloMosaic.PureOps.Ideal

set_option maxRecDepth 16384
set_option maxHeartbeats 4000000

noncomputable section

namespace Cert.KernelIdeal.Fold

open Cert.KernelIdeal Cert.KernelIdeal.Gen
open Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

theorem V7_h : V7 m ρ c main_v91 = W6 m ρ c (Proc.devRef .tc main_v91) :=
  show W7 m ρ c (Proc.devRef .tc main_v91) = W6 m ρ c (Proc.devRef .tc main_v91) by host_keep
theorem V7_agg : V7 m ρ c main_v101 = neighbourSum (W6 m ρ c (Proc.devRef .tc main_v91)) (m ((c : Thread nD τ).loc main_arg1)) (m ((c : Thread nD τ).loc main_arg2)) := by
  show StableHlo.after hostOps3 (W6 m ρ c) (Proc.devRef .tc main_v101) = _
  after_results
  rw [W6_arg1, W6_arg2]
  rfl
theorem V7_W1 : V7 m ρ c main_v103 = slab 2 (m ((c : Thread nD τ).loc main_arg6)) := by
  have e : V7 m ρ c main_v103 = shapeCast S128x256 (extractStridedSlice S1x128x256 ![2, 0, 0] (m ((c : Thread nD τ).loc main_arg6)) slices_S3x128x256_S1x128x256_2_0_0) shapeCasts_S1x128x256_S128x256 := by
    show StableHlo.after hostOps3 (W6 m ρ c) (Proc.devRef .tc main_v103) = _
    after_results
    rw [W6_arg6]
    rfl
  rw [e]
  exact Cert.Glue.slab_of_slice 2 ![2, 0, 0] rfl rfl rfl _ _ _
theorem V7_W2 : V7 m ρ c main_v115 = slab 2 (m ((c : Thread nD τ).loc main_arg12)) := by
  have e : V7 m ρ c main_v115 = shapeCast S256x128 (extractStridedSlice S1x256x128 ![2, 0, 0] (m ((c : Thread nD τ).loc main_arg12)) slices_S3x256x128_S1x256x128_2_0_0) shapeCasts_S1x256x128_S256x128 := by
    show StableHlo.after hostOps3 (W6 m ρ c) (Proc.devRef .tc main_v115) = _
    after_results
    rw [W6_arg12]
    rfl
  rw [e]
  exact Cert.Glue.slab_of_slice 2 ![2, 0, 0] rfl rfl rfl _ _ _
theorem V7_b1 : row (V7 m ρ c main_v126) = rowOf 2 (m ((c : Thread nD τ).loc main_arg7)) := by
  have e : V7 m ρ c main_v126 = shapeCast S1x256 (shapeCast S256 (extractStridedSlice S1x256 ![2, 0] (m ((c : Thread nD τ).loc main_arg7)) slices_S3x256_S1x256_2_0) shapeCasts_S1x256_S256) shapeCasts_S256_S1x256 := by
    show StableHlo.after hostOps3 (W6 m ρ c) (Proc.devRef .tc main_v126) = _
    after_results
    rw [W6_arg7]
    rfl
  rw [e]
  exact Cert.Glue.row_of_slice 2 ![2, 0] rfl rfl _ _ _ _
theorem V7_g1 : row (V7 m ρ c main_v127) = rowOf 2 (m ((c : Thread nD τ).loc main_arg8)) := by
  have e : V7 m ρ c main_v127 = shapeCast S1x256 (shapeCast S256 (extractStridedSlice S1x256 ![2, 0] (m ((c : Thread nD τ).loc main_arg8)) slices_S3x256_S1x256_2_0) shapeCasts_S1x256_S256) shapeCasts_S256_S1x256 := by
    show StableHlo.after hostOps3 (W6 m ρ c) (Proc.devRef .tc main_v127) = _
    after_results
    rw [W6_arg8]
    rfl
  rw [e]
  exact Cert.Glue.row_of_slice 2 ![2, 0] rfl rfl _ _ _ _
theorem V7_bt1 : row (V7 m ρ c main_v128) = rowOf 2 (m ((c : Thread nD τ).loc main_arg9)) := by
  have e : V7 m ρ c main_v128 = shapeCast S1x256 (shapeCast S256 (extractStridedSlice S1x256 ![2, 0] (m ((c : Thread nD τ).loc main_arg9)) slices_S3x256_S1x256_2_0) shapeCasts_S1x256_S256) shapeCasts_S256_S1x256 := by
    show StableHlo.after hostOps3 (W6 m ρ c) (Proc.devRef .tc main_v128) = _
    after_results
    rw [W6_arg9]
    rfl
  rw [e]
  exact Cert.Glue.row_of_slice 2 ![2, 0] rfl rfl _ _ _ _
theorem V7_m1 : row (V7 m ρ c main_v129) = rowOf 2 (m ((c : Thread nD τ).loc main_arg10)) := by
  have e : V7 m ρ c main_v129 = shapeCast S1x256 (shapeCast S256 (extractStridedSlice S1x256 ![2, 0] (m ((c : Thread nD τ).loc main_arg10)) slices_S3x256_S1x256_2_0) shapeCasts_S1x256_S256) shapeCasts_S256_S1x256 := by
    show StableHlo.after hostOps3 (W6 m ρ c) (Proc.devRef .tc main_v129) = _
    after_results
    rw [W6_arg10]
    rfl
  rw [e]
  exact Cert.Glue.row_of_slice 2 ![2, 0] rfl rfl _ _ _ _
theorem V7_v1 : row (V7 m ρ c main_v130) = rowOf 2 (m ((c : Thread nD τ).loc main_arg11)) := by
  have e : V7 m ρ c main_v130 = shapeCast S1x256 (shapeCast S256 (extractStridedSlice S1x256 ![2, 0] (m ((c : Thread nD τ).loc main_arg11)) slices_S3x256_S1x256_2_0) shapeCasts_S1x256_S256) shapeCasts_S256_S1x256 := by
    show StableHlo.after hostOps3 (W6 m ρ c) (Proc.devRef .tc main_v130) = _
    after_results
    rw [W6_arg11]
    rfl
  rw [e]
  exact Cert.Glue.row_of_slice 2 ![2, 0] rfl rfl _ _ _ _
theorem V7_b2 : row (V7 m ρ c main_v131) = rowOf 2 (m ((c : Thread nD τ).loc main_arg13)) := by
  have e : V7 m ρ c main_v131 = shapeCast S1x128 (shapeCast S128 (extractStridedSlice S1x128 ![2, 0] (m ((c : Thread nD τ).loc main_arg13)) slices_S3x128_S1x128_2_0) shapeCasts_S1x128_S128) shapeCasts_S128_S1x128 := by
    show StableHlo.after hostOps3 (W6 m ρ c) (Proc.devRef .tc main_v131) = _
    after_results
    rw [W6_arg13]
    rfl
  rw [e]
  exact Cert.Glue.row_of_slice 2 ![2, 0] rfl rfl _ _ _ _
theorem V7_g2 : row (V7 m ρ c main_v132) = rowOf 2 (m ((c : Thread nD τ).loc main_arg14)) := by
  have e : V7 m ρ c main_v132 = shapeCast S1x128 (shapeCast S128 (extractStridedSlice S1x128 ![2, 0] (m ((c : Thread nD τ).loc main_arg14)) slices_S3x128_S1x128_2_0) shapeCasts_S1x128_S128) shapeCasts_S128_S1x128 := by
    show StableHlo.after hostOps3 (W6 m ρ c) (Proc.devRef .tc main_v132) = _
    after_results
    rw [W6_arg14]
    rfl
  rw [e]
  exact Cert.Glue.row_of_slice 2 ![2, 0] rfl rfl _ _ _ _
theorem V7_bt2 : row (V7 m ρ c main_v133) = rowOf 2 (m ((c : Thread nD τ).loc main_arg15)) := by
  have e : V7 m ρ c main_v133 = shapeCast S1x128 (shapeCast S128 (extractStridedSlice S1x128 ![2, 0] (m ((c : Thread nD τ).loc main_arg15)) slices_S3x128_S1x128_2_0) shapeCasts_S1x128_S128) shapeCasts_S128_S1x128 := by
    show StableHlo.after hostOps3 (W6 m ρ c) (Proc.devRef .tc main_v133) = _
    after_results
    rw [W6_arg15]
    rfl
  rw [e]
  exact Cert.Glue.row_of_slice 2 ![2, 0] rfl rfl _ _ _ _
theorem V7_m2 : row (V7 m ρ c main_v134) = rowOf 2 (m ((c : Thread nD τ).loc main_arg16)) := by
  have e : V7 m ρ c main_v134 = shapeCast S1x128 (shapeCast S128 (extractStridedSlice S1x128 ![2, 0] (m ((c : Thread nD τ).loc main_arg16)) slices_S3x128_S1x128_2_0) shapeCasts_S1x128_S128) shapeCasts_S128_S1x128 := by
    show StableHlo.after hostOps3 (W6 m ρ c) (Proc.devRef .tc main_v134) = _
    after_results
    rw [W6_arg16]
    rfl
  rw [e]
  exact Cert.Glue.row_of_slice 2 ![2, 0] rfl rfl _ _ _ _
theorem V7_v2 : row (V7 m ρ c main_v135) = rowOf 2 (m ((c : Thread nD τ).loc main_arg17)) := by
  have e : V7 m ρ c main_v135 = shapeCast S1x128 (shapeCast S128 (extractStridedSlice S1x128 ![2, 0] (m ((c : Thread nD τ).loc main_arg17)) slices_S3x128_S1x128_2_0) shapeCasts_S1x128_S128) shapeCasts_S128_S1x128 := by
    show StableHlo.after hostOps3 (W6 m ρ c) (Proc.devRef .tc main_v135) = _
    after_results
    rw [W6_arg17]
    rfl
  rw [e]
  exact Cert.Glue.row_of_slice 2 ![2, 0] rfl rfl _ _ _ _

end Cert.KernelIdeal.Fold

end
-- ==== Proof.Net.lean ====
/-
  The network both programs compute, as ONE function of the twenty-two argument arrays: the embedding, three rounds
  (each the specification's layer of the previous node features, their neighbour sum and the round's parameters cut
  out of the stacked arguments), the per-graph sum, the readout.
-/
import proofs.«171844_j32538672234672_1_alg».proof.Proof.Spec
import proofs.«171844_j32538672234672_1_alg».proof.Proof.Sums

noncomputable section

namespace Cert.KernelIdeal.Fold

open Cert.KernelIdeal Idealize.ShloMosaic Cert.Spec

/-- Round `l` applied to node features `h`: the neighbour sum of `h` along the edge lists `x1`, `x2`, and the round's
    parameters, row `l` of each stacked argument. -/
def round (x1 x2 : (⟨S800000, .i32⟩ : BufTy).Contents (Elt Ideal)) (x6 : (⟨S3x128x256, .f32⟩ : BufTy).Contents (Elt Ideal)) (x7 x8 x9 x10 x11 : (⟨S3x256, .f32⟩ : BufTy).Contents (Elt Ideal)) (x12 : (⟨S3x256x128, .f32⟩ : BufTy).Contents (Elt Ideal)) (x13 x14 x15 x16 x17 : (⟨S3x128, .f32⟩ : BufTy).Contents (Elt Ideal)) (l : Fin 3) (h : Mat 50000 128) : Mat 50000 128 :=
  layerG h (neighbourSum h x1 x2) (slab l x6) (rowOf l x7) (rowOf l x8) (rowOf l x9) (rowOf l x10) (rowOf l x11)
    (slab l x12) (rowOf l x13) (rowOf l x14) (rowOf l x15) (rowOf l x16) (rowOf l x17)

/-- The whole network on the argument arrays. -/
def net (x0 : (⟨S50000x128, .f32⟩ : BufTy).Contents (Elt Ideal)) (x1 x2 : (⟨S800000, .i32⟩ : BufTy).Contents (Elt Ideal)) (x3 : (⟨S50000, .i32⟩ : BufTy).Contents (Elt Ideal)) (x4 : (⟨S128x128, .f32⟩ : BufTy).Contents (Elt Ideal)) (x5 : (⟨S128, .f32⟩ : BufTy).Contents (Elt Ideal)) (x6 : (⟨S3x128x256, .f32⟩ : BufTy).Contents (Elt Ideal)) (x7 x8 x9 x10 x11 : (⟨S3x256, .f32⟩ : BufTy).Contents (Elt Ideal)) (x12 : (⟨S3x256x128, .f32⟩ : BufTy).Contents (Elt Ideal)) (x13 x14 x15 x16 x17 : (⟨S3x128, .f32⟩ : BufTy).Contents (Elt Ideal)) (x18 : (⟨S128x128, .f32⟩ : BufTy).Contents (Elt Ideal)) (x19 : (⟨S128, .f32⟩ : BufTy).Contents (Elt Ideal)) (x20 : (⟨S128x10, .f32⟩ : BufTy).Contents (Elt Ideal)) (x21 : (⟨S10, .f32⟩ : BufTy).Contents (Elt Ideal)) : Mat 64 10 :=
  readoutG (graphSum (round x1 x2 x6 x7 x8 x9 x10 x11 x12 x13 x14 x15 x16 x17 2 (round x1 x2 x6 x7 x8 x9 x10 x11 x12 x13 x14 x15 x16 x17 1 (round x1 x2 x6 x7 x8 x9 x10 x11 x12 x13 x14 x15 x16 x17 0 (embedG x0 x4 x5)))) x3) x18 x19 x20 x21

end Cert.KernelIdeal.Fold

end
-- ==== Proof.EmbedValue.lean ====
/-
  The embedding region read as one function of its three input arrays.  The region walks the 50000 rows of `x` in ten
  blocks of 5000; at each block it multiplies the block by the whole 128 × 128 matrix, adds the one-row bias to every
  row, and writes the block of the result back.  Here: the block's arithmetic at one entry (a sum over the 128 columns
  plus the bias entry), the ten blocks' places in the arrays, and from the two the whole output array after the region:
  entry (r, q) is (sum over k of x[r,k] * We[k,q]) + be[q], the specification's `embedG`.
-/
import proofs.«171844_j32538672234672_1_alg».proof.Proof.Gen.KernelIdeal.Frame
import proofs.«171844_j32538672234672_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.EmbedValue

open Cert.KernelIdeal Cert.KernelIdeal.Gen Idealize.ShloMosaic Idealize.ShloMosaic.ValueIdx Idealize.ShloMosaic.TcCoe Idealize.SL.Sem
open Idealize.ShloMosaic.Pipeline (Dat)
open scoped BigOperators

/-! ## The block's arithmetic at one entry -/

/-- The offsets of a whole-block access, however they are spelt. -/
theorem offsets_zero : (![0, 0] : Fin 2 → Nat) = fun _ => 0 := funext fun a => by fin_cases a <;> rfl

/-- A row index of the left factor of the 5000 × 128 by 128 × 128 product is the output's row. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- A column index of the right factor is the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product into the zero accumulator, at entry (p, q): the sum over the 128 columns of the left factor's row `p`
    times the right factor's column `q`. -/
theorem product_apply (a : FVec Ideal S5000x128 .bf16) (b : FVec Ideal S128x128 .bf16) (p : Fin 5000) (q : Fin 128) :
    matmul (F := Ideal) dot_S5000x128_S128x128_S5000x128_1_0_0_1_n_n none a b (constant (F := Ideal) S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun d => Fin.ext (by
      match d with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun d => Fin.ext (by
      match d with
      | ⟨0, _⟩ => exact (dot_S5000x128_S128x128_S5000x128_1_0_0_1_n_n.rhsIdx_val_of_single rfl _ _).trans hk
      | ⟨1, _⟩ => exact rhs_col _ _)
  rw [el, er]

/-- The one-row bias repeated over the 5000 rows reads, at (p, q), the row's entry q. -/
theorem bias_apply (v : FVec Ideal S1x128 .f32) (p : Fin 5000) (q : Fin 128) :
    broadcastTo S5000x128 v broadcasts_S1x128_S5000x128 (ix2 p q) = v (ix2 0 q) :=
  broadcastTo_apply v broadcasts_S1x128_S5000x128 (ix2 p q) (ix2 0 q) (fun d => match d with
    | ⟨0, _⟩ => by show (0 : Nat) = if (1 : Nat) = 1 then 0 else p.val; rw [if_pos rfl]
    | ⟨1, _⟩ => by show q.val = if (128 : Nat) = 1 then 0 else q.val; rw [if_neg (by decide)])

/-- THE BLOCK'S ARITHMETIC at entry (p, q) of the 5000 × 128 block: the row of the block of `x` against the column of the
    matrix, plus the bias entry. The narrowing of the two factors is the identity on extended reals. -/
theorem pay_apply (x0 : Vec Ideal S5000x128 .f32) (x1 : Vec Ideal S128x128 .f32) (x2 : Vec Ideal S1x128 .f32) (p : Fin 5000) (q : Fin 128) :
    k0_pay1 (F := Ideal) x0 x1 x2 (ix2 p q) = (∑ k : Fin 128, x0 (ix2 p k) * x1 (ix2 k q)) + x2 (ix2 0 q) := by
  unfold k0_pay1
  refine (addf_apply _ _ (ix2 p q)).trans ?_
  refine congrArg₂ (· + ·) ?_ ?_
  · exact product_apply _ _ p q
  · refine (bias_apply _ p q).trans ?_
    rw [shapeCast_self]

/-! ## The blocks' places -/

/-- The printed index maps over the ten points: the block of `x` moves with the output's block down the rows, the matrix
    and the bias stay at their one block, and the output's block index is the point itself. -/
theorem places : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- WHAT POINT `t` WRITES BACK is block `t` of the specification's function of the three arrays as the region finds them. -/
theorem flushed_eq (c : Dev nD) (t : Fin cfg0.N) :
    (dat0 (F := Ideal) V c).flushed 3 t
      = ((cfg0.win 3).blk t).view.read (Elt Ideal) (Cert.Spec.embedG (V c main_arg0) (V c main_arg4) (Cert.Spec.row (V c main_v0))) := by
  show (cfg0.win 3).cut (grid0.coords t) ((dat0 (F := Ideal) V c).after 3 t) = _
  rw [after0_3]
  unfold out0_3
  rw [View.canon_unit_zero offsets_zero]
  simp only [View.ld_unit_zero (S := S5000x128) offsets_zero, View.ld_unit_zero (S := S128x128) offsets_zero,
    View.ld_unit_zero (S := S1x128) offsets_zero]
  obtain ⟨e00, e01, e10, e11, e20, e21, e30, e31⟩ := places t
  have ht : t.val < 10 := lt_of_lt_of_eq t.isLt N_0
  refine funext fun (j : S5000x128.Idx) => ?_
  obtain ⟨p, q, rfl⟩ : ∃ (p : Fin 5000) (q : Fin 128), j = ix2 p q := ⟨j 0, j 1, eq_ix2 j⟩
  have hp : p.val < 5000 := p.isLt
  have hr : t.val * 5000 + p.val < 50000 := by omega
  -- the entry's place in the output array, and the places of what it reads in the three input arrays
  have h3 : ((cfg0.win 3).blk t).view.emb (ix2 p q) = (ix2 ⟨t.val * 5000 + p.val, hr⟩ q : S50000x128.Idx) := by
    funext d; apply Fin.ext
    match d with
    | ⟨0, _⟩ => show win0_3.index t (0 : Fin 2) * 5000 + 1 * p.val = t.val * 5000 + p.val; omega
    | ⟨1, _⟩ => show win0_3.index t (1 : Fin 2) * 128 + 1 * q.val = q.val; omega
  have h0 : ∀ k : Fin 128, ((cfg0.win 0).blk t).view.emb (ix2 p k) = (ix2 ⟨t.val * 5000 + p.val, hr⟩ k : S50000x128.Idx) := fun k => by
    funext d; apply Fin.ext
    match d with
    | ⟨0, _⟩ => show win0_0.index t (0 : Fin 2) * 5000 + 1 * p.val = t.val * 5000 + p.val; omega
    | ⟨1, _⟩ => show win0_0.index t (1 : Fin 2) * 128 + 1 * k.val = k.val; omega
  have h1 : ∀ k : Fin 128, ((cfg0.win 1).blk t).view.emb (ix2 k q) = (ix2 k q : S128x128.Idx) := fun k => by
    funext d; apply Fin.ext
    match d with
    | ⟨0, _⟩ => show win0_1.index t (0 : Fin 2) * 128 + 1 * k.val = k.val; omega
    | ⟨1, _⟩ => show win0_1.index t (1 : Fin 2) * 128 + 1 * q.val = q.val; omega
  have h2 : ((cfg0.win 2).blk t).view.emb (ix2 (0 : Fin 1) q) = (ix2 (0 : Fin 1) q : S1x128.Idx) := by
    funext d; apply Fin.ext
    match d with
    | ⟨0, _⟩ => show win0_2.index t (0 : Fin 2) * 1 + 1 * 0 = 0; omega
    | ⟨1, _⟩ => show win0_2.index t (1 : Fin 2) * 128 + 1 * q.val = q.val; omega
  show k0_pay1 (F := Ideal) (iblk0 V c 0 t) (iblk0 V c 1 t) (iblk0 V c 2 t) (ix2 p q)
    = Cert.Spec.embedG (V c main_arg0) (V c main_arg4) (Cert.Spec.row (V c main_v0)) (((cfg0.win 3).blk t).view.emb (ix2 p q))
  refine (pay_apply _ _ _ p q).trans ?_
  rw [h3]
  refine congrArg₂ (· + ·) (Finset.sum_congr rfl fun k _ => congrArg₂ (· * ·) ?_ ?_) ?_
  · show V c main_arg0 (((cfg0.win 0).blk t).view.emb (ix2 p k)) = V c main_arg0 (ix2 ⟨t.val * 5000 + p.val, hr⟩ k)
    rw [h0 k]
  · show V c main_arg4 (((cfg0.win 1).blk t).view.emb (ix2 k q)) = V c main_arg4 (ix2 k q)
    rw [h1 k]
  · show V c main_v0 (((cfg0.win 2).blk t).view.emb (ix2 (0 : Fin 1) q)) = V c main_v0 (ix2 (0 : Fin 1) q)
    rw [h2]

/-- An index of the output array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- Every row lies in a block: row r in block r / 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨e00, e01, e10, e11, e20, e21, e30, e31⟩ := places t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-! ## The output array after the region -/

/-- THE EMBEDDING REGION'S VALUE: after its ten points the output array is `x · We + be` of the three arrays at entry. -/
theorem embed_value (V : (c : Dev nD) → (b : Ref sig .tc) → Buf (Elt Ideal) ((c : Thread nD τ).loc b)) (c : Dev nD) :
    (dat0 (F := Ideal) V c).arrAt 3 cfg0.N = Cert.Spec.embedG (V c main_arg0) (V c main_arg4) (Cert.Spec.row (V c main_v0)) :=
  (dat0 (F := Ideal) V c).arrAt_eq_of_cover 3 (Cert.Spec.embedG (V c main_arg0) (V c main_arg4) (Cert.Spec.row (V c main_v0)))
    (fun t _ => flushed_eq V c t) cover

end Cert.KernelIdeal.EmbedValue

end
-- ==== Proof.Layer1Value.lean ====
import proofs.«171844_j32538672234672_1_alg».proof.Proof.Gen.KernelIdeal.Frame
import proofs.«171844_j32538672234672_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Layer1Value

open Cert.KernelIdeal Cert.KernelIdeal.Gen Idealize.ShloMosaic Idealize.ShloMosaic.ValueIdx
open Idealize.ShloMosaic.TcCoe Idealize.SL.Sem

/-! ## The two contractions read at an index

Each of the body's two matrix products contracts one axis into the zero accumulator, so its entry at `(p, q)` is the sum
over the contracted coordinate of the left operand's row `p` times the right operand's column `q`. -/

theorem lhs1_row (i : S5000x256.Idx) (k : dot_S5000x128_S128x256_S5000x256_1_0_0_1_n_n.contr.Idx) :
    (dot_S5000x128_S128x256_S5000x256_1_0_0_1_n_n.lhsIdx i k 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs1_k (i : S5000x256.Idx) (k : dot_S5000x128_S128x256_S5000x256_1_0_0_1_n_n.contr.Idx) :
    (dot_S5000x128_S128x256_S5000x256_1_0_0_1_n_n.lhsIdx i k 1).val = (k ⟨0, by decide⟩).val :=
  dot_S5000x128_S128x256_S5000x256_1_0_0_1_n_n.lhsIdx_val_of_single rfl i k
theorem rhs1_k (i : S5000x256.Idx) (k : dot_S5000x128_S128x256_S5000x256_1_0_0_1_n_n.contr.Idx) :
    (dot_S5000x128_S128x256_S5000x256_1_0_0_1_n_n.rhsIdx i k 0).val = (k ⟨0, by decide⟩).val :=
  dot_S5000x128_S128x256_S5000x256_1_0_0_1_n_n.rhsIdx_val_of_single rfl i k
theorem rhs1_col (i : S5000x256.Idx) (k : dot_S5000x128_S128x256_S5000x256_1_0_0_1_n_n.contr.Idx) :
    (dot_S5000x128_S128x256_S5000x256_1_0_0_1_n_n.rhsIdx i k 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The first product, `[5000,128] · [128,256]`, at `(p, q)`. -/
theorem mm1_apply (a : FVec Ideal S5000x128 .bf16) (b : FVec Ideal S128x256 .bf16) (p : Fin 5000) (q : Fin 256) :
    matmul (F := Ideal) dot_S5000x128_S128x256_S5000x256_1_0_0_1_n_n none a b (constant S5000x256 .f32 0x00000000#32) (ix2 p q)
      = ∑ k : Fin 128, a (ix2 p k) * b (ix2 k q) := by
  show FloatOps.matmul dot_S5000x128_S128x256_S5000x256_1_0_0_1_n_n none a b (constant S5000x256 .f32 0x00000000#32) (ix2 p q) = _
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun ax => Fin.ext (by
    match ax with
    | ⟨0, _⟩ => exact lhs1_row _ _
    | ⟨1, _⟩ => exact (lhs1_k _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun ax => Fin.ext (by
    match ax with
    | ⟨0, _⟩ => exact (rhs1_k _ _).trans hk
    | ⟨1, _⟩ => exact rhs1_col _ _)
  rw [el, er]

theorem lhs2_row (i : S5000x128.Idx) (k : dot_S5000x256_S256x128_S5000x128_1_0_0_1_n_n.contr.Idx) :
    (dot_S5000x256_S256x128_S5000x128_1_0_0_1_n_n.lhsIdx i k 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs2_k (i : S5000x128.Idx) (k : dot_S5000x256_S256x128_S5000x128_1_0_0_1_n_n.contr.Idx) :
    (dot_S5000x256_S256x128_S5000x128_1_0_0_1_n_n.lhsIdx i k 1).val = (k ⟨0, by decide⟩).val :=
  dot_S5000x256_S256x128_S5000x128_1_0_0_1_n_n.lhsIdx_val_of_single rfl i k
theorem rhs2_k (i : S5000x128.Idx) (k : dot_S5000x256_S256x128_S5000x128_1_0_0_1_n_n.contr.Idx) :
    (dot_S5000x256_S256x128_S5000x128_1_0_0_1_n_n.rhsIdx i k 0).val = (k ⟨0, by decide⟩).val :=
  dot_S5000x256_S256x128_S5000x128_1_0_0_1_n_n.rhsIdx_val_of_single rfl i k
theorem rhs2_col (i : S5000x128.Idx) (k : dot_S5000x256_S256x128_S5000x128_1_0_0_1_n_n.contr.Idx) :
    (dot_S5000x256_S256x128_S5000x128_1_0_0_1_n_n.rhsIdx i k 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The second product, `[5000,256] · [256,128]`, at `(p, q)`. -/
theorem mm2_apply (a : FVec Ideal S5000x256 .bf16) (b : FVec Ideal S256x128 .bf16) (p : Fin 5000) (q : Fin 128) :
    matmul (F := Ideal) dot_S5000x256_S256x128_S5000x128_1_0_0_1_n_n none a b (constant S5000x128 .f32 0x00000000#32) (ix2 p q)
      = ∑ k : Fin 256, a (ix2 p k) * b (ix2 k q) := by
  show FloatOps.matmul dot_S5000x256_S256x128_S5000x128_1_0_0_1_n_n none a b (constant S5000x128 .f32 0x00000000#32) (ix2 p q) = _
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun ax => Fin.ext (by
    match ax with
    | ⟨0, _⟩ => exact lhs2_row _ _
    | ⟨1, _⟩ => exact (lhs2_k _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun ax => Fin.ext (by
    match ax with
    | ⟨0, _⟩ => exact (rhs2_k _ _).trans hk
    | ⟨1, _⟩ => exact rhs2_col _ _)
  rw [el, er]

/-! ## The body's arithmetic at an index

The body adds the two row blocks, multiplies by the first weight matrix, adds the bias, subtracts the stored mean,
multiplies by the reciprocal square root of the stored variance plus the stabiliser, scales, shifts, and clamps at zero;
then does the same with the second weight matrix and the second set of statistics. Every step but the two products and the
row broadcasts acts entry by entry. -/

/-- The hidden activations at `(p, q)` of a block: the first affine map of the two row blocks' sum, normalised with the
    stored statistics and clamped. -/
theorem hidden_at (x0 x1 : Vec Ideal S5000x128 .f32) (w : Vec Ideal S128x256 .f32) (b mu var g bt : Vec Ideal S1x256 .f32)
    (p : Fin 5000) (q : Fin 256) :
    k1_pay2 (F := Ideal) x0 x1 w b mu var g bt (ix2 p q)
      = max (((((∑ k : Fin 128, (x0 (ix2 p k) + x1 (ix2 p k)) * w (ix2 k q)) + b (ix2 0 q)) - mu (ix2 0 q))
          * Ideal.rsqrt (var (ix2 0 q) + Ideal.ofBits .f32 0x3727C5AC#32)) * g (ix2 0 q) + bt (ix2 0 q))
        (Ideal.ofBits .f32 0x00000000#32) := by
  unfold k1_pay2
  simp only [shapeCast_self]
  rw [truncf_apply, maximumf_apply, addf_apply, mulf_apply, mulf_apply, subf_apply, addf_apply, mm1_apply,
    broadcastTo_1b_ab_apply, broadcastTo_1b_ab_apply, broadcastTo_1b_ab_apply, broadcastTo_1b_ab_apply,
    broadcastTo_1b_ab_apply]
  rfl

/-- The body's result at `(p, q)` of a block, from the hidden activations `hid` (whatever they are) and the second
    set of parameters. -/
theorem out_of_hidden (hid : FVec Ideal S5000x256 .bf16) (w : Vec Ideal S256x128 .f32) (b mu var g bt : Vec Ideal S1x128 .f32)
    (p : Fin 5000) (q : Fin 128) :
    k1_pay1 (F := Ideal) hid (k1_pay3 (F := Ideal) w) b mu var g bt (ix2 p q)
      = max (((((∑ k : Fin 256, hid (ix2 p k) * w (ix2 k q)) + b (ix2 0 q)) - mu (ix2 0 q))
          * Ideal.rsqrt (var (ix2 0 q) + Ideal.ofBits .f32 0x3727C5AC#32)) * g (ix2 0 q) + bt (ix2 0 q))
        (Ideal.ofBits .f32 0x00000000#32) := by
  unfold k1_pay1 k1_pay3
  simp only [shapeCast_self]
  rw [maximumf_apply, addf_apply, mulf_apply, mulf_apply, subf_apply, addf_apply, mm2_apply,
    broadcastTo_1b_ab_apply, broadcastTo_1b_ab_apply, broadcastTo_1b_ab_apply, broadcastTo_1b_ab_apply,
    broadcastTo_1b_ab_apply]
  rfl

/-! ## The windows' blocks as parts of the arrays

The grid has ten points. At point `t` the two node-indexed inputs and the output are at rows `5000 t … 5000 t + 4999`
of their arrays (block `(t, 0)`); every parameter window is its whole array (block `(0, 0)`). The printed index maps
are decided once over the grid. -/

theorem hz : (![0, 0] : Fin 2 → Nat) = fun _ => 0 := funext fun a => by fin_cases a <;> rfl

/-- A grid point is below ten. -/
theorem point_lt (t : Fin cfg1.N) : t.val < 10 :=
  lt_of_lt_of_eq t.isLt (show cfg1.N = 10 from N_1)

/-- Row `p` of block `t` is row `5000 t + p` of the array. -/
def rowAt (t : Fin cfg1.N) (p : Fin 5000) : Fin 50000 :=
  ⟨t.val * 5000 + p.val, by have := point_lt t; have := p.isLt; omega⟩

theorem rowAt_val (t : Fin cfg1.N) (p : Fin 5000) : (rowAt t p).val = t.val * 5000 + p.val := rfl

/-- Window 0 is at block `(t, 0)`. -/
theorem idx_w0 : ∀ t : Fin cfg1.N, win1_0.index t (0 : Fin 2) = t.val ∧ win1_0.index t (1 : Fin 2) = 0 :=
  (by decide +kernel : ∀ t : Fin grid1.N, _)

/-- Window 1 is at block `(t, 0)`. -/
theorem idx_w1 : ∀ t : Fin cfg1.N, win1_1.index t (0 : Fin 2) = t.val ∧ win1_1.index t (1 : Fin 2) = 0 :=
  (by decide +kernel : ∀ t : Fin grid1.N, _)

/-- Window 14 is at block `(t, 0)`. -/
theorem idx_w14 : ∀ t : Fin cfg1.N, win1_14.index t (0 : Fin 2) = t.val ∧ win1_14.index t (1 : Fin 2) = 0 :=
  (by decide +kernel : ∀ t : Fin grid1.N, _)

/-- Window 2 is at block `(0, 0)`. -/
theorem idx_w2 : ∀ t : Fin cfg1.N, win1_2.index t (0 : Fin 2) = 0 ∧ win1_2.index t (1 : Fin 2) = 0 :=
  (by decide +kernel : ∀ t : Fin grid1.N, _)

/-- Window 3 is at block `(0, 0)`. -/
theorem idx_w3 : ∀ t : Fin cfg1.N, win1_3.index t (0 : Fin 2) = 0 ∧ win1_3.index t (1 : Fin 2) = 0 :=
  (by decide +kernel : ∀ t : Fin grid1.N, _)

/-- Window 4 is at block `(0, 0)`. -/
theorem idx_w4 : ∀ t : Fin cfg1.N, win1_4.index t (0 : Fin 2) = 0 ∧ win1_4.index t (1 : Fin 2) = 0 :=
  (by decide +kernel : ∀ t : Fin grid1.N, _)

/-- Window 5 is at block `(0, 0)`. -/
theorem idx_w5 : ∀ t : Fin cfg1.N, win1_5.index t (0 : Fin 2) = 0 ∧ win1_5.index t (1 : Fin 2) = 0 :=
  (by decide +kernel : ∀ t : Fin grid1.N, _)

/-- Window 6 is at block `(0, 0)`. -/
theorem idx_w6 : ∀ t : Fin cfg1.N, win1_6.index t (0 : Fin 2) = 0 ∧ win1_6.index t (1 : Fin 2) = 0 :=
  (by decide +kernel : ∀ t : Fin grid1.N, _)

/-- Window 7 is at block `(0, 0)`. -/
theorem idx_w7 : ∀ t : Fin cfg1.N, win1_7.index t (0 : Fin 2) = 0 ∧ win1_7.index t (1 : Fin 2) = 0 :=
  (by decide +kernel : ∀ t : Fin grid1.N, _)

/-- Window 8 is at block `(0, 0)`. -/
theorem idx_w8 : ∀ t : Fin cfg1.N, win1_8.index t (0 : Fin 2) = 0 ∧ win1_8.index t (1 : Fin 2) = 0 :=
  (by decide +kernel : ∀ t : Fin grid1.N, _)

/-- Window 9 is at block `(0, 0)`. -/
theorem idx_w9 : ∀ t : Fin cfg1.N, win1_9.index t (0 : Fin 2) = 0 ∧ win1_9.index t (1 : Fin 2) = 0 :=
  (by decide +kernel : ∀ t : Fin grid1.N, _)

/-- Window 10 is at block `(0, 0)`. -/
theorem idx_w10 : ∀ t : Fin cfg1.N, win1_10.index t (0 : Fin 2) = 0 ∧ win1_10.index t (1 : Fin 2) = 0 :=
  (by decide +kernel : ∀ t : Fin grid1.N, _)

/-- Window 11 is at block `(0, 0)`. -/
theorem idx_w11 : ∀ t : Fin cfg1.N, win1_11.index t (0 : Fin 2) = 0 ∧ win1_11.index t (1 : Fin 2) = 0 :=
  (by decide +kernel : ∀ t : Fin grid1.N, _)

/-- Window 12 is at block `(0, 0)`. -/
theorem idx_w12 : ∀ t : Fin cfg1.N, win1_12.index t (0 : Fin 2) = 0 ∧ win1_12.index t (1 : Fin 2) = 0 :=
  (by decide +kernel : ∀ t : Fin grid1.N, _)

/-- Window 13 is at block `(0, 0)`. -/
theorem idx_w13 : ∀ t : Fin cfg1.N, win1_13.index t (0 : Fin 2) = 0 ∧ win1_13.index t (1 : Fin 2) = 0 :=
  (by decide +kernel : ∀ t : Fin grid1.N, _)

/-- The node rows' block at point `t`, entry `(p, k)`: the array at row `5000 t + p`. -/
theorem blk0_apply (V : (c : Dev nD) → (b : Ref sig .tc) → Buf (Elt Ideal) ((c : Thread nD τ).loc b)) (c : Dev nD) (t : Fin cfg1.N) (p : Fin 5000) (k : Fin 128) :
    (iblk1 (F := Ideal) V c 0 t : Vec Ideal S5000x128 .f32) (ix2 p k) = V c main_v1 (ix2 (rowAt t p) k) := by
  obtain ⟨e0, e1⟩ := idx_w0 t
  unfold iblk1
  rw [View.read_apply]
  show V c main_v1 _ = V c main_v1 _
  refine congrArg (V c main_v1) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- The neighbour sums' block at point `t`, entry `(p, k)`: the array at row `5000 t + p`. -/
theorem blk1_apply (V : (c : Dev nD) → (b : Ref sig .tc) → Buf (Elt Ideal) ((c : Thread nD τ).loc b)) (c : Dev nD) (t : Fin cfg1.N) (p : Fin 5000) (k : Fin 128) :
    (iblk1 (F := Ideal) V c 1 t : Vec Ideal S5000x128 .f32) (ix2 p k) = V c main_v11 (ix2 (rowAt t p) k) := by
  obtain ⟨e0, e1⟩ := idx_w1 t
  unfold iblk1
  rw [View.read_apply]
  show V c main_v11 _ = V c main_v11 _
  refine congrArg (V c main_v11) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

/-- The first weights' block at any point is the whole matrix. -/
theorem blk2_apply (V : (c : Dev nD) → (b : Ref sig .tc) → Buf (Elt Ideal) ((c : Thread nD τ).loc b)) (c : Dev nD) (t : Fin cfg1.N) (k : Fin 128) (q : Fin 256) :
    (iblk1 (F := Ideal) V c 2 t : Vec Ideal S128x256 .f32) (ix2 k q) = V c main_v13 (ix2 k q) := by
  obtain ⟨e0, e1⟩ := idx_w2 t
  unfold iblk1
  rw [View.read_apply]
  show V c main_v13 _ = V c main_v13 _
  refine congrArg (V c main_v13) (funext fun a => Fin.ext ?_)
  match a with
  | ⟨0, _⟩ => show win1_2.index t (0 : Fin 2) * 128 + 1 * k.val = k.val; rw [e0]; omega
  | ⟨1, _⟩ => show win1_2.index t (1 : Fin 2) * 256 + 1 * q.val = q.val; rw [e1]; omega

/-- The second weights' block at any point is the whole matrix. -/
theorem blk8_apply (V : (c : Dev nD) → (b : Ref sig .tc) → Buf (Elt Ideal) ((c : Thread nD τ).loc b)) (c : Dev nD) (t : Fin cfg1.N) (k : Fin 256) (q : Fin 128) :
    (iblk1 (F := Ideal) V c 8 t : Vec Ideal S256x128 .f32) (ix2 k q) = V c main_v25 (ix2 k q) := by
  obtain ⟨e0, e1⟩ := idx_w8 t
  unfold iblk1
  rw [View.read_apply]
  show V c main_v25 _ = V c main_v25 _
  refine congrArg (V c main_v25) (funext fun a => Fin.ext ?_)
  match a with
  | ⟨0, _⟩ => show win1_8.index t (0 : Fin 2) * 256 + 1 * k.val = k.val; rw [e0]; omega
  | ⟨1, _⟩ => show win1_8.index t (1 : Fin 2) * 128 + 1 * q.val = q.val; rw [e1]; omega

/-- The first bias's block at any point is the whole row. -/
theorem blk3_apply (V : (c : Dev nD) → (b : Ref sig .tc) → Buf (Elt Ideal) ((c : Thread nD τ).loc b)) (c : Dev nD) (t : Fin cfg1.N) (q : Fin 256) :
    (iblk1 (F := Ideal) V c 3 t : Vec Ideal S1x256 .f32) (ix2 0 q) = V c main_v36 (ix2 0 q) := by
  obtain ⟨e0, e1⟩ := idx_w3 t
  unfold iblk1
  rw [View.read_apply]
  show V c main_v36 _ = V c main_v36 _
  refine congrArg (V c main_v36) (funext fun a => Fin.ext ?_)
  match a with
  | ⟨0, _⟩ => show win1_3.index t (0 : Fin 2) * 1 + 1 * 0 = 0; rw [e0]
  | ⟨1, _⟩ => show win1_3.index t (1 : Fin 2) * 256 + 1 * q.val = q.val; rw [e1]; omega

/-- The first scale's block at any point is the whole row. -/
theorem blk4_apply (V : (c : Dev nD) → (b : Ref sig .tc) → Buf (Elt Ideal) ((c : Thread nD τ).loc b)) (c : Dev nD) (t : Fin cfg1.N) (q : Fin 256) :
    (iblk1 (F := Ideal) V c 4 t : Vec Ideal S1x256 .f32) (ix2 0 q) = V c main_v37 (ix2 0 q) := by
  obtain ⟨e0, e1⟩ := idx_w4 t
  unfold iblk1
  rw [View.read_apply]
  show V c main_v37 _ = V c main_v37 _
  refine congrArg (V c main_v37) (funext fun a => Fin.ext ?_)
  match a with
  | ⟨0, _⟩ => show win1_4.index t (0 : Fin 2) * 1 + 1 * 0 = 0; rw [e0]
  | ⟨1, _⟩ => show win1_4.index t (1 : Fin 2) * 256 + 1 * q.val = q.val; rw [e1]; omega

/-- The first shift's block at any point is the whole row. -/
theorem blk5_apply (V : (c : Dev nD) → (b : Ref sig .tc) → Buf (Elt Ideal) ((c : Thread nD τ).loc b)) (c : Dev nD) (t : Fin cfg1.N) (q : Fin 256) :
    (iblk1 (F := Ideal) V c 5 t : Vec Ideal S1x256 .f32) (ix2 0 q) = V c main_v38 (ix2 0 q) := by
  obtain ⟨e0, e1⟩ := idx_w5 t
  unfold iblk1
  rw [View.read_apply]
  show V c main_v38 _ = V c main_v38 _
  refine congrArg (V c main_v38) (funext fun a => Fin.ext ?_)
  match a with
  | ⟨0, _⟩ => show win1_5.index t (0 : Fin 2) * 1 + 1 * 0 = 0; rw [e0]
  | ⟨1, _⟩ => show win1_5.index t (1 : Fin 2) * 256 + 1 * q.val = q.val; rw [e1]; omega

/-- The first mean's block at any point is the whole row. -/
theorem blk6_apply (V : (c : Dev nD) → (b : Ref sig .tc) → Buf (Elt Ideal) ((c : Thread nD τ).loc b)) (c : Dev nD) (t : Fin cfg1.N) (q : Fin 256) :
    (iblk1 (F := Ideal) V c 6 t : Vec Ideal S1x256 .f32) (ix2 0 q) = V c main_v39 (ix2 0 q) := by
  obtain ⟨e0, e1⟩ := idx_w6 t
  unfold iblk1
  rw [View.read_apply]
  show V c main_v39 _ = V c main_v39 _
  refine congrArg (V c main_v39) (funext fun a => Fin.ext ?_)
  match a with
  | ⟨0, _⟩ => show win1_6.index t (0 : Fin 2) * 1 + 1 * 0 = 0; rw [e0]
  | ⟨1, _⟩ => show win1_6.index t (1 : Fin 2) * 256 + 1 * q.val = q.val; rw [e1]; omega

/-- The first variance's block at any point is the whole row. -/
theorem blk7_apply (V : (c : Dev nD) → (b : Ref sig .tc) → Buf (Elt Ideal) ((c : Thread nD τ).loc b)) (c : Dev nD) (t : Fin cfg1.N) (q : Fin 256) :
    (iblk1 (F := Ideal) V c 7 t : Vec Ideal S1x256 .f32) (ix2 0 q) = V c main_v40 (ix2 0 q) := by
  obtain ⟨e0, e1⟩ := idx_w7 t
  unfold iblk1
  rw [View.read_apply]
  show V c main_v40 _ = V c main_v40 _
  refine congrArg (V c main_v40) (funext fun a => Fin.ext ?_)
  match a with
  | ⟨0, _⟩ => show win1_7.index t (0 : Fin 2) * 1 + 1 * 0 = 0; rw [e0]
  | ⟨1, _⟩ => show win1_7.index t (1 : Fin 2) * 256 + 1 * q.val = q.val; rw [e1]; omega

/-- The second bias's block at any point is the whole row. -/
theorem blk9_apply (V : (c : Dev nD) → (b : Ref sig .tc) → Buf (Elt Ideal) ((c : Thread nD τ).loc b)) (c : Dev nD) (t : Fin cfg1.N) (q : Fin 128) :
    (iblk1 (F := Ideal) V c 9 t : Vec Ideal S1x128 .f32) (ix2 0 q) = V c main_v41 (ix2 0 q) := by
  obtain ⟨e0, e1⟩ := idx_w9 t
  unfold iblk1
  rw [View.read_apply]
  show V c main_v41 _ = V c main_v41 _
  refine congrArg (V c main_v41) (funext fun a => Fin.ext ?_)
  match a with
  | ⟨0, _⟩ => show win1_9.index t (0 : Fin 2) * 1 + 1 * 0 = 0; rw [e0]
  | ⟨1, _⟩ => show win1_9.index t (1 : Fin 2) * 128 + 1 * q.val = q.val; rw [e1]; omega

/-- The second scale's block at any point is the whole row. -/
theorem blk10_apply (V : (c : Dev nD) → (b : Ref sig .tc) → Buf (Elt Ideal) ((c : Thread nD τ).loc b)) (c : Dev nD) (t : Fin cfg1.N) (q : Fin 128) :
    (iblk1 (F := Ideal) V c 10 t : Vec Ideal S1x128 .f32) (ix2 0 q) = V c main_v42 (ix2 0 q) := by
  obtain ⟨e0, e1⟩ := idx_w10 t
  unfold iblk1
  rw [View.read_apply]
  show V c main_v42 _ = V c main_v42 _
  refine congrArg (V c main_v42) (funext fun a => Fin.ext ?_)
  match a with
  | ⟨0, _⟩ => show win1_10.index t (0 : Fin 2) * 1 + 1 * 0 = 0; rw [e0]
  | ⟨1, _⟩ => show win1_10.index t (1 : Fin 2) * 128 + 1 * q.val = q.val; rw [e1]; omega

/-- The second shift's block at any point is the whole row. -/
theorem blk11_apply (V : (c : Dev nD) → (b : Ref sig .tc) → Buf (Elt Ideal) ((c : Thread nD τ).loc b)) (c : Dev nD) (t : Fin cfg1.N) (q : Fin 128) :
    (iblk1 (F := Ideal) V c 11 t : Vec Ideal S1x128 .f32) (ix2 0 q) = V c main_v43 (ix2 0 q) := by
  obtain ⟨e0, e1⟩ := idx_w11 t
  unfold iblk1
  rw [View.read_apply]
  show V c main_v43 _ = V c main_v43 _
  refine congrArg (V c main_v43) (funext fun a => Fin.ext ?_)
  match a with
  | ⟨0, _⟩ => show win1_11.index t (0 : Fin 2) * 1 + 1 * 0 = 0; rw [e0]
  | ⟨1, _⟩ => show win1_11.index t (1 : Fin 2) * 128 + 1 * q.val = q.val; rw [e1]; omega

/-- The second mean's block at any point is the whole row. -/
theorem blk12_apply (V : (c : Dev nD) → (b : Ref sig .tc) → Buf (Elt Ideal) ((c : Thread nD τ).loc b)) (c : Dev nD) (t : Fin cfg1.N) (q : Fin 128) :
    (iblk1 (F := Ideal) V c 12 t : Vec Ideal S1x128 .f32) (ix2 0 q) = V c main_v44 (ix2 0 q) := by
  obtain ⟨e0, e1⟩ := idx_w12 t
  unfold iblk1
  rw [View.read_apply]
  show V c main_v44 _ = V c main_v44 _
  refine congrArg (V c main_v44) (funext fun a => Fin.ext ?_)
  match a with
  | ⟨0, _⟩ => show win1_12.index t (0 : Fin 2) * 1 + 1 * 0 = 0; rw [e0]
  | ⟨1, _⟩ => show win1_12.index t (1 : Fin 2) * 128 + 1 * q.val = q.val; rw [e1]; omega

/-- The second variance's block at any point is the whole row. -/
theorem blk13_apply (V : (c : Dev nD) → (b : Ref sig .tc) → Buf (Elt Ideal) ((c : Thread nD τ).loc b)) (c : Dev nD) (t : Fin cfg1.N) (q : Fin 128) :
    (iblk1 (F := Ideal) V c 13 t : Vec Ideal S1x128 .f32) (ix2 0 q) = V c main_v45 (ix2 0 q) := by
  obtain ⟨e0, e1⟩ := idx_w13 t
  unfold iblk1
  rw [View.read_apply]
  show V c main_v45 _ = V c main_v45 _
  refine congrArg (V c main_v45) (funext fun a => Fin.ext ?_)
  match a with
  | ⟨0, _⟩ => show win1_13.index t (0 : Fin 2) * 1 + 1 * 0 = 0; rw [e0]
  | ⟨1, _⟩ => show win1_13.index t (1 : Fin 2) * 128 + 1 * q.val = q.val; rw [e1]; omega

/-- Entry `(p, q)` of the output's block at point `t` lies at row `5000 t + p` of the output array. -/
theorem emb_out (t : Fin cfg1.N) (p : Fin 5000) (q : Fin 128) :
    ((cfg1.win 14).blk t).view.emb (ix2 p q : S5000x128.Idx) = (ix2 (rowAt t p) q : S50000x128.Idx) := by
  obtain ⟨e0, e1⟩ := idx_w14 t
  refine funext fun a => Fin.ext ?_
  match a with
  | ⟨0, _⟩ => show win1_14.index t (0 : Fin 2) * 5000 + 1 * p.val = t.val * 5000 + p.val; rw [e0]; omega
  | ⟨1, _⟩ => show win1_14.index t (1 : Fin 2) * 128 + 1 * q.val = q.val; rw [e1]; omega

/-- An index of the output array is in point `t`'s block iff each coordinate is in the block's range on its axis. -/
theorem mem_blk (t : Fin cfg1.N) (i : S50000x128.Idx) :
    i ∈ ((cfg1.win 14).blk t).view.set ↔ ∀ a : Fin 2, win1_14.index t a * S5000x128.size a ≤ (i a).val ∧ (i a).val < win1_14.index t a * S5000x128.size a + S5000x128.size a := by
  show i ∈ ((View.whole main_v46).slice (win1_14.rect t)).set ↔ _
  rw [View.set_slice_whole, Rect.mem_set_unit]
  exact Iff.rfl

/-- Every row of the output array is in some point's block: row `r` in that of point `r / 5000`. -/
theorem cover (i : S50000x128.Idx) :
    ∃ t : Fin cfg1.N, (cfg1.win 14).flush t = true ∧ i ∈ ((cfg1.win 14).blk t).view.set := by
  have hi0 : (i 0).val < 50000 := (i 0).isLt
  have hi1 : (i 1).val < 128 := (i 1).isLt
  have ht : (i 0).val / 5000 < cfg1.N := by rw [show cfg1.N = 10 from N_1]; omega
  obtain ⟨e0, e1⟩ := idx_w14 ⟨(i 0).val / 5000, ht⟩
  have e0' : win1_14.index ⟨(i 0).val / 5000, ht⟩ (0 : Fin 2) = (i 0).val / 5000 := e0
  refine ⟨⟨(i 0).val / 5000, ht⟩, flush1_14 _, ?_⟩
  rw [mem_blk]
  intro a
  match a with
  | ⟨0, _⟩ =>
    show win1_14.index ⟨(i 0).val / 5000, ht⟩ (0 : Fin 2) * 5000 ≤ (i 0).val ∧ (i 0).val < win1_14.index ⟨(i 0).val / 5000, ht⟩ (0 : Fin 2) * 5000 + 5000
    rw [e0']; omega
  | ⟨1, _⟩ =>
    show win1_14.index ⟨(i 0).val / 5000, ht⟩ (1 : Fin 2) * 128 ≤ (i 1).val ∧ (i 1).val < win1_14.index ⟨(i 0).val / 5000, ht⟩ (1 : Fin 2) * 128 + 128
    rw [e1]; omega

/-! ## The body's arithmetic with each loaded entry named

The same two equations, with what each loaded block holds at the entries read given as hypotheses: the form that is
instantiated at the windows' blocks. -/

theorem hidden_of (x0 x1 : Vec Ideal S5000x128 .f32) (w : Vec Ideal S128x256 .f32) (b mu var g bt : Vec Ideal S1x256 .f32)
    (p : Fin 5000) (q : Fin 256) (X0 X1 W : Fin 128 → EReal) (B MU VAR G BT : EReal)
    (h0 : ∀ k, x0 (ix2 p k) = X0 k) (h1 : ∀ k, x1 (ix2 p k) = X1 k) (hw : ∀ k, w (ix2 k q) = W k)
    (hb : b (ix2 0 q) = B) (hmu : mu (ix2 0 q) = MU) (hvar : var (ix2 0 q) = VAR) (hg : g (ix2 0 q) = G) (hbt : bt (ix2 0 q) = BT) :
    k1_pay2 (F := Ideal) x0 x1 w b mu var g bt (ix2 p q)
      = max (((((∑ k : Fin 128, (X0 k + X1 k) * W k) + B) - MU)
          * Ideal.rsqrt (VAR + Ideal.ofBits .f32 0x3727C5AC#32)) * G + BT)
        (Ideal.ofBits .f32 0x00000000#32) := by
  rw [hidden_at, hb, hmu, hvar, hg, hbt,
    show (∑ k : Fin 128, (x0 (ix2 p k) + x1 (ix2 p k)) * w (ix2 k q)) = ∑ k : Fin 128, (X0 k + X1 k) * W k from
      Finset.sum_congr rfl fun k _ => by rw [h0 k, h1 k, hw k]]

theorem out_of (hid : FVec Ideal S5000x256 .bf16) (w : Vec Ideal S256x128 .f32) (b mu var g bt : Vec Ideal S1x128 .f32)
    (p : Fin 5000) (q : Fin 128) (H W : Fin 256 → EReal) (B MU VAR G BT : EReal)
    (hh : ∀ k, hid (ix2 p k) = H k) (hw : ∀ k, w (ix2 k q) = W k)
    (hb : b (ix2 0 q) = B) (hmu : mu (ix2 0 q) = MU) (hvar : var (ix2 0 q) = VAR) (hg : g (ix2 0 q) = G) (hbt : bt (ix2 0 q) = BT) :
    k1_pay1 (F := Ideal) hid (k1_pay3 (F := Ideal) w) b mu var g bt (ix2 p q)
      = max (((((∑ k : Fin 256, H k * W k) + B) - MU)
          * Ideal.rsqrt (VAR + Ideal.ofBits .f32 0x3727C5AC#32)) * G + BT)
        (Ideal.ofBits .f32 0x00000000#32) := by
  rw [out_of_hidden, hb, hmu, hvar, hg, hbt,
    show (∑ k : Fin 256, hid (ix2 p k) * w (ix2 k q)) = ∑ k : Fin 256, H k * W k from
      Finset.sum_congr rfl fun k _ => by rw [hh k, hw k]]

/-! ## One round, block by block, and the whole array -/

/-- What the round leaves in the output array: the specification's round of the arrays the region finds. -/
abbrev roundOf (V : (c : Dev nD) → (b : Ref sig .tc) → Buf (Elt Ideal) ((c : Thread nD τ).loc b)) (c : Dev nD) : Cert.Spec.Mat 50000 128 :=
  Cert.Spec.layerG (V c main_v1) (V c main_v11) (V c main_v13) (Cert.Spec.row (V c main_v36)) (Cert.Spec.row (V c main_v37)) (Cert.Spec.row (V c main_v38)) (Cert.Spec.row (V c main_v39)) (Cert.Spec.row (V c main_v40)) (V c main_v25) (Cert.Spec.row (V c main_v41)) (Cert.Spec.row (V c main_v42)) (Cert.Spec.row (V c main_v43)) (Cert.Spec.row (V c main_v44)) (Cert.Spec.row (V c main_v45))

/-- The hidden activations the body computes at point `t`, entry `(p, q)`, are the specification's at node
    `5000 t + p`, channel `q`. -/
theorem hidden_blk (V : (c : Dev nD) → (b : Ref sig .tc) → Buf (Elt Ideal) ((c : Thread nD τ).loc b)) (c : Dev nD) (t : Fin cfg1.N) (p : Fin 5000) (q : Fin 256) :
    (k1_pay2 (F := Ideal) (iblk1 V c 0 t) (iblk1 V c 1 t) (iblk1 V c 2 t) (iblk1 V c 3 t) (iblk1 V c 6 t) (iblk1 V c 7 t) (iblk1 V c 4 t) (iblk1 V c 5 t)) (ix2 p q)
      = Cert.Spec.hidden (V c main_v1) (V c main_v11) (V c main_v13) (Cert.Spec.row (V c main_v36)) (Cert.Spec.row (V c main_v37)) (Cert.Spec.row (V c main_v38)) (Cert.Spec.row (V c main_v39)) (Cert.Spec.row (V c main_v40)) (rowAt t p) q :=
  hidden_of _ _ _ _ _ _ _ _ p q (fun k => V c main_v1 (ix2 (rowAt t p) k)) (fun k => V c main_v11 (ix2 (rowAt t p) k))
    (fun k => V c main_v13 (ix2 k q)) (V c main_v36 (ix2 0 q)) (V c main_v39 (ix2 0 q)) (V c main_v40 (ix2 0 q)) (V c main_v37 (ix2 0 q))
    (V c main_v38 (ix2 0 q))
    (fun k => blk0_apply V c t p k) (fun k => blk1_apply V c t p k) (fun k => blk2_apply V c t k q)
    (blk3_apply V c t q) (blk6_apply V c t q) (blk7_apply V c t q) (blk4_apply V c t q) (blk5_apply V c t q)

/-- What point `t` writes back is block `t` of the specification's round. -/
theorem flushed_eq (V : (c : Dev nD) → (b : Ref sig .tc) → Buf (Elt Ideal) ((c : Thread nD τ).loc b)) (c : Dev nD) (t : Fin cfg1.N) :
    (dat1 (F := Ideal) V c).flushed 14 t = ((cfg1.win 14).blk t).view.read (Elt Ideal) (roundOf V c) := by
  show (cfg1.win 14).cut (grid1.coords t) ((dat1 V c).after 14 t) = _
  rw [after1_14]
  unfold out1_14
  rw [View.canon_unit_zero hz]
  simp only [View.ld_unit_zero (S := S5000x128) hz, View.ld_unit_zero (S := S128x256) hz, View.ld_unit_zero (S := S1x256) hz,
    View.ld_unit_zero (S := S256x128) hz, View.ld_unit_zero (S := S1x128) hz]
  funext j
  obtain ⟨p, q, rfl⟩ : ∃ (p : Fin 5000) (q : Fin 128), j = ix2 p q := ⟨j 0, j 1, eq_ix2 j⟩
  show k1_pay1 (F := Ideal) (k1_pay2 (F := Ideal) (iblk1 V c 0 t) (iblk1 V c 1 t) (iblk1 V c 2 t) (iblk1 V c 3 t) (iblk1 V c 6 t) (iblk1 V c 7 t) (iblk1 V c 4 t) (iblk1 V c 5 t)) (k1_pay3 (F := Ideal) (iblk1 V c 8 t)) (iblk1 V c 9 t) (iblk1 V c 12 t)
      (iblk1 V c 13 t) (iblk1 V c 10 t) (iblk1 V c 11 t) (ix2 p q)
    = roundOf V c (((cfg1.win 14).blk t).view.emb (ix2 p q))
  rw [emb_out t p q]
  exact out_of _ _ _ _ _ _ _ p q
    (fun k => Cert.Spec.hidden (V c main_v1) (V c main_v11) (V c main_v13) (Cert.Spec.row (V c main_v36)) (Cert.Spec.row (V c main_v37)) (Cert.Spec.row (V c main_v38)) (Cert.Spec.row (V c main_v39)) (Cert.Spec.row (V c main_v40)) (rowAt t p) k)
    (fun k => V c main_v25 (ix2 k q)) (V c main_v41 (ix2 0 q)) (V c main_v44 (ix2 0 q)) (V c main_v45 (ix2 0 q)) (V c main_v42 (ix2 0 q))
    (V c main_v43 (ix2 0 q))
    (fun k => hidden_blk V c t p k) (fun k => blk8_apply V c t k q)
    (blk9_apply V c t q) (blk12_apply V c t q) (blk13_apply V c t q) (blk10_apply V c t q) (blk11_apply V c t q)

/-- THE ROUND: after the region, the output array is the specification's round of the arrays the region finds. -/
theorem layer1_value (V : (c : Dev nD) → (b : Ref sig .tc) → Buf (Elt Ideal) ((c : Thread nD τ).loc b)) (c : Dev nD) :
    (dat1 (F := Ideal) V c).arrAt 14 cfg1.N = Cert.Spec.layerG (V c main_v1) (V c main_v11) (V c main_v13) (Cert.Spec.row (V c main_v36)) (Cert.Spec.row (V c main_v37)) (Cert.Spec.row (V c main_v38)) (Cert.Spec.row (V c main_v39)) (Cert.Spec.row (V c main_v40)) (V c main_v25) (Cert.Spec.row (V c main_v41)) (Cert.Spec.row (V c main_v42)) (Cert.Spec.row (V c main_v43)) (Cert.Spec.row (V c main_v44)) (Cert.Spec.row (V c main_v45)) :=
  (dat1 V c).arrAt_eq_of_cover 14 (roundOf V c) (fun t _ => flushed_eq V c t) cover

end Cert.KernelIdeal.Layer1Value

end
-- ==== Proof.Layer2Value.lean ====
import proofs.«171844_j32538672234672_1_alg».proof.Proof.Gen.KernelIdeal.Frame
import proofs.«171844_j32538672234672_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Layer2Value

open Cert.KernelIdeal Cert.KernelIdeal.Gen Idealize.ShloMosaic Idealize.ShloMosaic.ValueIdx
open Idealize.ShloMosaic.TcCoe Idealize.SL.Sem

/-! ## The two contractions read at an index

Each of the body's two matrix products contracts one axis into the zero accumulator, so its entry at `(p, q)` is the sum
over the contracted coordinate of the left operand's row `p` times the right operand's column `q`. -/

theorem lhs1_row (i : S5000x256.Idx) (k : dot_S5000x128_S128x256_S5000x256_1_0_0_1_n_n.contr.Idx) :
    (dot_S5000x128_S128x256_S5000x256_1_0_0_1_n_n.lhsIdx i k 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs1_k (i : S5000x256.Idx) (k : dot_S5000x128_S128x256_S5000x256_1_0_0_1_n_n.contr.Idx) :
    (dot_S5000x128_S128x256_S5000x256_1_0_0_1_n_n.lhsIdx i k 1).val = (k ⟨0, by decide⟩).val :=
  dot_S5000x128_S128x256_S5000x256_1_0_0_1_n_n.lhsIdx_val_of_single rfl i k
theorem rhs1_k (i : S5000x256.Idx) (k : dot_S5000x128_S128x256_S5000x256_1_0_0_1_n_n.contr.Idx) :
    (dot_S5000x128_S128x256_S5000x256_1_0_0_1_n_n.rhsIdx i k 0).val = (k ⟨0, by decide⟩).val :=
  dot_S5000x128_S128x256_S5000x256_1_0_0_1_n_n.rhsIdx_val_of_single rfl i k
theorem rhs1_col (i : S5000x256.Idx) (k : dot_S5000x128_S128x256_S5000x256_1_0_0_1_n_n.contr.Idx) :
    (dot_S5000x128_S128x256_S5000x256_1_0_0_1_n_n.rhsIdx i k 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The first product, `[5000,128] · [128,256]`, at `(p, q)`. -/
theorem mm1_apply (a : FVec Ideal S5000x128 .bf16) (b : FVec Ideal S128x256 .bf16) (p : Fin 5000) (q : Fin 256) :
    matmul (F := Ideal) dot_S5000x128_S128x256_S5000x256_1_0_0_1_n_n none a b (constant S5000x256 .f32 0x00000000#32) (ix2 p q)
      = ∑ k : Fin 128, a (ix2 p k) * b (ix2 k q) := by
  show FloatOps.matmul dot_S5000x128_S128x256_S5000x256_1_0_0_1_n_n none a b (constant S5000x256 .f32 0x00000000#32) (ix2 p q) = _
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun ax => Fin.ext (by
    match ax with
    | ⟨0, _⟩ => exact lhs1_row _ _
    | ⟨1, _⟩ => exact (lhs1_k _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun ax => Fin.ext (by
    match ax with
    | ⟨0, _⟩ => exact (rhs1_k _ _).trans hk
    | ⟨1, _⟩ => exact rhs1_col _ _)
  rw [el, er]

theorem lhs2_row (i : S5000x128.Idx) (k : dot_S5000x256_S256x128_S5000x128_1_0_0_1_n_n.contr.Idx) :
    (dot_S5000x256_S256x128_S5000x128_1_0_0_1_n_n.lhsIdx i k 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs2_k (i : S5000x128.Idx) (k : dot_S5000x256_S256x128_S5000x128_1_0_0_1_n_n.contr.Idx) :
    (dot_S5000x256_S256x128_S5000x128_1_0_0_1_n_n.lhsIdx i k 1).val = (k ⟨0, by decide⟩).val :=
  dot_S5000x256_S256x128_S5000x128_1_0_0_1_n_n.lhsIdx_val_of_single rfl i k
theorem rhs2_k (i : S5000x128.Idx) (k : dot_S5000x256_S256x128_S5000x128_1_0_0_1_n_n.contr.Idx) :
    (dot_S5000x256_S256x128_S5000x128_1_0_0_1_n_n.rhsIdx i k 0).val = (k ⟨0, by decide⟩).val :=
  dot_S5000x256_S256x128_S5000x128_1_0_0_1_n_n.rhsIdx_val_of_single rfl i k
theorem rhs2_col (i : S5000x128.Idx) (k : dot_S5000x256_S256x128_S5000x128_1_0_0_1_n_n.contr.Idx) :
    (dot_S5000x256_S256x128_S5000x128_1_0_0_1_n_n.rhsIdx i k 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The second product, `[5000,256] · [256,128]`, at `(p, q)`. -/
theorem mm2_apply (a : FVec Ideal S5000x256 .bf16) (b : FVec Ideal S256x128 .bf16) (p : Fin 5000) (q : Fin 128) :
    matmul (F := Ideal) dot_S5000x256_S256x128_S5000x128_1_0_0_1_n_n none a b (constant S5000x128 .f32 0x00000000#32) (ix2 p q)
      = ∑ k : Fin 256, a (ix2 p k) * b (ix2 k q) := by
  show FloatOps.matmul dot_S5000x256_S256x128_S5000x128_1_0_0_1_n_n none a b (constant S5000x128 .f32 0x00000000#32) (ix2 p q) = _
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun ax => Fin.ext (by
    match ax with
    | ⟨0, _⟩ => exact lhs2_row _ _
    | ⟨1, _⟩ => exact (lhs2_k _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun ax => Fin.ext (by
    match ax with
    | ⟨0, _⟩ => exact (rhs2_k _ _).trans hk
    | ⟨1, _⟩ => exact rhs2_col _ _)
  rw [el, er]

/-! ## The body's arithmetic at an index

The body adds the two row blocks, multiplies by the first weight matrix, adds the bias, subtracts the stored mean,
multiplies by the reciprocal square root of the stored variance plus the stabiliser, scales, shifts, and clamps at zero;
then does the same with the second weight matrix and the second set of statistics. Every step but the two products and the
row broadcasts acts entry by entry. -/

/-- The hidden activations at `(p, q)` of a block: the first affine map of the two row blocks' sum, normalised with the
    stored statistics and clamped. -/
theorem hidden_at (x0 x1 : Vec Ideal S5000x128 .f32) (w : Vec Ideal S128x256 .f32) (b mu var g bt : Vec Ideal S1x256 .f32)
    (p : Fin 5000) (q : Fin 256) :
    k2_pay2 (F := Ideal) x0 x1 w b mu var g bt (ix2 p q)
      = max (((((∑ k : Fin 128, (x0 (ix2 p k) + x1 (ix2 p k)) * w (ix2 k q)) + b (ix2 0 q)) - mu (ix2 0 q))
          * Ideal.rsqrt (var (ix2 0 q) + Ideal.ofBits .f32 0x3727C5AC#32)) * g (ix2 0 q) + bt (ix2 0 q))
        (Ideal.ofBits .f32 0x00000000#32) := by
  unfold k2_pay2
  simp only [shapeCast_self]
  rw [truncf_apply, maximumf_apply, addf_apply, mulf_apply, mulf_apply, subf_apply, addf_apply, mm1_apply,
    broadcastTo_1b_ab_apply, broadcastTo_1b_ab_apply, broadcastTo_1b_ab_apply, broadcastTo_1b_ab_apply,
    broadcastTo_1b_ab_apply]
  rfl

/-- The body's result at `(p, q)` of a block, from the hidden activations `hid` (whatever they are) and the second
    set of parameters. -/
theorem out_of_hidden (hid : FVec Ideal S5000x256 .bf16) (w : Vec Ideal S256x128 .f32) (b mu var g bt : Vec Ideal S1x128 .f32)
    (p : Fin 5000) (q : Fin 128) :
    k2_pay1 (F := Ideal) hid (k2_pay3 (F := Ideal) w) b mu var g bt (ix2 p q)
      = max (((((∑ k : Fin 256, hid (ix2 p k) * w (ix2 k q)) + b (ix2 0 q)) - mu (ix2 0 q))
          * Ideal.rsqrt (var (ix2 0 q) + Ideal.ofBits .f32 0x3727C5AC#32)) * g (ix2 0 q) + bt (ix2 0 q))
        (Ideal.ofBits .f32 0x00000000#32) := by
  unfold k2_pay1 k2_pay3
  simp only [shapeCast_self]
  rw [maximumf_apply, addf_apply, mulf_apply, mulf_apply, subf_apply, addf_apply, mm2_apply,
    broadcastTo_1b_ab_apply, broadcastTo_1b_ab_apply, broadcastTo_1b_ab_apply, broadcastTo_1b_ab_apply,
    broadcastTo_1b_ab_apply]
  rfl

/-! ## The windows' blocks as parts of the arrays

The grid has ten points. At point `t` the two node-indexed inputs and the output are at rows `5000 t … 5000 t + 4999`
of their arrays (block `(t, 0)`); every parameter window is its whole array (block `(0, 0)`). The printed index maps
are decided once over the grid. -/

theorem hz : (![0, 0] : Fin 2 → Nat) = fun _ => 0 := funext fun a => by fin_cases a <;> rfl

/-- A grid point is below ten. -/
theorem point_lt (t : Fin cfg2.N) : t.val < 10 :=
  lt_of_lt_of_eq t.isLt (show cfg2.N = 10 from N_2)

/-- Row `p` of block `t` is row `5000 t + p` of the array. -/
def rowAt (t : Fin cfg2.N) (p : Fin 5000) : Fin 50000 :=
  ⟨t.val * 5000 + p.val, by have := point_lt t; have := p.isLt; omega⟩

theorem rowAt_val (t : Fin cfg2.N) (p : Fin 5000) : (rowAt t p).val = t.val * 5000 + p.val := rfl

/-- Window 0 is at block `(t, 0)`. -/
theorem idx_w0 : ∀ t : Fin cfg2.N, win2_0.index t (0 : Fin 2) = t.val ∧ win2_0.index t (1 : Fin 2) = 0 :=
  (by decide +kernel : ∀ t : Fin grid2.N, _)

/-- Window 1 is at block `(t, 0)`. -/
theorem idx_w1 : ∀ t : Fin cfg2.N, win2_1.index t (0 : Fin 2) = t.val ∧ win2_1.index t (1 : Fin 2) = 0 :=
  (by decide +kernel : ∀ t : Fin grid2.N, _)

/-- Window 14 is at block `(t, 0)`. -/
theorem idx_w14 : ∀ t : Fin cfg2.N, win2_14.index t (0 : Fin 2) = t.val ∧ win2_14.index t (1 : Fin 2) = 0 :=
  (by decide +kernel : ∀ t : Fin grid2.N, _)

/-- Window 2 is at block `(0, 0)`. -/
theorem idx_w2 : ∀ t : Fin cfg2.N, win2_2.index t (0 : Fin 2) = 0 ∧ win2_2.index t (1 : Fin 2) = 0 :=
  (by decide +kernel : ∀ t : Fin grid2.N, _)

/-- Window 3 is at block `(0, 0)`. -/
theorem idx_w3 : ∀ t : Fin cfg2.N, win2_3.index t (0 : Fin 2) = 0 ∧ win2_3.index t (1 : Fin 2) = 0 :=
  (by decide +kernel : ∀ t : Fin grid2.N, _)

/-- Window 4 is at block `(0, 0)`. -/
theorem idx_w4 : ∀ t : Fin cfg2.N, win2_4.index t (0 : Fin 2) = 0 ∧ win2_4.index t (1 : Fin 2) = 0 :=
  (by decide +kernel : ∀ t : Fin grid2.N, _)

/-- Window 5 is at block `(0, 0)`. -/
theorem idx_w5 : ∀ t : Fin cfg2.N, win2_5.index t (0 : Fin 2) = 0 ∧ win2_5.index t (1 : Fin 2) = 0 :=
  (by decide +kernel : ∀ t : Fin grid2.N, _)

/-- Window 6 is at block `(0, 0)`. -/
theorem idx_w6 : ∀ t : Fin cfg2.N, win2_6.index t (0 : Fin 2) = 0 ∧ win2_6.index t (1 : Fin 2) = 0 :=
  (by decide +kernel : ∀ t : Fin grid2.N, _)

/-- Window 7 is at block `(0, 0)`. -/
theorem idx_w7 : ∀ t : Fin cfg2.N, win2_7.index t (0 : Fin 2) = 0 ∧ win2_7.index t (1 : Fin 2) = 0 :=
  (by decide +kernel : ∀ t : Fin grid2.N, _)

/-- Window 8 is at block `(0, 0)`. -/
theorem idx_w8 : ∀ t : Fin cfg2.N, win2_8.index t (0 : Fin 2) = 0 ∧ win2_8.index t (1 : Fin 2) = 0 :=
  (by decide +kernel : ∀ t : Fin grid2.N, _)

/-- Window 9 is at block `(0, 0)`. -/
theorem idx_w9 : ∀ t : Fin cfg2.N, win2_9.index t (0 : Fin 2) = 0 ∧ win2_9.index t (1 : Fin 2) = 0 :=
  (by decide +kernel : ∀ t : Fin grid2.N, _)

/-- Window 10 is at block `(0, 0)`. -/
theorem idx_w10 : ∀ t : Fin cfg2.N, win2_10.index t (0 : Fin 2) = 0 ∧ win2_10.index t (1 : Fin 2) = 0 :=
  (by decide +kernel : ∀ t : Fin grid2.N, _)

/-- Window 11 is at block `(0, 0)`. -/
theorem idx_w11 : ∀ t : Fin cfg2.N, win2_11.index t (0 : Fin 2) = 0 ∧ win2_11.index t (1 : Fin 2) = 0 :=
  (by decide +kernel : ∀ t : Fin grid2.N, _)

/-- Window 12 is at block `(0, 0)`. -/
theorem idx_w12 : ∀ t : Fin cfg2.N, win2_12.index t (0 : Fin 2) = 0 ∧ win2_12.index t (1 : Fin 2) = 0 :=
  (by decide +kernel : ∀ t : Fin grid2.N, _)

/-- Window 13 is at block `(0, 0)`. -/
theorem idx_w13 : ∀ t : Fin cfg2.N, win2_13.index t (0 : Fin 2) = 0 ∧ win2_13.index t (1 : Fin 2) = 0 :=
  (by decide +kernel : ∀ t : Fin grid2.N, _)

/-- The node rows' block at point `t`, entry `(p, k)`: the array at row `5000 t + p`. -/
theorem blk0_apply (V : (c : Dev nD) → (b : Ref sig .tc) → Buf (Elt Ideal) ((c : Thread nD τ).loc b)) (c : Dev nD) (t : Fin cfg2.N) (p : Fin 5000) (k : Fin 128) :
    (iblk2 (F := Ideal) V c 0 t : Vec Ideal S5000x128 .f32) (ix2 p k) = V c main_v46 (ix2 (rowAt t p) k) := by
  obtain ⟨e0, e1⟩ := idx_w0 t
  unfold iblk2
  rw [View.read_apply]
  show V c main_v46 _ = V c main_v46 _
  refine congrArg (V c main_v46) (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- The neighbour sums' block at point `t`, entry `(p, k)`: the array at row `5000 t + p`. -/
theorem blk1_apply (V : (c : Dev nD) → (b : Ref sig .tc) → Buf (Elt Ideal) ((c : Thread nD τ).loc b)) (c : Dev nD) (t : Fin cfg2.N) (p : Fin 5000) (k : Fin 128) :
    (iblk2 (F := Ideal) V c 1 t : Vec Ideal S5000x128 .f32) (ix2 p k) = V c main_v56 (ix2 (rowAt t p) k) := by
  obtain ⟨e0, e1⟩ := idx_w1 t
  unfold iblk2
  rw [View.read_apply]
  show V c main_v56 _ = V c main_v56 _
  refine congrArg (V c main_v56) (funext fun a => Fin.ext ?_)
  match a with
  | ⟨0, _⟩ => show win2_1.index t (0 : Fin 2) * 5000 + 1 * p.val = t.val * 5000 + p.val; rw [e0]; omega
  | ⟨1, _⟩ => show win2_1.index t (1 : Fin 2) * 128 + 1 * k.val = k.val; rw [e1]; omega

/-- The first weights' block at any point is the whole matrix. -/
theorem blk2_apply (V : (c : Dev nD) → (b : Ref sig .tc) → Buf (Elt Ideal) ((c : Thread nD τ).loc b)) (c : Dev nD) (t : Fin cfg2.N) (k : Fin 128) (q : Fin 256) :
    (iblk2 (F := Ideal) V c 2 t : Vec Ideal S128x256 .f32) (ix2 k q) = V c main_v58 (ix2 k q) := by
  obtain ⟨e0, e1⟩ := idx_w2 t
  unfold iblk2
  rw [View.read_apply]
  show V c main_v58 _ = V c main_v58 _
  refine congrArg (V c main_v58) (funext fun a => Fin.ext ?_)
  match a with
  | ⟨0, _⟩ => show win2_2.index t (0 : Fin 2) * 128 + 1 * k.val = k.val; rw [e0]; omega
  | ⟨1, _⟩ => show win2_2.index t (1 : Fin 2) * 256 + 1 * q.val = q.val; rw [e1]; omega

/-- The second weights' block at any point is the whole matrix. -/
theorem blk8_apply (V : (c : Dev nD) → (b : Ref sig .tc) → Buf (Elt Ideal) ((c : Thread nD τ).loc b)) (c : Dev nD) (t : Fin cfg2.N) (k : Fin 256) (q : Fin 128) :
    (iblk2 (F := Ideal) V c 8 t : Vec Ideal S256x128 .f32) (ix2 k q) = V c main_v70 (ix2 k q) := by
  obtain ⟨e0, e1⟩ := idx_w8 t
  unfold iblk2
  rw [View.read_apply]
  show V c main_v70 _ = V c main_v70 _
  refine congrArg (V c main_v70) (funext fun a => Fin.ext ?_)
  match a with
  | ⟨0, _⟩ => show win2_8.index t (0 : Fin 2) * 256 + 1 * k.val = k.val; rw [e0]; omega
  | ⟨1, _⟩ => show win2_8.index t (1 : Fin 2) * 128 + 1 * q.val = q.val; rw [e1]; omega

/-- The first bias's block at any point is the whole row. -/
theorem blk3_apply (V : (c : Dev nD) → (b : Ref sig .tc) → Buf (Elt Ideal) ((c : Thread nD τ).loc b)) (c : Dev nD) (t : Fin cfg2.N) (q : Fin 256) :
    (iblk2 (F := Ideal) V c 3 t : Vec Ideal S1x256 .f32) (ix2 0 q) = V c main_v81 (ix2 0 q) := by
  obtain ⟨e0, e1⟩ := idx_w3 t
  unfold iblk2
  rw [View.read_apply]
  show V c main_v81 _ = V c main_v81 _
  refine congrArg (V c main_v81) (funext fun a => Fin.ext ?_)
  match a with
  | ⟨0, _⟩ => show win2_3.index t (0 : Fin 2) * 1 + 1 * 0 = 0; rw [e0]
  | ⟨1, _⟩ => show win2_3.index t (1 : Fin 2) * 256 + 1 * q.val = q.val; rw [e1]; omega

/-- The first scale's block at any point is the whole row. -/
theorem blk4_apply (V : (c : Dev nD) → (b : Ref sig .tc) → Buf (Elt Ideal) ((c : Thread nD τ).loc b)) (c : Dev nD) (t : Fin cfg2.N) (q : Fin 256) :
    (iblk2 (F := Ideal) V c 4 t : Vec Ideal S1x256 .f32) (ix2 0 q) = V c main_v82 (ix2 0 q) := by
  obtain ⟨e0, e1⟩ := idx_w4 t
  unfold iblk2
  rw [View.read_apply]
  show V c main_v82 _ = V c main_v82 _
  refine congrArg (V c main_v82) (funext fun a => Fin.ext ?_)
  match a with
  | ⟨0, _⟩ => show win2_4.index t (0 : Fin 2) * 1 + 1 * 0 = 0; rw [e0]
  | ⟨1, _⟩ => show win2_4.index t (1 : Fin 2) * 256 + 1 * q.val = q.val; rw [e1]; omega

/-- The first shift's block at any point is the whole row. -/
theorem blk5_apply (V : (c : Dev nD) → (b : Ref sig .tc) → Buf (Elt Ideal) ((c : Thread nD τ).loc b)) (c : Dev nD) (t : Fin cfg2.N) (q : Fin 256) :
    (iblk2 (F := Ideal) V c 5 t : Vec Ideal S1x256 .f32) (ix2 0 q) = V c main_v83 (ix2 0 q) := by
  obtain ⟨e0, e1⟩ := idx_w5 t
  unfold iblk2
  rw [View.read_apply]
  show V c main_v83 _ = V c main_v83 _
  refine congrArg (V c main_v83) (funext fun a => Fin.ext ?_)
  match a with
  | ⟨0, _⟩ => show win2_5.index t (0 : Fin 2) * 1 + 1 * 0 = 0; rw [e0]
  | ⟨1, _⟩ => show win2_5.index t (1 : Fin 2) * 256 + 1 * q.val = q.val; rw [e1]; omega

/-- The first mean's block at any point is the whole row. -/
theorem blk6_apply (V : (c : Dev nD) → (b : Ref sig .tc) → Buf (Elt Ideal) ((c : Thread nD τ).loc b)) (c : Dev nD) (t : Fin cfg2.N) (q : Fin 256) :
    (iblk2 (F := Ideal) V c 6 t : Vec Ideal S1x256 .f32) (ix2 0 q) = V c main_v84 (ix2 0 q) := by
  obtain ⟨e0, e1⟩ := idx_w6 t
  unfold iblk2
  rw [View.read_apply]
  show V c main_v84 _ = V c main_v84 _
  refine congrArg (V c main_v84) (funext fun a => Fin.ext ?_)
  match a with
  | ⟨0, _⟩ => show win2_6.index t (0 : Fin 2) * 1 + 1 * 0 = 0; rw [e0]
  | ⟨1, _⟩ => show win2_6.index t (1 : Fin 2) * 256 + 1 * q.val = q.val; rw [e1]; omega

/-- The first variance's block at any point is the whole row. -/
theorem blk7_apply (V : (c : Dev nD) → (b : Ref sig .tc) → Buf (Elt Ideal) ((c : Thread nD τ).loc b)) (c : Dev nD) (t : Fin cfg2.N) (q : Fin 256) :
    (iblk2 (F := Ideal) V c 7 t : Vec Ideal S1x256 .f32) (ix2 0 q) = V c main_v85 (ix2 0 q) := by
  obtain ⟨e0, e1⟩ := idx_w7 t
  unfold iblk2
  rw [View.read_apply]
  show V c main_v85 _ = V c main_v85 _
  refine congrArg (V c main_v85) (funext fun a => Fin.ext ?_)
  match a with
  | ⟨0, _⟩ => show win2_7.index t (0 : Fin 2) * 1 + 1 * 0 = 0; rw [e0]
  | ⟨1, _⟩ => show win2_7.index t (1 : Fin 2) * 256 + 1 * q.val = q.val; rw [e1]; omega

/-- The second bias's block at any point is the whole row. -/
theorem blk9_apply (V : (c : Dev nD) → (b : Ref sig .tc) → Buf (Elt Ideal) ((c : Thread nD τ).loc b)) (c : Dev nD) (t : Fin cfg2.N) (q : Fin 128) :
    (iblk2 (F := Ideal) V c 9 t : Vec Ideal S1x128 .f32) (ix2 0 q) = V c main_v86 (ix2 0 q) := by
  obtain ⟨e0, e1⟩ := idx_w9 t
  unfold iblk2
  rw [View.read_apply]
  show V c main_v86 _ = V c main_v86 _
  refine congrArg (V c main_v86) (funext fun a => Fin.ext ?_)
  match a with
  | ⟨0, _⟩ => show win2_9.index t (0 : Fin 2) * 1 + 1 * 0 = 0; rw [e0]
  | ⟨1, _⟩ => show win2_9.index t (1 : Fin 2) * 128 + 1 * q.val = q.val; rw [e1]; omega

/-- The second scale's block at any point is the whole row. -/
theorem blk10_apply (V : (c : Dev nD) → (b : Ref sig .tc) → Buf (Elt Ideal) ((c : Thread nD τ).loc b)) (c : Dev nD) (t : Fin cfg2.N) (q : Fin 128) :
    (iblk2 (F := Ideal) V c 10 t : Vec Ideal S1x128 .f32) (ix2 0 q) = V c main_v87 (ix2 0 q) := by
  obtain ⟨e0, e1⟩ := idx_w10 t
  unfold iblk2
  rw [View.read_apply]
  show V c main_v87 _ = V c main_v87 _
  refine congrArg (V c main_v87) (funext fun a => Fin.ext ?_)
  match a with
  | ⟨0, _⟩ => show win2_10.index t (0 : Fin 2) * 1 + 1 * 0 = 0; rw [e0]
  | ⟨1, _⟩ => show win2_10.index t (1 : Fin 2) * 128 + 1 * q.val = q.val; rw [e1]; omega

/-- The second shift's block at any point is the whole row. -/
theorem blk11_apply (V : (c : Dev nD) → (b : Ref sig .tc) → Buf (Elt Ideal) ((c : Thread nD τ).loc b)) (c : Dev nD) (t : Fin cfg2.N) (q : Fin 128) :
    (iblk2 (F := Ideal) V c 11 t : Vec Ideal S1x128 .f32) (ix2 0 q) = V c main_v88 (ix2 0 q) := by
  obtain ⟨e0, e1⟩ := idx_w11 t
  unfold iblk2
  rw [View.read_apply]
  show V c main_v88 _ = V c main_v88 _
  refine congrArg (V c main_v88) (funext fun a => Fin.ext ?_)
  match a with
  | ⟨0, _⟩ => show win2_11.index t (0 : Fin 2) * 1 + 1 * 0 = 0; rw [e0]
  | ⟨1, _⟩ => show win2_11.index t (1 : Fin 2) * 128 + 1 * q.val = q.val; rw [e1]; omega

/-- The second mean's block at any point is the whole row. -/
theorem blk12_apply (V : (c : Dev nD) → (b : Ref sig .tc) → Buf (Elt Ideal) ((c : Thread nD τ).loc b)) (c : Dev nD) (t : Fin cfg2.N) (q : Fin 128) :
    (iblk2 (F := Ideal) V c 12 t : Vec Ideal S1x128 .f32) (ix2 0 q) = V c main_v89 (ix2 0 q) := by
  obtain ⟨e0, e1⟩ := idx_w12 t
  unfold iblk2
  rw [View.read_apply]
  show V c main_v89 _ = V c main_v89 _
  refine congrArg (V c main_v89) (funext fun a => Fin.ext ?_)
  match a with
  | ⟨0, _⟩ => show win2_12.index t (0 : Fin 2) * 1 + 1 * 0 = 0; rw [e0]
  | ⟨1, _⟩ => show win2_12.index t (1 : Fin 2) * 128 + 1 * q.val = q.val; rw [e1]; omega

/-- The second variance's block at any point is the whole row. -/
theorem blk13_apply (V : (c : Dev nD) → (b : Ref sig .tc) → Buf (Elt Ideal) ((c : Thread nD τ).loc b)) (c : Dev nD) (t : Fin cfg2.N) (q : Fin 128) :
    (iblk2 (F := Ideal) V c 13 t : Vec Ideal S1x128 .f32) (ix2 0 q) = V c main_v90 (ix2 0 q) := by
  obtain ⟨e0, e1⟩ := idx_w13 t
  unfold iblk2
  rw [View.read_apply]
  show V c main_v90 _ = V c main_v90 _
  refine congrArg (V c main_v90) (funext fun a => Fin.ext ?_)
  match a with
  | ⟨0, _⟩ => show win2_13.index t (0 : Fin 2) * 1 + 1 * 0 = 0; rw [e0]
  | ⟨1, _⟩ => show win2_13.index t (1 : Fin 2) * 128 + 1 * q.val = q.val; rw [e1]; omega

/-- Entry `(p, q)` of the output's block at point `t` lies at row `5000 t + p` of the output array. -/
theorem emb_out (t : Fin cfg2.N) (p : Fin 5000) (q : Fin 128) :
    ((cfg2.win 14).blk t).view.emb (ix2 p q : S5000x128.Idx) = (ix2 (rowAt t p) q : S50000x128.Idx) := by
  obtain ⟨e0, e1⟩ := idx_w14 t
  refine funext fun a => Fin.ext ?_
  match a with
  | ⟨0, _⟩ => show win2_14.index t (0 : Fin 2) * 5000 + 1 * p.val = t.val * 5000 + p.val; rw [e0]; omega
  | ⟨1, _⟩ => show win2_14.index t (1 : Fin 2) * 128 + 1 * q.val = q.val; rw [e1]; omega

/-- An index of the output array is in point `t`'s block iff each coordinate is in the block's range on its axis. -/
theorem mem_blk (t : Fin cfg2.N) (i : S50000x128.Idx) :
    i ∈ ((cfg2.win 14).blk t).view.set ↔ ∀ a : Fin 2, win2_14.index t a * S5000x128.size a ≤ (i a).val ∧ (i a).val < win2_14.index t a * S5000x128.size a + S5000x128.size a := by
  show i ∈ ((View.whole main_v91).slice (win2_14.rect t)).set ↔ _
  rw [View.set_slice_whole, Rect.mem_set_unit]
  exact Iff.rfl

/-- Every row of the output array is in some point's block: row `r` in that of point `r / 5000`. -/
theorem cover (i : S50000x128.Idx) :
    ∃ t : Fin cfg2.N, (cfg2.win 14).flush t = true ∧ i ∈ ((cfg2.win 14).blk t).view.set := by
  have hi0 : (i 0).val < 50000 := (i 0).isLt
  have hi1 : (i 1).val < 128 := (i 1).isLt
  have ht : (i 0).val / 5000 < cfg2.N := by rw [show cfg2.N = 10 from N_2]; omega
  obtain ⟨e0, e1⟩ := idx_w14 ⟨(i 0).val / 5000, ht⟩
  have e0' : win2_14.index ⟨(i 0).val / 5000, ht⟩ (0 : Fin 2) = (i 0).val / 5000 := e0
  refine ⟨⟨(i 0).val / 5000, ht⟩, flush2_14 _, ?_⟩
  rw [mem_blk]
  intro a
  match a with
  | ⟨0, _⟩ =>
    show win2_14.index ⟨(i 0).val / 5000, ht⟩ (0 : Fin 2) * 5000 ≤ (i 0).val ∧ (i 0).val < win2_14.index ⟨(i 0).val / 5000, ht⟩ (0 : Fin 2) * 5000 + 5000
    rw [e0']; omega
  | ⟨1, _⟩ =>
    show win2_14.index ⟨(i 0).val / 5000, ht⟩ (1 : Fin 2) * 128 ≤ (i 1).val ∧ (i 1).val < win2_14.index ⟨(i 0).val / 5000, ht⟩ (1 : Fin 2) * 128 + 128
    rw [e1]; omega

/-! ## The body's arithmetic with each loaded entry named

The same two equations, with what each loaded block holds at the entries read given as hypotheses: the form that is
instantiated at the windows' blocks. -/

theorem hidden_of (x0 x1 : Vec Ideal S5000x128 .f32) (w : Vec Ideal S128x256 .f32) (b mu var g bt : Vec Ideal S1x256 .f32)
    (p : Fin 5000) (q : Fin 256) (X0 X1 W : Fin 128 → EReal) (B MU VAR G BT : EReal)
    (h0 : ∀ k, x0 (ix2 p k) = X0 k) (h1 : ∀ k, x1 (ix2 p k) = X1 k) (hw : ∀ k, w (ix2 k q) = W k)
    (hb : b (ix2 0 q) = B) (hmu : mu (ix2 0 q) = MU) (hvar : var (ix2 0 q) = VAR) (hg : g (ix2 0 q) = G) (hbt : bt (ix2 0 q) = BT) :
    k2_pay2 (F := Ideal) x0 x1 w b mu var g bt (ix2 p q)
      = max (((((∑ k : Fin 128, (X0 k + X1 k) * W k) + B) - MU)
          * Ideal.rsqrt (VAR + Ideal.ofBits .f32 0x3727C5AC#32)) * G + BT)
        (Ideal.ofBits .f32 0x00000000#32) := by
  rw [hidden_at, hb, hmu, hvar, hg, hbt,
    show (∑ k : Fin 128, (x0 (ix2 p k) + x1 (ix2 p k)) * w (ix2 k q)) = ∑ k : Fin 128, (X0 k + X1 k) * W k from
      Finset.sum_congr rfl fun k _ => by rw [h0 k, h1 k, hw k]]

theorem out_of (hid : FVec Ideal S5000x256 .bf16) (w : Vec Ideal S256x128 .f32) (b mu var g bt : Vec Ideal S1x128 .f32)
    (p : Fin 5000) (q : Fin 128) (H W : Fin 256 → EReal) (B MU VAR G BT : EReal)
    (hh : ∀ k, hid (ix2 p k) = H k) (hw : ∀ k, w (ix2 k q) = W k)
    (hb : b (ix2 0 q) = B) (hmu : mu (ix2 0 q) = MU) (hvar : var (ix2 0 q) = VAR) (hg : g (ix2 0 q) = G) (hbt : bt (ix2 0 q) = BT) :
    k2_pay1 (F := Ideal) hid (k2_pay3 (F := Ideal) w) b mu var g bt (ix2 p q)
      = max (((((∑ k : Fin 256, H k * W k) + B) - MU)
          * Ideal.rsqrt (VAR + Ideal.ofBits .f32 0x3727C5AC#32)) * G + BT)
        (Ideal.ofBits .f32 0x00000000#32) := by
  rw [out_of_hidden, hb, hmu, hvar, hg, hbt,
    show (∑ k : Fin 256, hid (ix2 p k) * w (ix2 k q)) = ∑ k : Fin 256, H k * W k from
      Finset.sum_congr rfl fun k _ => by rw [hh k, hw k]]

/-! ## One round, block by block, and the whole array -/

/-- What the round leaves in the output array: the specification's round of the arrays the region finds. -/
abbrev roundOf (V : (c : Dev nD) → (b : Ref sig .tc) → Buf (Elt Ideal) ((c : Thread nD τ).loc b)) (c : Dev nD) : Cert.Spec.Mat 50000 128 :=
  Cert.Spec.layerG (V c main_v46) (V c main_v56) (V c main_v58) (Cert.Spec.row (V c main_v81)) (Cert.Spec.row (V c main_v82)) (Cert.Spec.row (V c main_v83)) (Cert.Spec.row (V c main_v84)) (Cert.Spec.row (V c main_v85)) (V c main_v70) (Cert.Spec.row (V c main_v86)) (Cert.Spec.row (V c main_v87)) (Cert.Spec.row (V c main_v88)) (Cert.Spec.row (V c main_v89)) (Cert.Spec.row (V c main_v90))

/-- The hidden activations the body computes at point `t`, entry `(p, q)`, are the specification's at node
    `5000 t + p`, channel `q`. -/
theorem hidden_blk (V : (c : Dev nD) → (b : Ref sig .tc) → Buf (Elt Ideal) ((c : Thread nD τ).loc b)) (c : Dev nD) (t : Fin cfg2.N) (p : Fin 5000) (q : Fin 256) :
    (k2_pay2 (F := Ideal) (iblk2 V c 0 t) (iblk2 V c 1 t) (iblk2 V c 2 t) (iblk2 V c 3 t) (iblk2 V c 6 t) (iblk2 V c 7 t) (iblk2 V c 4 t) (iblk2 V c 5 t)) (ix2 p q)
      = Cert.Spec.hidden (V c main_v46) (V c main_v56) (V c main_v58) (Cert.Spec.row (V c main_v81)) (Cert.Spec.row (V c main_v82)) (Cert.Spec.row (V c main_v83)) (Cert.Spec.row (V c main_v84)) (Cert.Spec.row (V c main_v85)) (rowAt t p) q :=
  hidden_of _ _ _ _ _ _ _ _ p q (fun k => V c main_v46 (ix2 (rowAt t p) k)) (fun k => V c main_v56 (ix2 (rowAt t p) k))
    (fun k => V c main_v58 (ix2 k q)) (V c main_v81 (ix2 0 q)) (V c main_v84 (ix2 0 q)) (V c main_v85 (ix2 0 q)) (V c main_v82 (ix2 0 q))
    (V c main_v83 (ix2 0 q))
    (fun k => blk0_apply V c t p k) (fun k => blk1_apply V c t p k) (fun k => blk2_apply V c t k q)
    (blk3_apply V c t q) (blk6_apply V c t q) (blk7_apply V c t q) (blk4_apply V c t q) (blk5_apply V c t q)

/-- What point `t` writes back is block `t` of the specification's round. -/
theorem flushed_eq (V : (c : Dev nD) → (b : Ref sig .tc) → Buf (Elt Ideal) ((c : Thread nD τ).loc b)) (c : Dev nD) (t : Fin cfg2.N) :
    (dat2 (F := Ideal) V c).flushed 14 t = ((cfg2.win 14).blk t).view.read (Elt Ideal) (roundOf V c) := by
  show (cfg2.win 14).cut (grid2.coords t) ((dat2 V c).after 14 t) = _
  rw [after2_14]
  unfold out2_14
  rw [View.canon_unit_zero hz]
  simp only [View.ld_unit_zero (S := S5000x128) hz, View.ld_unit_zero (S := S128x256) hz, View.ld_unit_zero (S := S1x256) hz,
    View.ld_unit_zero (S := S256x128) hz, View.ld_unit_zero (S := S1x128) hz]
  funext j
  obtain ⟨p, q, rfl⟩ : ∃ (p : Fin 5000) (q : Fin 128), j = ix2 p q := ⟨j 0, j 1, eq_ix2 j⟩
  show k2_pay1 (F := Ideal) (k2_pay2 (F := Ideal) (iblk2 V c 0 t) (iblk2 V c 1 t) (iblk2 V c 2 t) (iblk2 V c 3 t) (iblk2 V c 6 t) (iblk2 V c 7 t) (iblk2 V c 4 t) (iblk2 V c 5 t)) (k2_pay3 (F := Ideal) (iblk2 V c 8 t)) (iblk2 V c 9 t) (iblk2 V c 12 t)
      (iblk2 V c 13 t) (iblk2 V c 10 t) (iblk2 V c 11 t) (ix2 p q)
    = roundOf V c (((cfg2.win 14).blk t).view.emb (ix2 p q))
  rw [emb_out t p q]
  exact out_of _ _ _ _ _ _ _ p q
    (fun k => Cert.Spec.hidden (V c main_v46) (V c main_v56) (V c main_v58) (Cert.Spec.row (V c main_v81)) (Cert.Spec.row (V c main_v82)) (Cert.Spec.row (V c main_v83)) (Cert.Spec.row (V c main_v84)) (Cert.Spec.row (V c main_v85)) (rowAt t p) k)
    (fun k => V c main_v70 (ix2 k q)) (V c main_v86 (ix2 0 q)) (V c main_v89 (ix2 0 q)) (V c main_v90 (ix2 0 q)) (V c main_v87 (ix2 0 q))
    (V c main_v88 (ix2 0 q))
    (fun k => hidden_blk V c t p k) (fun k => blk8_apply V c t k q)
    (blk9_apply V c t q) (blk12_apply V c t q) (blk13_apply V c t q) (blk10_apply V c t q) (blk11_apply V c t q)

/-- THE ROUND: after the region, the output array is the specification's round of the arrays the region finds. -/
theorem layer2_value (V : (c : Dev nD) → (b : Ref sig .tc) → Buf (Elt Ideal) ((c : Thread nD τ).loc b)) (c : Dev nD) :
    (dat2 (F := Ideal) V c).arrAt 14 cfg2.N = Cert.Spec.layerG (V c main_v46) (V c main_v56) (V c main_v58) (Cert.Spec.row (V c main_v81)) (Cert.Spec.row (V c main_v82)) (Cert.Spec.row (V c main_v83)) (Cert.Spec.row (V c main_v84)) (Cert.Spec.row (V c main_v85)) (V c main_v70) (Cert.Spec.row (V c main_v86)) (Cert.Spec.row (V c main_v87)) (Cert.Spec.row (V c main_v88)) (Cert.Spec.row (V c main_v89)) (Cert.Spec.row (V c main_v90)) :=
  (dat2 V c).arrAt_eq_of_cover 14 (roundOf V c) (fun t _ => flushed_eq V c t) cover

end Cert.KernelIdeal.Layer2Value

end
-- ==== Proof.Layer3Value.lean ====
import proofs.«171844_j32538672234672_1_alg».proof.Proof.Gen.KernelIdeal.Frame
import proofs.«171844_j32538672234672_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Layer3Value

open Cert.KernelIdeal Cert.KernelIdeal.Gen Idealize.ShloMosaic Idealize.ShloMosaic.ValueIdx
open Idealize.ShloMosaic.TcCoe Idealize.SL.Sem

/-! ## The two contractions read at an index

Each of the body's two matrix products contracts one axis into the zero accumulator, so its entry at `(p, q)` is the sum
over the contracted coordinate of the left operand's row `p` times the right operand's column `q`. -/

theorem lhs1_row (i : S5000x256.Idx) (k : dot_S5000x128_S128x256_S5000x256_1_0_0_1_n_n.contr.Idx) :
    (dot_S5000x128_S128x256_S5000x256_1_0_0_1_n_n.lhsIdx i k 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs1_k (i : S5000x256.Idx) (k : dot_S5000x128_S128x256_S5000x256_1_0_0_1_n_n.contr.Idx) :
    (dot_S5000x128_S128x256_S5000x256_1_0_0_1_n_n.lhsIdx i k 1).val = (k ⟨0, by decide⟩).val :=
  dot_S5000x128_S128x256_S5000x256_1_0_0_1_n_n.lhsIdx_val_of_single rfl i k
theorem rhs1_k (i : S5000x256.Idx) (k : dot_S5000x128_S128x256_S5000x256_1_0_0_1_n_n.contr.Idx) :
    (dot_S5000x128_S128x256_S5000x256_1_0_0_1_n_n.rhsIdx i k 0).val = (k ⟨0, by decide⟩).val :=
  dot_S5000x128_S128x256_S5000x256_1_0_0_1_n_n.rhsIdx_val_of_single rfl i k
theorem rhs1_col (i : S5000x256.Idx) (k : dot_S5000x128_S128x256_S5000x256_1_0_0_1_n_n.contr.Idx) :
    (dot_S5000x128_S128x256_S5000x256_1_0_0_1_n_n.rhsIdx i k 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The first product, `[5000,128] · [128,256]`, at `(p, q)`. -/
theorem mm1_apply (a : FVec Ideal S5000x128 .bf16) (b : FVec Ideal S128x256 .bf16) (p : Fin 5000) (q : Fin 256) :
    matmul (F := Ideal) dot_S5000x128_S128x256_S5000x256_1_0_0_1_n_n none a b (constant S5000x256 .f32 0x00000000#32) (ix2 p q)
      = ∑ k : Fin 128, a (ix2 p k) * b (ix2 k q) := by
  show FloatOps.matmul dot_S5000x128_S128x256_S5000x256_1_0_0_1_n_n none a b (constant S5000x256 .f32 0x00000000#32) (ix2 p q) = _
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun ax => Fin.ext (by
    match ax with
    | ⟨0, _⟩ => exact lhs1_row _ _
    | ⟨1, _⟩ => exact (lhs1_k _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun ax => Fin.ext (by
    match ax with
    | ⟨0, _⟩ => exact (rhs1_k _ _).trans hk
    | ⟨1, _⟩ => exact rhs1_col _ _)
  rw [el, er]

theorem lhs2_row (i : S5000x128.Idx) (k : dot_S5000x256_S256x128_S5000x128_1_0_0_1_n_n.contr.Idx) :
    (dot_S5000x256_S256x128_S5000x128_1_0_0_1_n_n.lhsIdx i k 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs2_k (i : S5000x128.Idx) (k : dot_S5000x256_S256x128_S5000x128_1_0_0_1_n_n.contr.Idx) :
    (dot_S5000x256_S256x128_S5000x128_1_0_0_1_n_n.lhsIdx i k 1).val = (k ⟨0, by decide⟩).val :=
  dot_S5000x256_S256x128_S5000x128_1_0_0_1_n_n.lhsIdx_val_of_single rfl i k
theorem rhs2_k (i : S5000x128.Idx) (k : dot_S5000x256_S256x128_S5000x128_1_0_0_1_n_n.contr.Idx) :
    (dot_S5000x256_S256x128_S5000x128_1_0_0_1_n_n.rhsIdx i k 0).val = (k ⟨0, by decide⟩).val :=
  dot_S5000x256_S256x128_S5000x128_1_0_0_1_n_n.rhsIdx_val_of_single rfl i k
theorem rhs2_col (i : S5000x128.Idx) (k : dot_S5000x256_S256x128_S5000x128_1_0_0_1_n_n.contr.Idx) :
    (dot_S5000x256_S256x128_S5000x128_1_0_0_1_n_n.rhsIdx i k 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The second product, `[5000,256] · [256,128]`, at `(p, q)`. -/
theorem mm2_apply (a : FVec Ideal S5000x256 .bf16) (b : FVec Ideal S256x128 .bf16) (p : Fin 5000) (q : Fin 128) :
    matmul (F := Ideal) dot_S5000x256_S256x128_S5000x128_1_0_0_1_n_n none a b (constant S5000x128 .f32 0x00000000#32) (ix2 p q)
      = ∑ k : Fin 256, a (ix2 p k) * b (ix2 k q) := by
  show FloatOps.matmul dot_S5000x256_S256x128_S5000x128_1_0_0_1_n_n none a b (constant S5000x128 .f32 0x00000000#32) (ix2 p q) = _
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun ax => Fin.ext (by
    match ax with
    | ⟨0, _⟩ => exact lhs2_row _ _
    | ⟨1, _⟩ => exact (lhs2_k _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun ax => Fin.ext (by
    match ax with
    | ⟨0, _⟩ => exact (rhs2_k _ _).trans hk
    | ⟨1, _⟩ => exact rhs2_col _ _)
  rw [el, er]

/-! ## The body's arithmetic at an index

The body adds the two row blocks, multiplies by the first weight matrix, adds the bias, subtracts the stored mean,
multiplies by the reciprocal square root of the stored variance plus the stabiliser, scales, shifts, and clamps at zero;
then does the same with the second weight matrix and the second set of statistics. Every step but the two products and the
row broadcasts acts entry by entry. -/

/-- The hidden activations at `(p, q)` of a block: the first affine map of the two row blocks' sum, normalised with the
    stored statistics and clamped. -/
theorem hidden_at (x0 x1 : Vec Ideal S5000x128 .f32) (w : Vec Ideal S128x256 .f32) (b mu var g bt : Vec Ideal S1x256 .f32)
    (p : Fin 5000) (q : Fin 256) :
    k3_pay2 (F := Ideal) x0 x1 w b mu var g bt (ix2 p q)
      = max (((((∑ k : Fin 128, (x0 (ix2 p k) + x1 (ix2 p k)) * w (ix2 k q)) + b (ix2 0 q)) - mu (ix2 0 q))
          * Ideal.rsqrt (var (ix2 0 q) + Ideal.ofBits .f32 0x3727C5AC#32)) * g (ix2 0 q) + bt (ix2 0 q))
        (Ideal.ofBits .f32 0x00000000#32) := by
  unfold k3_pay2
  simp only [shapeCast_self]
  rw [truncf_apply, maximumf_apply, addf_apply, mulf_apply, mulf_apply, subf_apply, addf_apply, mm1_apply,
    broadcastTo_1b_ab_apply, broadcastTo_1b_ab_apply, broadcastTo_1b_ab_apply, broadcastTo_1b_ab_apply,
    broadcastTo_1b_ab_apply]
  rfl

/-- The body's result at `(p, q)` of a block, from the hidden activations `hid` (whatever they are) and the second
    set of parameters. -/
theorem out_of_hidden (hid : FVec Ideal S5000x256 .bf16) (w : Vec Ideal S256x128 .f32) (b mu var g bt : Vec Ideal S1x128 .f32)
    (p : Fin 5000) (q : Fin 128) :
    k3_pay1 (F := Ideal) hid (k3_pay3 (F := Ideal) w) b mu var g bt (ix2 p q)
      = max (((((∑ k : Fin 256, hid (ix2 p k) * w (ix2 k q)) + b (ix2 0 q)) - mu (ix2 0 q))
          * Ideal.rsqrt (var (ix2 0 q) + Ideal.ofBits .f32 0x3727C5AC#32)) * g (ix2 0 q) + bt (ix2 0 q))
        (Ideal.ofBits .f32 0x00000000#32) := by
  unfold k3_pay1 k3_pay3
  simp only [shapeCast_self]
  rw [maximumf_apply, addf_apply, mulf_apply, mulf_apply, subf_apply, addf_apply, mm2_apply,
    broadcastTo_1b_ab_apply, broadcastTo_1b_ab_apply, broadcastTo_1b_ab_apply, broadcastTo_1b_ab_apply,
    broadcastTo_1b_ab_apply]
  rfl

/-! ## The windows' blocks as parts of the arrays

The grid has ten points. At point `t` the two node-indexed inputs and the output are at rows `5000 t … 5000 t + 4999`
of their arrays (block `(t, 0)`); every parameter window is its whole array (block `(0, 0)`). The printed index maps
are decided once over the grid. -/

theorem hz : (![0, 0] : Fin 2 → Nat) = fun _ => 0 := funext fun a => by fin_cases a <;> rfl

/-- A grid point is below ten. -/
theorem point_lt (t : Fin cfg3.N) : t.val < 10 :=
  lt_of_lt_of_eq t.isLt (show cfg3.N = 10 from N_3)

/-- Row `p` of block `t` is row `5000 t + p` of the array. -/
def rowAt (t : Fin cfg3.N) (p : Fin 5000) : Fin 50000 :=
  ⟨t.val * 5000 + p.val, by have := point_lt t; have := p.isLt; omega⟩

theorem rowAt_val (t : Fin cfg3.N) (p : Fin 5000) : (rowAt t p).val = t.val * 5000 + p.val := rfl

/-- Window 0 is at block `(t, 0)`. -/
theorem idx_w0 : ∀ t : Fin cfg3.N, win3_0.index t (0 : Fin 2) = t.val ∧ win3_0.index t (1 : Fin 2) = 0 :=
  (by decide +kernel : ∀ t : Fin grid3.N, _)

/-- Window 1 is at block `(t, 0)`. -/
theorem idx_w1 : ∀ t : Fin cfg3.N, win3_1.index t (0 : Fin 2) = t.val ∧ win3_1.index t (1 : Fin 2) = 0 :=
  (by decide +kernel : ∀ t : Fin grid3.N, _)

/-- Window 14 is at block `(t, 0)`. -/
theorem idx_w14 : ∀ t : Fin cfg3.N, win3_14.index t (0 : Fin 2) = t.val ∧ win3_14.index t (1 : Fin 2) = 0 :=
  (by decide +kernel : ∀ t : Fin grid3.N, _)

/-- Window 2 is at block `(0, 0)`. -/
theorem idx_w2 : ∀ t : Fin cfg3.N, win3_2.index t (0 : Fin 2) = 0 ∧ win3_2.index t (1 : Fin 2) = 0 :=
  (by decide +kernel : ∀ t : Fin grid3.N, _)

/-- Window 3 is at block `(0, 0)`. -/
theorem idx_w3 : ∀ t : Fin cfg3.N, win3_3.index t (0 : Fin 2) = 0 ∧ win3_3.index t (1 : Fin 2) = 0 :=
  (by decide +kernel : ∀ t : Fin grid3.N, _)

/-- Window 4 is at block `(0, 0)`. -/
theorem idx_w4 : ∀ t : Fin cfg3.N, win3_4.index t (0 : Fin 2) = 0 ∧ win3_4.index t (1 : Fin 2) = 0 :=
  (by decide +kernel : ∀ t : Fin grid3.N, _)

/-- Window 5 is at block `(0, 0)`. -/
theorem idx_w5 : ∀ t : Fin cfg3.N, win3_5.index t (0 : Fin 2) = 0 ∧ win3_5.index t (1 : Fin 2) = 0 :=
  (by decide +kernel : ∀ t : Fin grid3.N, _)

/-- Window 6 is at block `(0, 0)`. -/
theorem idx_w6 : ∀ t : Fin cfg3.N, win3_6.index t (0 : Fin 2) = 0 ∧ win3_6.index t (1 : Fin 2) = 0 :=
  (by decide +kernel : ∀ t : Fin grid3.N, _)

/-- Window 7 is at block `(0, 0)`. -/
theorem idx_w7 : ∀ t : Fin cfg3.N, win3_7.index t (0 : Fin 2) = 0 ∧ win3_7.index t (1 : Fin 2) = 0 :=
  (by decide +kernel : ∀ t : Fin grid3.N, _)

/-- Window 8 is at block `(0, 0)`. -/
theorem idx_w8 : ∀ t : Fin cfg3.N, win3_8.index t (0 : Fin 2) = 0 ∧ win3_8.index t (1 : Fin 2) = 0 :=
  (by decide +kernel : ∀ t : Fin grid3.N, _)

/-- Window 9 is at block `(0, 0)`. -/
theorem idx_w9 : ∀ t : Fin cfg3.N, win3_9.index t (0 : Fin 2) = 0 ∧ win3_9.index t (1 : Fin 2) = 0 :=
  (by decide +kernel : ∀ t : Fin grid3.N, _)

/-- Window 10 is at block `(0, 0)`. -/
theorem idx_w10 : ∀ t : Fin cfg3.N, win3_10.index t (0 : Fin 2) = 0 ∧ win3_10.index t (1 : Fin 2) = 0 :=
  (by decide +kernel : ∀ t : Fin grid3.N, _)

/-- Window 11 is at block `(0, 0)`. -/
theorem idx_w11 : ∀ t : Fin cfg3.N, win3_11.index t (0 : Fin 2) = 0 ∧ win3_11.index t (1 : Fin 2) = 0 :=
  (by decide +kernel : ∀ t : Fin grid3.N, _)

/-- Window 12 is at block `(0, 0)`. -/
theorem idx_w12 : ∀ t : Fin cfg3.N, win3_12.index t (0 : Fin 2) = 0 ∧ win3_12.index t (1 : Fin 2) = 0 :=
  (by decide +kernel : ∀ t : Fin grid3.N, _)

/-- Window 13 is at block `(0, 0)`. -/
theorem idx_w13 : ∀ t : Fin cfg3.N, win3_13.index t (0 : Fin 2) = 0 ∧ win3_13.index t (1 : Fin 2) = 0 :=
  (by decide +kernel : ∀ t : Fin grid3.N, _)

/-- The node rows' block at point `t`, entry `(p, k)`: the array at row `5000 t + p`. -/
theorem blk0_apply (V : (c : Dev nD) → (b : Ref sig .tc) → Buf (Elt Ideal) ((c : Thread nD τ).loc b)) (c : Dev nD) (t : Fin cfg3.N) (p : Fin 5000) (k : Fin 128) :
    (iblk3 (F := Ideal) V c 0 t : Vec Ideal S5000x128 .f32) (ix2 p k) = V c main_v91 (ix2 (rowAt t p) k) := by
  obtain ⟨e0, e1⟩ := idx_w0 t
  unfold iblk3
  rw [View.read_apply]
  show V c main_v91 _ = V c main_v91 _
  refine congrArg (V c main_v91) (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 128 + 1 * k.val = k.val; rw [e1]; omega

/-- The neighbour sums' block at point `t`, entry `(p, k)`: the array at row `5000 t + p`. -/
theorem blk1_apply (V : (c : Dev nD) → (b : Ref sig .tc) → Buf (Elt Ideal) ((c : Thread nD τ).loc b)) (c : Dev nD) (t : Fin cfg3.N) (p : Fin 5000) (k : Fin 128) :
    (iblk3 (F := Ideal) V c 1 t : Vec Ideal S5000x128 .f32) (ix2 p k) = V c main_v101 (ix2 (rowAt t p) k) := by
  obtain ⟨e0, e1⟩ := idx_w1 t
  unfold iblk3
  rw [View.read_apply]
  show V c main_v101 _ = V c main_v101 _
  refine congrArg (V c main_v101) (funext fun a => Fin.ext ?_)
  match a with
  | ⟨0, _⟩ => show win3_1.index t (0 : Fin 2) * 5000 + 1 * p.val = t.val * 5000 + p.val; rw [e0]; omega
  | ⟨1, _⟩ => show win3_1.index t (1 : Fin 2) * 128 + 1 * k.val = k.val; rw [e1]; omega

/-- The first weights' block at any point is the whole matrix. -/
theorem blk2_apply (V : (c : Dev nD) → (b : Ref sig .tc) → Buf (Elt Ideal) ((c : Thread nD τ).loc b)) (c : Dev nD) (t : Fin cfg3.N) (k : Fin 128) (q : Fin 256) :
    (iblk3 (F := Ideal) V c 2 t : Vec Ideal S128x256 .f32) (ix2 k q) = V c main_v103 (ix2 k q) := by
  obtain ⟨e0, e1⟩ := idx_w2 t
  unfold iblk3
  rw [View.read_apply]
  show V c main_v103 _ = V c main_v103 _
  refine congrArg (V c main_v103) (funext fun a => Fin.ext ?_)
  match a with
  | ⟨0, _⟩ => show win3_2.index t (0 : Fin 2) * 128 + 1 * k.val = k.val; rw [e0]; omega
  | ⟨1, _⟩ => show win3_2.index t (1 : Fin 2) * 256 + 1 * q.val = q.val; rw [e1]; omega

/-- The second weights' block at any point is the whole matrix. -/
theorem blk8_apply (V : (c : Dev nD) → (b : Ref sig .tc) → Buf (Elt Ideal) ((c : Thread nD τ).loc b)) (c : Dev nD) (t : Fin cfg3.N) (k : Fin 256) (q : Fin 128) :
    (iblk3 (F := Ideal) V c 8 t : Vec Ideal S256x128 .f32) (ix2 k q) = V c main_v115 (ix2 k q) := by
  obtain ⟨e0, e1⟩ := idx_w8 t
  unfold iblk3
  rw [View.read_apply]
  show V c main_v115 _ = V c main_v115 _
  refine congrArg (V c main_v115) (funext fun a => Fin.ext ?_)
  match a with
  | ⟨0, _⟩ => show win3_8.index t (0 : Fin 2) * 256 + 1 * k.val = k.val; rw [e0]; omega
  | ⟨1, _⟩ => show win3_8.index t (1 : Fin 2) * 128 + 1 * q.val = q.val; rw [e1]; omega

/-- The first bias's block at any point is the whole row. -/
theorem blk3_apply (V : (c : Dev nD) → (b : Ref sig .tc) → Buf (Elt Ideal) ((c : Thread nD τ).loc b)) (c : Dev nD) (t : Fin cfg3.N) (q : Fin 256) :
    (iblk3 (F := Ideal) V c 3 t : Vec Ideal S1x256 .f32) (ix2 0 q) = V c main_v126 (ix2 0 q) := by
  obtain ⟨e0, e1⟩ := idx_w3 t
  unfold iblk3
  rw [View.read_apply]
  show V c main_v126 _ = V c main_v126 _
  refine congrArg (V c main_v126) (funext fun a => Fin.ext ?_)
  match a with
  | ⟨0, _⟩ => show win3_3.index t (0 : Fin 2) * 1 + 1 * 0 = 0; rw [e0]
  | ⟨1, _⟩ => show win3_3.index t (1 : Fin 2) * 256 + 1 * q.val = q.val; rw [e1]; omega

/-- The first scale's block at any point is the whole row. -/
theorem blk4_apply (V : (c : Dev nD) → (b : Ref sig .tc) → Buf (Elt Ideal) ((c : Thread nD τ).loc b)) (c : Dev nD) (t : Fin cfg3.N) (q : Fin 256) :
    (iblk3 (F := Ideal) V c 4 t : Vec Ideal S1x256 .f32) (ix2 0 q) = V c main_v127 (ix2 0 q) := by
  obtain ⟨e0, e1⟩ := idx_w4 t
  unfold iblk3
  rw [View.read_apply]
  show V c main_v127 _ = V c main_v127 _
  refine congrArg (V c main_v127) (funext fun a => Fin.ext ?_)
  match a with
  | ⟨0, _⟩ => show win3_4.index t (0 : Fin 2) * 1 + 1 * 0 = 0; rw [e0]
  | ⟨1, _⟩ => show win3_4.index t (1 : Fin 2) * 256 + 1 * q.val = q.val; rw [e1]; omega

/-- The first shift's block at any point is the whole row. -/
theorem blk5_apply (V : (c : Dev nD) → (b : Ref sig .tc) → Buf (Elt Ideal) ((c : Thread nD τ).loc b)) (c : Dev nD) (t : Fin cfg3.N) (q : Fin 256) :
    (iblk3 (F := Ideal) V c 5 t : Vec Ideal S1x256 .f32) (ix2 0 q) = V c main_v128 (ix2 0 q) := by
  obtain ⟨e0, e1⟩ := idx_w5 t
  unfold iblk3
  rw [View.read_apply]
  show V c main_v128 _ = V c main_v128 _
  refine congrArg (V c main_v128) (funext fun a => Fin.ext ?_)
  match a with
  | ⟨0, _⟩ => show win3_5.index t (0 : Fin 2) * 1 + 1 * 0 = 0; rw [e0]
  | ⟨1, _⟩ => show win3_5.index t (1 : Fin 2) * 256 + 1 * q.val = q.val; rw [e1]; omega

/-- The first mean's block at any point is the whole row. -/
theorem blk6_apply (V : (c : Dev nD) → (b : Ref sig .tc) → Buf (Elt Ideal) ((c : Thread nD τ).loc b)) (c : Dev nD) (t : Fin cfg3.N) (q : Fin 256) :
    (iblk3 (F := Ideal) V c 6 t : Vec Ideal S1x256 .f32) (ix2 0 q) = V c main_v129 (ix2 0 q) := by
  obtain ⟨e0, e1⟩ := idx_w6 t
  unfold iblk3
  rw [View.read_apply]
  show V c main_v129 _ = V c main_v129 _
  refine congrArg (V c main_v129) (funext fun a => Fin.ext ?_)
  match a with
  | ⟨0, _⟩ => show win3_6.index t (0 : Fin 2) * 1 + 1 * 0 = 0; rw [e0]
  | ⟨1, _⟩ => show win3_6.index t (1 : Fin 2) * 256 + 1 * q.val = q.val; rw [e1]; omega

/-- The first variance's block at any point is the whole row. -/
theorem blk7_apply (V : (c : Dev nD) → (b : Ref sig .tc) → Buf (Elt Ideal) ((c : Thread nD τ).loc b)) (c : Dev nD) (t : Fin cfg3.N) (q : Fin 256) :
    (iblk3 (F := Ideal) V c 7 t : Vec Ideal S1x256 .f32) (ix2 0 q) = V c main_v130 (ix2 0 q) := by
  obtain ⟨e0, e1⟩ := idx_w7 t
  unfold iblk3
  rw [View.read_apply]
  show V c main_v130 _ = V c main_v130 _
  refine congrArg (V c main_v130) (funext fun a => Fin.ext ?_)
  match a with
  | ⟨0, _⟩ => show win3_7.index t (0 : Fin 2) * 1 + 1 * 0 = 0; rw [e0]
  | ⟨1, _⟩ => show win3_7.index t (1 : Fin 2) * 256 + 1 * q.val = q.val; rw [e1]; omega

/-- The second bias's block at any point is the whole row. -/
theorem blk9_apply (V : (c : Dev nD) → (b : Ref sig .tc) → Buf (Elt Ideal) ((c : Thread nD τ).loc b)) (c : Dev nD) (t : Fin cfg3.N) (q : Fin 128) :
    (iblk3 (F := Ideal) V c 9 t : Vec Ideal S1x128 .f32) (ix2 0 q) = V c main_v131 (ix2 0 q) := by
  obtain ⟨e0, e1⟩ := idx_w9 t
  unfold iblk3
  rw [View.read_apply]
  show V c main_v131 _ = V c main_v131 _
  refine congrArg (V c main_v131) (funext fun a => Fin.ext ?_)
  match a with
  | ⟨0, _⟩ => show win3_9.index t (0 : Fin 2) * 1 + 1 * 0 = 0; rw [e0]
  | ⟨1, _⟩ => show win3_9.index t (1 : Fin 2) * 128 + 1 * q.val = q.val; rw [e1]; omega

/-- The second scale's block at any point is the whole row. -/
theorem blk10_apply (V : (c : Dev nD) → (b : Ref sig .tc) → Buf (Elt Ideal) ((c : Thread nD τ).loc b)) (c : Dev nD) (t : Fin cfg3.N) (q : Fin 128) :
    (iblk3 (F := Ideal) V c 10 t : Vec Ideal S1x128 .f32) (ix2 0 q) = V c main_v132 (ix2 0 q) := by
  obtain ⟨e0, e1⟩ := idx_w10 t
  unfold iblk3
  rw [View.read_apply]
  show V c main_v132 _ = V c main_v132 _
  refine congrArg (V c main_v132) (funext fun a => Fin.ext ?_)
  match a with
  | ⟨0, _⟩ => show win3_10.index t (0 : Fin 2) * 1 + 1 * 0 = 0; rw [e0]
  | ⟨1, _⟩ => show win3_10.index t (1 : Fin 2) * 128 + 1 * q.val = q.val; rw [e1]; omega

/-- The second shift's block at any point is the whole row. -/
theorem blk11_apply (V : (c : Dev nD) → (b : Ref sig .tc) → Buf (Elt Ideal) ((c : Thread nD τ).loc b)) (c : Dev nD) (t : Fin cfg3.N) (q : Fin 128) :
    (iblk3 (F := Ideal) V c 11 t : Vec Ideal S1x128 .f32) (ix2 0 q) = V c main_v133 (ix2 0 q) := by
  obtain ⟨e0, e1⟩ := idx_w11 t
  unfold iblk3
  rw [View.read_apply]
  show V c main_v133 _ = V c main_v133 _
  refine congrArg (V c main_v133) (funext fun a => Fin.ext ?_)
  match a with
  | ⟨0, _⟩ => show win3_11.index t (0 : Fin 2) * 1 + 1 * 0 = 0; rw [e0]
  | ⟨1, _⟩ => show win3_11.index t (1 : Fin 2) * 128 + 1 * q.val = q.val; rw [e1]; omega

/-- The second mean's block at any point is the whole row. -/
theorem blk12_apply (V : (c : Dev nD) → (b : Ref sig .tc) → Buf (Elt Ideal) ((c : Thread nD τ).loc b)) (c : Dev nD) (t : Fin cfg3.N) (q : Fin 128) :
    (iblk3 (F := Ideal) V c 12 t : Vec Ideal S1x128 .f32) (ix2 0 q) = V c main_v134 (ix2 0 q) := by
  obtain ⟨e0, e1⟩ := idx_w12 t
  unfold iblk3
  rw [View.read_apply]
  show V c main_v134 _ = V c main_v134 _
  refine congrArg (V c main_v134) (funext fun a => Fin.ext ?_)
  match a with
  | ⟨0, _⟩ => show win3_12.index t (0 : Fin 2) * 1 + 1 * 0 = 0; rw [e0]
  | ⟨1, _⟩ => show win3_12.index t (1 : Fin 2) * 128 + 1 * q.val = q.val; rw [e1]; omega

/-- The second variance's block at any point is the whole row. -/
theorem blk13_apply (V : (c : Dev nD) → (b : Ref sig .tc) → Buf (Elt Ideal) ((c : Thread nD τ).loc b)) (c : Dev nD) (t : Fin cfg3.N) (q : Fin 128) :
    (iblk3 (F := Ideal) V c 13 t : Vec Ideal S1x128 .f32) (ix2 0 q) = V c main_v135 (ix2 0 q) := by
  obtain ⟨e0, e1⟩ := idx_w13 t
  unfold iblk3
  rw [View.read_apply]
  show V c main_v135 _ = V c main_v135 _
  refine congrArg (V c main_v135) (funext fun a => Fin.ext ?_)
  match a with
  | ⟨0, _⟩ => show win3_13.index t (0 : Fin 2) * 1 + 1 * 0 = 0; rw [e0]
  | ⟨1, _⟩ => show win3_13.index t (1 : Fin 2) * 128 + 1 * q.val = q.val; rw [e1]; omega

/-- Entry `(p, q)` of the output's block at point `t` lies at row `5000 t + p` of the output array. -/
theorem emb_out (t : Fin cfg3.N) (p : Fin 5000) (q : Fin 128) :
    ((cfg3.win 14).blk t).view.emb (ix2 p q : S5000x128.Idx) = (ix2 (rowAt t p) q : S50000x128.Idx) := by
  obtain ⟨e0, e1⟩ := idx_w14 t
  refine funext fun a => Fin.ext ?_
  match a with
  | ⟨0, _⟩ => show win3_14.index t (0 : Fin 2) * 5000 + 1 * p.val = t.val * 5000 + p.val; rw [e0]; omega
  | ⟨1, _⟩ => show win3_14.index t (1 : Fin 2) * 128 + 1 * q.val = q.val; rw [e1]; omega

/-- An index of the output array is in point `t`'s block iff each coordinate is in the block's range on its axis. -/
theorem mem_blk (t : Fin cfg3.N) (i : S50000x128.Idx) :
    i ∈ ((cfg3.win 14).blk t).view.set ↔ ∀ a : Fin 2, win3_14.index t a * S5000x128.size a ≤ (i a).val ∧ (i a).val < win3_14.index t a * S5000x128.size a + S5000x128.size a := by
  show i ∈ ((View.whole main_v136).slice (win3_14.rect t)).set ↔ _
  rw [View.set_slice_whole, Rect.mem_set_unit]
  exact Iff.rfl

/-- Every row of the output array is in some point's block: row `r` in that of point `r / 5000`. -/
theorem cover (i : S50000x128.Idx) :
    ∃ t : Fin cfg3.N, (cfg3.win 14).flush t = true ∧ i ∈ ((cfg3.win 14).blk t).view.set := by
  have hi0 : (i 0).val < 50000 := (i 0).isLt
  have hi1 : (i 1).val < 128 := (i 1).isLt
  have ht : (i 0).val / 5000 < cfg3.N := by rw [show cfg3.N = 10 from N_3]; omega
  obtain ⟨e0, e1⟩ := idx_w14 ⟨(i 0).val / 5000, ht⟩
  have e0' : win3_14.index ⟨(i 0).val / 5000, ht⟩ (0 : Fin 2) = (i 0).val / 5000 := e0
  refine ⟨⟨(i 0).val / 5000, ht⟩, flush3_14 _, ?_⟩
  rw [mem_blk]
  intro a
  match a with
  | ⟨0, _⟩ =>
    show win3_14.index ⟨(i 0).val / 5000, ht⟩ (0 : Fin 2) * 5000 ≤ (i 0).val ∧ (i 0).val < win3_14.index ⟨(i 0).val / 5000, ht⟩ (0 : Fin 2) * 5000 + 5000
    rw [e0']; omega
  | ⟨1, _⟩ =>
    show win3_14.index ⟨(i 0).val / 5000, ht⟩ (1 : Fin 2) * 128 ≤ (i 1).val ∧ (i 1).val < win3_14.index ⟨(i 0).val / 5000, ht⟩ (1 : Fin 2) * 128 + 128
    rw [e1]; omega

/-! ## The body's arithmetic with each loaded entry named

The same two equations, with what each loaded block holds at the entries read given as hypotheses: the form that is
instantiated at the windows' blocks. -/

theorem hidden_of (x0 x1 : Vec Ideal S5000x128 .f32) (w : Vec Ideal S128x256 .f32) (b mu var g bt : Vec Ideal S1x256 .f32)
    (p : Fin 5000) (q : Fin 256) (X0 X1 W : Fin 128 → EReal) (B MU VAR G BT : EReal)
    (h0 : ∀ k, x0 (ix2 p k) = X0 k) (h1 : ∀ k, x1 (ix2 p k) = X1 k) (hw : ∀ k, w (ix2 k q) = W k)
    (hb : b (ix2 0 q) = B) (hmu : mu (ix2 0 q) = MU) (hvar : var (ix2 0 q) = VAR) (hg : g (ix2 0 q) = G) (hbt : bt (ix2 0 q) = BT) :
    k3_pay2 (F := Ideal) x0 x1 w b mu var g bt (ix2 p q)
      = max (((((∑ k : Fin 128, (X0 k + X1 k) * W k) + B) - MU)
          * Ideal.rsqrt (VAR + Ideal.ofBits .f32 0x3727C5AC#32)) * G + BT)
        (Ideal.ofBits .f32 0x00000000#32) := by
  rw [hidden_at, hb, hmu, hvar, hg, hbt,
    show (∑ k : Fin 128, (x0 (ix2 p k) + x1 (ix2 p k)) * w (ix2 k q)) = ∑ k : Fin 128, (X0 k + X1 k) * W k from
      Finset.sum_congr rfl fun k _ => by rw [h0 k, h1 k, hw k]]

theorem out_of (hid : FVec Ideal S5000x256 .bf16) (w : Vec Ideal S256x128 .f32) (b mu var g bt : Vec Ideal S1x128 .f32)
    (p : Fin 5000) (q : Fin 128) (H W : Fin 256 → EReal) (B MU VAR G BT : EReal)
    (hh : ∀ k, hid (ix2 p k) = H k) (hw : ∀ k, w (ix2 k q) = W k)
    (hb : b (ix2 0 q) = B) (hmu : mu (ix2 0 q) = MU) (hvar : var (ix2 0 q) = VAR) (hg : g (ix2 0 q) = G) (hbt : bt (ix2 0 q) = BT) :
    k3_pay1 (F := Ideal) hid (k3_pay3 (F := Ideal) w) b mu var g bt (ix2 p q)
      = max (((((∑ k : Fin 256, H k * W k) + B) - MU)
          * Ideal.rsqrt (VAR + Ideal.ofBits .f32 0x3727C5AC#32)) * G + BT)
        (Ideal.ofBits .f32 0x00000000#32) := by
  rw [out_of_hidden, hb, hmu, hvar, hg, hbt,
    show (∑ k : Fin 256, hid (ix2 p k) * w (ix2 k q)) = ∑ k : Fin 256, H k * W k from
      Finset.sum_congr rfl fun k _ => by rw [hh k, hw k]]

/-! ## One round, block by block, and the whole array -/

/-- What the round leaves in the output array: the specification's round of the arrays the region finds. -/
abbrev roundOf (V : (c : Dev nD) → (b : Ref sig .tc) → Buf (Elt Ideal) ((c : Thread nD τ).loc b)) (c : Dev nD) : Cert.Spec.Mat 50000 128 :=
  Cert.Spec.layerG (V c main_v91) (V c main_v101) (V c main_v103) (Cert.Spec.row (V c main_v126)) (Cert.Spec.row (V c main_v127)) (Cert.Spec.row (V c main_v128)) (Cert.Spec.row (V c main_v129)) (Cert.Spec.row (V c main_v130)) (V c main_v115) (Cert.Spec.row (V c main_v131)) (Cert.Spec.row (V c main_v132)) (Cert.Spec.row (V c main_v133)) (Cert.Spec.row (V c main_v134)) (Cert.Spec.row (V c main_v135))

/-- The hidden activations the body computes at point `t`, entry `(p, q)`, are the specification's at node
    `5000 t + p`, channel `q`. -/
theorem hidden_blk (V : (c : Dev nD) → (b : Ref sig .tc) → Buf (Elt Ideal) ((c : Thread nD τ).loc b)) (c : Dev nD) (t : Fin cfg3.N) (p : Fin 5000) (q : Fin 256) :
    (k3_pay2 (F := Ideal) (iblk3 V c 0 t) (iblk3 V c 1 t) (iblk3 V c 2 t) (iblk3 V c 3 t) (iblk3 V c 6 t) (iblk3 V c 7 t) (iblk3 V c 4 t) (iblk3 V c 5 t)) (ix2 p q)
      = Cert.Spec.hidden (V c main_v91) (V c main_v101) (V c main_v103) (Cert.Spec.row (V c main_v126)) (Cert.Spec.row (V c main_v127)) (Cert.Spec.row (V c main_v128)) (Cert.Spec.row (V c main_v129)) (Cert.Spec.row (V c main_v130)) (rowAt t p) q :=
  hidden_of _ _ _ _ _ _ _ _ p q (fun k => V c main_v91 (ix2 (rowAt t p) k)) (fun k => V c main_v101 (ix2 (rowAt t p) k))
    (fun k => V c main_v103 (ix2 k q)) (V c main_v126 (ix2 0 q)) (V c main_v129 (ix2 0 q)) (V c main_v130 (ix2 0 q)) (V c main_v127 (ix2 0 q))
    (V c main_v128 (ix2 0 q))
    (fun k => blk0_apply V c t p k) (fun k => blk1_apply V c t p k) (fun k => blk2_apply V c t k q)
    (blk3_apply V c t q) (blk6_apply V c t q) (blk7_apply V c t q) (blk4_apply V c t q) (blk5_apply V c t q)

/-- What point `t` writes back is block `t` of the specification's round. -/
theorem flushed_eq (V : (c : Dev nD) → (b : Ref sig .tc) → Buf (Elt Ideal) ((c : Thread nD τ).loc b)) (c : Dev nD) (t : Fin cfg3.N) :
    (dat3 (F := Ideal) V c).flushed 14 t = ((cfg3.win 14).blk t).view.read (Elt Ideal) (roundOf V c) := by
  show (cfg3.win 14).cut (grid3.coords t) ((dat3 V c).after 14 t) = _
  rw [after3_14]
  unfold out3_14
  rw [View.canon_unit_zero hz]
  simp only [View.ld_unit_zero (S := S5000x128) hz, View.ld_unit_zero (S := S128x256) hz, View.ld_unit_zero (S := S1x256) hz,
    View.ld_unit_zero (S := S256x128) hz, View.ld_unit_zero (S := S1x128) hz]
  funext j
  obtain ⟨p, q, rfl⟩ : ∃ (p : Fin 5000) (q : Fin 128), j = ix2 p q := ⟨j 0, j 1, eq_ix2 j⟩
  show k3_pay1 (F := Ideal) (k3_pay2 (F := Ideal) (iblk3 V c 0 t) (iblk3 V c 1 t) (iblk3 V c 2 t) (iblk3 V c 3 t) (iblk3 V c 6 t) (iblk3 V c 7 t) (iblk3 V c 4 t) (iblk3 V c 5 t)) (k3_pay3 (F := Ideal) (iblk3 V c 8 t)) (iblk3 V c 9 t) (iblk3 V c 12 t)
      (iblk3 V c 13 t) (iblk3 V c 10 t) (iblk3 V c 11 t) (ix2 p q)
    = roundOf V c (((cfg3.win 14).blk t).view.emb (ix2 p q))
  rw [emb_out t p q]
  exact out_of _ _ _ _ _ _ _ p q
    (fun k => Cert.Spec.hidden (V c main_v91) (V c main_v101) (V c main_v103) (Cert.Spec.row (V c main_v126)) (Cert.Spec.row (V c main_v127)) (Cert.Spec.row (V c main_v128)) (Cert.Spec.row (V c main_v129)) (Cert.Spec.row (V c main_v130)) (rowAt t p) k)
    (fun k => V c main_v115 (ix2 k q)) (V c main_v131 (ix2 0 q)) (V c main_v134 (ix2 0 q)) (V c main_v135 (ix2 0 q)) (V c main_v132 (ix2 0 q))
    (V c main_v133 (ix2 0 q))
    (fun k => hidden_blk V c t p k) (fun k => blk8_apply V c t k q)
    (blk9_apply V c t q) (blk12_apply V c t q) (blk13_apply V c t q) (blk10_apply V c t q) (blk11_apply V c t q)

/-- THE ROUND: after the region, the output array is the specification's round of the arrays the region finds. -/
theorem layer3_value (V : (c : Dev nD) → (b : Ref sig .tc) → Buf (Elt Ideal) ((c : Thread nD τ).loc b)) (c : Dev nD) :
    (dat3 (F := Ideal) V c).arrAt 14 cfg3.N = Cert.Spec.layerG (V c main_v91) (V c main_v101) (V c main_v103) (Cert.Spec.row (V c main_v126)) (Cert.Spec.row (V c main_v127)) (Cert.Spec.row (V c main_v128)) (Cert.Spec.row (V c main_v129)) (Cert.Spec.row (V c main_v130)) (V c main_v115) (Cert.Spec.row (V c main_v131)) (Cert.Spec.row (V c main_v132)) (Cert.Spec.row (V c main_v133)) (Cert.Spec.row (V c main_v134)) (Cert.Spec.row (V c main_v135)) :=
  (dat3 V c).arrAt_eq_of_cover 14 (roundOf V c) (fun t _ => flushed_eq V c t) cover

end Cert.KernelIdeal.Layer3Value

end
-- ==== Proof.ReadoutValue.lean ====
/-
  The readout region read as one function of its five input arrays.  The region has one point and stages every array
  whole: it multiplies the 64 × 128 per-graph sums by a 128 × 128 matrix, adds a one-row bias, clamps at zero, multiplies
  by a 128 × 10 matrix and adds a second one-row bias.  Here: that arithmetic at one entry, the (trivial) places of the
  whole-array blocks, and from the two the whole output array after the region: the specification's `readoutG`.
-/
import proofs.«171844_j32538672234672_1_alg».proof.Proof.Gen.KernelIdeal.Frame
import proofs.«171844_j32538672234672_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.ReadoutValue

open Cert.KernelIdeal Cert.KernelIdeal.Gen Idealize.ShloMosaic Idealize.ShloMosaic.ValueIdx Idealize.ShloMosaic.TcCoe Idealize.SL.Sem
open Idealize.ShloMosaic.Pipeline (Dat)
open scoped BigOperators

/-! ## The point's arithmetic at one entry -/

/-- The offsets of a whole-block access, however they are spelt. -/
theorem offsets_zero : (![0, 0] : Fin 2 → Nat) = fun _ => 0 := funext fun a => by fin_cases a <;> rfl

/-- A row index of the left factor of the 64 × 128 by 128 × 128 product is the output's row. -/
theorem hidden_product_lhs_row (i : S64x128.Idx) (k : dot_S64x128_S128x128_S64x128_1_0_0_1_n_n.contr.Idx) :
    (dot_S64x128_S128x128_S64x128_1_0_0_1_n_n.lhsIdx i k 0).val = (i 0).val := by
  unfold DotDims.lhsIdx
  rw [dif_neg (show ¬(0 : Fin S64x128.rank) ∈ dot_S64x128_S128x128_S64x128_1_0_0_1_n_n.lhsBatch by decide),
    dif_pos (show (0 : Fin S64x128.rank) ∈ dot_S64x128_S128x128_S64x128_1_0_0_1_n_n.lhsNonContracting by decide)]
  rfl

/-- A column index of its right factor is the output's column. -/
theorem hidden_product_rhs_col (i : S64x128.Idx) (k : dot_S64x128_S128x128_S64x128_1_0_0_1_n_n.contr.Idx) :
    (dot_S64x128_S128x128_S64x128_1_0_0_1_n_n.rhsIdx i k 1).val = (i 1).val := by
  unfold DotDims.rhsIdx
  rw [dif_neg (show ¬(1 : Fin S128x128.rank) ∈ dot_S64x128_S128x128_S64x128_1_0_0_1_n_n.rhsBatch by decide),
    dif_pos (show (1 : Fin S128x128.rank) ∈ dot_S64x128_S128x128_S64x128_1_0_0_1_n_n.rhsNonContracting by decide)]
  rfl

/-- That product into the zero accumulator, at entry (p, q): the sum over the 128 columns of the left factor's row `p`
    times the right factor's column `q`. -/
theorem hidden_product_apply (a : FVec Ideal S64x128 .bf16) (b : FVec Ideal S128x128 .bf16) (p : Fin 64) (q : Fin 128) :
    matmul (F := Ideal) dot_S64x128_S128x128_S64x128_1_0_0_1_n_n none a b (constant (F := Ideal) S64x128 .f32 0x00000000#32) (ix2 p q)
      = ∑ k : Fin 128, a (ix2 p k) * b (ix2 k q) := by
  refine (Ideal.matmul_constant_zero_apply dot_S64x128_S128x128_S64x128_1_0_0_1_n_n none a b (ix2 p q)).trans ?_
  rw [← Equiv.sum_comp (contrEquiv1 dot_S64x128_S128x128_S64x128_1_0_0_1_n_n 128 rfl rfl).symm]
  refine Finset.sum_congr rfl fun k _ => ?_
  have hk := contrEquiv1_symm_val dot_S64x128_S128x128_S64x128_1_0_0_1_n_n 128 rfl rfl k
  have el : dot_S64x128_S128x128_S64x128_1_0_0_1_n_n.lhsIdx (ix2 p q) ((contrEquiv1 dot_S64x128_S128x128_S64x128_1_0_0_1_n_n 128 rfl rfl).symm k) = ix2 p k :=
    funext fun d => Fin.ext (by
      match d with
      | ⟨0, _⟩ => exact hidden_product_lhs_row _ _
      | ⟨1, _⟩ => exact (dot_S64x128_S128x128_S64x128_1_0_0_1_n_n.lhsIdx_val_of_single rfl _ _).trans hk)
  have er : dot_S64x128_S128x128_S64x128_1_0_0_1_n_n.rhsIdx (ix2 p q) ((contrEquiv1 dot_S64x128_S128x128_S64x128_1_0_0_1_n_n 128 rfl rfl).symm k) = ix2 k q :=
    funext fun d => Fin.ext (by
      match d with
      | ⟨0, _⟩ => exact (dot_S64x128_S128x128_S64x128_1_0_0_1_n_n.rhsIdx_val_of_single rfl _ _).trans hk
      | ⟨1, _⟩ => exact hidden_product_rhs_col _ _)
  rw [el, er]

/-- A row index of the left factor of the 64 × 128 by 128 × 10 product is the output's row. -/
theorem out_product_lhs_row (i : S64x10.Idx) (k : dot_S64x128_S128x10_S64x10_1_0_0_1_n_n.contr.Idx) :
    (dot_S64x128_S128x10_S64x10_1_0_0_1_n_n.lhsIdx i k 0).val = (i 0).val := by
  unfold DotDims.lhsIdx
  rw [dif_neg (show ¬(0 : Fin S64x128.rank) ∈ dot_S64x128_S128x10_S64x10_1_0_0_1_n_n.lhsBatch by decide),
    dif_pos (show (0 : Fin S64x128.rank) ∈ dot_S64x128_S128x10_S64x10_1_0_0_1_n_n.lhsNonContracting by decide)]
  rfl

/-- A column index of its right factor is the output's column. -/
theorem out_product_rhs_col (i : S64x10.Idx) (k : dot_S64x128_S128x10_S64x10_1_0_0_1_n_n.contr.Idx) :
    (dot_S64x128_S128x10_S64x10_1_0_0_1_n_n.rhsIdx i k 1).val = (i 1).val := by
  unfold DotDims.rhsIdx
  rw [dif_neg (show ¬(1 : Fin S128x10.rank) ∈ dot_S64x128_S128x10_S64x10_1_0_0_1_n_n.rhsBatch by decide),
    dif_pos (show (1 : Fin S128x10.rank) ∈ dot_S64x128_S128x10_S64x10_1_0_0_1_n_n.rhsNonContracting by decide)]
  rfl

/-- That product into the zero accumulator, at entry (p, q): the sum over the 128 columns of the left factor's row `p`
    times the right factor's column `q`. -/
theorem out_product_apply (a : FVec Ideal S64x128 .bf16) (b : FVec Ideal S128x10 .bf16) (p : Fin 64) (q : Fin 10) :
    matmul (F := Ideal) dot_S64x128_S128x10_S64x10_1_0_0_1_n_n none a b (constant (F := Ideal) S64x10 .f32 0x00000000#32) (ix2 p q)
      = ∑ k : Fin 128, a (ix2 p k) * b (ix2 k q) := by
  refine (Ideal.matmul_constant_zero_apply dot_S64x128_S128x10_S64x10_1_0_0_1_n_n none a b (ix2 p q)).trans ?_
  rw [← Equiv.sum_comp (contrEquiv1 dot_S64x128_S128x10_S64x10_1_0_0_1_n_n 128 rfl rfl).symm]
  refine Finset.sum_congr rfl fun k _ => ?_
  have hk := contrEquiv1_symm_val dot_S64x128_S128x10_S64x10_1_0_0_1_n_n 128 rfl rfl k
  have el : dot_S64x128_S128x10_S64x10_1_0_0_1_n_n.lhsIdx (ix2 p q) ((contrEquiv1 dot_S64x128_S128x10_S64x10_1_0_0_1_n_n 128 rfl rfl).symm k) = ix2 p k :=
    funext fun d => Fin.ext (by
      match d with
      | ⟨0, _⟩ => exact out_product_lhs_row _ _
      | ⟨1, _⟩ => exact (dot_S64x128_S128x10_S64x10_1_0_0_1_n_n.lhsIdx_val_of_single rfl _ _).trans hk)
  have er : dot_S64x128_S128x10_S64x10_1_0_0_1_n_n.rhsIdx (ix2 p q) ((contrEquiv1 dot_S64x128_S128x10_S64x10_1_0_0_1_n_n 128 rfl rfl).symm k) = ix2 k q :=
    funext fun d => Fin.ext (by
      match d with
      | ⟨0, _⟩ => exact (dot_S64x128_S128x10_S64x10_1_0_0_1_n_n.rhsIdx_val_of_single rfl _ _).trans hk
      | ⟨1, _⟩ => exact out_product_rhs_col _ _)
  rw [el, er]

/-- The first one-row bias repeated over the 64 rows reads, at (p, q), the row's entry q. -/
theorem hidden_bias_apply (v : FVec Ideal S1x128 .f32) (p : Fin 64) (q : Fin 128) :
    broadcastTo S64x128 v broadcasts_S1x128_S64x128 (ix2 p q) = v (ix2 0 q) :=
  broadcastTo_apply v broadcasts_S1x128_S64x128 (ix2 p q) (ix2 0 q) (fun d => match d with
    | ⟨0, _⟩ => by show (0 : Nat) = if (1 : Nat) = 1 then 0 else p.val; rw [if_pos rfl]
    | ⟨1, _⟩ => by show q.val = if (128 : Nat) = 1 then 0 else q.val; rw [if_neg (by decide)])

/-- The second one-row bias repeated over the 64 rows reads, at (p, q), the row's entry q. -/
theorem out_bias_apply (v : FVec Ideal S1x10 .f32) (p : Fin 64) (q : Fin 10) :
    broadcastTo S64x10 v broadcasts_S1x10_S64x10 (ix2 p q) = v (ix2 0 q) :=
  broadcastTo_apply v broadcasts_S1x10_S64x10 (ix2 p q) (ix2 0 q) (fun d => match d with
    | ⟨0, _⟩ => by show (0 : Nat) = if (1 : Nat) = 1 then 0 else p.val; rw [if_pos rfl]
    | ⟨1, _⟩ => by show q.val = if (10 : Nat) = 1 then 0 else q.val; rw [if_neg (by decide)])

/-- THE POINT'S ARITHMETIC at entry (p, q) of the 64 × 10 output, as the specification writes it: the clamped first
    affine map of row `p`, against column `q` of the second matrix, plus the second bias entry. The narrowings of the
    factors are the identity on extended reals, and the clamp's floor is the same zero word on both sides. -/
theorem pay_apply (x0 : Vec Ideal S64x128 .f32) (x1 : Vec Ideal S128x128 .f32) (x2 : Vec Ideal S1x128 .f32)
    (x3 : Vec Ideal S128x10 .f32) (x4 : Vec Ideal S1x10 .f32) (p : Fin 64) (q : Fin 10) :
    k4_pay1 (F := Ideal) x0 x1 x2 x3 x4 (ix2 p q)
      = Cert.Spec.readoutG x0 x1 (Cert.Spec.row x2) x3 (Cert.Spec.row x4) (ix2 p q) := by
  unfold k4_pay1
  refine (addf_apply _ _ (ix2 p q)).trans ?_
  refine congrArg₂ (· + ·) ?_ ?_
  · refine (out_product_apply _ _ p q).trans ?_
    refine Finset.sum_congr rfl fun k _ => congrArg₂ (· * ·) ?_ rfl
    refine (maximumf_apply _ _ (ix2 p k)).trans ?_
    refine congrArg₂ max ?_ rfl
    refine (addf_apply _ _ (ix2 p k)).trans ?_
    refine congrArg₂ (· + ·) ?_ ?_
    · refine (hidden_product_apply _ _ p k).trans ?_
      rw [shapeCast_self]
      rfl
    · refine (hidden_bias_apply _ p k).trans ?_
      rw [shapeCast_self]
      rfl
  · refine (out_bias_apply _ p q).trans ?_
    rw [shapeCast_self]
    rfl

/-! ## The blocks' places -/

/-- The printed index maps at the one point: every window's block is the block at the origin, its whole array. -/
theorem places : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

variable (V : (c : Dev nD) → (b : Ref sig .tc) → Buf (Elt Ideal) ((c : Thread nD τ).loc b))

/-- WHAT THE POINT WRITES BACK is the specification's function of the five arrays as the region finds them, read through
    the output's (whole-array) block. -/
theorem flushed_eq (c : Dev nD) (t : Fin cfg4.N) :
    (dat4 (F := Ideal) V c).flushed 5 t
      = ((cfg4.win 5).blk t).view.read (Elt Ideal) (Cert.Spec.readoutG (V c main_v139) (V c main_arg18) (Cert.Spec.row (V c main_v140))
          (V c main_arg20) (Cert.Spec.row (V c main_v141))) := by
  show (cfg4.win 5).cut (grid4.coords t) ((dat4 (F := Ideal) V c).after 5 t) = _
  rw [after4_5]
  unfold out4_5
  rw [View.canon_unit_zero offsets_zero]
  simp only [View.ld_unit_zero (S := S64x128) offsets_zero, View.ld_unit_zero (S := S128x128) offsets_zero,
    View.ld_unit_zero (S := S1x128) offsets_zero, View.ld_unit_zero (S := S128x10) offsets_zero,
    View.ld_unit_zero (S := S1x10) offsets_zero]
  obtain ⟨e00, e01, e10, e11, e20, e21, e30, e31, e40, e41, e50, e51⟩ := places t
  -- a block at the origin that is its whole array reads the array where the index says
  have b0 : ∀ y : S64x128.Idx, ((cfg4.win 0).blk t).view.emb y = y := fun y => by
    funext d; apply Fin.ext
    match d with
    | ⟨0, _⟩ => show win4_0.index t (0 : Fin 2) * 64 + 1 * (y 0).val = (y 0).val; omega
    | ⟨1, _⟩ => show win4_0.index t (1 : Fin 2) * 128 + 1 * (y 1).val = (y 1).val; omega
  have b1 : ∀ y : S128x128.Idx, ((cfg4.win 1).blk t).view.emb y = y := fun y => by
    funext d; apply Fin.ext
    match d with
    | ⟨0, _⟩ => show win4_1.index t (0 : Fin 2) * 128 + 1 * (y 0).val = (y 0).val; omega
    | ⟨1, _⟩ => show win4_1.index t (1 : Fin 2) * 128 + 1 * (y 1).val = (y 1).val; omega
  have b2 : ∀ y : S1x128.Idx, ((cfg4.win 2).blk t).view.emb y = y := fun y => by
    funext d; apply Fin.ext
    match d with
    | ⟨0, _⟩ => show win4_2.index t (0 : Fin 2) * 1 + 1 * (y 0).val = (y 0).val; omega
    | ⟨1, _⟩ => show win4_2.index t (1 : Fin 2) * 128 + 1 * (y 1).val = (y 1).val; omega
  have b3 : ∀ y : S128x10.Idx, ((cfg4.win 3).blk t).view.emb y = y := fun y => by
    funext d; apply Fin.ext
    match d with
    | ⟨0, _⟩ => show win4_3.index t (0 : Fin 2) * 128 + 1 * (y 0).val = (y 0).val; omega
    | ⟨1, _⟩ => show win4_3.index t (1 : Fin 2) * 10 + 1 * (y 1).val = (y 1).val; omega
  have b4 : ∀ y : S1x10.Idx, ((cfg4.win 4).blk t).view.emb y = y := fun y => by
    funext d; apply Fin.ext
    match d with
    | ⟨0, _⟩ => show win4_4.index t (0 : Fin 2) * 1 + 1 * (y 0).val = (y 0).val; omega
    | ⟨1, _⟩ => show win4_4.index t (1 : Fin 2) * 10 + 1 * (y 1).val = (y 1).val; omega
  have b5 : ∀ y : S64x10.Idx, ((cfg4.win 5).blk t).view.emb y = y := fun y => by
    funext d; apply Fin.ext
    match d with
    | ⟨0, _⟩ => show win4_5.index t (0 : Fin 2) * 64 + 1 * (y 0).val = (y 0).val; omega
    | ⟨1, _⟩ => show win4_5.index t (1 : Fin 2) * 10 + 1 * (y 1).val = (y 1).val; omega
  have r0 : iblk4 V c 0 t = V c main_v139 := funext fun y => by
    show V c main_v139 (((cfg4.win 0).blk t).view.emb y) = V c main_v139 y; rw [b0 y]
  have r1 : iblk4 V c 1 t = V c main_arg18 := funext fun y => by
    show V c main_arg18 (((cfg4.win 1).blk t).view.emb y) = V c main_arg18 y; rw [b1 y]
  have r2 : iblk4 V c 2 t = V c main_v140 := funext fun y => by
    show V c main_v140 (((cfg4.win 2).blk t).view.emb y) = V c main_v140 y; rw [b2 y]
  have r3 : iblk4 V c 3 t = V c main_arg20 := funext fun y => by
    show V c main_arg20 (((cfg4.win 3).blk t).view.emb y) = V c main_arg20 y; rw [b3 y]
  have r4 : iblk4 V c 4 t = V c main_v141 := funext fun y => by
    show V c main_v141 (((cfg4.win 4).blk t).view.emb y) = V c main_v141 y; rw [b4 y]
  refine funext fun (j : S64x10.Idx) => ?_
  obtain ⟨p, q, rfl⟩ : ∃ (p : Fin 64) (q : Fin 10), j = ix2 p q := ⟨j 0, j 1, eq_ix2 j⟩
  show k4_pay1 (F := Ideal) (iblk4 V c 0 t) (iblk4 V c 1 t) (iblk4 V c 2 t) (iblk4 V c 3 t) (iblk4 V c 4 t) (ix2 p q)
    = Cert.Spec.readoutG (V c main_v139) (V c main_arg18) (Cert.Spec.row (V c main_v140)) (V c main_arg20) (Cert.Spec.row (V c main_v141))
        (((cfg4.win 5).blk t).view.emb (ix2 p q))
  rw [b5 (ix2 p q), r0, r1, r2, r3, r4]
  exact pay_apply _ _ _ _ _ p q

/-- An index of the output array is in the point's block iff each coordinate is in the block's range on its axis. -/
theorem mem_blk (t : Fin cfg4.N) (i : S64x10.Idx) :
    i ∈ ((cfg4.win 5).blk t).view.set ↔ ∀ a : Fin 2, win4_5.index t a * S64x10.size a ≤ (i a).val ∧ (i a).val < win4_5.index t a * S64x10.size a + S64x10.size a := by
  show i ∈ ((View.whole main_v142).slice (win4_5.rect t)).set ↔ _
  rw [View.set_slice_whole, Rect.mem_set_unit]
  exact Iff.rfl

/-- The one block is the whole array: every index lies in it. -/
theorem cover (i : S64x10.Idx) : ∃ t : Fin cfg4.N, (cfg4.win 5).flush t = true ∧ i ∈ ((cfg4.win 5).blk t).view.set := by
  have hi0 : (i 0).val < 64 := (i 0).isLt
  have hi1 : (i 1).val < 10 := (i 1).isLt
  obtain ⟨e00, e01, e10, e11, e20, e21, e30, e31, e40, e41, e50, e51⟩ := places t4_0
  refine ⟨t4_0, flush4_5 t4_0, ?_⟩
  rw [mem_blk]
  intro a
  match a with
  | ⟨0, _⟩ => show win4_5.index t4_0 (0 : Fin 2) * 64 ≤ (i 0).val ∧ (i 0).val < win4_5.index t4_0 (0 : Fin 2) * 64 + 64; omega
  | ⟨1, _⟩ => show win4_5.index t4_0 (1 : Fin 2) * 10 ≤ (i 1).val ∧ (i 1).val < win4_5.index t4_0 (1 : Fin 2) * 10 + 10; omega

/-! ## The output array after the region -/

/-- THE READOUT REGION'S VALUE: after its one point the output array is the two-layer readout of the five arrays at entry. -/
theorem readout_value (V : (c : Dev nD) → (b : Ref sig .tc) → Buf (Elt Ideal) ((c : Thread nD τ).loc b)) (c : Dev nD) :
    (dat4 (F := Ideal) V c).arrAt 5 cfg4.N = Cert.Spec.readoutG (V c main_v139) (V c main_arg18) (Cert.Spec.row (V c main_v140)) (V c main_arg20) (Cert.Spec.row (V c main_v141)) :=
  (dat4 (F := Ideal) V c).arrAt_eq_of_cover 5
    (Cert.Spec.readoutG (V c main_v139) (V c main_arg18) (Cert.Spec.row (V c main_v140)) (V c main_arg20) (Cert.Spec.row (V c main_v141)))
    (fun t _ => flushed_eq V c t) cover

end Cert.KernelIdeal.ReadoutValue

end
-- ==== Proof.FoldValue.lean ====
/-
  The idealized kernel's result buffer is the network of the argument arrays.  Through the fold, the first region
  leaves the embedding of the node features; each of the next three leaves one round applied to the previous region's
  array, with that array's neighbour sum and the round's parameters; the last leaves the readout of the per-graph sum
  of the third round's array.  Each step is the region's own value (its output array as the specification's function
  of the arrays it finds) with the arrays it finds read back to the arguments.
-/
import proofs.«171844_j32538672234672_1_alg».proof.Proof.FoldEntryEnds
import proofs.«171844_j32538672234672_1_alg».proof.Proof.FoldEntry1
import proofs.«171844_j32538672234672_1_alg».proof.Proof.FoldEntry2
import proofs.«171844_j32538672234672_1_alg».proof.Proof.FoldEntry3
import proofs.«171844_j32538672234672_1_alg».proof.Proof.Net
import proofs.«171844_j32538672234672_1_alg».proof.Proof.EmbedValue
import proofs.«171844_j32538672234672_1_alg».proof.Proof.Layer1Value
import proofs.«171844_j32538672234672_1_alg».proof.Proof.Layer2Value
import proofs.«171844_j32538672234672_1_alg».proof.Proof.Layer3Value
import proofs.«171844_j32538672234672_1_alg».proof.Proof.ReadoutValue
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo Cert.Spec

variable (m : (ℓ : Loc nD τ sig) → Buf (Elt Ideal) ℓ) (ρ : Dev nD → PrngReg) (c : Dev nD)

theorem W2_emb : W2 m ρ c (Proc.devRef .tc main_v1) = embedG (m ((c : Thread nD τ).loc main_arg0)) (m ((c : Thread nD τ).loc main_arg4)) (m ((c : Thread nD τ).loc main_arg5)) := by
  refine (W2_arr m ρ c 3).trans ?_
  rw [Cert.KernelIdeal.EmbedValue.embed_value (V1 m ρ) c, V1_x, V1_We, V1_be]

theorem W4_round : W4 m ρ c (Proc.devRef .tc main_v46) = round (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) 0 (embedG (m ((c : Thread nD τ).loc main_arg0)) (m ((c : Thread nD τ).loc main_arg4)) (m ((c : Thread nD τ).loc main_arg5))) := by
  refine (W4_arr m ρ c 14).trans ?_
  rw [Cert.KernelIdeal.Layer1Value.layer1_value (V3 m ρ) c, V3_h, V3_agg, V3_W1, V3_b1, V3_g1, V3_bt1, V3_m1, V3_v1,
    V3_W2, V3_b2, V3_g2, V3_bt2, V3_m2, V3_v2, W2_emb]
  rfl

theorem W6_round : W6 m ρ c (Proc.devRef .tc main_v91) = round (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) 1 (round (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) 0 (embedG (m ((c : Thread nD τ).loc main_arg0)) (m ((c : Thread nD τ).loc main_arg4)) (m ((c : Thread nD τ).loc main_arg5)))) := by
  refine (W6_arr m ρ c 14).trans ?_
  rw [Cert.KernelIdeal.Layer2Value.layer2_value (V5 m ρ) c, V5_h, V5_agg, V5_W1, V5_b1, V5_g1, V5_bt1, V5_m1, V5_v1,
    V5_W2, V5_b2, V5_g2, V5_bt2, V5_m2, V5_v2, W4_round]
  rfl

theorem W8_round : W8 m ρ c (Proc.devRef .tc main_v136) = round (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) 2 (round (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) 1 (round (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) 0 (embedG (m ((c : Thread nD τ).loc main_arg0)) (m ((c : Thread nD τ).loc main_arg4)) (m ((c : Thread nD τ).loc main_arg5))))) := by
  refine (W8_arr m ρ c 14).trans ?_
  rw [Cert.KernelIdeal.Layer3Value.layer3_value (V7 m ρ) c, V7_h, V7_agg, V7_W1, V7_b1, V7_g1, V7_bt1, V7_m1, V7_v1,
    V7_W2, V7_b2, V7_g2, V7_bt2, V7_m2, V7_v2, W6_round]
  rfl

/-- The result buffer at the end of the fold is the network of the argument arrays as launched. -/
theorem kernel_value : W10 m ρ c (Proc.devRef .tc main_v142) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  refine (W10_arr m ρ c 5).trans ?_
  rw [Cert.KernelIdeal.ReadoutValue.readout_value (V9 m ρ) c, V9_pooled, V9_Wr1, V9_br1, V9_Wr2, V9_br2, W8_round]
  rfl

end Cert.KernelIdeal.Fold

end
-- ==== Proof.RefValue.lean ====
/-
  The reference's three rounds are the specification's rounds.  Each round of the reference is a chain of array
  operations: the previous rows plus their neighbour sums; a matrix product with one slab of the stacked first matrices;
  a bias, a stored mean, the inverse square root of a stored variance plus the stabiliser, a scale and a shift, each cut
  out of a stack of three rows and spread over the 50000 nodes; a clamp at zero; and the same again with the second
  matrices and rows.  Read at node `p` and channel `q`, every spread row is the stack's entry `(l, q)`, every slab
  entry is the stack's entry `(l, k, q)`, and a product's entry is the sum over the contracted coordinate; put together
  these are `Cert.Spec.hidden` (the first half) and `Cert.Spec.layerG` (the round), term for term.  The neighbour sums
  stay the opaque stages they are.
-/
import proofs.«171844_j32538672234672_1_alg».proof.Proof.ReadP
import proofs.«171844_j32538672234672_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.ReadP Idealize.ShloMosaic Idealize.ShloMosaic.ValueIdx Cert.Spec

/-! ## Round 0: the parameters read at an index -/

/-- Round 0's first bias, spread over the nodes, at node `p`, channel `q`: row 0 of the stack. -/
theorem rd_v21 (x7 : (⟨S3x256, .f32⟩ : BufTy).Contents (Elt Ideal)) (p : Fin 50000) (q : Fin 256) :
    val_main_v21 (F := Ideal) x7 (ix2 p q) = x7 (ix2 (0 : Fin 3) q) := by
  rw [val_main_v21_apply, val_main_v20_apply, val_main_v19_apply, val_main_v18_apply]
  refine congrArg x7 (funext fun a => Fin.ext ?_)
  match a with
  | ⟨0, _⟩ => rfl
  | ⟨1, _⟩ => exact Nat.mod_eq_of_lt q.isLt
/-- Round 0's first stored mean at node `p`, channel `q`. -/
theorem rd_v32 (x10 : (⟨S3x256, .f32⟩ : BufTy).Contents (Elt Ideal)) (p : Fin 50000) (q : Fin 256) :
    val_main_v32 (F := Ideal) x10 (ix2 p q) = x10 (ix2 (0 : Fin 3) q) := by
  rw [val_main_v32_apply, val_main_v31_apply, val_main_v28_apply, val_main_v27_apply]
  refine congrArg x10 (funext fun a => Fin.ext ?_)
  match a with
  | ⟨0, _⟩ => rfl
  | ⟨1, _⟩ => exact Nat.mod_eq_of_lt q.isLt
/-- Round 0's first inverse deviation at node `p`, channel `q`: the inverse square root of the stored variance plus the stabiliser. -/
theorem rd_v38 (x11 : (⟨S3x256, .f32⟩ : BufTy).Contents (Elt Ideal)) (p : Fin 50000) (q : Fin 256) :
    val_main_v38 (F := Ideal) x11 (ix2 p q) = Ideal.rsqrt (x11 (ix2 (0 : Fin 3) q) + eps) := by
  rw [val_main_v38_apply, val_main_v37_apply, val_main_v36_apply, val_main_v35_apply, val_main_v30_apply, val_main_v29_apply, val_main_v34_apply, val_main_cst_1_apply]
  refine congrArg (fun j => Ideal.rsqrt (x11 j + eps)) (funext fun a => Fin.ext ?_)
  match a with
  | ⟨0, _⟩ => rfl
  | ⟨1, _⟩ => exact Nat.mod_eq_of_lt q.isLt
/-- Round 0's first scale at node `p`, channel `q`. -/
theorem rd_v41 (x8 : (⟨S3x256, .f32⟩ : BufTy).Contents (Elt Ideal)) (p : Fin 50000) (q : Fin 256) :
    val_main_v41 (F := Ideal) x8 (ix2 p q) = x8 (ix2 (0 : Fin 3) q) := by
  rw [val_main_v41_apply, val_main_v40_apply, val_main_v24_apply, val_main_v23_apply]
  refine congrArg x8 (funext fun a => Fin.ext ?_)
  match a with
  | ⟨0, _⟩ => rfl
  | ⟨1, _⟩ => exact Nat.mod_eq_of_lt q.isLt
/-- Round 0's first shift at node `p`, channel `q`. -/
theorem rd_v44 (x9 : (⟨S3x256, .f32⟩ : BufTy).Contents (Elt Ideal)) (p : Fin 50000) (q : Fin 256) :
    val_main_v44 (F := Ideal) x9 (ix2 p q) = x9 (ix2 (0 : Fin 3) q) := by
  rw [val_main_v44_apply, val_main_v43_apply, val_main_v26_apply, val_main_v25_apply]
  refine congrArg x9 (funext fun a => Fin.ext ?_)
  match a with
  | ⟨0, _⟩ => rfl
  | ⟨1, _⟩ => exact Nat.mod_eq_of_lt q.isLt
/-- Round 0's first matrix: slab 0 of the stack. -/
theorem rd_v16 (x6 : (⟨S3x128x256, .f32⟩ : BufTy).Contents (Elt Ideal)) (k : Fin 128) (q : Fin 256) :
    val_main_v16 (F := Ideal) x6 (ix2 k q) = x6 (ix3 (0 : Fin 3) k q) := by
  rw [val_main_v16_apply, val_main_v15_apply]
  refine congrArg x6 (funext fun a => Fin.ext ?_)
  have hk : k.val < 128 := k.isLt
  have hq : q.val < 256 := q.isLt
  match a with
  | ⟨0, _⟩ => rfl
  | ⟨1, _⟩ => show (k.val * 256 + q.val) / 256 % 128 = k.val; omega
  | ⟨2, _⟩ => show (k.val * 256 + q.val) % 256 = q.val; omega
/-- The first clamp's floor. -/
theorem rd_call0 (p : Fin 50000) (q : Fin 256) : val_main_call0_v0 (F := Ideal) (ix2 p q) = floor0 :=
  (val_main_call0_v0_apply (F := Ideal) _).trans (val_main_call0_cst_apply (F := Ideal) _)
/-- The two operands' indices under contraction `v17`'s sum, by coordinates. -/
theorem l_v17 (p : Fin 50000) (q : Fin 256) (k : Fin 128) : lidx_main_v17 (ix2 p q) k = ix2 p k := by
  funext a; match a with | ⟨0, _⟩ => rfl | ⟨1, _⟩ => rfl
theorem r_v17 (p : Fin 50000) (q : Fin 256) (k : Fin 128) : ridx_main_v17 (ix2 p q) k = ix2 k q := by
  funext a; match a with | ⟨0, _⟩ => rfl | ⟨1, _⟩ => rfl
/-- Round 0's second bias at node `p`, channel `q`. -/
theorem rd_v53 (x13 : (⟨S3x128, .f32⟩ : BufTy).Contents (Elt Ideal)) (p : Fin 50000) (q : Fin 128) :
    val_main_v53 (F := Ideal) x13 (ix2 p q) = x13 (ix2 (0 : Fin 3) q) := by
  rw [val_main_v53_apply, val_main_v52_apply, val_main_v51_apply, val_main_v50_apply]
  refine congrArg x13 (funext fun a => Fin.ext ?_)
  match a with
  | ⟨0, _⟩ => rfl
  | ⟨1, _⟩ => exact Nat.mod_eq_of_lt q.isLt
/-- Round 0's second stored mean at node `p`, channel `q`. -/
theorem rd_v64 (x16 : (⟨S3x128, .f32⟩ : BufTy).Contents (Elt Ideal)) (p : Fin 50000) (q : Fin 128) :
    val_main_v64 (F := Ideal) x16 (ix2 p q) = x16 (ix2 (0 : Fin 3) q) := by
  rw [val_main_v64_apply, val_main_v63_apply, val_main_v60_apply, val_main_v59_apply]
  refine congrArg x16 (funext fun a => Fin.ext ?_)
  match a with
  | ⟨0, _⟩ => rfl
  | ⟨1, _⟩ => exact Nat.mod_eq_of_lt q.isLt
/-- Round 0's second inverse deviation at node `p`, channel `q`. -/
theorem rd_v70 (x17 : (⟨S3x128, .f32⟩ : BufTy).Contents (Elt Ideal)) (p : Fin 50000) (q : Fin 128) :
    val_main_v70 (F := Ideal) x17 (ix2 p q) = Ideal.rsqrt (x17 (ix2 (0 : Fin 3) q) + eps) := by
  rw [val_main_v70_apply, val_main_v69_apply, val_main_v68_apply, val_main_v67_apply, val_main_v62_apply, val_main_v61_apply, val_main_v66_apply, val_main_cst_2_apply]
  refine congrArg (fun j => Ideal.rsqrt (x17 j + eps)) (funext fun a => Fin.ext ?_)
  match a with
  | ⟨0, _⟩ => rfl
  | ⟨1, _⟩ => exact Nat.mod_eq_of_lt q.isLt
/-- Round 0's second scale at node `p`, channel `q`. -/
theorem rd_v73 (x14 : (⟨S3x128, .f32⟩ : BufTy).Contents (Elt Ideal)) (p : Fin 50000) (q : Fin 128) :
    val_main_v73 (F := Ideal) x14 (ix2 p q) = x14 (ix2 (0 : Fin 3) q) := by
  rw [val_main_v73_apply, val_main_v72_apply, val_main_v56_apply, val_main_v55_apply]
  refine congrArg x14 (funext fun a => Fin.ext ?_)
  match a with
  | ⟨0, _⟩ => rfl
  | ⟨1, _⟩ => exact Nat.mod_eq_of_lt q.isLt
/-- Round 0's second shift at node `p`, channel `q`. -/
theorem rd_v76 (x15 : (⟨S3x128, .f32⟩ : BufTy).Contents (Elt Ideal)) (p : Fin 50000) (q : Fin 128) :
    val_main_v76 (F := Ideal) x15 (ix2 p q) = x15 (ix2 (0 : Fin 3) q) := by
  rw [val_main_v76_apply, val_main_v75_apply, val_main_v58_apply, val_main_v57_apply]
  refine congrArg x15 (funext fun a => Fin.ext ?_)
  match a with
  | ⟨0, _⟩ => rfl
  | ⟨1, _⟩ => exact Nat.mod_eq_of_lt q.isLt
/-- Round 0's second matrix: slab 0 of the stack. -/
theorem rd_v48 (x12 : (⟨S3x256x128, .f32⟩ : BufTy).Contents (Elt Ideal)) (k : Fin 256) (q : Fin 128) :
    val_main_v48 (F := Ideal) x12 (ix2 k q) = x12 (ix3 (0 : Fin 3) k q) := by
  rw [val_main_v48_apply, val_main_v47_apply]
  refine congrArg x12 (funext fun a => Fin.ext ?_)
  have hk : k.val < 256 := k.isLt
  have hq : q.val < 128 := q.isLt
  match a with
  | ⟨0, _⟩ => rfl
  | ⟨1, _⟩ => show (k.val * 128 + q.val) / 128 % 256 = k.val; omega
  | ⟨2, _⟩ => show (k.val * 128 + q.val) % 128 = q.val; omega
/-- The second clamp's floor. -/
theorem rd_call1 (p : Fin 50000) (q : Fin 128) : val_main_call1_v0 (F := Ideal) (ix2 p q) = floor0 :=
  (val_main_call1_v0_apply (F := Ideal) _).trans (val_main_call1_cst_apply (F := Ideal) _)
/-- The two operands' indices under contraction `v49`'s sum, by coordinates. -/
theorem l_v49 (p : Fin 50000) (q : Fin 128) (k : Fin 256) : lidx_main_v49 (ix2 p q) k = ix2 p k := by
  funext a; match a with | ⟨0, _⟩ => rfl | ⟨1, _⟩ => rfl
theorem r_v49 (p : Fin 50000) (q : Fin 128) (k : Fin 256) : ridx_main_v49 (ix2 p q) k = ix2 k q := by
  funext a; match a with | ⟨0, _⟩ => rfl | ⟨1, _⟩ => rfl

/-! ## Round 0: the hidden activation, then the round's result -/

/-- Round 0's hidden activation at node `p`, channel `q` is the specification's: the first affine map of the node's
    row plus its neighbour sum, normalised and clamped. -/
theorem hidden0 (x0 : (⟨S50000x128, .f32⟩ : BufTy).Contents (Elt Ideal)) (x1 x2 : (⟨S800000, .i32⟩ : BufTy).Contents (Elt Ideal)) (x4 : (⟨S128x128, .f32⟩ : BufTy).Contents (Elt Ideal)) (x5 : (⟨S128, .f32⟩ : BufTy).Contents (Elt Ideal)) (x6 : (⟨S3x128x256, .f32⟩ : BufTy).Contents (Elt Ideal)) (x7 x8 x9 x10 x11 : (⟨S3x256, .f32⟩ : BufTy).Contents (Elt Ideal)) (p : Fin 50000) (q : Fin 256) :
    val_main_v46 (F := Ideal) x0 x1 x2 x4 x5 x6 x7 x8 x9 x10 x11 (ix2 p q) = hidden (val_main_v3 (F := Ideal) x0 x4 x5) (val_main_v13 (F := Ideal) x0 x1 x2 x4 x5) (slab (0 : Fin 3) x6) (rowOf (0 : Fin 3) x7) (rowOf (0 : Fin 3) x8) (rowOf (0 : Fin 3) x9) (rowOf (0 : Fin 3) x10) (rowOf (0 : Fin 3) x11) p q := by
  rw [val_main_v46_apply, val_main_v45_apply, val_main_v42_apply, val_main_v39_apply, val_main_v33_apply, val_main_v22_apply, val_main_v17_apply, rd_v21, rd_v32, rd_v38, rd_v41, rd_v44, rd_call0]
  have hs : ∀ k : Fin 128, val_main_v14 (F := Ideal) x0 x1 x2 x4 x5 (lidx_main_v17 (ix2 p q) k) * val_main_v16 (F := Ideal) x6 (ridx_main_v17 (ix2 p q) k)
      = (val_main_v3 (F := Ideal) x0 x4 x5 (ix2 p k) + val_main_v13 (F := Ideal) x0 x1 x2 x4 x5 (ix2 p k)) * x6 (ix3 (0 : Fin 3) k q) := fun k => by
    rw [l_v17, r_v17, rd_v16]; rfl
  rw [Finset.sum_congr rfl (fun k _ => hs k)]
  rfl

/-- Round 0 of the reference is the specification's round applied to the previous rows and their neighbour sums. -/
theorem ref_layer0 (x0 : (⟨S50000x128, .f32⟩ : BufTy).Contents (Elt Ideal)) (x1 x2 : (⟨S800000, .i32⟩ : BufTy).Contents (Elt Ideal)) (x4 : (⟨S128x128, .f32⟩ : BufTy).Contents (Elt Ideal)) (x5 : (⟨S128, .f32⟩ : BufTy).Contents (Elt Ideal)) (x6 : (⟨S3x128x256, .f32⟩ : BufTy).Contents (Elt Ideal)) (x7 x8 x9 x10 x11 : (⟨S3x256, .f32⟩ : BufTy).Contents (Elt Ideal)) (x12 : (⟨S3x256x128, .f32⟩ : BufTy).Contents (Elt Ideal)) (x13 x14 x15 x16 x17 : (⟨S3x128, .f32⟩ : BufTy).Contents (Elt Ideal)) :
    val_main_v78 (F := Ideal) x0 x1 x2 x4 x5 x6 x7 x8 x9 x10 x11 x12 x13 x14 x15 x16 x17 = layerG (val_main_v3 (F := Ideal) x0 x4 x5) (val_main_v13 (F := Ideal) x0 x1 x2 x4 x5) (slab (0 : Fin 3) x6) (rowOf (0 : Fin 3) x7) (rowOf (0 : Fin 3) x8) (rowOf (0 : Fin 3) x9) (rowOf (0 : Fin 3) x10) (rowOf (0 : Fin 3) x11)
      (slab (0 : Fin 3) x12) (rowOf (0 : Fin 3) x13) (rowOf (0 : Fin 3) x14) (rowOf (0 : Fin 3) x15) (rowOf (0 : Fin 3) x16) (rowOf (0 : Fin 3) x17) := by
  funext i
  obtain ⟨p, q, rfl⟩ : ∃ (p : Fin 50000) (q : Fin 128), i = ix2 p q := ⟨i 0, i 1, eq_ix2 i⟩
  rw [val_main_v78_apply, val_main_v77_apply, val_main_v74_apply, val_main_v71_apply, val_main_v65_apply, val_main_v54_apply, val_main_v49_apply, rd_v53, rd_v64, rd_v70, rd_v73, rd_v76, rd_call1]
  have hs : ∀ k : Fin 256, val_main_v46 (F := Ideal) x0 x1 x2 x4 x5 x6 x7 x8 x9 x10 x11 (lidx_main_v49 (ix2 p q) k) * val_main_v48 (F := Ideal) x12 (ridx_main_v49 (ix2 p q) k)
      = hidden (val_main_v3 (F := Ideal) x0 x4 x5) (val_main_v13 (F := Ideal) x0 x1 x2 x4 x5) (slab (0 : Fin 3) x6) (rowOf (0 : Fin 3) x7) (rowOf (0 : Fin 3) x8) (rowOf (0 : Fin 3) x9) (rowOf (0 : Fin 3) x10) (rowOf (0 : Fin 3) x11) p k * x12 (ix3 (0 : Fin 3) k q) := fun k => by
    rw [l_v49, r_v49, rd_v48, hidden0]
  rw [Finset.sum_congr rfl (fun k _ => hs k)]
  rfl

/-! ## Round 1: the parameters read at an index -/

/-- Round 1's first bias, spread over the nodes, at node `p`, channel `q`: row 1 of the stack. -/
theorem rd_v96 (x7 : (⟨S3x256, .f32⟩ : BufTy).Contents (Elt Ideal)) (p : Fin 50000) (q : Fin 256) :
    val_main_v96 (F := Ideal) x7 (ix2 p q) = x7 (ix2 (1 : Fin 3) q) := by
  rw [val_main_v96_apply, val_main_v95_apply, val_main_v94_apply, val_main_v93_apply]
  refine congrArg x7 (funext fun a => Fin.ext ?_)
  match a with
  | ⟨0, _⟩ => rfl
  | ⟨1, _⟩ => exact Nat.mod_eq_of_lt q.isLt
/-- Round 1's first stored mean at node `p`, channel `q`. -/
theorem rd_v107 (x10 : (⟨S3x256, .f32⟩ : BufTy).Contents (Elt Ideal)) (p : Fin 50000) (q : Fin 256) :
    val_main_v107 (F := Ideal) x10 (ix2 p q) = x10 (ix2 (1 : Fin 3) q) := by
  rw [val_main_v107_apply, val_main_v106_apply, val_main_v103_apply, val_main_v102_apply]
  refine congrArg x10 (funext fun a => Fin.ext ?_)
  match a with
  | ⟨0, _⟩ => rfl
  | ⟨1, _⟩ => exact Nat.mod_eq_of_lt q.isLt
/-- Round 1's first inverse deviation at node `p`, channel `q`: the inverse square root of the stored variance plus the stabiliser. -/
theorem rd_v113 (x11 : (⟨S3x256, .f32⟩ : BufTy).Contents (Elt Ideal)) (p : Fin 50000) (q : Fin 256) :
    val_main_v113 (F := Ideal) x11 (ix2 p q) = Ideal.rsqrt (x11 (ix2 (1 : Fin 3) q) + eps) := by
  rw [val_main_v113_apply, val_main_v112_apply, val_main_v111_apply, val_main_v110_apply, val_main_v105_apply, val_main_v104_apply, val_main_v109_apply, val_main_cst_6_apply]
  refine congrArg (fun j => Ideal.rsqrt (x11 j + eps)) (funext fun a => Fin.ext ?_)
  match a with
  | ⟨0, _⟩ => rfl
  | ⟨1, _⟩ => exact Nat.mod_eq_of_lt q.isLt
/-- Round 1's first scale at node `p`, channel `q`. -/
theorem rd_v116 (x8 : (⟨S3x256, .f32⟩ : BufTy).Contents (Elt Ideal)) (p : Fin 50000) (q : Fin 256) :
    val_main_v116 (F := Ideal) x8 (ix2 p q) = x8 (ix2 (1 : Fin 3) q) := by
  rw [val_main_v116_apply, val_main_v115_apply, val_main_v99_apply, val_main_v98_apply]
  refine congrArg x8 (funext fun a => Fin.ext ?_)
  match a with
  | ⟨0, _⟩ => rfl
  | ⟨1, _⟩ => exact Nat.mod_eq_of_lt q.isLt
/-- Round 1's first shift at node `p`, channel `q`. -/
theorem rd_v119 (x9 : (⟨S3x256, .f32⟩ : BufTy).Contents (Elt Ideal)) (p : Fin 50000) (q : Fin 256) :
    val_main_v119 (F := Ideal) x9 (ix2 p q) = x9 (ix2 (1 : Fin 3) q) := by
  rw [val_main_v119_apply, val_main_v118_apply, val_main_v101_apply, val_main_v100_apply]
  refine congrArg x9 (funext fun a => Fin.ext ?_)
  match a with
  | ⟨0, _⟩ => rfl
  | ⟨1, _⟩ => exact Nat.mod_eq_of_lt q.isLt
/-- Round 1's first matrix: slab 1 of the stack. -/
theorem rd_v91 (x6 : (⟨S3x128x256, .f32⟩ : BufTy).Contents (Elt Ideal)) (k : Fin 128) (q : Fin 256) :
    val_main_v91 (F := Ideal) x6 (ix2 k q) = x6 (ix3 (1 : Fin 3) k q) := by
  rw [val_main_v91_apply, val_main_v90_apply]
  refine congrArg x6 (funext fun a => Fin.ext ?_)
  have hk : k.val < 128 := k.isLt
  have hq : q.val < 256 := q.isLt
  match a with
  | ⟨0, _⟩ => rfl
  | ⟨1, _⟩ => show (k.val * 256 + q.val) / 256 % 128 = k.val; omega
  | ⟨2, _⟩ => show (k.val * 256 + q.val) % 256 = q.val; omega
/-- The first clamp's floor. -/
theorem rd_call2 (p : Fin 50000) (q : Fin 256) : val_main_call2_v0 (F := Ideal) (ix2 p q) = floor0 :=
  (val_main_call2_v0_apply (F := Ideal) _).trans (val_main_call2_cst_apply (F := Ideal) _)
/-- The two operands' indices under contraction `v92`'s sum, by coordinates. -/
theorem l_v92 (p : Fin 50000) (q : Fin 256) (k : Fin 128) : lidx_main_v92 (ix2 p q) k = ix2 p k := by
  funext a; match a with | ⟨0, _⟩ => rfl | ⟨1, _⟩ => rfl
theorem r_v92 (p : Fin 50000) (q : Fin 256) (k : Fin 128) : ridx_main_v92 (ix2 p q) k = ix2 k q := by
  funext a; match a with | ⟨0, _⟩ => rfl | ⟨1, _⟩ => rfl
/-- Round 1's second bias at node `p`, channel `q`. -/
theorem rd_v128 (x13 : (⟨S3x128, .f32⟩ : BufTy).Contents (Elt Ideal)) (p : Fin 50000) (q : Fin 128) :
    val_main_v128 (F := Ideal) x13 (ix2 p q) = x13 (ix2 (1 : Fin 3) q) := by
  rw [val_main_v128_apply, val_main_v127_apply, val_main_v126_apply, val_main_v125_apply]
  refine congrArg x13 (funext fun a => Fin.ext ?_)
  match a with
  | ⟨0, _⟩ => rfl
  | ⟨1, _⟩ => exact Nat.mod_eq_of_lt q.isLt
/-- Round 1's second stored mean at node `p`, channel `q`. -/
theorem rd_v139 (x16 : (⟨S3x128, .f32⟩ : BufTy).Contents (Elt Ideal)) (p : Fin 50000) (q : Fin 128) :
    val_main_v139 (F := Ideal) x16 (ix2 p q) = x16 (ix2 (1 : Fin 3) q) := by
  rw [val_main_v139_apply, val_main_v138_apply, val_main_v135_apply, val_main_v134_apply]
  refine congrArg x16 (funext fun a => Fin.ext ?_)
  match a with
  | ⟨0, _⟩ => rfl
  | ⟨1, _⟩ => exact Nat.mod_eq_of_lt q.isLt
/-- Round 1's second inverse deviation at node `p`, channel `q`. -/
theorem rd_v145 (x17 : (⟨S3x128, .f32⟩ : BufTy).Contents (Elt Ideal)) (p : Fin 50000) (q : Fin 128) :
    val_main_v145 (F := Ideal) x17 (ix2 p q) = Ideal.rsqrt (x17 (ix2 (1 : Fin 3) q) + eps) := by
  rw [val_main_v145_apply, val_main_v144_apply, val_main_v143_apply, val_main_v142_apply, val_main_v137_apply, val_main_v136_apply, val_main_v141_apply, val_main_cst_7_apply]
  refine congrArg (fun j => Ideal.rsqrt (x17 j + eps)) (funext fun a => Fin.ext ?_)
  match a with
  | ⟨0, _⟩ => rfl
  | ⟨1, _⟩ => exact Nat.mod_eq_of_lt q.isLt
/-- Round 1's second scale at node `p`, channel `q`. -/
theorem rd_v148 (x14 : (⟨S3x128, .f32⟩ : BufTy).Contents (Elt Ideal)) (p : Fin 50000) (q : Fin 128) :
    val_main_v148 (F := Ideal) x14 (ix2 p q) = x14 (ix2 (1 : Fin 3) q) := by
  rw [val_main_v148_apply, val_main_v147_apply, val_main_v131_apply, val_main_v130_apply]
  refine congrArg x14 (funext fun a => Fin.ext ?_)
  match a with
  | ⟨0, _⟩ => rfl
  | ⟨1, _⟩ => exact Nat.mod_eq_of_lt q.isLt
/-- Round 1's second shift at node `p`, channel `q`. -/
theorem rd_v151 (x15 : (⟨S3x128, .f32⟩ : BufTy).Contents (Elt Ideal)) (p : Fin 50000) (q : Fin 128) :
    val_main_v151 (F := Ideal) x15 (ix2 p q) = x15 (ix2 (1 : Fin 3) q) := by
  rw [val_main_v151_apply, val_main_v150_apply, val_main_v133_apply, val_main_v132_apply]
  refine congrArg x15 (funext fun a => Fin.ext ?_)
  match a with
  | ⟨0, _⟩ => rfl
  | ⟨1, _⟩ => exact Nat.mod_eq_of_lt q.isLt
/-- Round 1's second matrix: slab 1 of the stack. -/
theorem rd_v123 (x12 : (⟨S3x256x128, .f32⟩ : BufTy).Contents (Elt Ideal)) (k : Fin 256) (q : Fin 128) :
    val_main_v123 (F := Ideal) x12 (ix2 k q) = x12 (ix3 (1 : Fin 3) k q) := by
  rw [val_main_v123_apply, val_main_v122_apply]
  refine congrArg x12 (funext fun a => Fin.ext ?_)
  have hk : k.val < 256 := k.isLt
  have hq : q.val < 128 := q.isLt
  match a with
  | ⟨0, _⟩ => rfl
  | ⟨1, _⟩ => show (k.val * 128 + q.val) / 128 % 256 = k.val; omega
  | ⟨2, _⟩ => show (k.val * 128 + q.val) % 128 = q.val; omega
/-- The second clamp's floor. -/
theorem rd_call3 (p : Fin 50000) (q : Fin 128) : val_main_call3_v0 (F := Ideal) (ix2 p q) = floor0 :=
  (val_main_call3_v0_apply (F := Ideal) _).trans (val_main_call3_cst_apply (F := Ideal) _)
/-- The two operands' indices under contraction `v124`'s sum, by coordinates. -/
theorem l_v124 (p : Fin 50000) (q : Fin 128) (k : Fin 256) : lidx_main_v124 (ix2 p q) k = ix2 p k := by
  funext a; match a with | ⟨0, _⟩ => rfl | ⟨1, _⟩ => rfl
theorem r_v124 (p : Fin 50000) (q : Fin 128) (k : Fin 256) : ridx_main_v124 (ix2 p q) k = ix2 k q := by
  funext a; match a with | ⟨0, _⟩ => rfl | ⟨1, _⟩ => rfl

/-! ## Round 1: the hidden activation, then the round's result -/

/-- Round 1's hidden activation at node `p`, channel `q` is the specification's: the first affine map of the node's
    row plus its neighbour sum, normalised and clamped. -/
theorem hidden1 (x0 : (⟨S50000x128, .f32⟩ : BufTy).Contents (Elt Ideal)) (x1 x2 : (⟨S800000, .i32⟩ : BufTy).Contents (Elt Ideal)) (x4 : (⟨S128x128, .f32⟩ : BufTy).Contents (Elt Ideal)) (x5 : (⟨S128, .f32⟩ : BufTy).Contents (Elt Ideal)) (x6 : (⟨S3x128x256, .f32⟩ : BufTy).Contents (Elt Ideal)) (x7 x8 x9 x10 x11 : (⟨S3x256, .f32⟩ : BufTy).Contents (Elt Ideal)) (x12 : (⟨S3x256x128, .f32⟩ : BufTy).Contents (Elt Ideal)) (x13 x14 x15 x16 x17 : (⟨S3x128, .f32⟩ : BufTy).Contents (Elt Ideal)) (p : Fin 50000) (q : Fin 256) :
    val_main_v121 (F := Ideal) x0 x1 x2 x4 x5 x6 x7 x8 x9 x10 x11 x12 x13 x14 x15 x16 x17 (ix2 p q) = hidden (val_main_v78 (F := Ideal) x0 x1 x2 x4 x5 x6 x7 x8 x9 x10 x11 x12 x13 x14 x15 x16 x17) (val_main_v88 (F := Ideal) x0 x1 x2 x4 x5 x6 x7 x8 x9 x10 x11 x12 x13 x14 x15 x16 x17) (slab (1 : Fin 3) x6) (rowOf (1 : Fin 3) x7) (rowOf (1 : Fin 3) x8) (rowOf (1 : Fin 3) x9) (rowOf (1 : Fin 3) x10) (rowOf (1 : Fin 3) x11) p q := by
  rw [val_main_v121_apply, val_main_v120_apply, val_main_v117_apply, val_main_v114_apply, val_main_v108_apply, val_main_v97_apply, val_main_v92_apply, rd_v96, rd_v107, rd_v113, rd_v116, rd_v119, rd_call2]
  have hs : ∀ k : Fin 128, val_main_v89 (F := Ideal) x0 x1 x2 x4 x5 x6 x7 x8 x9 x10 x11 x12 x13 x14 x15 x16 x17 (lidx_main_v92 (ix2 p q) k) * val_main_v91 (F := Ideal) x6 (ridx_main_v92 (ix2 p q) k)
      = (val_main_v78 (F := Ideal) x0 x1 x2 x4 x5 x6 x7 x8 x9 x10 x11 x12 x13 x14 x15 x16 x17 (ix2 p k) + val_main_v88 (F := Ideal) x0 x1 x2 x4 x5 x6 x7 x8 x9 x10 x11 x12 x13 x14 x15 x16 x17 (ix2 p k)) * x6 (ix3 (1 : Fin 3) k q) := fun k => by
    rw [l_v92, r_v92, rd_v91]; rfl
  rw [Finset.sum_congr rfl (fun k _ => hs k)]
  rfl

/-- Round 1 of the reference is the specification's round applied to the previous rows and their neighbour sums. -/
theorem ref_layer1 (x0 : (⟨S50000x128, .f32⟩ : BufTy).Contents (Elt Ideal)) (x1 x2 : (⟨S800000, .i32⟩ : BufTy).Contents (Elt Ideal)) (x4 : (⟨S128x128, .f32⟩ : BufTy).Contents (Elt Ideal)) (x5 : (⟨S128, .f32⟩ : BufTy).Contents (Elt Ideal)) (x6 : (⟨S3x128x256, .f32⟩ : BufTy).Contents (Elt Ideal)) (x7 x8 x9 x10 x11 : (⟨S3x256, .f32⟩ : BufTy).Contents (Elt Ideal)) (x12 : (⟨S3x256x128, .f32⟩ : BufTy).Contents (Elt Ideal)) (x13 x14 x15 x16 x17 : (⟨S3x128, .f32⟩ : BufTy).Contents (Elt Ideal)) :
    val_main_v153 (F := Ideal) x0 x1 x2 x4 x5 x6 x7 x8 x9 x10 x11 x12 x13 x14 x15 x16 x17 = layerG (val_main_v78 (F := Ideal) x0 x1 x2 x4 x5 x6 x7 x8 x9 x10 x11 x12 x13 x14 x15 x16 x17) (val_main_v88 (F := Ideal) x0 x1 x2 x4 x5 x6 x7 x8 x9 x10 x11 x12 x13 x14 x15 x16 x17) (slab (1 : Fin 3) x6) (rowOf (1 : Fin 3) x7) (rowOf (1 : Fin 3) x8) (rowOf (1 : Fin 3) x9) (rowOf (1 : Fin 3) x10) (rowOf (1 : Fin 3) x11)
      (slab (1 : Fin 3) x12) (rowOf (1 : Fin 3) x13) (rowOf (1 : Fin 3) x14) (rowOf (1 : Fin 3) x15) (rowOf (1 : Fin 3) x16) (rowOf (1 : Fin 3) x17) := by
  funext i
  obtain ⟨p, q, rfl⟩ : ∃ (p : Fin 50000) (q : Fin 128), i = ix2 p q := ⟨i 0, i 1, eq_ix2 i⟩
  rw [val_main_v153_apply, val_main_v152_apply, val_main_v149_apply, val_main_v146_apply, val_main_v140_apply, val_main_v129_apply, val_main_v124_apply, rd_v128, rd_v139, rd_v145, rd_v148, rd_v151, rd_call3]
  have hs : ∀ k : Fin 256, val_main_v121 (F := Ideal) x0 x1 x2 x4 x5 x6 x7 x8 x9 x10 x11 x12 x13 x14 x15 x16 x17 (lidx_main_v124 (ix2 p q) k) * val_main_v123 (F := Ideal) x12 (ridx_main_v124 (ix2 p q) k)
      = hidden (val_main_v78 (F := Ideal) x0 x1 x2 x4 x5 x6 x7 x8 x9 x10 x11 x12 x13 x14 x15 x16 x17) (val_main_v88 (F := Ideal) x0 x1 x2 x4 x5 x6 x7 x8 x9 x10 x11 x12 x13 x14 x15 x16 x17) (slab (1 : Fin 3) x6) (rowOf (1 : Fin 3) x7) (rowOf (1 : Fin 3) x8) (rowOf (1 : Fin 3) x9) (rowOf (1 : Fin 3) x10) (rowOf (1 : Fin 3) x11) p k * x12 (ix3 (1 : Fin 3) k q) := fun k => by
    rw [l_v124, r_v124, rd_v123, hidden1]
  rw [Finset.sum_congr rfl (fun k _ => hs k)]
  rfl

/-! ## Round 2: the parameters read at an index -/

/-- Round 2's first bias, spread over the nodes, at node `p`, channel `q`: row 2 of the stack. -/
theorem rd_v171 (x7 : (⟨S3x256, .f32⟩ : BufTy).Contents (Elt Ideal)) (p : Fin 50000) (q : Fin 256) :
    val_main_v171 (F := Ideal) x7 (ix2 p q) = x7 (ix2 (2 : Fin 3) q) := by
  rw [val_main_v171_apply, val_main_v170_apply, val_main_v169_apply, val_main_v168_apply]
  refine congrArg x7 (funext fun a => Fin.ext ?_)
  match a with
  | ⟨0, _⟩ => rfl
  | ⟨1, _⟩ => exact Nat.mod_eq_of_lt q.isLt
/-- Round 2's first stored mean at node `p`, channel `q`. -/
theorem rd_v182 (x10 : (⟨S3x256, .f32⟩ : BufTy).Contents (Elt Ideal)) (p : Fin 50000) (q : Fin 256) :
    val_main_v182 (F := Ideal) x10 (ix2 p q) = x10 (ix2 (2 : Fin 3) q) := by
  rw [val_main_v182_apply, val_main_v181_apply, val_main_v178_apply, val_main_v177_apply]
  refine congrArg x10 (funext fun a => Fin.ext ?_)
  match a with
  | ⟨0, _⟩ => rfl
  | ⟨1, _⟩ => exact Nat.mod_eq_of_lt q.isLt
/-- Round 2's first inverse deviation at node `p`, channel `q`: the inverse square root of the stored variance plus the stabiliser. -/
theorem rd_v188 (x11 : (⟨S3x256, .f32⟩ : BufTy).Contents (Elt Ideal)) (p : Fin 50000) (q : Fin 256) :
    val_main_v188 (F := Ideal) x11 (ix2 p q) = Ideal.rsqrt (x11 (ix2 (2 : Fin 3) q) + eps) := by
  rw [val_main_v188_apply, val_main_v187_apply, val_main_v186_apply, val_main_v185_apply, val_main_v180_apply, val_main_v179_apply, val_main_v184_apply, val_main_cst_11_apply]
  refine congrArg (fun j => Ideal.rsqrt (x11 j + eps)) (funext fun a => Fin.ext ?_)
  match a with
  | ⟨0, _⟩ => rfl
  | ⟨1, _⟩ => exact Nat.mod_eq_of_lt q.isLt
/-- Round 2's first scale at node `p`, channel `q`. -/
theorem rd_v191 (x8 : (⟨S3x256, .f32⟩ : BufTy).Contents (Elt Ideal)) (p : Fin 50000) (q : Fin 256) :
    val_main_v191 (F := Ideal) x8 (ix2 p q) = x8 (ix2 (2 : Fin 3) q) := by
  rw [val_main_v191_apply, val_main_v190_apply, val_main_v174_apply, val_main_v173_apply]
  refine congrArg x8 (funext fun a => Fin.ext ?_)
  match a with
  | ⟨0, _⟩ => rfl
  | ⟨1, _⟩ => exact Nat.mod_eq_of_lt q.isLt
/-- Round 2's first shift at node `p`, channel `q`. -/
theorem rd_v194 (x9 : (⟨S3x256, .f32⟩ : BufTy).Contents (Elt Ideal)) (p : Fin 50000) (q : Fin 256) :
    val_main_v194 (F := Ideal) x9 (ix2 p q) = x9 (ix2 (2 : Fin 3) q) := by
  rw [val_main_v194_apply, val_main_v193_apply, val_main_v176_apply, val_main_v175_apply]
  refine congrArg x9 (funext fun a => Fin.ext ?_)
  match a with
  | ⟨0, _⟩ => rfl
  | ⟨1, _⟩ => exact Nat.mod_eq_of_lt q.isLt
/-- Round 2's first matrix: slab 2 of the stack. -/
theorem rd_v166 (x6 : (⟨S3x128x256, .f32⟩ : BufTy).Contents (Elt Ideal)) (k : Fin 128) (q : Fin 256) :
    val_main_v166 (F := Ideal) x6 (ix2 k q) = x6 (ix3 (2 : Fin 3) k q) := by
  rw [val_main_v166_apply, val_main_v165_apply]
  refine congrArg x6 (funext fun a => Fin.ext ?_)
  have hk : k.val < 128 := k.isLt
  have hq : q.val < 256 := q.isLt
  match a with
  | ⟨0, _⟩ => rfl
  | ⟨1, _⟩ => show (k.val * 256 + q.val) / 256 % 128 = k.val; omega
  | ⟨2, _⟩ => show (k.val * 256 + q.val) % 256 = q.val; omega
/-- The first clamp's floor. -/
theorem rd_call4 (p : Fin 50000) (q : Fin 256) : val_main_call4_v0 (F := Ideal) (ix2 p q) = floor0 :=
  (val_main_call4_v0_apply (F := Ideal) _).trans (val_main_call4_cst_apply (F := Ideal) _)
/-- The two operands' indices under contraction `v167`'s sum, by coordinates. -/
theorem l_v167 (p : Fin 50000) (q : Fin 256) (k : Fin 128) : lidx_main_v167 (ix2 p q) k = ix2 p k := by
  funext a; match a with | ⟨0, _⟩ => rfl | ⟨1, _⟩ => rfl
theorem r_v167 (p : Fin 50000) (q : Fin 256) (k : Fin 128) : ridx_main_v167 (ix2 p q) k = ix2 k q := by
  funext a; match a with | ⟨0, _⟩ => rfl | ⟨1, _⟩ => rfl
/-- Round 2's second bias at node `p`, channel `q`. -/
theorem rd_v203 (x13 : (⟨S3x128, .f32⟩ : BufTy).Contents (Elt Ideal)) (p : Fin 50000) (q : Fin 128) :
    val_main_v203 (F := Ideal) x13 (ix2 p q) = x13 (ix2 (2 : Fin 3) q) := by
  rw [val_main_v203_apply, val_main_v202_apply, val_main_v201_apply, val_main_v200_apply]
  refine congrArg x13 (funext fun a => Fin.ext ?_)
  match a with
  | ⟨0, _⟩ => rfl
  | ⟨1, _⟩ => exact Nat.mod_eq_of_lt q.isLt
/-- Round 2's second stored mean at node `p`, channel `q`. -/
theorem rd_v214 (x16 : (⟨S3x128, .f32⟩ : BufTy).Contents (Elt Ideal)) (p : Fin 50000) (q : Fin 128) :
    val_main_v214 (F := Ideal) x16 (ix2 p q) = x16 (ix2 (2 : Fin 3) q) := by
  rw [val_main_v214_apply, val_main_v213_apply, val_main_v210_apply, val_main_v209_apply]
  refine congrArg x16 (funext fun a => Fin.ext ?_)
  match a with
  | ⟨0, _⟩ => rfl
  | ⟨1, _⟩ => exact Nat.mod_eq_of_lt q.isLt
/-- Round 2's second inverse deviation at node `p`, channel `q`. -/
theorem rd_v220 (x17 : (⟨S3x128, .f32⟩ : BufTy).Contents (Elt Ideal)) (p : Fin 50000) (q : Fin 128) :
    val_main_v220 (F := Ideal) x17 (ix2 p q) = Ideal.rsqrt (x17 (ix2 (2 : Fin 3) q) + eps) := by
  rw [val_main_v220_apply, val_main_v219_apply, val_main_v218_apply, val_main_v217_apply, val_main_v212_apply, val_main_v211_apply, val_main_v216_apply, val_main_cst_12_apply]
  refine congrArg (fun j => Ideal.rsqrt (x17 j + eps)) (funext fun a => Fin.ext ?_)
  match a with
  | ⟨0, _⟩ => rfl
  | ⟨1, _⟩ => exact Nat.mod_eq_of_lt q.isLt
/-- Round 2's second scale at node `p`, channel `q`. -/
theorem rd_v223 (x14 : (⟨S3x128, .f32⟩ : BufTy).Contents (Elt Ideal)) (p : Fin 50000) (q : Fin 128) :
    val_main_v223 (F := Ideal) x14 (ix2 p q) = x14 (ix2 (2 : Fin 3) q) := by
  rw [val_main_v223_apply, val_main_v222_apply, val_main_v206_apply, val_main_v205_apply]
  refine congrArg x14 (funext fun a => Fin.ext ?_)
  match a with
  | ⟨0, _⟩ => rfl
  | ⟨1, _⟩ => exact Nat.mod_eq_of_lt q.isLt
/-- Round 2's second shift at node `p`, channel `q`. -/
theorem rd_v226 (x15 : (⟨S3x128, .f32⟩ : BufTy).Contents (Elt Ideal)) (p : Fin 50000) (q : Fin 128) :
    val_main_v226 (F := Ideal) x15 (ix2 p q) = x15 (ix2 (2 : Fin 3) q) := by
  rw [val_main_v226_apply, val_main_v225_apply, val_main_v208_apply, val_main_v207_apply]
  refine congrArg x15 (funext fun a => Fin.ext ?_)
  match a with
  | ⟨0, _⟩ => rfl
  | ⟨1, _⟩ => exact Nat.mod_eq_of_lt q.isLt
/-- Round 2's second matrix: slab 2 of the stack. -/
theorem rd_v198 (x12 : (⟨S3x256x128, .f32⟩ : BufTy).Contents (Elt Ideal)) (k : Fin 256) (q : Fin 128) :
    val_main_v198 (F := Ideal) x12 (ix2 k q) = x12 (ix3 (2 : Fin 3) k q) := by
  rw [val_main_v198_apply, val_main_v197_apply]
  refine congrArg x12 (funext fun a => Fin.ext ?_)
  have hk : k.val < 256 := k.isLt
  have hq : q.val < 128 := q.isLt
  match a with
  | ⟨0, _⟩ => rfl
  | ⟨1, _⟩ => show (k.val * 128 + q.val) / 128 % 256 = k.val; omega
  | ⟨2, _⟩ => show (k.val * 128 + q.val) % 128 = q.val; omega
/-- The second clamp's floor. -/
theorem rd_call5 (p : Fin 50000) (q : Fin 128) : val_main_call5_v0 (F := Ideal) (ix2 p q) = floor0 :=
  (val_main_call5_v0_apply (F := Ideal) _).trans (val_main_call5_cst_apply (F := Ideal) _)
/-- The two operands' indices under contraction `v199`'s sum, by coordinates. -/
theorem l_v199 (p : Fin 50000) (q : Fin 128) (k : Fin 256) : lidx_main_v199 (ix2 p q) k = ix2 p k := by
  funext a; match a with | ⟨0, _⟩ => rfl | ⟨1, _⟩ => rfl
theorem r_v199 (p : Fin 50000) (q : Fin 128) (k : Fin 256) : ridx_main_v199 (ix2 p q) k = ix2 k q := by
  funext a; match a with | ⟨0, _⟩ => rfl | ⟨1, _⟩ => rfl

/-! ## Round 2: the hidden activation, then the round's result -/

/-- Round 2's hidden activation at node `p`, channel `q` is the specification's: the first affine map of the node's
    row plus its neighbour sum, normalised and clamped. -/
theorem hidden2 (x0 : (⟨S50000x128, .f32⟩ : BufTy).Contents (Elt Ideal)) (x1 x2 : (⟨S800000, .i32⟩ : BufTy).Contents (Elt Ideal)) (x4 : (⟨S128x128, .f32⟩ : BufTy).Contents (Elt Ideal)) (x5 : (⟨S128, .f32⟩ : BufTy).Contents (Elt Ideal)) (x6 : (⟨S3x128x256, .f32⟩ : BufTy).Contents (Elt Ideal)) (x7 x8 x9 x10 x11 : (⟨S3x256, .f32⟩ : BufTy).Contents (Elt Ideal)) (x12 : (⟨S3x256x128, .f32⟩ : BufTy).Contents (Elt Ideal)) (x13 x14 x15 x16 x17 : (⟨S3x128, .f32⟩ : BufTy).Contents (Elt Ideal)) (p : Fin 50000) (q : Fin 256) :
    val_main_v196 (F := Ideal) x0 x1 x2 x4 x5 x6 x7 x8 x9 x10 x11 x12 x13 x14 x15 x16 x17 (ix2 p q) = hidden (val_main_v153 (F := Ideal) x0 x1 x2 x4 x5 x6 x7 x8 x9 x10 x11 x12 x13 x14 x15 x16 x17) (val_main_v163 (F := Ideal) x0 x1 x2 x4 x5 x6 x7 x8 x9 x10 x11 x12 x13 x14 x15 x16 x17) (slab (2 : Fin 3) x6) (rowOf (2 : Fin 3) x7) (rowOf (2 : Fin 3) x8) (rowOf (2 : Fin 3) x9) (rowOf (2 : Fin 3) x10) (rowOf (2 : Fin 3) x11) p q := by
  rw [val_main_v196_apply, val_main_v195_apply, val_main_v192_apply, val_main_v189_apply, val_main_v183_apply, val_main_v172_apply, val_main_v167_apply, rd_v171, rd_v182, rd_v188, rd_v191, rd_v194, rd_call4]
  have hs : ∀ k : Fin 128, val_main_v164 (F := Ideal) x0 x1 x2 x4 x5 x6 x7 x8 x9 x10 x11 x12 x13 x14 x15 x16 x17 (lidx_main_v167 (ix2 p q) k) * val_main_v166 (F := Ideal) x6 (ridx_main_v167 (ix2 p q) k)
      = (val_main_v153 (F := Ideal) x0 x1 x2 x4 x5 x6 x7 x8 x9 x10 x11 x12 x13 x14 x15 x16 x17 (ix2 p k) + val_main_v163 (F := Ideal) x0 x1 x2 x4 x5 x6 x7 x8 x9 x10 x11 x12 x13 x14 x15 x16 x17 (ix2 p k)) * x6 (ix3 (2 : Fin 3) k q) := fun k => by
    rw [l_v167, r_v167, rd_v166]; rfl
  rw [Finset.sum_congr rfl (fun k _ => hs k)]
  rfl

/-- Round 2 of the reference is the specification's round applied to the previous rows and their neighbour sums. -/
theorem ref_layer2 (x0 : (⟨S50000x128, .f32⟩ : BufTy).Contents (Elt Ideal)) (x1 x2 : (⟨S800000, .i32⟩ : BufTy).Contents (Elt Ideal)) (x4 : (⟨S128x128, .f32⟩ : BufTy).Contents (Elt Ideal)) (x5 : (⟨S128, .f32⟩ : BufTy).Contents (Elt Ideal)) (x6 : (⟨S3x128x256, .f32⟩ : BufTy).Contents (Elt Ideal)) (x7 x8 x9 x10 x11 : (⟨S3x256, .f32⟩ : BufTy).Contents (Elt Ideal)) (x12 : (⟨S3x256x128, .f32⟩ : BufTy).Contents (Elt Ideal)) (x13 x14 x15 x16 x17 : (⟨S3x128, .f32⟩ : BufTy).Contents (Elt Ideal)) :
    val_main_v228 (F := Ideal) x0 x1 x2 x4 x5 x6 x7 x8 x9 x10 x11 x12 x13 x14 x15 x16 x17 = layerG (val_main_v153 (F := Ideal) x0 x1 x2 x4 x5 x6 x7 x8 x9 x10 x11 x12 x13 x14 x15 x16 x17) (val_main_v163 (F := Ideal) x0 x1 x2 x4 x5 x6 x7 x8 x9 x10 x11 x12 x13 x14 x15 x16 x17) (slab (2 : Fin 3) x6) (rowOf (2 : Fin 3) x7) (rowOf (2 : Fin 3) x8) (rowOf (2 : Fin 3) x9) (rowOf (2 : Fin 3) x10) (rowOf (2 : Fin 3) x11)
      (slab (2 : Fin 3) x12) (rowOf (2 : Fin 3) x13) (rowOf (2 : Fin 3) x14) (rowOf (2 : Fin 3) x15) (rowOf (2 : Fin 3) x16) (rowOf (2 : Fin 3) x17) := by
  funext i
  obtain ⟨p, q, rfl⟩ : ∃ (p : Fin 50000) (q : Fin 128), i = ix2 p q := ⟨i 0, i 1, eq_ix2 i⟩
  rw [val_main_v228_apply, val_main_v227_apply, val_main_v224_apply, val_main_v221_apply, val_main_v215_apply, val_main_v204_apply, val_main_v199_apply, rd_v203, rd_v214, rd_v220, rd_v223, rd_v226, rd_call5]
  have hs : ∀ k : Fin 256, val_main_v196 (F := Ideal) x0 x1 x2 x4 x5 x6 x7 x8 x9 x10 x11 x12 x13 x14 x15 x16 x17 (lidx_main_v199 (ix2 p q) k) * val_main_v198 (F := Ideal) x12 (ridx_main_v199 (ix2 p q) k)
      = hidden (val_main_v153 (F := Ideal) x0 x1 x2 x4 x5 x6 x7 x8 x9 x10 x11 x12 x13 x14 x15 x16 x17) (val_main_v163 (F := Ideal) x0 x1 x2 x4 x5 x6 x7 x8 x9 x10 x11 x12 x13 x14 x15 x16 x17) (slab (2 : Fin 3) x6) (rowOf (2 : Fin 3) x7) (rowOf (2 : Fin 3) x8) (rowOf (2 : Fin 3) x9) (rowOf (2 : Fin 3) x10) (rowOf (2 : Fin 3) x11) p k * x12 (ix3 (2 : Fin 3) k q) := fun k => by
    rw [l_v199, r_v199, rd_v198, hidden2]
  rw [Finset.sum_congr rfl (fun k _ => hs k)]
  rfl

end Cert.ReferenceIdeal.RefValue

end
-- ==== Proof.RefReadout.lean ====
/-
  The reference's readout read as the specification's function.  After the per-graph sums (a 64 × 128 array, never
  opened here) the reference multiplies by a 128 × 128 matrix, adds a bias vector to every row, clamps at zero, multiplies
  by a 128 × 10 matrix and adds a second bias vector.  Entry by entry that is `readoutG` of the per-graph sums and the
  four parameter arrays: each product is a sum over the 128 contracted columns, each repeated bias reads its vector at
  the column, and the clamp's floor is the zero word.
-/
import proofs.«171844_j32538672234672_1_alg».proof.Proof.ReadP
import proofs.«171844_j32538672234672_1_alg».proof.Proof.Spec
import Idealize.ShloMosaic.Lib.ValueIdx
import Idealize.ShloMosaic.PureOps.Ideal.Laws

noncomputable section

namespace Cert.ReferenceIdeal.RefReadout

open Cert.ReferenceIdeal Cert.ReferenceIdeal.ReadP Idealize.ShloMosaic Idealize.ShloMosaic.ValueIdx Cert.Spec
open scoped BigOperators

section Stages

variable (x0 : (⟨S50000x128, .f32⟩ : BufTy).Contents (Elt Ideal)) (x1 x2 : (⟨S800000, .i32⟩ : BufTy).Contents (Elt Ideal)) (x3 : (⟨S50000, .i32⟩ : BufTy).Contents (Elt Ideal)) (x4 : (⟨S128x128, .f32⟩ : BufTy).Contents (Elt Ideal)) (x5 : (⟨S128, .f32⟩ : BufTy).Contents (Elt Ideal)) (x6 : (⟨S3x128x256, .f32⟩ : BufTy).Contents (Elt Ideal)) (x7 x8 x9 x10 x11 : (⟨S3x256, .f32⟩ : BufTy).Contents (Elt Ideal)) (x12 : (⟨S3x256x128, .f32⟩ : BufTy).Contents (Elt Ideal)) (x13 x14 x15 x16 x17 : (⟨S3x128, .f32⟩ : BufTy).Contents (Elt Ideal)) (x18 : (⟨S128x128, .f32⟩ : BufTy).Contents (Elt Ideal)) (x19 : (⟨S128, .f32⟩ : BufTy).Contents (Elt Ideal)) (x20 : (⟨S128x10, .f32⟩ : BufTy).Contents (Elt Ideal)) (x21 : (⟨S10, .f32⟩ : BufTy).Contents (Elt Ideal))

/-- The first bias, repeated over the 64 rows, reads the bias vector at the column. -/
theorem bias1_at (p : Fin 64) (k : Fin 128) : val_main_v234 (F := Ideal) x19 (ix2 p k) = x19 (ix1 k) := by
  rw [val_main_v234_apply, val_main_v233_apply]
  exact congrArg x19 (funext fun a => Fin.ext (by match a with | ⟨0, _⟩ => rfl))

/-- The second bias, repeated over the 64 rows, reads the bias vector at the column. -/
theorem bias2_at (p : Fin 64) (q : Fin 10) : val_main_v239 (F := Ideal) x21 (ix2 p q) = x21 (ix1 q) := by
  rw [val_main_v239_apply, val_main_v238_apply]
  exact congrArg x21 (funext fun a => Fin.ext (by match a with | ⟨0, _⟩ => rfl))

/-- The clamp's floor, repeated over the 64 × 128 entries, is the zero word everywhere. -/
theorem floor_at (p : Fin 64) (k : Fin 128) : val_main_call6_v0 (F := Ideal) (ix2 p k) = floor0 := by
  rw [val_main_call6_v0_apply]
  rfl

/-- The first affine map at entry (p, k): the per-graph sums' row `p` against column `k` of the first matrix, plus the
    first bias at `k`. -/
theorem affine1_at (p : Fin 64) (k : Fin 128) :
    val_main_v235 (F := Ideal) x0 x1 x2 x3 x4 x5 x6 x7 x8 x9 x10 x11 x12 x13 x14 x15 x16 x17 x18 x19 (ix2 p k) = affine (val_main_v231 (F := Ideal) x0 x1 x2 x3 x4 x5 x6 x7 x8 x9 x10 x11 x12 x13 x14 x15 x16 x17) x18 x19 p k := by
  refine (val_main_v235_apply x0 x1 x2 x3 x4 x5 x6 x7 x8 x9 x10 x11 x12 x13 x14 x15 x16 x17 x18 x19 (ix2 p k)).trans ?_
  refine congrArg₂ (· + ·) ?_ (bias1_at x19 p k)
  refine (val_main_v232_apply x0 x1 x2 x3 x4 x5 x6 x7 x8 x9 x10 x11 x12 x13 x14 x15 x16 x17 x18 (ix2 p k)).trans ?_
  refine Finset.sum_congr rfl fun j _ => congrArg₂ (· * ·) ?_ ?_
  · exact congrArg (val_main_v231 (F := Ideal) x0 x1 x2 x3 x4 x5 x6 x7 x8 x9 x10 x11 x12 x13 x14 x15 x16 x17) (funext fun a => Fin.ext (by match a with | ⟨0, _⟩ => rfl | ⟨1, _⟩ => rfl))
  · exact congrArg x18 (funext fun a => Fin.ext (by match a with | ⟨0, _⟩ => rfl | ⟨1, _⟩ => rfl))

/-- The clamped first affine map at entry (p, k). -/
theorem hidden_at (p : Fin 64) (k : Fin 128) :
    val_main_v236 (F := Ideal) x0 x1 x2 x3 x4 x5 x6 x7 x8 x9 x10 x11 x12 x13 x14 x15 x16 x17 x18 x19 (ix2 p k) = clamp (affine (val_main_v231 (F := Ideal) x0 x1 x2 x3 x4 x5 x6 x7 x8 x9 x10 x11 x12 x13 x14 x15 x16 x17) x18 x19 p k) := by
  refine (val_main_v236_apply x0 x1 x2 x3 x4 x5 x6 x7 x8 x9 x10 x11 x12 x13 x14 x15 x16 x17 x18 x19 (ix2 p k)).trans ?_
  exact congrArg₂ max (affine1_at x0 x1 x2 x3 x4 x5 x6 x7 x8 x9 x10 x11 x12 x13 x14 x15 x16 x17 x18 x19 p k) (floor_at p k)

end Stages

/-- THE REFERENCE'S READOUT is the specification's readout of its per-graph sums and its four parameter arrays. -/
theorem ref_readout (x0 : (⟨S50000x128, .f32⟩ : BufTy).Contents (Elt Ideal)) (x1 x2 : (⟨S800000, .i32⟩ : BufTy).Contents (Elt Ideal)) (x3 : (⟨S50000, .i32⟩ : BufTy).Contents (Elt Ideal)) (x4 : (⟨S128x128, .f32⟩ : BufTy).Contents (Elt Ideal)) (x5 : (⟨S128, .f32⟩ : BufTy).Contents (Elt Ideal)) (x6 : (⟨S3x128x256, .f32⟩ : BufTy).Contents (Elt Ideal)) (x7 x8 x9 x10 x11 : (⟨S3x256, .f32⟩ : BufTy).Contents (Elt Ideal)) (x12 : (⟨S3x256x128, .f32⟩ : BufTy).Contents (Elt Ideal)) (x13 x14 x15 x16 x17 : (⟨S3x128, .f32⟩ : BufTy).Contents (Elt Ideal)) (x18 : (⟨S128x128, .f32⟩ : BufTy).Contents (Elt Ideal)) (x19 : (⟨S128, .f32⟩ : BufTy).Contents (Elt Ideal)) (x20 : (⟨S128x10, .f32⟩ : BufTy).Contents (Elt Ideal)) (x21 : (⟨S10, .f32⟩ : BufTy).Contents (Elt Ideal)) :
    val_main_v240 (F := Ideal) x0 x1 x2 x3 x4 x5 x6 x7 x8 x9 x10 x11 x12 x13 x14 x15 x16 x17 x18 x19 x20 x21 = readoutG (val_main_v231 (F := Ideal) x0 x1 x2 x3 x4 x5 x6 x7 x8 x9 x10 x11 x12 x13 x14 x15 x16 x17) x18 x19 x20 x21 := by
  funext i
  obtain ⟨p, q, rfl⟩ : ∃ (p : Fin 64) (q : Fin 10), i = ix2 p q := ⟨i 0, i 1, eq_ix2 i⟩
  refine (val_main_v240_apply x0 x1 x2 x3 x4 x5 x6 x7 x8 x9 x10 x11 x12 x13 x14 x15 x16 x17 x18 x19 x20 x21 (ix2 p q)).trans ?_
  refine congrArg₂ (· + ·) ?_ (bias2_at x21 p q)
  refine (val_main_v237_apply x0 x1 x2 x3 x4 x5 x6 x7 x8 x9 x10 x11 x12 x13 x14 x15 x16 x17 x18 x19 x20 (ix2 p q)).trans ?_
  refine Finset.sum_congr rfl fun k _ => congrArg₂ (· * ·) ?_ ?_
  · have hl : lidx_main_v237 (ix2 p q) k = ix2 p k :=
      funext fun a => Fin.ext (by match a with | ⟨0, _⟩ => rfl | ⟨1, _⟩ => rfl)
    rw [hl]
    exact hidden_at x0 x1 x2 x3 x4 x5 x6 x7 x8 x9 x10 x11 x12 x13 x14 x15 x16 x17 x18 x19 p k
  · exact congrArg x20 (funext fun a => Fin.ext (by match a with | ⟨0, _⟩ => rfl | ⟨1, _⟩ => rfl))

end Cert.ReferenceIdeal.RefReadout

end
-- ==== Proof.RefEmbed.lean ====
/-
  The reference's embedding read as the specification's function.  The reference multiplies the 50000 × 128 node
  features by the 128 × 128 matrix and adds the bias vector to every row; entry (r, q) is the sum over the 128 contracted
  columns of x[r,k] * We[k,q], plus be[q]: `embedG` of the three arrays.
-/
import proofs.«171844_j32538672234672_1_alg».proof.Proof.ReadP
import proofs.«171844_j32538672234672_1_alg».proof.Proof.Spec
import Idealize.ShloMosaic.Lib.ValueIdx
import Idealize.ShloMosaic.PureOps.Ideal.Laws

set_option maxRecDepth 16384

noncomputable section

namespace Cert.ReferenceIdeal.RefEmbed

open Cert.ReferenceIdeal Cert.ReferenceIdeal.ReadP Idealize.ShloMosaic Idealize.ShloMosaic.ValueIdx Cert.Spec
open scoped BigOperators

/-- The bias, repeated over the 50000 rows, reads the bias vector at the column. -/
theorem bias_at (x5 : (⟨S128, .f32⟩ : BufTy).Contents (Elt Ideal)) (r : Fin 50000) (q : Fin 128) :
    val_main_v2 (F := Ideal) x5 (ix2 r q) = x5 (ix1 q) := by
  rw [val_main_v2_apply, val_main_v1_apply]
  exact congrArg x5 (funext fun a => Fin.ext (by match a with | ⟨0, _⟩ => rfl))

/-- THE REFERENCE'S EMBEDDING is the specification's embedding of the node features, the matrix and the bias vector. -/
theorem ref_embed (x0 : (⟨S50000x128, .f32⟩ : BufTy).Contents (Elt Ideal)) (x4 : (⟨S128x128, .f32⟩ : BufTy).Contents (Elt Ideal)) (x5 : (⟨S128, .f32⟩ : BufTy).Contents (Elt Ideal)) :
    val_main_v3 (F := Ideal) x0 x4 x5 = embedG x0 x4 x5 := by
  funext i
  obtain ⟨r, q, rfl⟩ : ∃ (r : Fin 50000) (q : Fin 128), i = ix2 r q := ⟨i 0, i 1, eq_ix2 i⟩
  refine (val_main_v3_apply x0 x4 x5 (ix2 r q)).trans ?_
  refine congrArg₂ (· + ·) ?_ (bias_at x5 r q)
  refine (val_main_v0_apply x0 x4 (ix2 r q)).trans ?_
  refine Finset.sum_congr rfl fun k _ => congrArg₂ (· * ·) ?_ ?_
  · exact congrArg x0 (funext fun a => Fin.ext (by match a with | ⟨0, _⟩ => rfl | ⟨1, _⟩ => rfl))
  · exact congrArg x4 (funext fun a => Fin.ext (by match a with | ⟨0, _⟩ => rfl | ⟨1, _⟩ => rfl))

end Cert.ReferenceIdeal.RefEmbed

end
-- ==== Proof.Bridge.lean ====
/-
  The reference computes the same network.  Its result, stage by stage: the readout of its per-graph sum; that sum is
  the per-graph sum of its third round; each round is the specification's layer of the previous round, that round's
  neighbour sum and the round's parameters; the first input is the embedding.  Its neighbour sums and per-graph sum
  are, operation for operation, the ones the kernel's host side applies, so they agree without being opened.
-/
import proofs.«171844_j32538672234672_1_alg».proof.Proof.ReadP
import proofs.«171844_j32538672234672_1_alg».proof.Proof.Net
import proofs.«171844_j32538672234672_1_alg».proof.Proof.RefValue
import proofs.«171844_j32538672234672_1_alg».proof.Proof.RefReadout
import proofs.«171844_j32538672234672_1_alg».proof.Proof.RefEmbed

set_option maxRecDepth 16384

noncomputable section

namespace Cert.Bridge

open Cert.ReferenceIdeal.ReadP Idealize.ShloMosaic Cert.Spec
open Cert.KernelIdeal.Fold (neighbourSum graphSum round net)

/-- The reference's first neighbour sum is the neighbour sum of its embedding stage. -/
theorem agg0 (x0 : (⟨Cert.ReferenceIdeal.S50000x128, .f32⟩ : BufTy).Contents (Elt Ideal)) (x1 x2 : (⟨Cert.ReferenceIdeal.S800000, .i32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) :
    val_main_v13 (F := Ideal) x0 x1 x2 x4 x5 = neighbourSum (val_main_v3 (F := Ideal) x0 x4 x5) x1 x2 := rfl
/-- Its second is the neighbour sum of its first round. -/
theorem agg1 (x0 : (⟨Cert.ReferenceIdeal.S50000x128, .f32⟩ : BufTy).Contents (Elt Ideal)) (x1 x2 : (⟨Cert.ReferenceIdeal.S800000, .i32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S3x128x256, .f32⟩ : BufTy).Contents (Elt Ideal)) (x7 x8 x9 x10 x11 : (⟨Cert.ReferenceIdeal.S3x256, .f32⟩ : BufTy).Contents (Elt Ideal)) (x12 : (⟨Cert.ReferenceIdeal.S3x256x128, .f32⟩ : BufTy).Contents (Elt Ideal)) (x13 x14 x15 x16 x17 : (⟨Cert.ReferenceIdeal.S3x128, .f32⟩ : BufTy).Contents (Elt Ideal)) :
    val_main_v88 (F := Ideal) x0 x1 x2 x4 x5 x6 x7 x8 x9 x10 x11 x12 x13 x14 x15 x16 x17 = neighbourSum (val_main_v78 (F := Ideal) x0 x1 x2 x4 x5 x6 x7 x8 x9 x10 x11 x12 x13 x14 x15 x16 x17) x1 x2 := rfl
/-- Its third is the neighbour sum of its second round. -/
theorem agg2 (x0 : (⟨Cert.ReferenceIdeal.S50000x128, .f32⟩ : BufTy).Contents (Elt Ideal)) (x1 x2 : (⟨Cert.ReferenceIdeal.S800000, .i32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S3x128x256, .f32⟩ : BufTy).Contents (Elt Ideal)) (x7 x8 x9 x10 x11 : (⟨Cert.ReferenceIdeal.S3x256, .f32⟩ : BufTy).Contents (Elt Ideal)) (x12 : (⟨Cert.ReferenceIdeal.S3x256x128, .f32⟩ : BufTy).Contents (Elt Ideal)) (x13 x14 x15 x16 x17 : (⟨Cert.ReferenceIdeal.S3x128, .f32⟩ : BufTy).Contents (Elt Ideal)) :
    val_main_v163 (F := Ideal) x0 x1 x2 x4 x5 x6 x7 x8 x9 x10 x11 x12 x13 x14 x15 x16 x17 = neighbourSum (val_main_v153 (F := Ideal) x0 x1 x2 x4 x5 x6 x7 x8 x9 x10 x11 x12 x13 x14 x15 x16 x17) x1 x2 := rfl
/-- Its per-graph sum is the per-graph sum of its third round. -/
theorem pool (x0 : (⟨Cert.ReferenceIdeal.S50000x128, .f32⟩ : BufTy).Contents (Elt Ideal)) (x1 x2 : (⟨Cert.ReferenceIdeal.S800000, .i32⟩ : BufTy).Contents (Elt Ideal)) (x3 : (⟨Cert.ReferenceIdeal.S50000, .i32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S3x128x256, .f32⟩ : BufTy).Contents (Elt Ideal)) (x7 x8 x9 x10 x11 : (⟨Cert.ReferenceIdeal.S3x256, .f32⟩ : BufTy).Contents (Elt Ideal)) (x12 : (⟨Cert.ReferenceIdeal.S3x256x128, .f32⟩ : BufTy).Contents (Elt Ideal)) (x13 x14 x15 x16 x17 : (⟨Cert.ReferenceIdeal.S3x128, .f32⟩ : BufTy).Contents (Elt Ideal)) :
    val_main_v231 (F := Ideal) x0 x1 x2 x3 x4 x5 x6 x7 x8 x9 x10 x11 x12 x13 x14 x15 x16 x17 = graphSum (val_main_v228 (F := Ideal) x0 x1 x2 x4 x5 x6 x7 x8 x9 x10 x11 x12 x13 x14 x15 x16 x17) x3 := rfl

/-- The reference's result is the network of its arguments. -/
theorem ref_value (x0 : (⟨Cert.ReferenceIdeal.S50000x128, .f32⟩ : BufTy).Contents (Elt Ideal)) (x1 x2 : (⟨Cert.ReferenceIdeal.S800000, .i32⟩ : BufTy).Contents (Elt Ideal)) (x3 : (⟨Cert.ReferenceIdeal.S50000, .i32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S3x128x256, .f32⟩ : BufTy).Contents (Elt Ideal)) (x7 x8 x9 x10 x11 : (⟨Cert.ReferenceIdeal.S3x256, .f32⟩ : BufTy).Contents (Elt Ideal)) (x12 : (⟨Cert.ReferenceIdeal.S3x256x128, .f32⟩ : BufTy).Contents (Elt Ideal)) (x13 x14 x15 x16 x17 : (⟨Cert.ReferenceIdeal.S3x128, .f32⟩ : BufTy).Contents (Elt Ideal)) (x18 : (⟨Cert.ReferenceIdeal.S128x128, .f32⟩ : BufTy).Contents (Elt Ideal)) (x19 : (⟨Cert.ReferenceIdeal.S128, .f32⟩ : BufTy).Contents (Elt Ideal)) (x20 : (⟨Cert.ReferenceIdeal.S128x10, .f32⟩ : BufTy).Contents (Elt Ideal)) (x21 : (⟨Cert.ReferenceIdeal.S10, .f32⟩ : BufTy).Contents (Elt Ideal)) :
    val_main_v240 (F := Ideal) x0 x1 x2 x3 x4 x5 x6 x7 x8 x9 x10 x11 x12 x13 x14 x15 x16 x17 x18 x19 x20 x21 = net x0 x1 x2 x3 x4 x5 x6 x7 x8 x9 x10 x11 x12 x13 x14 x15 x16 x17 x18 x19 x20 x21 := by
  rw [Cert.ReferenceIdeal.RefReadout.ref_readout, pool, Cert.ReferenceIdeal.RefValue.ref_layer2, agg2,
    Cert.ReferenceIdeal.RefValue.ref_layer1, agg1, Cert.ReferenceIdeal.RefValue.ref_layer0, agg0,
    Cert.ReferenceIdeal.RefEmbed.ref_embed]
  rfl

end Cert.Bridge

end
-- ==== Proof.RefOps.lean ====
/-
  The reference's @main as thirteen short lists of its host operations, in order: the embedding; then for each of
  the three rounds the neighbour sum and the round's two normalised, clamped affine maps (a round's operations are
  cut where the program's own text is cut into windows); the per-graph sum; the readout.  A called function's
  operations stand in its call's place.
-/
import proofs.«171844_j32538672234672_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The embedding: operations 0–3. -/
abbrev ch0 : List (HloOp τ sig (Elt F)) :=
  [ binary main_arg0 main_arg4 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v1 (broadcastInDim S1x128 ![1] bcast_S128_S1x128_1 : (⟨S128, .f32⟩ : BufTy).Contents (Elt F) → (⟨S1x128, .f32⟩ : BufTy).Contents (Elt F)),
    unary main_v1 main_v2 (broadcastInDim S50000x128 ![0, 1] bcast_S1x128_S50000x128_0_1 : (⟨S1x128, .f32⟩ : BufTy).Contents (Elt F) → (⟨S50000x128, .f32⟩ : BufTy).Contents (Elt F)),
    binary main_v0 main_v2 main_v3 (addf : (⟨S50000x128, .f32⟩ : BufTy).Contents (Elt F) → (⟨S50000x128, .f32⟩ : BufTy).Contents (Elt F) → (⟨S50000x128, .f32⟩ : BufTy).Contents (Elt F)) ]

/-- Round 0's neighbour sum. -/
abbrev ch1 : List (HloOp τ sig (Elt F)) :=
  [ nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_arg1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_arg1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_arg1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_v3 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_arg2 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- Round 0, first window. -/
abbrev ch2 : List (HloOp τ sig (Elt F)) :=
  [ binary main_v3 main_v13 main_v14 (addf : (⟨S50000x128, .f32⟩ : BufTy).Contents (Elt F) → (⟨S50000x128, .f32⟩ : BufTy).Contents (Elt F) → (⟨S50000x128, .f32⟩ : BufTy).Contents (Elt F)),
    unary main_arg6 main_v15 ((extractStridedSlice S1x128x256 ![0, 0, 0] · slices_S3x128x256_S1x128x256_0_0_0) : (⟨S3x128x256, .f32⟩ : BufTy).Contents (Elt F) → (⟨S1x128x256, .f32⟩ : BufTy).Contents (Elt F)),
    reshape main_v15 main_v16 rfl shapeCasts_S1x128x256_S128x256,
    binary main_v14 main_v16 main_v17 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg7 main_v18 ((extractStridedSlice S1x256 ![0, 0] · slices_S3x256_S1x256_0_0) : (⟨S3x256, .f32⟩ : BufTy).Contents (Elt F) → (⟨S1x256, .f32⟩ : BufTy).Contents (Elt F)),
    reshape main_v18 main_v19 rfl shapeCasts_S1x256_S256,
    unary main_v19 main_v20 (broadcastInDim S1x256 ![1] bcast_S256_S1x256_1 : (⟨S256, .f32⟩ : BufTy).Contents (Elt F) → (⟨S1x256, .f32⟩ : BufTy).Contents (Elt F)),
    unary main_v20 main_v21 (broadcastInDim S50000x256 ![0, 1] bcast_S1x256_S50000x256_0_1 : (⟨S1x256, .f32⟩ : BufTy).Contents (Elt F) → (⟨S50000x256, .f32⟩ : BufTy).Contents (Elt F)),
    binary main_v17 main_v21 main_v22 (addf : (⟨S50000x256, .f32⟩ : BufTy).Contents (Elt F) → (⟨S50000x256, .f32⟩ : BufTy).Contents (Elt F) → (⟨S50000x256, .f32⟩ : BufTy).Contents (Elt F)),
    unary main_arg8 main_v23 ((extractStridedSlice S1x256 ![0, 0] · slices_S3x256_S1x256_0_0) : (⟨S3x256, .f32⟩ : BufTy).Contents (Elt F) → (⟨S1x256, .f32⟩ : BufTy).Contents (Elt F)),
    reshape main_v23 main_v24 rfl shapeCasts_S1x256_S256,
    unary main_arg9 main_v25 ((extractStridedSlice S1x256 ![0, 0] · slices_S3x256_S1x256_0_0) : (⟨S3x256, .f32⟩ : BufTy).Contents (Elt F) → (⟨S1x256, .f32⟩ : BufTy).Contents (Elt F)),
    reshape main_v25 main_v26 rfl shapeCasts_S1x256_S256,
    unary main_arg10 main_v27 ((extractStridedSlice S1x256 ![0, 0] · slices_S3x256_S1x256_0_0) : (⟨S3x256, .f32⟩ : BufTy).Contents (Elt F) → (⟨S1x256, .f32⟩ : BufTy).Contents (Elt F)),
    reshape main_v27 main_v28 rfl shapeCasts_S1x256_S256,
    unary main_arg11 main_v29 ((extractStridedSlice S1x256 ![0, 0] · slices_S3x256_S1x256_0_0) : (⟨S3x256, .f32⟩ : BufTy).Contents (Elt F) → (⟨S1x256, .f32⟩ : BufTy).Contents (Elt F)),
    reshape main_v29 main_v30 rfl shapeCasts_S1x256_S256,
    unary main_v28 main_v31 (broadcastInDim S1x256 ![1] bcast_S256_S1x256_1 : (⟨S256, .f32⟩ : BufTy).Contents (Elt F) → (⟨S1x256, .f32⟩ : BufTy).Contents (Elt F)),
    unary main_v31 main_v32 (broadcastInDim S50000x256 ![0, 1] bcast_S1x256_S50000x256_0_1 : (⟨S1x256, .f32⟩ : BufTy).Contents (Elt F) → (⟨S50000x256, .f32⟩ : BufTy).Contents (Elt F)),
    binary main_v22 main_v32 main_v33 (subf : (⟨S50000x256, .f32⟩ : BufTy).Contents (Elt F) → (⟨S50000x256, .f32⟩ : BufTy).Contents (Elt F) → (⟨S50000x256, .f32⟩ : BufTy).Contents (Elt F)),
    nullary main_cst_1 (constant S_ .f32 0x3727C5AC#32),
    unary main_cst_1 main_v34 (broadcastInDim S256 ![] bcast_S_S256 : (⟨S_, .f32⟩ : BufTy).Contents (Elt F) → (⟨S256, .f32⟩ : BufTy).Contents (Elt F)),
    binary main_v30 main_v34 main_v35 (addf : (⟨S256, .f32⟩ : BufTy).Contents (Elt F) → (⟨S256, .f32⟩ : BufTy).Contents (Elt F) → (⟨S256, .f32⟩ : BufTy).Contents (Elt F)),
    unary main_v35 main_v36 (Host.rsqrt : (⟨S256, .f32⟩ : BufTy).Contents (Elt F) → (⟨S256, .f32⟩ : BufTy).Contents (Elt F)),
    unary main_v36 main_v37 (broadcastInDim S1x256 ![1] bcast_S256_S1x256_1 : (⟨S256, .f32⟩ : BufTy).Contents (Elt F) → (⟨S1x256, .f32⟩ : BufTy).Contents (Elt F)),
    unary main_v37 main_v38 (broadcastInDim S50000x256 ![0, 1] bcast_S1x256_S50000x256_0_1 : (⟨S1x256, .f32⟩ : BufTy).Contents (Elt F) → (⟨S50000x256, .f32⟩ : BufTy).Contents (Elt F)),
    binary main_v33 main_v38 main_v39 (mulf : (⟨S50000x256, .f32⟩ : BufTy).Contents (Elt F) → (⟨S50000x256, .f32⟩ : BufTy).Contents (Elt F) → (⟨S50000x256, .f32⟩ : BufTy).Contents (Elt F)),
    unary main_v24 main_v40 (broadcastInDim S1x256 ![1] bcast_S256_S1x256_1 : (⟨S256, .f32⟩ : BufTy).Contents (Elt F) → (⟨S1x256, .f32⟩ : BufTy).Contents (Elt F)),
    unary main_v40 main_v41 (broadcastInDim S50000x256 ![0, 1] bcast_S1x256_S50000x256_0_1 : (⟨S1x256, .f32⟩ : BufTy).Contents (Elt F) → (⟨S50000x256, .f32⟩ : BufTy).Contents (Elt F)),
    binary main_v39 main_v41 main_v42 (mulf : (⟨S50000x256, .f32⟩ : BufTy).Contents (Elt F) → (⟨S50000x256, .f32⟩ : BufTy).Contents (Elt F) → (⟨S50000x256, .f32⟩ : BufTy).Contents (Elt F)),
    unary main_v26 main_v43 (broadcastInDim S1x256 ![1] bcast_S256_S1x256_1 : (⟨S256, .f32⟩ : BufTy).Contents (Elt F) → (⟨S1x256, .f32⟩ : BufTy).Contents (Elt F)),
    unary main_v43 main_v44 (broadcastInDim S50000x256 ![0, 1] bcast_S1x256_S50000x256_0_1 : (⟨S1x256, .f32⟩ : BufTy).Contents (Elt F) → (⟨S50000x256, .f32⟩ : BufTy).Contents (Elt F)),
    binary main_v42 main_v44 main_v45 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v45) (TRef.of (T := ⟨S50000x256, .f32⟩) main_call0_v0) (TRef.of (T := ⟨S50000x256, .f32⟩) main_v46) maximumf,
    unary main_arg12 main_v47 ((extractStridedSlice S1x256x128 ![0, 0, 0] · slices_S3x256x128_S1x256x128_0_0_0) : (⟨S3x256x128, .f32⟩ : BufTy).Contents (Elt F) → (⟨S1x256x128, .f32⟩ : BufTy).Contents (Elt F)),
    reshape main_v47 main_v48 rfl shapeCasts_S1x256x128_S256x128,
    binary main_v46 main_v48 main_v49 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg13 main_v50 ((extractStridedSlice S1x128 ![0, 0] · slices_S3x128_S1x128_0_0) : (⟨S3x128, .f32⟩ : BufTy).Contents (Elt F) → (⟨S1x128, .f32⟩ : BufTy).Contents (Elt F)),
    reshape main_v50 main_v51 rfl shapeCasts_S1x128_S128,
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v49 main_v53 main_v54 (addf : (⟨S50000x128, .f32⟩ : BufTy).Contents (Elt F) → (⟨S50000x128, .f32⟩ : BufTy).Contents (Elt F) → (⟨S50000x128, .f32⟩ : BufTy).Contents (Elt F)),
    unary main_arg14 main_v55 ((extractStridedSlice S1x128 ![0, 0] · slices_S3x128_S1x128_0_0) : (⟨S3x128, .f32⟩ : BufTy).Contents (Elt F) → (⟨S1x128, .f32⟩ : BufTy).Contents (Elt F)) ]

/-- Round 0, second window. -/
abbrev ch3 : List (HloOp τ sig (Elt F)) :=
  [ reshape main_v55 main_v56 rfl shapeCasts_S1x128_S128,
    unary main_arg15 main_v57 ((extractStridedSlice S1x128 ![0, 0] · slices_S3x128_S1x128_0_0) : (⟨S3x128, .f32⟩ : BufTy).Contents (Elt F) → (⟨S1x128, .f32⟩ : BufTy).Contents (Elt F)),
    reshape main_v57 main_v58 rfl shapeCasts_S1x128_S128,
    unary main_arg16 main_v59 ((extractStridedSlice S1x128 ![0, 0] · slices_S3x128_S1x128_0_0) : (⟨S3x128, .f32⟩ : BufTy).Contents (Elt F) → (⟨S1x128, .f32⟩ : BufTy).Contents (Elt F)),
    reshape main_v59 main_v60 rfl shapeCasts_S1x128_S128,
    unary main_arg17 main_v61 ((extractStridedSlice S1x128 ![0, 0] · slices_S3x128_S1x128_0_0) : (⟨S3x128, .f32⟩ : BufTy).Contents (Elt F) → (⟨S1x128, .f32⟩ : BufTy).Contents (Elt F)),
    reshape main_v61 main_v62 rfl shapeCasts_S1x128_S128,
    unary main_v60 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v54 main_v64 main_v65 (subf : (⟨S50000x128, .f32⟩ : BufTy).Contents (Elt F) → (⟨S50000x128, .f32⟩ : BufTy).Contents (Elt F) → (⟨S50000x128, .f32⟩ : BufTy).Contents (Elt F)),
    nullary main_cst_2 (constant S_ .f32 0x3727C5AC#32),
    unary main_cst_2 main_v66 (broadcastInDim S128 ![] bcast_S_S128 : (⟨S_, .f32⟩ : BufTy).Contents (Elt F) → (⟨S128, .f32⟩ : BufTy).Contents (Elt F)),
    binary main_v62 main_v66 main_v67 (addf : (⟨S128, .f32⟩ : BufTy).Contents (Elt F) → (⟨S128, .f32⟩ : BufTy).Contents (Elt F) → (⟨S128, .f32⟩ : BufTy).Contents (Elt F)),
    unary main_v67 main_v68 (Host.rsqrt : (⟨S128, .f32⟩ : BufTy).Contents (Elt F) → (⟨S128, .f32⟩ : BufTy).Contents (Elt F)),
    unary main_v68 main_v69 (broadcastInDim S1x128 ![1] bcast_S128_S1x128_1 : (⟨S128, .f32⟩ : BufTy).Contents (Elt F) → (⟨S1x128, .f32⟩ : BufTy).Contents (Elt F)),
    unary main_v69 main_v70 (broadcastInDim S50000x128 ![0, 1] bcast_S1x128_S50000x128_0_1 : (⟨S1x128, .f32⟩ : BufTy).Contents (Elt F) → (⟨S50000x128, .f32⟩ : BufTy).Contents (Elt F)),
    binary main_v65 main_v70 main_v71 (mulf : (⟨S50000x128, .f32⟩ : BufTy).Contents (Elt F) → (⟨S50000x128, .f32⟩ : BufTy).Contents (Elt F) → (⟨S50000x128, .f32⟩ : BufTy).Contents (Elt F)),
    unary main_v56 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v71 main_v73 main_v74 (mulf : (⟨S50000x128, .f32⟩ : BufTy).Contents (Elt F) → (⟨S50000x128, .f32⟩ : BufTy).Contents (Elt F) → (⟨S50000x128, .f32⟩ : BufTy).Contents (Elt F)),
    unary main_v58 main_v75 (broadcastInDim S1x128 ![1] bcast_S128_S1x128_1 : (⟨S128, .f32⟩ : BufTy).Contents (Elt F) → (⟨S1x128, .f32⟩ : BufTy).Contents (Elt F)),
    unary main_v75 main_v76 (broadcastInDim S50000x128 ![0, 1] bcast_S1x128_S50000x128_0_1 : (⟨S1x128, .f32⟩ : BufTy).Contents (Elt F) → (⟨S50000x128, .f32⟩ : BufTy).Contents (Elt F)),
    binary main_v74 main_v76 main_v77 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v77) (TRef.of (T := ⟨S50000x128, .f32⟩) main_call1_v0) (TRef.of (T := ⟨S50000x128, .f32⟩) main_v78) maximumf ]

/-- Round 1's neighbour sum. -/
abbrev ch4 : List (HloOp τ sig (Elt F)) :=
  [ nullary main_c_3 (constantI S_ 32 0#32),
    unary main_c_3 main_v79 (broadcastInDim S800000 ![] bcast_S_S800000 : (⟨S_, .i32⟩ : BufTy).Contents (Elt F) → (⟨S800000, .i32⟩ : BufTy).Contents (Elt F)),
    binary main_arg1 main_v79 main_v80 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v81 (broadcastInDim S800000 ![] bcast_S_S800000 : (⟨S_, .i32⟩ : BufTy).Contents (Elt F) → (⟨S800000, .i32⟩ : BufTy).Contents (Elt F)),
    binary main_arg1 main_v81 main_v82 (addi : (⟨S800000, .i32⟩ : BufTy).Contents (Elt F) → (⟨S800000, .i32⟩ : BufTy).Contents (Elt F) → (⟨S800000, .i32⟩ : BufTy).Contents (Elt F)),
    ternary main_v80 main_v82 main_arg1 main_v83 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v83 main_v84 (broadcastInDim S800000x1 ![0] bcast_S800000_S800000x1_0 : (⟨S800000, .i32⟩ : BufTy).Contents (Elt F) → (⟨S800000x1, .i32⟩ : BufTy).Contents (Elt F)),
    binary main_v78 main_v84 main_v85 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_5 (constant S_ .f32 0x00000000#32),
    unary main_cst_5 main_v86 (broadcastInDim S50000x128 ![] bcast_S_S50000x128 : (⟨S_, .f32⟩ : BufTy).Contents (Elt F) → (⟨S50000x128, .f32⟩ : BufTy).Contents (Elt F)),
    unary main_arg2 main_v87 (broadcastInDim S800000x1 ![0] bcast_S800000_S800000x1_0 : (⟨S800000, .i32⟩ : BufTy).Contents (Elt F) → (⟨S800000x1, .i32⟩ : BufTy).Contents (Elt F)),
    ternary main_v86 main_v87 main_v85 main_v88 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- Round 1, first window. -/
abbrev ch5 : List (HloOp τ sig (Elt F)) :=
  [ binary main_v78 main_v88 main_v89 (addf : (⟨S50000x128, .f32⟩ : BufTy).Contents (Elt F) → (⟨S50000x128, .f32⟩ : BufTy).Contents (Elt F) → (⟨S50000x128, .f32⟩ : BufTy).Contents (Elt F)),
    unary main_arg6 main_v90 ((extractStridedSlice S1x128x256 ![1, 0, 0] · slices_S3x128x256_S1x128x256_1_0_0) : (⟨S3x128x256, .f32⟩ : BufTy).Contents (Elt F) → (⟨S1x128x256, .f32⟩ : BufTy).Contents (Elt F)),
    reshape main_v90 main_v91 rfl shapeCasts_S1x128x256_S128x256,
    binary main_v89 main_v91 main_v92 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg7 main_v93 ((extractStridedSlice S1x256 ![1, 0] · slices_S3x256_S1x256_1_0) : (⟨S3x256, .f32⟩ : BufTy).Contents (Elt F) → (⟨S1x256, .f32⟩ : BufTy).Contents (Elt F)),
    reshape main_v93 main_v94 rfl shapeCasts_S1x256_S256,
    unary main_v94 main_v95 (broadcastInDim S1x256 ![1] bcast_S256_S1x256_1 : (⟨S256, .f32⟩ : BufTy).Contents (Elt F) → (⟨S1x256, .f32⟩ : BufTy).Contents (Elt F)),
    unary main_v95 main_v96 (broadcastInDim S50000x256 ![0, 1] bcast_S1x256_S50000x256_0_1 : (⟨S1x256, .f32⟩ : BufTy).Contents (Elt F) → (⟨S50000x256, .f32⟩ : BufTy).Contents (Elt F)),
    binary main_v92 main_v96 main_v97 (addf : (⟨S50000x256, .f32⟩ : BufTy).Contents (Elt F) → (⟨S50000x256, .f32⟩ : BufTy).Contents (Elt F) → (⟨S50000x256, .f32⟩ : BufTy).Contents (Elt F)),
    unary main_arg8 main_v98 ((extractStridedSlice S1x256 ![1, 0] · slices_S3x256_S1x256_1_0) : (⟨S3x256, .f32⟩ : BufTy).Contents (Elt F) → (⟨S1x256, .f32⟩ : BufTy).Contents (Elt F)),
    reshape main_v98 main_v99 rfl shapeCasts_S1x256_S256,
    unary main_arg9 main_v100 ((extractStridedSlice S1x256 ![1, 0] · slices_S3x256_S1x256_1_0) : (⟨S3x256, .f32⟩ : BufTy).Contents (Elt F) → (⟨S1x256, .f32⟩ : BufTy).Contents (Elt F)),
    reshape main_v100 main_v101 rfl shapeCasts_S1x256_S256,
    unary main_arg10 main_v102 ((extractStridedSlice S1x256 ![1, 0] · slices_S3x256_S1x256_1_0) : (⟨S3x256, .f32⟩ : BufTy).Contents (Elt F) → (⟨S1x256, .f32⟩ : BufTy).Contents (Elt F)),
    reshape main_v102 main_v103 rfl shapeCasts_S1x256_S256,
    unary main_arg11 main_v104 ((extractStridedSlice S1x256 ![1, 0] · slices_S3x256_S1x256_1_0) : (⟨S3x256, .f32⟩ : BufTy).Contents (Elt F) → (⟨S1x256, .f32⟩ : BufTy).Contents (Elt F)),
    reshape main_v104 main_v105 rfl shapeCasts_S1x256_S256,
    unary main_v103 main_v106 (broadcastInDim S1x256 ![1] bcast_S256_S1x256_1 : (⟨S256, .f32⟩ : BufTy).Contents (Elt F) → (⟨S1x256, .f32⟩ : BufTy).Contents (Elt F)),
    unary main_v106 main_v107 (broadcastInDim S50000x256 ![0, 1] bcast_S1x256_S50000x256_0_1 : (⟨S1x256, .f32⟩ : BufTy).Contents (Elt F) → (⟨S50000x256, .f32⟩ : BufTy).Contents (Elt F)),
    binary main_v97 main_v107 main_v108 (subf : (⟨S50000x256, .f32⟩ : BufTy).Contents (Elt F) → (⟨S50000x256, .f32⟩ : BufTy).Contents (Elt F) → (⟨S50000x256, .f32⟩ : BufTy).Contents (Elt F)),
    nullary main_cst_6 (constant S_ .f32 0x3727C5AC#32),
    unary main_cst_6 main_v109 (broadcastInDim S256 ![] bcast_S_S256 : (⟨S_, .f32⟩ : BufTy).Contents (Elt F) → (⟨S256, .f32⟩ : BufTy).Contents (Elt F)),
    binary main_v105 main_v109 main_v110 (addf : (⟨S256, .f32⟩ : BufTy).Contents (Elt F) → (⟨S256, .f32⟩ : BufTy).Contents (Elt F) → (⟨S256, .f32⟩ : BufTy).Contents (Elt F)) ]

/-- Round 1, second window. -/
abbrev ch6 : List (HloOp τ sig (Elt F)) :=
  [ unary main_v110 main_v111 (Host.rsqrt : (⟨S256, .f32⟩ : BufTy).Contents (Elt F) → (⟨S256, .f32⟩ : BufTy).Contents (Elt F)),
    unary main_v111 main_v112 (broadcastInDim S1x256 ![1] bcast_S256_S1x256_1 : (⟨S256, .f32⟩ : BufTy).Contents (Elt F) → (⟨S1x256, .f32⟩ : BufTy).Contents (Elt F)),
    unary main_v112 main_v113 (broadcastInDim S50000x256 ![0, 1] bcast_S1x256_S50000x256_0_1 : (⟨S1x256, .f32⟩ : BufTy).Contents (Elt F) → (⟨S50000x256, .f32⟩ : BufTy).Contents (Elt F)),
    binary main_v108 main_v113 main_v114 (mulf : (⟨S50000x256, .f32⟩ : BufTy).Contents (Elt F) → (⟨S50000x256, .f32⟩ : BufTy).Contents (Elt F) → (⟨S50000x256, .f32⟩ : BufTy).Contents (Elt F)),
    unary main_v99 main_v115 (broadcastInDim S1x256 ![1] bcast_S256_S1x256_1 : (⟨S256, .f32⟩ : BufTy).Contents (Elt F) → (⟨S1x256, .f32⟩ : BufTy).Contents (Elt F)),
    unary main_v115 main_v116 (broadcastInDim S50000x256 ![0, 1] bcast_S1x256_S50000x256_0_1 : (⟨S1x256, .f32⟩ : BufTy).Contents (Elt F) → (⟨S50000x256, .f32⟩ : BufTy).Contents (Elt F)),
    binary main_v114 main_v116 main_v117 (mulf : (⟨S50000x256, .f32⟩ : BufTy).Contents (Elt F) → (⟨S50000x256, .f32⟩ : BufTy).Contents (Elt F) → (⟨S50000x256, .f32⟩ : BufTy).Contents (Elt F)),
    unary main_v101 main_v118 (broadcastInDim S1x256 ![1] bcast_S256_S1x256_1 : (⟨S256, .f32⟩ : BufTy).Contents (Elt F) → (⟨S1x256, .f32⟩ : BufTy).Contents (Elt F)),
    unary main_v118 main_v119 (broadcastInDim S50000x256 ![0, 1] bcast_S1x256_S50000x256_0_1 : (⟨S1x256, .f32⟩ : BufTy).Contents (Elt F) → (⟨S50000x256, .f32⟩ : BufTy).Contents (Elt F)),
    binary main_v117 main_v119 main_v120 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v120) (TRef.of (T := ⟨S50000x256, .f32⟩) main_call2_v0) (TRef.of (T := ⟨S50000x256, .f32⟩) main_v121) maximumf,
    unary main_arg12 main_v122 ((extractStridedSlice S1x256x128 ![1, 0, 0] · slices_S3x256x128_S1x256x128_1_0_0) : (⟨S3x256x128, .f32⟩ : BufTy).Contents (Elt F) → (⟨S1x256x128, .f32⟩ : BufTy).Contents (Elt F)),
    reshape main_v122 main_v123 rfl shapeCasts_S1x256x128_S256x128,
    binary main_v121 main_v123 main_v124 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg13 main_v125 ((extractStridedSlice S1x128 ![1, 0] · slices_S3x128_S1x128_1_0) : (⟨S3x128, .f32⟩ : BufTy).Contents (Elt F) → (⟨S1x128, .f32⟩ : BufTy).Contents (Elt F)),
    reshape main_v125 main_v126 rfl shapeCasts_S1x128_S128,
    unary main_v126 main_v127 (broadcastInDim S1x128 ![1] bcast_S128_S1x128_1 : (⟨S128, .f32⟩ : BufTy).Contents (Elt F) → (⟨S1x128, .f32⟩ : BufTy).Contents (Elt F)),
    unary main_v127 main_v128 (broadcastInDim S50000x128 ![0, 1] bcast_S1x128_S50000x128_0_1 : (⟨S1x128, .f32⟩ : BufTy).Contents (Elt F) → (⟨S50000x128, .f32⟩ : BufTy).Contents (Elt F)),
    binary main_v124 main_v128 main_v129 (addf : (⟨S50000x128, .f32⟩ : BufTy).Contents (Elt F) → (⟨S50000x128, .f32⟩ : BufTy).Contents (Elt F) → (⟨S50000x128, .f32⟩ : BufTy).Contents (Elt F)),
    unary main_arg14 main_v130 ((extractStridedSlice S1x128 ![1, 0] · slices_S3x128_S1x128_1_0) : (⟨S3x128, .f32⟩ : BufTy).Contents (Elt F) → (⟨S1x128, .f32⟩ : BufTy).Contents (Elt F)),
    reshape main_v130 main_v131 rfl shapeCasts_S1x128_S128,
    unary main_arg15 main_v132 ((extractStridedSlice S1x128 ![1, 0] · slices_S3x128_S1x128_1_0) : (⟨S3x128, .f32⟩ : BufTy).Contents (Elt F) → (⟨S1x128, .f32⟩ : BufTy).Contents (Elt F)),
    reshape main_v132 main_v133 rfl shapeCasts_S1x128_S128,
    unary main_arg16 main_v134 ((extractStridedSlice S1x128 ![1, 0] · slices_S3x128_S1x128_1_0) : (⟨S3x128, .f32⟩ : BufTy).Contents (Elt F) → (⟨S1x128, .f32⟩ : BufTy).Contents (Elt F)),
    reshape main_v134 main_v135 rfl shapeCasts_S1x128_S128,
    unary main_arg17 main_v136 ((extractStridedSlice S1x128 ![1, 0] · slices_S3x128_S1x128_1_0) : (⟨S3x128, .f32⟩ : BufTy).Contents (Elt F) → (⟨S1x128, .f32⟩ : BufTy).Contents (Elt F)),
    reshape main_v136 main_v137 rfl shapeCasts_S1x128_S128,
    unary main_v135 main_v138 (broadcastInDim S1x128 ![1] bcast_S128_S1x128_1 : (⟨S128, .f32⟩ : BufTy).Contents (Elt F) → (⟨S1x128, .f32⟩ : BufTy).Contents (Elt F)),
    unary main_v138 main_v139 (broadcastInDim S50000x128 ![0, 1] bcast_S1x128_S50000x128_0_1 : (⟨S1x128, .f32⟩ : BufTy).Contents (Elt F) → (⟨S50000x128, .f32⟩ : BufTy).Contents (Elt F)),
    binary main_v129 main_v139 main_v140 (subf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3727C5AC#32),
    unary main_cst_7 main_v141 (broadcastInDim S128 ![] bcast_S_S128 : (⟨S_, .f32⟩ : BufTy).Contents (Elt F) → (⟨S128, .f32⟩ : BufTy).Contents (Elt F)),
    binary main_v137 main_v141 main_v142 (addf : (⟨S128, .f32⟩ : BufTy).Contents (Elt F) → (⟨S128, .f32⟩ : BufTy).Contents (Elt F) → (⟨S128, .f32⟩ : BufTy).Contents (Elt F)),
    unary main_v142 main_v143 (Host.rsqrt : (⟨S128, .f32⟩ : BufTy).Contents (Elt F) → (⟨S128, .f32⟩ : BufTy).Contents (Elt F)),
    unary main_v143 main_v144 (broadcastInDim S1x128 ![1] bcast_S128_S1x128_1 : (⟨S128, .f32⟩ : BufTy).Contents (Elt F) → (⟨S1x128, .f32⟩ : BufTy).Contents (Elt F)),
    unary main_v144 main_v145 (broadcastInDim S50000x128 ![0, 1] bcast_S1x128_S50000x128_0_1 : (⟨S1x128, .f32⟩ : BufTy).Contents (Elt F) → (⟨S50000x128, .f32⟩ : BufTy).Contents (Elt F)),
    binary main_v140 main_v145 main_v146 (mulf : (⟨S50000x128, .f32⟩ : BufTy).Contents (Elt F) → (⟨S50000x128, .f32⟩ : BufTy).Contents (Elt F) → (⟨S50000x128, .f32⟩ : BufTy).Contents (Elt F)),
    unary main_v131 main_v147 (broadcastInDim S1x128 ![1] bcast_S128_S1x128_1 : (⟨S128, .f32⟩ : BufTy).Contents (Elt F) → (⟨S1x128, .f32⟩ : BufTy).Contents (Elt F)),
    unary main_v147 main_v148 (broadcastInDim S50000x128 ![0, 1] bcast_S1x128_S50000x128_0_1 : (⟨S1x128, .f32⟩ : BufTy).Contents (Elt F) → (⟨S50000x128, .f32⟩ : BufTy).Contents (Elt F)),
    binary main_v146 main_v148 main_v149 (mulf : (⟨S50000x128, .f32⟩ : BufTy).Contents (Elt F) → (⟨S50000x128, .f32⟩ : BufTy).Contents (Elt F) → (⟨S50000x128, .f32⟩ : BufTy).Contents (Elt F)),
    unary main_v133 main_v150 (broadcastInDim S1x128 ![1] bcast_S128_S1x128_1 : (⟨S128, .f32⟩ : BufTy).Contents (Elt F) → (⟨S1x128, .f32⟩ : BufTy).Contents (Elt F)),
    unary main_v150 main_v151 (broadcastInDim S50000x128 ![0, 1] bcast_S1x128_S50000x128_0_1 : (⟨S1x128, .f32⟩ : BufTy).Contents (Elt F) → (⟨S50000x128, .f32⟩ : BufTy).Contents (Elt F)),
    binary main_v149 main_v151 main_v152 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v152) (TRef.of (T := ⟨S50000x128, .f32⟩) main_call3_v0) (TRef.of (T := ⟨S50000x128, .f32⟩) main_v153) maximumf ]

/-- Round 2's neighbour sum. -/
abbrev ch7 : List (HloOp τ sig (Elt F)) :=
  [ nullary main_c_8 (constantI S_ 32 0#32),
    unary main_c_8 main_v154 (broadcastInDim S800000 ![] bcast_S_S800000 : (⟨S_, .i32⟩ : BufTy).Contents (Elt F) → (⟨S800000, .i32⟩ : BufTy).Contents (Elt F)),
    binary main_arg1 main_v154 main_v155 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v156 (broadcastInDim S800000 ![] bcast_S_S800000 : (⟨S_, .i32⟩ : BufTy).Contents (Elt F) → (⟨S800000, .i32⟩ : BufTy).Contents (Elt F)),
    binary main_arg1 main_v156 main_v157 (addi : (⟨S800000, .i32⟩ : BufTy).Contents (Elt F) → (⟨S800000, .i32⟩ : BufTy).Contents (Elt F) → (⟨S800000, .i32⟩ : BufTy).Contents (Elt F)),
    ternary main_v155 main_v157 main_arg1 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v158 main_v159 (broadcastInDim S800000x1 ![0] bcast_S800000_S800000x1_0 : (⟨S800000, .i32⟩ : BufTy).Contents (Elt F) → (⟨S800000x1, .i32⟩ : BufTy).Contents (Elt F)),
    binary main_v153 main_v159 main_v160 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_10 (constant S_ .f32 0x00000000#32),
    unary main_cst_10 main_v161 (broadcastInDim S50000x128 ![] bcast_S_S50000x128 : (⟨S_, .f32⟩ : BufTy).Contents (Elt F) → (⟨S50000x128, .f32⟩ : BufTy).Contents (Elt F)),
    unary main_arg2 main_v162 (broadcastInDim S800000x1 ![0] bcast_S800000_S800000x1_0 : (⟨S800000, .i32⟩ : BufTy).Contents (Elt F) → (⟨S800000x1, .i32⟩ : BufTy).Contents (Elt F)),
    ternary main_v161 main_v162 main_v160 main_v163 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- Round 2, first window. -/
abbrev ch8 : List (HloOp τ sig (Elt F)) :=
  [ binary main_v153 main_v163 main_v164 (addf : (⟨S50000x128, .f32⟩ : BufTy).Contents (Elt F) → (⟨S50000x128, .f32⟩ : BufTy).Contents (Elt F) → (⟨S50000x128, .f32⟩ : BufTy).Contents (Elt F)),
    unary main_arg6 main_v165 ((extractStridedSlice S1x128x256 ![2, 0, 0] · slices_S3x128x256_S1x128x256_2_0_0) : (⟨S3x128x256, .f32⟩ : BufTy).Contents (Elt F) → (⟨S1x128x256, .f32⟩ : BufTy).Contents (Elt F)),
    reshape main_v165 main_v166 rfl shapeCasts_S1x128x256_S128x256 ]

/-- Round 2, second window. -/
abbrev ch9 : List (HloOp τ sig (Elt F)) :=
  [ binary main_v164 main_v166 main_v167 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg7 main_v168 ((extractStridedSlice S1x256 ![2, 0] · slices_S3x256_S1x256_2_0) : (⟨S3x256, .f32⟩ : BufTy).Contents (Elt F) → (⟨S1x256, .f32⟩ : BufTy).Contents (Elt F)),
    reshape main_v168 main_v169 rfl shapeCasts_S1x256_S256,
    unary main_v169 main_v170 (broadcastInDim S1x256 ![1] bcast_S256_S1x256_1 : (⟨S256, .f32⟩ : BufTy).Contents (Elt F) → (⟨S1x256, .f32⟩ : BufTy).Contents (Elt F)),
    unary main_v170 main_v171 (broadcastInDim S50000x256 ![0, 1] bcast_S1x256_S50000x256_0_1 : (⟨S1x256, .f32⟩ : BufTy).Contents (Elt F) → (⟨S50000x256, .f32⟩ : BufTy).Contents (Elt F)),
    binary main_v167 main_v171 main_v172 (addf : (⟨S50000x256, .f32⟩ : BufTy).Contents (Elt F) → (⟨S50000x256, .f32⟩ : BufTy).Contents (Elt F) → (⟨S50000x256, .f32⟩ : BufTy).Contents (Elt F)),
    unary main_arg8 main_v173 ((extractStridedSlice S1x256 ![2, 0] · slices_S3x256_S1x256_2_0) : (⟨S3x256, .f32⟩ : BufTy).Contents (Elt F) → (⟨S1x256, .f32⟩ : BufTy).Contents (Elt F)),
    reshape main_v173 main_v174 rfl shapeCasts_S1x256_S256,
    unary main_arg9 main_v175 ((extractStridedSlice S1x256 ![2, 0] · slices_S3x256_S1x256_2_0) : (⟨S3x256, .f32⟩ : BufTy).Contents (Elt F) → (⟨S1x256, .f32⟩ : BufTy).Contents (Elt F)),
    reshape main_v175 main_v176 rfl shapeCasts_S1x256_S256,
    unary main_arg10 main_v177 ((extractStridedSlice S1x256 ![2, 0] · slices_S3x256_S1x256_2_0) : (⟨S3x256, .f32⟩ : BufTy).Contents (Elt F) → (⟨S1x256, .f32⟩ : BufTy).Contents (Elt F)),
    reshape main_v177 main_v178 rfl shapeCasts_S1x256_S256,
    unary main_arg11 main_v179 ((extractStridedSlice S1x256 ![2, 0] · slices_S3x256_S1x256_2_0) : (⟨S3x256, .f32⟩ : BufTy).Contents (Elt F) → (⟨S1x256, .f32⟩ : BufTy).Contents (Elt F)),
    reshape main_v179 main_v180 rfl shapeCasts_S1x256_S256,
    unary main_v178 main_v181 (broadcastInDim S1x256 ![1] bcast_S256_S1x256_1 : (⟨S256, .f32⟩ : BufTy).Contents (Elt F) → (⟨S1x256, .f32⟩ : BufTy).Contents (Elt F)),
    unary main_v181 main_v182 (broadcastInDim S50000x256 ![0, 1] bcast_S1x256_S50000x256_0_1 : (⟨S1x256, .f32⟩ : BufTy).Contents (Elt F) → (⟨S50000x256, .f32⟩ : BufTy).Contents (Elt F)),
    binary main_v172 main_v182 main_v183 (subf : (⟨S50000x256, .f32⟩ : BufTy).Contents (Elt F) → (⟨S50000x256, .f32⟩ : BufTy).Contents (Elt F) → (⟨S50000x256, .f32⟩ : BufTy).Contents (Elt F)),
    nullary main_cst_11 (constant S_ .f32 0x3727C5AC#32),
    unary main_cst_11 main_v184 (broadcastInDim S256 ![] bcast_S_S256 : (⟨S_, .f32⟩ : BufTy).Contents (Elt F) → (⟨S256, .f32⟩ : BufTy).Contents (Elt F)),
    binary main_v180 main_v184 main_v185 (addf : (⟨S256, .f32⟩ : BufTy).Contents (Elt F) → (⟨S256, .f32⟩ : BufTy).Contents (Elt F) → (⟨S256, .f32⟩ : BufTy).Contents (Elt F)),
    unary main_v185 main_v186 (Host.rsqrt : (⟨S256, .f32⟩ : BufTy).Contents (Elt F) → (⟨S256, .f32⟩ : BufTy).Contents (Elt F)),
    unary main_v186 main_v187 (broadcastInDim S1x256 ![1] bcast_S256_S1x256_1 : (⟨S256, .f32⟩ : BufTy).Contents (Elt F) → (⟨S1x256, .f32⟩ : BufTy).Contents (Elt F)),
    unary main_v187 main_v188 (broadcastInDim S50000x256 ![0, 1] bcast_S1x256_S50000x256_0_1 : (⟨S1x256, .f32⟩ : BufTy).Contents (Elt F) → (⟨S50000x256, .f32⟩ : BufTy).Contents (Elt F)),
    binary main_v183 main_v188 main_v189 (mulf : (⟨S50000x256, .f32⟩ : BufTy).Contents (Elt F) → (⟨S50000x256, .f32⟩ : BufTy).Contents (Elt F) → (⟨S50000x256, .f32⟩ : BufTy).Contents (Elt F)),
    unary main_v174 main_v190 (broadcastInDim S1x256 ![1] bcast_S256_S1x256_1 : (⟨S256, .f32⟩ : BufTy).Contents (Elt F) → (⟨S1x256, .f32⟩ : BufTy).Contents (Elt F)),
    unary main_v190 main_v191 (broadcastInDim S50000x256 ![0, 1] bcast_S1x256_S50000x256_0_1 : (⟨S1x256, .f32⟩ : BufTy).Contents (Elt F) → (⟨S50000x256, .f32⟩ : BufTy).Contents (Elt F)),
    binary main_v189 main_v191 main_v192 (mulf : (⟨S50000x256, .f32⟩ : BufTy).Contents (Elt F) → (⟨S50000x256, .f32⟩ : BufTy).Contents (Elt F) → (⟨S50000x256, .f32⟩ : BufTy).Contents (Elt F)),
    unary main_v176 main_v193 (broadcastInDim S1x256 ![1] bcast_S256_S1x256_1 : (⟨S256, .f32⟩ : BufTy).Contents (Elt F) → (⟨S1x256, .f32⟩ : BufTy).Contents (Elt F)),
    unary main_v193 main_v194 (broadcastInDim S50000x256 ![0, 1] bcast_S1x256_S50000x256_0_1 : (⟨S1x256, .f32⟩ : BufTy).Contents (Elt F) → (⟨S50000x256, .f32⟩ : BufTy).Contents (Elt F)),
    binary main_v192 main_v194 main_v195 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x256, .f32⟩) main_call4_v0) (broadcastInDim S50000x256 ![] bcast_S_S50000x256),
    TRef.binary (TRef.of (T := ⟨S50000x256, .f32⟩) main_v195) (TRef.of (T := ⟨S50000x256, .f32⟩) main_call4_v0) (TRef.of (T := ⟨S50000x256, .f32⟩) main_v196) maximumf,
    unary main_arg12 main_v197 ((extractStridedSlice S1x256x128 ![2, 0, 0] · slices_S3x256x128_S1x256x128_2_0_0) : (⟨S3x256x128, .f32⟩ : BufTy).Contents (Elt F) → (⟨S1x256x128, .f32⟩ : BufTy).Contents (Elt F)),
    reshape main_v197 main_v198 rfl shapeCasts_S1x256x128_S256x128,
    binary main_v196 main_v198 main_v199 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg13 main_v200 ((extractStridedSlice S1x128 ![2, 0] · slices_S3x128_S1x128_2_0) : (⟨S3x128, .f32⟩ : BufTy).Contents (Elt F) → (⟨S1x128, .f32⟩ : BufTy).Contents (Elt F)),
    reshape main_v200 main_v201 rfl shapeCasts_S1x128_S128,
    unary main_v201 main_v202 (broadcastInDim S1x128 ![1] bcast_S128_S1x128_1 : (⟨S128, .f32⟩ : BufTy).Contents (Elt F) → (⟨S1x128, .f32⟩ : BufTy).Contents (Elt F)),
    unary main_v202 main_v203 (broadcastInDim S50000x128 ![0, 1] bcast_S1x128_S50000x128_0_1 : (⟨S1x128, .f32⟩ : BufTy).Contents (Elt F) → (⟨S50000x128, .f32⟩ : BufTy).Contents (Elt F)),
    binary main_v199 main_v203 main_v204 (addf : (⟨S50000x128, .f32⟩ : BufTy).Contents (Elt F) → (⟨S50000x128, .f32⟩ : BufTy).Contents (Elt F) → (⟨S50000x128, .f32⟩ : BufTy).Contents (Elt F)),
    unary main_arg14 main_v205 ((extractStridedSlice S1x128 ![2, 0] · slices_S3x128_S1x128_2_0) : (⟨S3x128, .f32⟩ : BufTy).Contents (Elt F) → (⟨S1x128, .f32⟩ : BufTy).Contents (Elt F)),
    reshape main_v205 main_v206 rfl shapeCasts_S1x128_S128,
    unary main_arg15 main_v207 ((extractStridedSlice S1x128 ![2, 0] · slices_S3x128_S1x128_2_0) : (⟨S3x128, .f32⟩ : BufTy).Contents (Elt F) → (⟨S1x128, .f32⟩ : BufTy).Contents (Elt F)),
    reshape main_v207 main_v208 rfl shapeCasts_S1x128_S128,
    unary main_arg16 main_v209 ((extractStridedSlice S1x128 ![2, 0] · slices_S3x128_S1x128_2_0) : (⟨S3x128, .f32⟩ : BufTy).Contents (Elt F) → (⟨S1x128, .f32⟩ : BufTy).Contents (Elt F)),
    reshape main_v209 main_v210 rfl shapeCasts_S1x128_S128,
    unary main_arg17 main_v211 ((extractStridedSlice S1x128 ![2, 0] · slices_S3x128_S1x128_2_0) : (⟨S3x128, .f32⟩ : BufTy).Contents (Elt F) → (⟨S1x128, .f32⟩ : BufTy).Contents (Elt F)),
    reshape main_v211 main_v212 rfl shapeCasts_S1x128_S128,
    unary main_v210 main_v213 (broadcastInDim S1x128 ![1] bcast_S128_S1x128_1 : (⟨S128, .f32⟩ : BufTy).Contents (Elt F) → (⟨S1x128, .f32⟩ : BufTy).Contents (Elt F)),
    unary main_v213 main_v214 (broadcastInDim S50000x128 ![0, 1] bcast_S1x128_S50000x128_0_1 : (⟨S1x128, .f32⟩ : BufTy).Contents (Elt F) → (⟨S50000x128, .f32⟩ : BufTy).Contents (Elt F)),
    binary main_v204 main_v214 main_v215 (subf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x3727C5AC#32),
    unary main_cst_12 main_v216 (broadcastInDim S128 ![] bcast_S_S128 : (⟨S_, .f32⟩ : BufTy).Contents (Elt F) → (⟨S128, .f32⟩ : BufTy).Contents (Elt F)),
    binary main_v212 main_v216 main_v217 (addf : (⟨S128, .f32⟩ : BufTy).Contents (Elt F) → (⟨S128, .f32⟩ : BufTy).Contents (Elt F) → (⟨S128, .f32⟩ : BufTy).Contents (Elt F)),
    unary main_v217 main_v218 (Host.rsqrt : (⟨S128, .f32⟩ : BufTy).Contents (Elt F) → (⟨S128, .f32⟩ : BufTy).Contents (Elt F)),
    unary main_v218 main_v219 (broadcastInDim S1x128 ![1] bcast_S128_S1x128_1 : (⟨S128, .f32⟩ : BufTy).Contents (Elt F) → (⟨S1x128, .f32⟩ : BufTy).Contents (Elt F)),
    unary main_v219 main_v220 (broadcastInDim S50000x128 ![0, 1] bcast_S1x128_S50000x128_0_1 : (⟨S1x128, .f32⟩ : BufTy).Contents (Elt F) → (⟨S50000x128, .f32⟩ : BufTy).Contents (Elt F)),
    binary main_v215 main_v220 main_v221 (mulf : (⟨S50000x128, .f32⟩ : BufTy).Contents (Elt F) → (⟨S50000x128, .f32⟩ : BufTy).Contents (Elt F) → (⟨S50000x128, .f32⟩ : BufTy).Contents (Elt F)),
    unary main_v206 main_v222 (broadcastInDim S1x128 ![1] bcast_S128_S1x128_1 : (⟨S128, .f32⟩ : BufTy).Contents (Elt F) → (⟨S1x128, .f32⟩ : BufTy).Contents (Elt F)),
    unary main_v222 main_v223 (broadcastInDim S50000x128 ![0, 1] bcast_S1x128_S50000x128_0_1 : (⟨S1x128, .f32⟩ : BufTy).Contents (Elt F) → (⟨S50000x128, .f32⟩ : BufTy).Contents (Elt F)),
    binary main_v221 main_v223 main_v224 (mulf : (⟨S50000x128, .f32⟩ : BufTy).Contents (Elt F) → (⟨S50000x128, .f32⟩ : BufTy).Contents (Elt F) → (⟨S50000x128, .f32⟩ : BufTy).Contents (Elt F)) ]

/-- Round 2, third window. -/
abbrev ch10 : List (HloOp τ sig (Elt F)) :=
  [ unary main_v208 main_v225 (broadcastInDim S1x128 ![1] bcast_S128_S1x128_1 : (⟨S128, .f32⟩ : BufTy).Contents (Elt F) → (⟨S1x128, .f32⟩ : BufTy).Contents (Elt F)),
    unary main_v225 main_v226 (broadcastInDim S50000x128 ![0, 1] bcast_S1x128_S50000x128_0_1 : (⟨S1x128, .f32⟩ : BufTy).Contents (Elt F) → (⟨S50000x128, .f32⟩ : BufTy).Contents (Elt F)),
    binary main_v224 main_v226 main_v227 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v227) (TRef.of (T := ⟨S50000x128, .f32⟩) main_call5_v0) (TRef.of (T := ⟨S50000x128, .f32⟩) main_v228) maximumf ]

/-- The per-graph sum. -/
abbrev ch11 : List (HloOp τ sig (Elt F)) :=
  [ nullary main_cst_13 (constant S_ .f32 0x00000000#32),
    unary main_cst_13 main_v229 (broadcastInDim S64x128 ![] bcast_S_S64x128 : (⟨S_, .f32⟩ : BufTy).Contents (Elt F) → (⟨S64x128, .f32⟩ : BufTy).Contents (Elt F)),
    unary main_arg3 main_v230 (broadcastInDim S50000x1 ![0] bcast_S50000_S50000x1_0 : (⟨S50000, .i32⟩ : BufTy).Contents (Elt F) → (⟨S50000x1, .i32⟩ : BufTy).Contents (Elt F)),
    ternary main_v229 main_v230 main_v228 main_v231 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)) ]

/-- The readout. -/
abbrev ch12 : List (HloOp τ sig (Elt F)) :=
  [ binary main_v231 main_arg18 main_v232 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    unary main_arg19 main_v233 (broadcastInDim S1x128 ![1] bcast_S128_S1x128_1 : (⟨S128, .f32⟩ : BufTy).Contents (Elt F) → (⟨S1x128, .f32⟩ : BufTy).Contents (Elt F)),
    unary main_v233 main_v234 (broadcastInDim S64x128 ![0, 1] bcast_S1x128_S64x128_0_1 : (⟨S1x128, .f32⟩ : BufTy).Contents (Elt F) → (⟨S64x128, .f32⟩ : BufTy).Contents (Elt F)),
    binary main_v232 main_v234 main_v235 (addf : (⟨S64x128, .f32⟩ : BufTy).Contents (Elt F) → (⟨S64x128, .f32⟩ : BufTy).Contents (Elt F) → (⟨S64x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S64x128, .f32⟩) main_call6_v0) (broadcastInDim S64x128 ![] bcast_S_S64x128),
    TRef.binary (TRef.of (T := ⟨S64x128, .f32⟩) main_v235) (TRef.of (T := ⟨S64x128, .f32⟩) main_call6_v0) (TRef.of (T := ⟨S64x128, .f32⟩) main_v236) maximumf,
    binary main_v236 main_arg20 main_v237 ((fun l r => Host.dotGeneral dot_S64x128_S128x10_S64x10_1_0_0_1_n_n none l r) : (⟨S64x128, .f32⟩ : BufTy).Contents (Elt F) → (⟨S128x10, .f32⟩ : BufTy).Contents (Elt F) → (⟨S64x10, .f32⟩ : BufTy).Contents (Elt F)),
    unary main_arg21 main_v238 (broadcastInDim S1x10 ![1] bcast_S10_S1x10_1 : (⟨S10, .f32⟩ : BufTy).Contents (Elt F) → (⟨S1x10, .f32⟩ : BufTy).Contents (Elt F)),
    unary main_v238 main_v239 (broadcastInDim S64x10 ![0, 1] bcast_S1x10_S64x10_0_1 : (⟨S1x10, .f32⟩ : BufTy).Contents (Elt F) → (⟨S64x10, .f32⟩ : BufTy).Contents (Elt F)),
    binary main_v237 main_v239 main_v240 (addf : (⟨S64x10, .f32⟩ : BufTy).Contents (Elt F) → (⟨S64x10, .f32⟩ : BufTy).Contents (Elt F) → (⟨S64x10, .f32⟩ : BufTy).Contents (Elt F)) ]

/-- All of @main's operations, in order. -/
abbrev allOps : List (HloOp τ sig (Elt F)) :=
  ch0 ++ ch1 ++ ch2 ++ ch3 ++ ch4 ++ ch5 ++ ch6 ++ ch7 ++ ch8 ++ ch9 ++ ch10 ++ ch11 ++ ch12

end Cert.ReferenceIdeal.Hand

end
-- ==== Proof.RefStages.lean ====
/-
  The reference's buffer contents after each of its thirteen lists of operations, from the launch memory: a fold.
-/
import proofs.«171844_j32538672234672_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations run one list after another are the concatenation run as one. -/
theorem after_append (a b : List (HloOp τ sig (Elt F))) (V : Valuation τ sig (Elt F)) :
    after (a ++ b) V = after b (after a V) := by
  induction a generalizing V with
  | nil => rfl
  | cons op a ih => simp only [List.cons_append, after_cons, ih]

variable (m : (ℓ : Loc nD τ sig) → Buf (Elt F) ℓ) (c : Dev nD)

/-- After the embedding. -/
abbrev R0 : Valuation τ sig (Elt F) := after ch0 (launchContents m c)
/-- After list 1. -/
abbrev R1 : Valuation τ sig (Elt F) := after ch1 (R0 m c)
/-- After list 2. -/
abbrev R2 : Valuation τ sig (Elt F) := after ch2 (R1 m c)
/-- After list 3. -/
abbrev R3 : Valuation τ sig (Elt F) := after ch3 (R2 m c)
/-- After list 4. -/
abbrev R4 : Valuation τ sig (Elt F) := after ch4 (R3 m c)
/-- After list 5. -/
abbrev R5 : Valuation τ sig (Elt F) := after ch5 (R4 m c)
/-- After list 6. -/
abbrev R6 : Valuation τ sig (Elt F) := after ch6 (R5 m c)
/-- After list 7. -/
abbrev R7 : Valuation τ sig (Elt F) := after ch7 (R6 m c)
/-- After list 8. -/
abbrev R8 : Valuation τ sig (Elt F) := after ch8 (R7 m c)
/-- After list 9. -/
abbrev R9 : Valuation τ sig (Elt F) := after ch9 (R8 m c)
/-- After list 10. -/
abbrev R10 : Valuation τ sig (Elt F) := after ch10 (R9 m c)
/-- After list 11. -/
abbrev R11 : Valuation τ sig (Elt F) := after ch11 (R10 m c)
/-- After list 12. -/
abbrev R12 : Valuation τ sig (Elt F) := after ch12 (R11 m c)

/-- The whole program's fold is the thirteenth stage. -/
theorem after_allOps : after allOps (launchContents m c) = R12 m c := by
  simp only [allOps, after_append]

end Cert.ReferenceIdeal.Hand

end
-- ==== Proof.RefRun.lean ====
/-
  The reference's run.  Its @main is five windows of host operations run in order; the thirteen lists of operations,
  concatenated, are exactly those windows' operations in order, every operation reads and writes device buffers only and
  allocates nothing, and nothing of the signature is scoped.  So every weakly fair execution from any launch memory
  terminates with every device buffer at the fold of the operations' results over the launch contents.
-/
import proofs.«171844_j32538672234672_1_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Nothing is scoped -/

theorem scopedRefs_eq : (Finset.univ.filter fun b : Ref sig .tc => b.isScoped) = ∅ := by decide
theorem scopedSems_eq : (Finset.univ.filter fun sm : SemLoc sig => sm.isScoped .tc) = ∅ := by decide

/-! ## @main is the thirteen lists run in order -/

set_option maxRecDepth 8192 in
/-- Window 0 of @main is its lists' operations run in order. -/
theorem part0_eq (c : Dev nD) : main_part0 (F := F) c = seq (ch0 ++ ch1 ++ ch2) := rfl

set_option maxRecDepth 8192 in
/-- Window 1 of @main is its lists' operations run in order. -/
theorem part1_eq (c : Dev nD) : main_part1 (F := F) c = seq (ch3 ++ ch4 ++ ch5) := rfl

set_option maxRecDepth 8192 in
/-- Window 2 of @main is its lists' operations run in order. -/
theorem part2_eq (c : Dev nD) : main_part2 (F := F) c = seq (ch6 ++ ch7 ++ ch8) := rfl

set_option maxRecDepth 8192 in
/-- Window 3 of @main is its lists' operations run in order. -/
theorem part3_eq (c : Dev nD) : main_part3 (F := F) c = seq (ch9) := rfl

set_option maxRecDepth 8192 in
/-- Window 4 of @main is its lists' operations run in order. -/
theorem part4_eq (c : Dev nD) : main_part4 (F := F) c = seq (ch10 ++ ch11 ++ ch12) := rfl

/-- @main is all the operations run in order: its five windows one after another, each the concatenation of its lists. -/
theorem main_eq (c : Dev nD) : main (F := F) c = seq allOps := by
  show (main_part0 (F := F) c >>= fun _ => main_part1 (F := F) c >>= fun _ => main_part2 (F := F) c >>= fun _ =>
      main_part3 (F := F) c >>= fun _ => main_part4 (F := F) c) = seq allOps
  rw [part0_eq, part1_eq, part2_eq, part3_eq, part4_eq]
  simp only [allOps, seq_append, bind_assoc]

/-! ## Every operation touches device buffers only and allocates nothing -/

/-- A property of every element of two lists is a property of every element of their concatenation. -/
theorem forall_run_append {α : Type} {p : α → Prop} {a b : List α} (ha : a.Forall p) (hb : b.Forall p) : (a ++ b).Forall p :=
  List.forall_iff_forall_mem.mpr fun x hx =>
    (List.mem_append.mp hx).elim (List.forall_iff_forall_mem.mp ha x) (List.forall_iff_forall_mem.mp hb x)

theorem ch0_sub : (ch0 : List (HloOp τ sig (Elt F))).Forall fun op => op.bufs ⊆ tcRefs τ sig :=
  ⟨binary_bufs_sub .., unary_bufs_sub .., unary_bufs_sub .., binary_bufs_sub ..⟩
theorem ch0_fresh : (ch0 : List (HloOp τ sig (Elt F))).Forall fun op => op.fresh = ∅ := by
  simp only [List.Forall]; repeat' constructor
theorem ch1_sub : (ch1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub ..⟩
theorem ch1_fresh : (ch1 : List (HloOp τ sig (Elt F))).Forall fun op => op.fresh = ∅ := by
  simp only [List.Forall]; repeat' constructor
theorem ch2_sub : (ch2 : List (HloOp τ sig (Elt F))).Forall fun op => op.bufs ⊆ tcRefs τ sig :=
  ⟨binary_bufs_sub .., unary_bufs_sub .., reshape_bufs_sub .., binary_bufs_sub .., unary_bufs_sub .., reshape_bufs_sub ..,
    unary_bufs_sub .., unary_bufs_sub .., binary_bufs_sub .., unary_bufs_sub .., reshape_bufs_sub .., unary_bufs_sub ..,
    reshape_bufs_sub .., unary_bufs_sub .., reshape_bufs_sub .., unary_bufs_sub .., reshape_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., unary_bufs_sub ..⟩
theorem ch2_fresh : (ch2 : List (HloOp τ sig (Elt F))).Forall fun op => op.fresh = ∅ := by
  simp only [List.Forall]; repeat' constructor
theorem ch3_sub : (ch3 : List (HloOp τ sig (Elt F))).Forall fun op => op.bufs ⊆ tcRefs τ sig :=
  ⟨reshape_bufs_sub .., unary_bufs_sub .., reshape_bufs_sub .., unary_bufs_sub .., reshape_bufs_sub .., unary_bufs_sub ..,
    reshape_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub ..⟩
theorem ch3_fresh : (ch3 : List (HloOp τ sig (Elt F))).Forall fun op => op.fresh = ∅ := by
  simp only [List.Forall]; repeat' constructor
theorem ch4_sub : (ch4 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub ..⟩
theorem ch4_fresh : (ch4 : List (HloOp τ sig (Elt F))).Forall fun op => op.fresh = ∅ := by
  simp only [List.Forall]; repeat' constructor
theorem ch5_sub : (ch5 : List (HloOp τ sig (Elt F))).Forall fun op => op.bufs ⊆ tcRefs τ sig :=
  ⟨binary_bufs_sub .., unary_bufs_sub .., reshape_bufs_sub .., binary_bufs_sub .., unary_bufs_sub .., reshape_bufs_sub ..,
    unary_bufs_sub .., unary_bufs_sub .., binary_bufs_sub .., unary_bufs_sub .., reshape_bufs_sub .., unary_bufs_sub ..,
    reshape_bufs_sub .., unary_bufs_sub .., reshape_bufs_sub .., unary_bufs_sub .., reshape_bufs_sub .., unary_bufs_sub ..,
    unary_bufs_sub .., binary_bufs_sub .., nullary_bufs_sub .., unary_bufs_sub .., binary_bufs_sub ..⟩
theorem ch5_fresh : (ch5 : List (HloOp τ sig (Elt F))).Forall fun op => op.fresh = ∅ := by
  simp only [List.Forall]; repeat' constructor
theorem ch6_sub : (ch6 : List (HloOp τ sig (Elt F))).Forall fun op => op.bufs ⊆ tcRefs τ sig :=
  ⟨unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., unary_bufs_sub .., reshape_bufs_sub .., unary_bufs_sub ..,
    reshape_bufs_sub .., unary_bufs_sub .., reshape_bufs_sub .., unary_bufs_sub .., reshape_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..⟩
theorem ch6_fresh : (ch6 : List (HloOp τ sig (Elt F))).Forall fun op => op.fresh = ∅ := by
  simp only [List.Forall]; repeat' constructor
theorem ch7_sub : (ch7 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub ..⟩
theorem ch7_fresh : (ch7 : List (HloOp τ sig (Elt F))).Forall fun op => op.fresh = ∅ := by
  simp only [List.Forall]; repeat' constructor
theorem ch8_sub : (ch8 : List (HloOp τ sig (Elt F))).Forall fun op => op.bufs ⊆ tcRefs τ sig :=
  ⟨binary_bufs_sub .., unary_bufs_sub .., reshape_bufs_sub ..⟩
theorem ch8_fresh : (ch8 : List (HloOp τ sig (Elt F))).Forall fun op => op.fresh = ∅ := by
  simp only [List.Forall]; repeat' constructor
theorem ch9_sub : (ch9 : List (HloOp τ sig (Elt F))).Forall fun op => op.bufs ⊆ tcRefs τ sig :=
  ⟨binary_bufs_sub .., unary_bufs_sub .., reshape_bufs_sub .., unary_bufs_sub .., unary_bufs_sub .., binary_bufs_sub ..,
    unary_bufs_sub .., reshape_bufs_sub .., unary_bufs_sub .., reshape_bufs_sub .., unary_bufs_sub .., reshape_bufs_sub ..,
    unary_bufs_sub .., reshape_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., reshape_bufs_sub .., binary_bufs_sub ..,
    unary_bufs_sub .., reshape_bufs_sub .., unary_bufs_sub .., unary_bufs_sub .., binary_bufs_sub .., unary_bufs_sub ..,
    reshape_bufs_sub .., unary_bufs_sub .., reshape_bufs_sub .., unary_bufs_sub .., reshape_bufs_sub .., unary_bufs_sub ..,
    reshape_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub ..⟩
theorem ch9_fresh : (ch9 : List (HloOp τ sig (Elt F))).Forall fun op => op.fresh = ∅ := by
  simp only [List.Forall]; repeat' constructor
theorem ch10_sub : (ch10 : List (HloOp τ sig (Elt F))).Forall fun op => op.bufs ⊆ tcRefs τ sig :=
  ⟨unary_bufs_sub .., unary_bufs_sub .., binary_bufs_sub .., nullary_bufs_sub .., unary_bufs_sub .., binary_bufs_sub ..⟩
theorem ch10_fresh : (ch10 : List (HloOp τ sig (Elt F))).Forall fun op => op.fresh = ∅ := by
  simp only [List.Forall]; repeat' constructor
theorem ch11_sub : (ch11 : List (HloOp τ sig (Elt F))).Forall fun op => op.bufs ⊆ tcRefs τ sig :=
  ⟨nullary_bufs_sub .., unary_bufs_sub .., unary_bufs_sub .., ternary_bufs_sub ..⟩
theorem ch11_fresh : (ch11 : List (HloOp τ sig (Elt F))).Forall fun op => op.fresh = ∅ := by
  simp only [List.Forall]; repeat' constructor
theorem ch12_sub : (ch12 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub ..⟩
theorem ch12_fresh : (ch12 : List (HloOp τ sig (Elt F))).Forall fun op => op.fresh = ∅ := by
  simp only [List.Forall]; repeat' constructor

theorem allOps_sub : (allOps : List (HloOp τ sig (Elt F))).Forall fun op => op.bufs ⊆ tcRefs τ sig :=
  forall_run_append (forall_run_append (forall_run_append (forall_run_append (forall_run_append (forall_run_append (forall_run_append (forall_run_append (forall_run_append (forall_run_append (forall_run_append (forall_run_append (ch0_sub) ch1_sub) ch2_sub) ch3_sub) ch4_sub) ch5_sub) ch6_sub) ch7_sub) ch8_sub) ch9_sub) ch10_sub) ch11_sub) ch12_sub

theorem allOps_fresh : (allOps : List (HloOp τ sig (Elt F))).Forall fun op => op.fresh = ∅ :=
  forall_run_append (forall_run_append (forall_run_append (forall_run_append (forall_run_append (forall_run_append (forall_run_append (forall_run_append (forall_run_append (forall_run_append (forall_run_append (forall_run_append (ch0_fresh) ch1_fresh) ch2_fresh) ch3_fresh) ch4_fresh) ch5_fresh) ch6_fresh) ch7_fresh) ch8_fresh) ch9_fresh) ch10_fresh) ch11_fresh) ch12_fresh

/-! ## The run -/

/-- On every device, for any float values, from any memory with zero counters: every weakly fair execution of @main
    terminates with every device buffer at the fold of all the operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after allOps (launchContents m d) (Proc.devRef .tc b) :=
  run_seq scopedRefs_eq scopedSems_eq defs main (fun _ => allOps) main_eq (fun _ => allOps_sub) m ρ
    (hfresh := fun _ => List.forall_iff_forall_mem.mp allOps_fresh)

end Cert.ReferenceIdeal.Hand

end
-- ==== Proof.RefKeep.lean ====
/-
  What the reference's lists do not write, they keep.  For each of the thirteen lists, the buffers its operations write;
  then, a buffer outside that list holding what it held before the list ran, each argument read back through the stages
  to its launch contents, and the embedding's and the first two rounds' results carried across the neighbour sum that
  follows them.
-/
import proofs.«171844_j32538672234672_1_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A buffer among a list's written buffers, as a singleton set of device buffers, lies in the list's set. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-! ## What each list writes -/

/-- The buffers the embedding writes. -/
abbrev w0 : List (Ref sig .tc) :=
  [main_v0, main_v1, main_v2, main_v3]
/-- Every operation of list 0 writes one of them. -/
theorem ch0_writes : (ch0 : List (HloOp τ sig (Elt F))).Forall fun op => op.writes ⊆ (w0.map (Proc.devRef (τ := τ) .tc)).toFinset := by
  simp only [List.Forall, StableHlo.nullary_writes, StableHlo.unary_writes, StableHlo.binary_writes, StableHlo.ternary_writes, StableHlo.reshape_writes]
  repeat' apply And.intro
  all_goals exact writes_sub_of_mem (by decide)

/-- The buffers round 0's neighbour sum writes. -/
abbrev w1 : List (Ref sig .tc) :=
  [main_c, main_v4, main_v5, main_c_0, main_v6, main_v7, main_v8, main_v9, main_v10, main_cst, main_v11, main_v12, main_v13]
/-- Every operation of list 1 writes one of them. -/
theorem ch1_writes : (ch1 : List (HloOp τ sig (Elt F))).Forall fun op => op.writes ⊆ (w1.map (Proc.devRef (τ := τ) .tc)).toFinset := by
  simp only [List.Forall, StableHlo.nullary_writes, StableHlo.unary_writes, StableHlo.binary_writes, StableHlo.ternary_writes, StableHlo.reshape_writes]
  repeat' apply And.intro
  all_goals exact writes_sub_of_mem (by decide)

/-- The buffers round 0's first window writes. -/
abbrev w2 : List (Ref sig .tc) :=
  [main_v14, main_v15, main_v16, main_v17, main_v18, main_v19, main_v20, main_v21, main_v22, main_v23, main_v24, main_v25, main_v26, main_v27, main_v28, main_v29, main_v30, main_v31, main_v32, main_v33, main_cst_1, main_v34, main_v35, main_v36, main_v37, main_v38, main_v39, main_v40, main_v41, main_v42, main_v43, main_v44, main_v45, main_call0_cst, main_call0_v0, main_v46, main_v47, main_v48, main_v49, main_v50, main_v51, main_v52, main_v53, main_v54, main_v55]
/-- Every operation of list 2 writes one of them. -/
theorem ch2_writes : (ch2 : List (HloOp τ sig (Elt F))).Forall fun op => op.writes ⊆ (w2.map (Proc.devRef (τ := τ) .tc)).toFinset := by
  simp only [List.Forall, StableHlo.nullary_writes, StableHlo.unary_writes, StableHlo.binary_writes, StableHlo.ternary_writes, StableHlo.reshape_writes]
  repeat' apply And.intro
  all_goals exact writes_sub_of_mem (by decide)

/-- The buffers round 0's second window writes. -/
abbrev w3 : List (Ref sig .tc) :=
  [main_v56, main_v57, main_v58, main_v59, main_v60, main_v61, main_v62, main_v63, main_v64, main_v65, main_cst_2, main_v66, main_v67, main_v68, main_v69, main_v70, main_v71, main_v72, main_v73, main_v74, main_v75, main_v76, main_v77, main_call1_cst, main_call1_v0, main_v78]
/-- Every operation of list 3 writes one of them. -/
theorem ch3_writes : (ch3 : List (HloOp τ sig (Elt F))).Forall fun op => op.writes ⊆ (w3.map (Proc.devRef (τ := τ) .tc)).toFinset := by
  simp only [List.Forall, StableHlo.nullary_writes, StableHlo.unary_writes, StableHlo.binary_writes, StableHlo.ternary_writes, StableHlo.reshape_writes]
  repeat' apply And.intro
  all_goals exact writes_sub_of_mem (by decide)

/-- The buffers round 1's neighbour sum writes. -/
abbrev w4 : List (Ref sig .tc) :=
  [main_c_3, main_v79, main_v80, main_c_4, main_v81, main_v82, main_v83, main_v84, main_v85, main_cst_5, main_v86, main_v87, main_v88]
/-- Every operation of list 4 writes one of them. -/
theorem ch4_writes : (ch4 : List (HloOp τ sig (Elt F))).Forall fun op => op.writes ⊆ (w4.map (Proc.devRef (τ := τ) .tc)).toFinset := by
  simp only [List.Forall, StableHlo.nullary_writes, StableHlo.unary_writes, StableHlo.binary_writes, StableHlo.ternary_writes, StableHlo.reshape_writes]
  repeat' apply And.intro
  all_goals exact writes_sub_of_mem (by decide)

/-- The buffers round 1's first window writes. -/
abbrev w5 : List (Ref sig .tc) :=
  [main_v89, main_v90, main_v91, main_v92, main_v93, main_v94, main_v95, main_v96, main_v97, main_v98, main_v99, main_v100, main_v101, main_v102, main_v103, main_v104, main_v105, main_v106, main_v107, main_v108, main_cst_6, main_v109, main_v110]
/-- Every operation of list 5 writes one of them. -/
theorem ch5_writes : (ch5 : List (HloOp τ sig (Elt F))).Forall fun op => op.writes ⊆ (w5.map (Proc.devRef (τ := τ) .tc)).toFinset := by
  simp only [List.Forall, StableHlo.nullary_writes, StableHlo.unary_writes, StableHlo.binary_writes, StableHlo.ternary_writes, StableHlo.reshape_writes]
  repeat' apply And.intro
  all_goals exact writes_sub_of_mem (by decide)

/-- The buffers round 1's second window writes. -/
abbrev w6 : List (Ref sig .tc) :=
  [main_v111, main_v112, main_v113, main_v114, main_v115, main_v116, main_v117, main_v118, main_v119, main_v120, main_call2_cst, main_call2_v0, main_v121, main_v122, main_v123, main_v124, main_v125, main_v126, main_v127, main_v128, main_v129, main_v130, main_v131, main_v132, main_v133, main_v134, main_v135, main_v136, main_v137, main_v138, main_v139, main_v140, main_cst_7, main_v141, main_v142, main_v143, main_v144, main_v145, main_v146, main_v147, main_v148, main_v149, main_v150, main_v151, main_v152, main_call3_cst, main_call3_v0, main_v153]
/-- Every operation of list 6 writes one of them. -/
theorem ch6_writes : (ch6 : List (HloOp τ sig (Elt F))).Forall fun op => op.writes ⊆ (w6.map (Proc.devRef (τ := τ) .tc)).toFinset := by
  simp only [List.Forall, StableHlo.nullary_writes, StableHlo.unary_writes, StableHlo.binary_writes, StableHlo.ternary_writes, StableHlo.reshape_writes]
  repeat' apply And.intro
  all_goals exact writes_sub_of_mem (by decide)

/-- The buffers round 2's neighbour sum writes. -/
abbrev w7 : List (Ref sig .tc) :=
  [main_c_8, main_v154, main_v155, main_c_9, main_v156, main_v157, main_v158, main_v159, main_v160, main_cst_10, main_v161, main_v162, main_v163]
/-- Every operation of list 7 writes one of them. -/
theorem ch7_writes : (ch7 : List (HloOp τ sig (Elt F))).Forall fun op => op.writes ⊆ (w7.map (Proc.devRef (τ := τ) .tc)).toFinset := by
  simp only [List.Forall, StableHlo.nullary_writes, StableHlo.unary_writes, StableHlo.binary_writes, StableHlo.ternary_writes, StableHlo.reshape_writes]
  repeat' apply And.intro
  all_goals exact writes_sub_of_mem (by decide)

/-- The buffers round 2's first window writes. -/
abbrev w8 : List (Ref sig .tc) :=
  [main_v164, main_v165, main_v166]
/-- Every operation of list 8 writes one of them. -/
theorem ch8_writes : (ch8 : List (HloOp τ sig (Elt F))).Forall fun op => op.writes ⊆ (w8.map (Proc.devRef (τ := τ) .tc)).toFinset := by
  simp only [List.Forall, StableHlo.nullary_writes, StableHlo.unary_writes, StableHlo.binary_writes, StableHlo.ternary_writes, StableHlo.reshape_writes]
  repeat' apply And.intro
  all_goals exact writes_sub_of_mem (by decide)

/-- The buffers round 2's second window writes. -/
abbrev w9 : List (Ref sig .tc) :=
  [main_v167, main_v168, main_v169, main_v170, main_v171, main_v172, main_v173, main_v174, main_v175, main_v176, main_v177, main_v178, main_v179, main_v180, main_v181, main_v182, main_v183, main_cst_11, main_v184, main_v185, main_v186, main_v187, main_v188, main_v189, main_v190, main_v191, main_v192, main_v193, main_v194, main_v195, main_call4_cst, main_call4_v0, main_v196, main_v197, main_v198, main_v199, main_v200, main_v201, main_v202, main_v203, main_v204, main_v205, main_v206, main_v207, main_v208, main_v209, main_v210, main_v211, main_v212, main_v213, main_v214, main_v215, main_cst_12, main_v216, main_v217, main_v218, main_v219, main_v220, main_v221, main_v222, main_v223, main_v224]
/-- Every operation of list 9 writes one of them. -/
theorem ch9_writes : (ch9 : List (HloOp τ sig (Elt F))).Forall fun op => op.writes ⊆ (w9.map (Proc.devRef (τ := τ) .tc)).toFinset := by
  simp only [List.Forall, StableHlo.nullary_writes, StableHlo.unary_writes, StableHlo.binary_writes, StableHlo.ternary_writes, StableHlo.reshape_writes]
  repeat' apply And.intro
  all_goals exact writes_sub_of_mem (by decide)

/-- The buffers round 2's third window writes. -/
abbrev w10 : List (Ref sig .tc) :=
  [main_v225, main_v226, main_v227, main_call5_cst, main_call5_v0, main_v228]
/-- Every operation of list 10 writes one of them. -/
theorem ch10_writes : (ch10 : List (HloOp τ sig (Elt F))).Forall fun op => op.writes ⊆ (w10.map (Proc.devRef (τ := τ) .tc)).toFinset := by
  simp only [List.Forall, StableHlo.nullary_writes, StableHlo.unary_writes, StableHlo.binary_writes, StableHlo.ternary_writes, StableHlo.reshape_writes]
  repeat' apply And.intro
  all_goals exact writes_sub_of_mem (by decide)

/-- The buffers the per-graph sum writes. -/
abbrev w11 : List (Ref sig .tc) :=
  [main_cst_13, main_v229, main_v230, main_v231]
/-- Every operation of list 11 writes one of them. -/
theorem ch11_writes : (ch11 : List (HloOp τ sig (Elt F))).Forall fun op => op.writes ⊆ (w11.map (Proc.devRef (τ := τ) .tc)).toFinset := by
  simp only [List.Forall, StableHlo.nullary_writes, StableHlo.unary_writes, StableHlo.binary_writes, StableHlo.ternary_writes, StableHlo.reshape_writes]
  repeat' apply And.intro
  all_goals exact writes_sub_of_mem (by decide)

/-- The buffers the readout writes. -/
abbrev w12 : List (Ref sig .tc) :=
  [main_v232, main_v233, main_v234, main_v235, main_call6_cst, main_call6_v0, main_v236, main_v237, main_v238, main_v239, main_v240]
/-- Every operation of list 12 writes one of them. -/
theorem ch12_writes : (ch12 : List (HloOp τ sig (Elt F))).Forall fun op => op.writes ⊆ (w12.map (Proc.devRef (τ := τ) .tc)).toFinset := by
  simp only [List.Forall, StableHlo.nullary_writes, StableHlo.unary_writes, StableHlo.binary_writes, StableHlo.ternary_writes, StableHlo.reshape_writes]
  repeat' apply And.intro
  all_goals exact writes_sub_of_mem (by decide)

/-! ## What is kept

An argument is written by no list, so at every stage it holds its launch contents; the embedding's result and each
round's result are not written by the neighbour sum that follows. -/

variable (m : (ℓ : Loc nD τ sig) → Buf (Elt F) ℓ) (c : Dev nD)
theorem R0_arg0 : R0 m c (Proc.devRef .tc main_arg0) = m ((c.tc : Thread nD τ).loc main_arg0) :=
  (after_of_writes_sub (r := main_arg0) ch0 (launchContents m c) ch0_writes (by decide)).trans rfl
theorem R1_arg0 : R1 m c (Proc.devRef .tc main_arg0) = m ((c.tc : Thread nD τ).loc main_arg0) :=
  (after_of_writes_sub (r := main_arg0) ch1 (R0 m c) ch1_writes (by decide)).trans (R0_arg0 m c)
theorem R2_arg0 : R2 m c (Proc.devRef .tc main_arg0) = m ((c.tc : Thread nD τ).loc main_arg0) :=
  (after_of_writes_sub (r := main_arg0) ch2 (R1 m c) ch2_writes (by decide)).trans (R1_arg0 m c)
theorem R3_arg0 : R3 m c (Proc.devRef .tc main_arg0) = m ((c.tc : Thread nD τ).loc main_arg0) :=
  (after_of_writes_sub (r := main_arg0) ch3 (R2 m c) ch3_writes (by decide)).trans (R2_arg0 m c)
theorem R4_arg0 : R4 m c (Proc.devRef .tc main_arg0) = m ((c.tc : Thread nD τ).loc main_arg0) :=
  (after_of_writes_sub (r := main_arg0) ch4 (R3 m c) ch4_writes (by decide)).trans (R3_arg0 m c)
theorem R5_arg0 : R5 m c (Proc.devRef .tc main_arg0) = m ((c.tc : Thread nD τ).loc main_arg0) :=
  (after_of_writes_sub (r := main_arg0) ch5 (R4 m c) ch5_writes (by decide)).trans (R4_arg0 m c)
theorem R6_arg0 : R6 m c (Proc.devRef .tc main_arg0) = m ((c.tc : Thread nD τ).loc main_arg0) :=
  (after_of_writes_sub (r := main_arg0) ch6 (R5 m c) ch6_writes (by decide)).trans (R5_arg0 m c)
theorem R7_arg0 : R7 m c (Proc.devRef .tc main_arg0) = m ((c.tc : Thread nD τ).loc main_arg0) :=
  (after_of_writes_sub (r := main_arg0) ch7 (R6 m c) ch7_writes (by decide)).trans (R6_arg0 m c)
theorem R8_arg0 : R8 m c (Proc.devRef .tc main_arg0) = m ((c.tc : Thread nD τ).loc main_arg0) :=
  (after_of_writes_sub (r := main_arg0) ch8 (R7 m c) ch8_writes (by decide)).trans (R7_arg0 m c)
theorem R9_arg0 : R9 m c (Proc.devRef .tc main_arg0) = m ((c.tc : Thread nD τ).loc main_arg0) :=
  (after_of_writes_sub (r := main_arg0) ch9 (R8 m c) ch9_writes (by decide)).trans (R8_arg0 m c)
theorem R10_arg0 : R10 m c (Proc.devRef .tc main_arg0) = m ((c.tc : Thread nD τ).loc main_arg0) :=
  (after_of_writes_sub (r := main_arg0) ch10 (R9 m c) ch10_writes (by decide)).trans (R9_arg0 m c)
theorem R11_arg0 : R11 m c (Proc.devRef .tc main_arg0) = m ((c.tc : Thread nD τ).loc main_arg0) :=
  (after_of_writes_sub (r := main_arg0) ch11 (R10 m c) ch11_writes (by decide)).trans (R10_arg0 m c)
theorem R12_arg0 : R12 m c (Proc.devRef .tc main_arg0) = m ((c.tc : Thread nD τ).loc main_arg0) :=
  (after_of_writes_sub (r := main_arg0) ch12 (R11 m c) ch12_writes (by decide)).trans (R11_arg0 m c)
theorem R0_arg1 : R0 m c (Proc.devRef .tc main_arg1) = m ((c.tc : Thread nD τ).loc main_arg1) :=
  (after_of_writes_sub (r := main_arg1) ch0 (launchContents m c) ch0_writes (by decide)).trans rfl
theorem R1_arg1 : R1 m c (Proc.devRef .tc main_arg1) = m ((c.tc : Thread nD τ).loc main_arg1) :=
  (after_of_writes_sub (r := main_arg1) ch1 (R0 m c) ch1_writes (by decide)).trans (R0_arg1 m c)
theorem R2_arg1 : R2 m c (Proc.devRef .tc main_arg1) = m ((c.tc : Thread nD τ).loc main_arg1) :=
  (after_of_writes_sub (r := main_arg1) ch2 (R1 m c) ch2_writes (by decide)).trans (R1_arg1 m c)
theorem R3_arg1 : R3 m c (Proc.devRef .tc main_arg1) = m ((c.tc : Thread nD τ).loc main_arg1) :=
  (after_of_writes_sub (r := main_arg1) ch3 (R2 m c) ch3_writes (by decide)).trans (R2_arg1 m c)
theorem R4_arg1 : R4 m c (Proc.devRef .tc main_arg1) = m ((c.tc : Thread nD τ).loc main_arg1) :=
  (after_of_writes_sub (r := main_arg1) ch4 (R3 m c) ch4_writes (by decide)).trans (R3_arg1 m c)
theorem R5_arg1 : R5 m c (Proc.devRef .tc main_arg1) = m ((c.tc : Thread nD τ).loc main_arg1) :=
  (after_of_writes_sub (r := main_arg1) ch5 (R4 m c) ch5_writes (by decide)).trans (R4_arg1 m c)
theorem R6_arg1 : R6 m c (Proc.devRef .tc main_arg1) = m ((c.tc : Thread nD τ).loc main_arg1) :=
  (after_of_writes_sub (r := main_arg1) ch6 (R5 m c) ch6_writes (by decide)).trans (R5_arg1 m c)
theorem R7_arg1 : R7 m c (Proc.devRef .tc main_arg1) = m ((c.tc : Thread nD τ).loc main_arg1) :=
  (after_of_writes_sub (r := main_arg1) ch7 (R6 m c) ch7_writes (by decide)).trans (R6_arg1 m c)
theorem R8_arg1 : R8 m c (Proc.devRef .tc main_arg1) = m ((c.tc : Thread nD τ).loc main_arg1) :=
  (after_of_writes_sub (r := main_arg1) ch8 (R7 m c) ch8_writes (by decide)).trans (R7_arg1 m c)
theorem R9_arg1 : R9 m c (Proc.devRef .tc main_arg1) = m ((c.tc : Thread nD τ).loc main_arg1) :=
  (after_of_writes_sub (r := main_arg1) ch9 (R8 m c) ch9_writes (by decide)).trans (R8_arg1 m c)
theorem R10_arg1 : R10 m c (Proc.devRef .tc main_arg1) = m ((c.tc : Thread nD τ).loc main_arg1) :=
  (after_of_writes_sub (r := main_arg1) ch10 (R9 m c) ch10_writes (by decide)).trans (R9_arg1 m c)
theorem R11_arg1 : R11 m c (Proc.devRef .tc main_arg1) = m ((c.tc : Thread nD τ).loc main_arg1) :=
  (after_of_writes_sub (r := main_arg1) ch11 (R10 m c) ch11_writes (by decide)).trans (R10_arg1 m c)
theorem R12_arg1 : R12 m c (Proc.devRef .tc main_arg1) = m ((c.tc : Thread nD τ).loc main_arg1) :=
  (after_of_writes_sub (r := main_arg1) ch12 (R11 m c) ch12_writes (by decide)).trans (R11_arg1 m c)
theorem R0_arg2 : R0 m c (Proc.devRef .tc main_arg2) = m ((c.tc : Thread nD τ).loc main_arg2) :=
  (after_of_writes_sub (r := main_arg2) ch0 (launchContents m c) ch0_writes (by decide)).trans rfl
theorem R1_arg2 : R1 m c (Proc.devRef .tc main_arg2) = m ((c.tc : Thread nD τ).loc main_arg2) :=
  (after_of_writes_sub (r := main_arg2) ch1 (R0 m c) ch1_writes (by decide)).trans (R0_arg2 m c)
theorem R2_arg2 : R2 m c (Proc.devRef .tc main_arg2) = m ((c.tc : Thread nD τ).loc main_arg2) :=
  (after_of_writes_sub (r := main_arg2) ch2 (R1 m c) ch2_writes (by decide)).trans (R1_arg2 m c)
theorem R3_arg2 : R3 m c (Proc.devRef .tc main_arg2) = m ((c.tc : Thread nD τ).loc main_arg2) :=
  (after_of_writes_sub (r := main_arg2) ch3 (R2 m c) ch3_writes (by decide)).trans (R2_arg2 m c)
theorem R4_arg2 : R4 m c (Proc.devRef .tc main_arg2) = m ((c.tc : Thread nD τ).loc main_arg2) :=
  (after_of_writes_sub (r := main_arg2) ch4 (R3 m c) ch4_writes (by decide)).trans (R3_arg2 m c)
theorem R5_arg2 : R5 m c (Proc.devRef .tc main_arg2) = m ((c.tc : Thread nD τ).loc main_arg2) :=
  (after_of_writes_sub (r := main_arg2) ch5 (R4 m c) ch5_writes (by decide)).trans (R4_arg2 m c)
theorem R6_arg2 : R6 m c (Proc.devRef .tc main_arg2) = m ((c.tc : Thread nD τ).loc main_arg2) :=
  (after_of_writes_sub (r := main_arg2) ch6 (R5 m c) ch6_writes (by decide)).trans (R5_arg2 m c)
theorem R7_arg2 : R7 m c (Proc.devRef .tc main_arg2) = m ((c.tc : Thread nD τ).loc main_arg2) :=
  (after_of_writes_sub (r := main_arg2) ch7 (R6 m c) ch7_writes (by decide)).trans (R6_arg2 m c)
theorem R8_arg2 : R8 m c (Proc.devRef .tc main_arg2) = m ((c.tc : Thread nD τ).loc main_arg2) :=
  (after_of_writes_sub (r := main_arg2) ch8 (R7 m c) ch8_writes (by decide)).trans (R7_arg2 m c)
theorem R9_arg2 : R9 m c (Proc.devRef .tc main_arg2) = m ((c.tc : Thread nD τ).loc main_arg2) :=
  (after_of_writes_sub (r := main_arg2) ch9 (R8 m c) ch9_writes (by decide)).trans (R8_arg2 m c)
theorem R10_arg2 : R10 m c (Proc.devRef .tc main_arg2) = m ((c.tc : Thread nD τ).loc main_arg2) :=
  (after_of_writes_sub (r := main_arg2) ch10 (R9 m c) ch10_writes (by decide)).trans (R9_arg2 m c)
theorem R11_arg2 : R11 m c (Proc.devRef .tc main_arg2) = m ((c.tc : Thread nD τ).loc main_arg2) :=
  (after_of_writes_sub (r := main_arg2) ch11 (R10 m c) ch11_writes (by decide)).trans (R10_arg2 m c)
theorem R12_arg2 : R12 m c (Proc.devRef .tc main_arg2) = m ((c.tc : Thread nD τ).loc main_arg2) :=
  (after_of_writes_sub (r := main_arg2) ch12 (R11 m c) ch12_writes (by decide)).trans (R11_arg2 m c)
theorem R0_arg3 : R0 m c (Proc.devRef .tc main_arg3) = m ((c.tc : Thread nD τ).loc main_arg3) :=
  (after_of_writes_sub (r := main_arg3) ch0 (launchContents m c) ch0_writes (by decide)).trans rfl
theorem R1_arg3 : R1 m c (Proc.devRef .tc main_arg3) = m ((c.tc : Thread nD τ).loc main_arg3) :=
  (after_of_writes_sub (r := main_arg3) ch1 (R0 m c) ch1_writes (by decide)).trans (R0_arg3 m c)
theorem R2_arg3 : R2 m c (Proc.devRef .tc main_arg3) = m ((c.tc : Thread nD τ).loc main_arg3) :=
  (after_of_writes_sub (r := main_arg3) ch2 (R1 m c) ch2_writes (by decide)).trans (R1_arg3 m c)
theorem R3_arg3 : R3 m c (Proc.devRef .tc main_arg3) = m ((c.tc : Thread nD τ).loc main_arg3) :=
  (after_of_writes_sub (r := main_arg3) ch3 (R2 m c) ch3_writes (by decide)).trans (R2_arg3 m c)
theorem R4_arg3 : R4 m c (Proc.devRef .tc main_arg3) = m ((c.tc : Thread nD τ).loc main_arg3) :=
  (after_of_writes_sub (r := main_arg3) ch4 (R3 m c) ch4_writes (by decide)).trans (R3_arg3 m c)
theorem R5_arg3 : R5 m c (Proc.devRef .tc main_arg3) = m ((c.tc : Thread nD τ).loc main_arg3) :=
  (after_of_writes_sub (r := main_arg3) ch5 (R4 m c) ch5_writes (by decide)).trans (R4_arg3 m c)
theorem R6_arg3 : R6 m c (Proc.devRef .tc main_arg3) = m ((c.tc : Thread nD τ).loc main_arg3) :=
  (after_of_writes_sub (r := main_arg3) ch6 (R5 m c) ch6_writes (by decide)).trans (R5_arg3 m c)
theorem R7_arg3 : R7 m c (Proc.devRef .tc main_arg3) = m ((c.tc : Thread nD τ).loc main_arg3) :=
  (after_of_writes_sub (r := main_arg3) ch7 (R6 m c) ch7_writes (by decide)).trans (R6_arg3 m c)
theorem R8_arg3 : R8 m c (Proc.devRef .tc main_arg3) = m ((c.tc : Thread nD τ).loc main_arg3) :=
  (after_of_writes_sub (r := main_arg3) ch8 (R7 m c) ch8_writes (by decide)).trans (R7_arg3 m c)
theorem R9_arg3 : R9 m c (Proc.devRef .tc main_arg3) = m ((c.tc : Thread nD τ).loc main_arg3) :=
  (after_of_writes_sub (r := main_arg3) ch9 (R8 m c) ch9_writes (by decide)).trans (R8_arg3 m c)
theorem R10_arg3 : R10 m c (Proc.devRef .tc main_arg3) = m ((c.tc : Thread nD τ).loc main_arg3) :=
  (after_of_writes_sub (r := main_arg3) ch10 (R9 m c) ch10_writes (by decide)).trans (R9_arg3 m c)
theorem R11_arg3 : R11 m c (Proc.devRef .tc main_arg3) = m ((c.tc : Thread nD τ).loc main_arg3) :=
  (after_of_writes_sub (r := main_arg3) ch11 (R10 m c) ch11_writes (by decide)).trans (R10_arg3 m c)
theorem R12_arg3 : R12 m c (Proc.devRef .tc main_arg3) = m ((c.tc : Thread nD τ).loc main_arg3) :=
  (after_of_writes_sub (r := main_arg3) ch12 (R11 m c) ch12_writes (by decide)).trans (R11_arg3 m c)
theorem R0_arg4 : R0 m c (Proc.devRef .tc main_arg4) = m ((c.tc : Thread nD τ).loc main_arg4) :=
  (after_of_writes_sub (r := main_arg4) ch0 (launchContents m c) ch0_writes (by decide)).trans rfl
theorem R1_arg4 : R1 m c (Proc.devRef .tc main_arg4) = m ((c.tc : Thread nD τ).loc main_arg4) :=
  (after_of_writes_sub (r := main_arg4) ch1 (R0 m c) ch1_writes (by decide)).trans (R0_arg4 m c)
theorem R2_arg4 : R2 m c (Proc.devRef .tc main_arg4) = m ((c.tc : Thread nD τ).loc main_arg4) :=
  (after_of_writes_sub (r := main_arg4) ch2 (R1 m c) ch2_writes (by decide)).trans (R1_arg4 m c)
theorem R3_arg4 : R3 m c (Proc.devRef .tc main_arg4) = m ((c.tc : Thread nD τ).loc main_arg4) :=
  (after_of_writes_sub (r := main_arg4) ch3 (R2 m c) ch3_writes (by decide)).trans (R2_arg4 m c)
theorem R4_arg4 : R4 m c (Proc.devRef .tc main_arg4) = m ((c.tc : Thread nD τ).loc main_arg4) :=
  (after_of_writes_sub (r := main_arg4) ch4 (R3 m c) ch4_writes (by decide)).trans (R3_arg4 m c)
theorem R5_arg4 : R5 m c (Proc.devRef .tc main_arg4) = m ((c.tc : Thread nD τ).loc main_arg4) :=
  (after_of_writes_sub (r := main_arg4) ch5 (R4 m c) ch5_writes (by decide)).trans (R4_arg4 m c)
theorem R6_arg4 : R6 m c (Proc.devRef .tc main_arg4) = m ((c.tc : Thread nD τ).loc main_arg4) :=
  (after_of_writes_sub (r := main_arg4) ch6 (R5 m c) ch6_writes (by decide)).trans (R5_arg4 m c)
theorem R7_arg4 : R7 m c (Proc.devRef .tc main_arg4) = m ((c.tc : Thread nD τ).loc main_arg4) :=
  (after_of_writes_sub (r := main_arg4) ch7 (R6 m c) ch7_writes (by decide)).trans (R6_arg4 m c)
theorem R8_arg4 : R8 m c (Proc.devRef .tc main_arg4) = m ((c.tc : Thread nD τ).loc main_arg4) :=
  (after_of_writes_sub (r := main_arg4) ch8 (R7 m c) ch8_writes (by decide)).trans (R7_arg4 m c)
theorem R9_arg4 : R9 m c (Proc.devRef .tc main_arg4) = m ((c.tc : Thread nD τ).loc main_arg4) :=
  (after_of_writes_sub (r := main_arg4) ch9 (R8 m c) ch9_writes (by decide)).trans (R8_arg4 m c)
theorem R10_arg4 : R10 m c (Proc.devRef .tc main_arg4) = m ((c.tc : Thread nD τ).loc main_arg4) :=
  (after_of_writes_sub (r := main_arg4) ch10 (R9 m c) ch10_writes (by decide)).trans (R9_arg4 m c)
theorem R11_arg4 : R11 m c (Proc.devRef .tc main_arg4) = m ((c.tc : Thread nD τ).loc main_arg4) :=
  (after_of_writes_sub (r := main_arg4) ch11 (R10 m c) ch11_writes (by decide)).trans (R10_arg4 m c)
theorem R12_arg4 : R12 m c (Proc.devRef .tc main_arg4) = m ((c.tc : Thread nD τ).loc main_arg4) :=
  (after_of_writes_sub (r := main_arg4) ch12 (R11 m c) ch12_writes (by decide)).trans (R11_arg4 m c)
theorem R0_arg5 : R0 m c (Proc.devRef .tc main_arg5) = m ((c.tc : Thread nD τ).loc main_arg5) :=
  (after_of_writes_sub (r := main_arg5) ch0 (launchContents m c) ch0_writes (by decide)).trans rfl
theorem R1_arg5 : R1 m c (Proc.devRef .tc main_arg5) = m ((c.tc : Thread nD τ).loc main_arg5) :=
  (after_of_writes_sub (r := main_arg5) ch1 (R0 m c) ch1_writes (by decide)).trans (R0_arg5 m c)
theorem R2_arg5 : R2 m c (Proc.devRef .tc main_arg5) = m ((c.tc : Thread nD τ).loc main_arg5) :=
  (after_of_writes_sub (r := main_arg5) ch2 (R1 m c) ch2_writes (by decide)).trans (R1_arg5 m c)
theorem R3_arg5 : R3 m c (Proc.devRef .tc main_arg5) = m ((c.tc : Thread nD τ).loc main_arg5) :=
  (after_of_writes_sub (r := main_arg5) ch3 (R2 m c) ch3_writes (by decide)).trans (R2_arg5 m c)
theorem R4_arg5 : R4 m c (Proc.devRef .tc main_arg5) = m ((c.tc : Thread nD τ).loc main_arg5) :=
  (after_of_writes_sub (r := main_arg5) ch4 (R3 m c) ch4_writes (by decide)).trans (R3_arg5 m c)
theorem R5_arg5 : R5 m c (Proc.devRef .tc main_arg5) = m ((c.tc : Thread nD τ).loc main_arg5) :=
  (after_of_writes_sub (r := main_arg5) ch5 (R4 m c) ch5_writes (by decide)).trans (R4_arg5 m c)
theorem R6_arg5 : R6 m c (Proc.devRef .tc main_arg5) = m ((c.tc : Thread nD τ).loc main_arg5) :=
  (after_of_writes_sub (r := main_arg5) ch6 (R5 m c) ch6_writes (by decide)).trans (R5_arg5 m c)
theorem R7_arg5 : R7 m c (Proc.devRef .tc main_arg5) = m ((c.tc : Thread nD τ).loc main_arg5) :=
  (after_of_writes_sub (r := main_arg5) ch7 (R6 m c) ch7_writes (by decide)).trans (R6_arg5 m c)
theorem R8_arg5 : R8 m c (Proc.devRef .tc main_arg5) = m ((c.tc : Thread nD τ).loc main_arg5) :=
  (after_of_writes_sub (r := main_arg5) ch8 (R7 m c) ch8_writes (by decide)).trans (R7_arg5 m c)
theorem R9_arg5 : R9 m c (Proc.devRef .tc main_arg5) = m ((c.tc : Thread nD τ).loc main_arg5) :=
  (after_of_writes_sub (r := main_arg5) ch9 (R8 m c) ch9_writes (by decide)).trans (R8_arg5 m c)
theorem R10_arg5 : R10 m c (Proc.devRef .tc main_arg5) = m ((c.tc : Thread nD τ).loc main_arg5) :=
  (after_of_writes_sub (r := main_arg5) ch10 (R9 m c) ch10_writes (by decide)).trans (R9_arg5 m c)
theorem R11_arg5 : R11 m c (Proc.devRef .tc main_arg5) = m ((c.tc : Thread nD τ).loc main_arg5) :=
  (after_of_writes_sub (r := main_arg5) ch11 (R10 m c) ch11_writes (by decide)).trans (R10_arg5 m c)
theorem R12_arg5 : R12 m c (Proc.devRef .tc main_arg5) = m ((c.tc : Thread nD τ).loc main_arg5) :=
  (after_of_writes_sub (r := main_arg5) ch12 (R11 m c) ch12_writes (by decide)).trans (R11_arg5 m c)
theorem R0_arg6 : R0 m c (Proc.devRef .tc main_arg6) = m ((c.tc : Thread nD τ).loc main_arg6) :=
  (after_of_writes_sub (r := main_arg6) ch0 (launchContents m c) ch0_writes (by decide)).trans rfl
theorem R1_arg6 : R1 m c (Proc.devRef .tc main_arg6) = m ((c.tc : Thread nD τ).loc main_arg6) :=
  (after_of_writes_sub (r := main_arg6) ch1 (R0 m c) ch1_writes (by decide)).trans (R0_arg6 m c)
theorem R2_arg6 : R2 m c (Proc.devRef .tc main_arg6) = m ((c.tc : Thread nD τ).loc main_arg6) :=
  (after_of_writes_sub (r := main_arg6) ch2 (R1 m c) ch2_writes (by decide)).trans (R1_arg6 m c)
theorem R3_arg6 : R3 m c (Proc.devRef .tc main_arg6) = m ((c.tc : Thread nD τ).loc main_arg6) :=
  (after_of_writes_sub (r := main_arg6) ch3 (R2 m c) ch3_writes (by decide)).trans (R2_arg6 m c)
theorem R4_arg6 : R4 m c (Proc.devRef .tc main_arg6) = m ((c.tc : Thread nD τ).loc main_arg6) :=
  (after_of_writes_sub (r := main_arg6) ch4 (R3 m c) ch4_writes (by decide)).trans (R3_arg6 m c)
theorem R5_arg6 : R5 m c (Proc.devRef .tc main_arg6) = m ((c.tc : Thread nD τ).loc main_arg6) :=
  (after_of_writes_sub (r := main_arg6) ch5 (R4 m c) ch5_writes (by decide)).trans (R4_arg6 m c)
theorem R6_arg6 : R6 m c (Proc.devRef .tc main_arg6) = m ((c.tc : Thread nD τ).loc main_arg6) :=
  (after_of_writes_sub (r := main_arg6) ch6 (R5 m c) ch6_writes (by decide)).trans (R5_arg6 m c)
theorem R7_arg6 : R7 m c (Proc.devRef .tc main_arg6) = m ((c.tc : Thread nD τ).loc main_arg6) :=
  (after_of_writes_sub (r := main_arg6) ch7 (R6 m c) ch7_writes (by decide)).trans (R6_arg6 m c)
theorem R8_arg6 : R8 m c (Proc.devRef .tc main_arg6) = m ((c.tc : Thread nD τ).loc main_arg6) :=
  (after_of_writes_sub (r := main_arg6) ch8 (R7 m c) ch8_writes (by decide)).trans (R7_arg6 m c)
theorem R9_arg6 : R9 m c (Proc.devRef .tc main_arg6) = m ((c.tc : Thread nD τ).loc main_arg6) :=
  (after_of_writes_sub (r := main_arg6) ch9 (R8 m c) ch9_writes (by decide)).trans (R8_arg6 m c)
theorem R10_arg6 : R10 m c (Proc.devRef .tc main_arg6) = m ((c.tc : Thread nD τ).loc main_arg6) :=
  (after_of_writes_sub (r := main_arg6) ch10 (R9 m c) ch10_writes (by decide)).trans (R9_arg6 m c)
theorem R11_arg6 : R11 m c (Proc.devRef .tc main_arg6) = m ((c.tc : Thread nD τ).loc main_arg6) :=
  (after_of_writes_sub (r := main_arg6) ch11 (R10 m c) ch11_writes (by decide)).trans (R10_arg6 m c)
theorem R12_arg6 : R12 m c (Proc.devRef .tc main_arg6) = m ((c.tc : Thread nD τ).loc main_arg6) :=
  (after_of_writes_sub (r := main_arg6) ch12 (R11 m c) ch12_writes (by decide)).trans (R11_arg6 m c)
theorem R0_arg7 : R0 m c (Proc.devRef .tc main_arg7) = m ((c.tc : Thread nD τ).loc main_arg7) :=
  (after_of_writes_sub (r := main_arg7) ch0 (launchContents m c) ch0_writes (by decide)).trans rfl
theorem R1_arg7 : R1 m c (Proc.devRef .tc main_arg7) = m ((c.tc : Thread nD τ).loc main_arg7) :=
  (after_of_writes_sub (r := main_arg7) ch1 (R0 m c) ch1_writes (by decide)).trans (R0_arg7 m c)
theorem R2_arg7 : R2 m c (Proc.devRef .tc main_arg7) = m ((c.tc : Thread nD τ).loc main_arg7) :=
  (after_of_writes_sub (r := main_arg7) ch2 (R1 m c) ch2_writes (by decide)).trans (R1_arg7 m c)
theorem R3_arg7 : R3 m c (Proc.devRef .tc main_arg7) = m ((c.tc : Thread nD τ).loc main_arg7) :=
  (after_of_writes_sub (r := main_arg7) ch3 (R2 m c) ch3_writes (by decide)).trans (R2_arg7 m c)
theorem R4_arg7 : R4 m c (Proc.devRef .tc main_arg7) = m ((c.tc : Thread nD τ).loc main_arg7) :=
  (after_of_writes_sub (r := main_arg7) ch4 (R3 m c) ch4_writes (by decide)).trans (R3_arg7 m c)
theorem R5_arg7 : R5 m c (Proc.devRef .tc main_arg7) = m ((c.tc : Thread nD τ).loc main_arg7) :=
  (after_of_writes_sub (r := main_arg7) ch5 (R4 m c) ch5_writes (by decide)).trans (R4_arg7 m c)
theorem R6_arg7 : R6 m c (Proc.devRef .tc main_arg7) = m ((c.tc : Thread nD τ).loc main_arg7) :=
  (after_of_writes_sub (r := main_arg7) ch6 (R5 m c) ch6_writes (by decide)).trans (R5_arg7 m c)
theorem R7_arg7 : R7 m c (Proc.devRef .tc main_arg7) = m ((c.tc : Thread nD τ).loc main_arg7) :=
  (after_of_writes_sub (r := main_arg7) ch7 (R6 m c) ch7_writes (by decide)).trans (R6_arg7 m c)
theorem R8_arg7 : R8 m c (Proc.devRef .tc main_arg7) = m ((c.tc : Thread nD τ).loc main_arg7) :=
  (after_of_writes_sub (r := main_arg7) ch8 (R7 m c) ch8_writes (by decide)).trans (R7_arg7 m c)
theorem R9_arg7 : R9 m c (Proc.devRef .tc main_arg7) = m ((c.tc : Thread nD τ).loc main_arg7) :=
  (after_of_writes_sub (r := main_arg7) ch9 (R8 m c) ch9_writes (by decide)).trans (R8_arg7 m c)
theorem R10_arg7 : R10 m c (Proc.devRef .tc main_arg7) = m ((c.tc : Thread nD τ).loc main_arg7) :=
  (after_of_writes_sub (r := main_arg7) ch10 (R9 m c) ch10_writes (by decide)).trans (R9_arg7 m c)
theorem R11_arg7 : R11 m c (Proc.devRef .tc main_arg7) = m ((c.tc : Thread nD τ).loc main_arg7) :=
  (after_of_writes_sub (r := main_arg7) ch11 (R10 m c) ch11_writes (by decide)).trans (R10_arg7 m c)
theorem R12_arg7 : R12 m c (Proc.devRef .tc main_arg7) = m ((c.tc : Thread nD τ).loc main_arg7) :=
  (after_of_writes_sub (r := main_arg7) ch12 (R11 m c) ch12_writes (by decide)).trans (R11_arg7 m c)
theorem R0_arg8 : R0 m c (Proc.devRef .tc main_arg8) = m ((c.tc : Thread nD τ).loc main_arg8) :=
  (after_of_writes_sub (r := main_arg8) ch0 (launchContents m c) ch0_writes (by decide)).trans rfl
theorem R1_arg8 : R1 m c (Proc.devRef .tc main_arg8) = m ((c.tc : Thread nD τ).loc main_arg8) :=
  (after_of_writes_sub (r := main_arg8) ch1 (R0 m c) ch1_writes (by decide)).trans (R0_arg8 m c)
theorem R2_arg8 : R2 m c (Proc.devRef .tc main_arg8) = m ((c.tc : Thread nD τ).loc main_arg8) :=
  (after_of_writes_sub (r := main_arg8) ch2 (R1 m c) ch2_writes (by decide)).trans (R1_arg8 m c)
theorem R3_arg8 : R3 m c (Proc.devRef .tc main_arg8) = m ((c.tc : Thread nD τ).loc main_arg8) :=
  (after_of_writes_sub (r := main_arg8) ch3 (R2 m c) ch3_writes (by decide)).trans (R2_arg8 m c)
theorem R4_arg8 : R4 m c (Proc.devRef .tc main_arg8) = m ((c.tc : Thread nD τ).loc main_arg8) :=
  (after_of_writes_sub (r := main_arg8) ch4 (R3 m c) ch4_writes (by decide)).trans (R3_arg8 m c)
theorem R5_arg8 : R5 m c (Proc.devRef .tc main_arg8) = m ((c.tc : Thread nD τ).loc main_arg8) :=
  (after_of_writes_sub (r := main_arg8) ch5 (R4 m c) ch5_writes (by decide)).trans (R4_arg8 m c)
theorem R6_arg8 : R6 m c (Proc.devRef .tc main_arg8) = m ((c.tc : Thread nD τ).loc main_arg8) :=
  (after_of_writes_sub (r := main_arg8) ch6 (R5 m c) ch6_writes (by decide)).trans (R5_arg8 m c)
theorem R7_arg8 : R7 m c (Proc.devRef .tc main_arg8) = m ((c.tc : Thread nD τ).loc main_arg8) :=
  (after_of_writes_sub (r := main_arg8) ch7 (R6 m c) ch7_writes (by decide)).trans (R6_arg8 m c)
theorem R8_arg8 : R8 m c (Proc.devRef .tc main_arg8) = m ((c.tc : Thread nD τ).loc main_arg8) :=
  (after_of_writes_sub (r := main_arg8) ch8 (R7 m c) ch8_writes (by decide)).trans (R7_arg8 m c)
theorem R9_arg8 : R9 m c (Proc.devRef .tc main_arg8) = m ((c.tc : Thread nD τ).loc main_arg8) :=
  (after_of_writes_sub (r := main_arg8) ch9 (R8 m c) ch9_writes (by decide)).trans (R8_arg8 m c)
theorem R10_arg8 : R10 m c (Proc.devRef .tc main_arg8) = m ((c.tc : Thread nD τ).loc main_arg8) :=
  (after_of_writes_sub (r := main_arg8) ch10 (R9 m c) ch10_writes (by decide)).trans (R9_arg8 m c)
theorem R11_arg8 : R11 m c (Proc.devRef .tc main_arg8) = m ((c.tc : Thread nD τ).loc main_arg8) :=
  (after_of_writes_sub (r := main_arg8) ch11 (R10 m c) ch11_writes (by decide)).trans (R10_arg8 m c)
theorem R12_arg8 : R12 m c (Proc.devRef .tc main_arg8) = m ((c.tc : Thread nD τ).loc main_arg8) :=
  (after_of_writes_sub (r := main_arg8) ch12 (R11 m c) ch12_writes (by decide)).trans (R11_arg8 m c)
theorem R0_arg9 : R0 m c (Proc.devRef .tc main_arg9) = m ((c.tc : Thread nD τ).loc main_arg9) :=
  (after_of_writes_sub (r := main_arg9) ch0 (launchContents m c) ch0_writes (by decide)).trans rfl
theorem R1_arg9 : R1 m c (Proc.devRef .tc main_arg9) = m ((c.tc : Thread nD τ).loc main_arg9) :=
  (after_of_writes_sub (r := main_arg9) ch1 (R0 m c) ch1_writes (by decide)).trans (R0_arg9 m c)
theorem R2_arg9 : R2 m c (Proc.devRef .tc main_arg9) = m ((c.tc : Thread nD τ).loc main_arg9) :=
  (after_of_writes_sub (r := main_arg9) ch2 (R1 m c) ch2_writes (by decide)).trans (R1_arg9 m c)
theorem R3_arg9 : R3 m c (Proc.devRef .tc main_arg9) = m ((c.tc : Thread nD τ).loc main_arg9) :=
  (after_of_writes_sub (r := main_arg9) ch3 (R2 m c) ch3_writes (by decide)).trans (R2_arg9 m c)
theorem R4_arg9 : R4 m c (Proc.devRef .tc main_arg9) = m ((c.tc : Thread nD τ).loc main_arg9) :=
  (after_of_writes_sub (r := main_arg9) ch4 (R3 m c) ch4_writes (by decide)).trans (R3_arg9 m c)
theorem R5_arg9 : R5 m c (Proc.devRef .tc main_arg9) = m ((c.tc : Thread nD τ).loc main_arg9) :=
  (after_of_writes_sub (r := main_arg9) ch5 (R4 m c) ch5_writes (by decide)).trans (R4_arg9 m c)
theorem R6_arg9 : R6 m c (Proc.devRef .tc main_arg9) = m ((c.tc : Thread nD τ).loc main_arg9) :=
  (after_of_writes_sub (r := main_arg9) ch6 (R5 m c) ch6_writes (by decide)).trans (R5_arg9 m c)
theorem R7_arg9 : R7 m c (Proc.devRef .tc main_arg9) = m ((c.tc : Thread nD τ).loc main_arg9) :=
  (after_of_writes_sub (r := main_arg9) ch7 (R6 m c) ch7_writes (by decide)).trans (R6_arg9 m c)
theorem R8_arg9 : R8 m c (Proc.devRef .tc main_arg9) = m ((c.tc : Thread nD τ).loc main_arg9) :=
  (after_of_writes_sub (r := main_arg9) ch8 (R7 m c) ch8_writes (by decide)).trans (R7_arg9 m c)
theorem R9_arg9 : R9 m c (Proc.devRef .tc main_arg9) = m ((c.tc : Thread nD τ).loc main_arg9) :=
  (after_of_writes_sub (r := main_arg9) ch9 (R8 m c) ch9_writes (by decide)).trans (R8_arg9 m c)
theorem R10_arg9 : R10 m c (Proc.devRef .tc main_arg9) = m ((c.tc : Thread nD τ).loc main_arg9) :=
  (after_of_writes_sub (r := main_arg9) ch10 (R9 m c) ch10_writes (by decide)).trans (R9_arg9 m c)
theorem R11_arg9 : R11 m c (Proc.devRef .tc main_arg9) = m ((c.tc : Thread nD τ).loc main_arg9) :=
  (after_of_writes_sub (r := main_arg9) ch11 (R10 m c) ch11_writes (by decide)).trans (R10_arg9 m c)
theorem R12_arg9 : R12 m c (Proc.devRef .tc main_arg9) = m ((c.tc : Thread nD τ).loc main_arg9) :=
  (after_of_writes_sub (r := main_arg9) ch12 (R11 m c) ch12_writes (by decide)).trans (R11_arg9 m c)
theorem R0_arg10 : R0 m c (Proc.devRef .tc main_arg10) = m ((c.tc : Thread nD τ).loc main_arg10) :=
  (after_of_writes_sub (r := main_arg10) ch0 (launchContents m c) ch0_writes (by decide)).trans rfl
theorem R1_arg10 : R1 m c (Proc.devRef .tc main_arg10) = m ((c.tc : Thread nD τ).loc main_arg10) :=
  (after_of_writes_sub (r := main_arg10) ch1 (R0 m c) ch1_writes (by decide)).trans (R0_arg10 m c)
theorem R2_arg10 : R2 m c (Proc.devRef .tc main_arg10) = m ((c.tc : Thread nD τ).loc main_arg10) :=
  (after_of_writes_sub (r := main_arg10) ch2 (R1 m c) ch2_writes (by decide)).trans (R1_arg10 m c)
theorem R3_arg10 : R3 m c (Proc.devRef .tc main_arg10) = m ((c.tc : Thread nD τ).loc main_arg10) :=
  (after_of_writes_sub (r := main_arg10) ch3 (R2 m c) ch3_writes (by decide)).trans (R2_arg10 m c)
theorem R4_arg10 : R4 m c (Proc.devRef .tc main_arg10) = m ((c.tc : Thread nD τ).loc main_arg10) :=
  (after_of_writes_sub (r := main_arg10) ch4 (R3 m c) ch4_writes (by decide)).trans (R3_arg10 m c)
theorem R5_arg10 : R5 m c (Proc.devRef .tc main_arg10) = m ((c.tc : Thread nD τ).loc main_arg10) :=
  (after_of_writes_sub (r := main_arg10) ch5 (R4 m c) ch5_writes (by decide)).trans (R4_arg10 m c)
theorem R6_arg10 : R6 m c (Proc.devRef .tc main_arg10) = m ((c.tc : Thread nD τ).loc main_arg10) :=
  (after_of_writes_sub (r := main_arg10) ch6 (R5 m c) ch6_writes (by decide)).trans (R5_arg10 m c)
theorem R7_arg10 : R7 m c (Proc.devRef .tc main_arg10) = m ((c.tc : Thread nD τ).loc main_arg10) :=
  (after_of_writes_sub (r := main_arg10) ch7 (R6 m c) ch7_writes (by decide)).trans (R6_arg10 m c)
theorem R8_arg10 : R8 m c (Proc.devRef .tc main_arg10) = m ((c.tc : Thread nD τ).loc main_arg10) :=
  (after_of_writes_sub (r := main_arg10) ch8 (R7 m c) ch8_writes (by decide)).trans (R7_arg10 m c)
theorem R9_arg10 : R9 m c (Proc.devRef .tc main_arg10) = m ((c.tc : Thread nD τ).loc main_arg10) :=
  (after_of_writes_sub (r := main_arg10) ch9 (R8 m c) ch9_writes (by decide)).trans (R8_arg10 m c)
theorem R10_arg10 : R10 m c (Proc.devRef .tc main_arg10) = m ((c.tc : Thread nD τ).loc main_arg10) :=
  (after_of_writes_sub (r := main_arg10) ch10 (R9 m c) ch10_writes (by decide)).trans (R9_arg10 m c)
theorem R11_arg10 : R11 m c (Proc.devRef .tc main_arg10) = m ((c.tc : Thread nD τ).loc main_arg10) :=
  (after_of_writes_sub (r := main_arg10) ch11 (R10 m c) ch11_writes (by decide)).trans (R10_arg10 m c)
theorem R12_arg10 : R12 m c (Proc.devRef .tc main_arg10) = m ((c.tc : Thread nD τ).loc main_arg10) :=
  (after_of_writes_sub (r := main_arg10) ch12 (R11 m c) ch12_writes (by decide)).trans (R11_arg10 m c)
theorem R0_arg11 : R0 m c (Proc.devRef .tc main_arg11) = m ((c.tc : Thread nD τ).loc main_arg11) :=
  (after_of_writes_sub (r := main_arg11) ch0 (launchContents m c) ch0_writes (by decide)).trans rfl
theorem R1_arg11 : R1 m c (Proc.devRef .tc main_arg11) = m ((c.tc : Thread nD τ).loc main_arg11) :=
  (after_of_writes_sub (r := main_arg11) ch1 (R0 m c) ch1_writes (by decide)).trans (R0_arg11 m c)
theorem R2_arg11 : R2 m c (Proc.devRef .tc main_arg11) = m ((c.tc : Thread nD τ).loc main_arg11) :=
  (after_of_writes_sub (r := main_arg11) ch2 (R1 m c) ch2_writes (by decide)).trans (R1_arg11 m c)
theorem R3_arg11 : R3 m c (Proc.devRef .tc main_arg11) = m ((c.tc : Thread nD τ).loc main_arg11) :=
  (after_of_writes_sub (r := main_arg11) ch3 (R2 m c) ch3_writes (by decide)).trans (R2_arg11 m c)
theorem R4_arg11 : R4 m c (Proc.devRef .tc main_arg11) = m ((c.tc : Thread nD τ).loc main_arg11) :=
  (after_of_writes_sub (r := main_arg11) ch4 (R3 m c) ch4_writes (by decide)).trans (R3_arg11 m c)
theorem R5_arg11 : R5 m c (Proc.devRef .tc main_arg11) = m ((c.tc : Thread nD τ).loc main_arg11) :=
  (after_of_writes_sub (r := main_arg11) ch5 (R4 m c) ch5_writes (by decide)).trans (R4_arg11 m c)
theorem R6_arg11 : R6 m c (Proc.devRef .tc main_arg11) = m ((c.tc : Thread nD τ).loc main_arg11) :=
  (after_of_writes_sub (r := main_arg11) ch6 (R5 m c) ch6_writes (by decide)).trans (R5_arg11 m c)
theorem R7_arg11 : R7 m c (Proc.devRef .tc main_arg11) = m ((c.tc : Thread nD τ).loc main_arg11) :=
  (after_of_writes_sub (r := main_arg11) ch7 (R6 m c) ch7_writes (by decide)).trans (R6_arg11 m c)
theorem R8_arg11 : R8 m c (Proc.devRef .tc main_arg11) = m ((c.tc : Thread nD τ).loc main_arg11) :=
  (after_of_writes_sub (r := main_arg11) ch8 (R7 m c) ch8_writes (by decide)).trans (R7_arg11 m c)
theorem R9_arg11 : R9 m c (Proc.devRef .tc main_arg11) = m ((c.tc : Thread nD τ).loc main_arg11) :=
  (after_of_writes_sub (r := main_arg11) ch9 (R8 m c) ch9_writes (by decide)).trans (R8_arg11 m c)
theorem R10_arg11 : R10 m c (Proc.devRef .tc main_arg11) = m ((c.tc : Thread nD τ).loc main_arg11) :=
  (after_of_writes_sub (r := main_arg11) ch10 (R9 m c) ch10_writes (by decide)).trans (R9_arg11 m c)
theorem R11_arg11 : R11 m c (Proc.devRef .tc main_arg11) = m ((c.tc : Thread nD τ).loc main_arg11) :=
  (after_of_writes_sub (r := main_arg11) ch11 (R10 m c) ch11_writes (by decide)).trans (R10_arg11 m c)
theorem R12_arg11 : R12 m c (Proc.devRef .tc main_arg11) = m ((c.tc : Thread nD τ).loc main_arg11) :=
  (after_of_writes_sub (r := main_arg11) ch12 (R11 m c) ch12_writes (by decide)).trans (R11_arg11 m c)
theorem R0_arg12 : R0 m c (Proc.devRef .tc main_arg12) = m ((c.tc : Thread nD τ).loc main_arg12) :=
  (after_of_writes_sub (r := main_arg12) ch0 (launchContents m c) ch0_writes (by decide)).trans rfl
theorem R1_arg12 : R1 m c (Proc.devRef .tc main_arg12) = m ((c.tc : Thread nD τ).loc main_arg12) :=
  (after_of_writes_sub (r := main_arg12) ch1 (R0 m c) ch1_writes (by decide)).trans (R0_arg12 m c)
theorem R2_arg12 : R2 m c (Proc.devRef .tc main_arg12) = m ((c.tc : Thread nD τ).loc main_arg12) :=
  (after_of_writes_sub (r := main_arg12) ch2 (R1 m c) ch2_writes (by decide)).trans (R1_arg12 m c)
theorem R3_arg12 : R3 m c (Proc.devRef .tc main_arg12) = m ((c.tc : Thread nD τ).loc main_arg12) :=
  (after_of_writes_sub (r := main_arg12) ch3 (R2 m c) ch3_writes (by decide)).trans (R2_arg12 m c)
theorem R4_arg12 : R4 m c (Proc.devRef .tc main_arg12) = m ((c.tc : Thread nD τ).loc main_arg12) :=
  (after_of_writes_sub (r := main_arg12) ch4 (R3 m c) ch4_writes (by decide)).trans (R3_arg12 m c)
theorem R5_arg12 : R5 m c (Proc.devRef .tc main_arg12) = m ((c.tc : Thread nD τ).loc main_arg12) :=
  (after_of_writes_sub (r := main_arg12) ch5 (R4 m c) ch5_writes (by decide)).trans (R4_arg12 m c)
theorem R6_arg12 : R6 m c (Proc.devRef .tc main_arg12) = m ((c.tc : Thread nD τ).loc main_arg12) :=
  (after_of_writes_sub (r := main_arg12) ch6 (R5 m c) ch6_writes (by decide)).trans (R5_arg12 m c)
theorem R7_arg12 : R7 m c (Proc.devRef .tc main_arg12) = m ((c.tc : Thread nD τ).loc main_arg12) :=
  (after_of_writes_sub (r := main_arg12) ch7 (R6 m c) ch7_writes (by decide)).trans (R6_arg12 m c)
theorem R8_arg12 : R8 m c (Proc.devRef .tc main_arg12) = m ((c.tc : Thread nD τ).loc main_arg12) :=
  (after_of_writes_sub (r := main_arg12) ch8 (R7 m c) ch8_writes (by decide)).trans (R7_arg12 m c)
theorem R9_arg12 : R9 m c (Proc.devRef .tc main_arg12) = m ((c.tc : Thread nD τ).loc main_arg12) :=
  (after_of_writes_sub (r := main_arg12) ch9 (R8 m c) ch9_writes (by decide)).trans (R8_arg12 m c)
theorem R10_arg12 : R10 m c (Proc.devRef .tc main_arg12) = m ((c.tc : Thread nD τ).loc main_arg12) :=
  (after_of_writes_sub (r := main_arg12) ch10 (R9 m c) ch10_writes (by decide)).trans (R9_arg12 m c)
theorem R11_arg12 : R11 m c (Proc.devRef .tc main_arg12) = m ((c.tc : Thread nD τ).loc main_arg12) :=
  (after_of_writes_sub (r := main_arg12) ch11 (R10 m c) ch11_writes (by decide)).trans (R10_arg12 m c)
theorem R12_arg12 : R12 m c (Proc.devRef .tc main_arg12) = m ((c.tc : Thread nD τ).loc main_arg12) :=
  (after_of_writes_sub (r := main_arg12) ch12 (R11 m c) ch12_writes (by decide)).trans (R11_arg12 m c)
theorem R0_arg13 : R0 m c (Proc.devRef .tc main_arg13) = m ((c.tc : Thread nD τ).loc main_arg13) :=
  (after_of_writes_sub (r := main_arg13) ch0 (launchContents m c) ch0_writes (by decide)).trans rfl
theorem R1_arg13 : R1 m c (Proc.devRef .tc main_arg13) = m ((c.tc : Thread nD τ).loc main_arg13) :=
  (after_of_writes_sub (r := main_arg13) ch1 (R0 m c) ch1_writes (by decide)).trans (R0_arg13 m c)
theorem R2_arg13 : R2 m c (Proc.devRef .tc main_arg13) = m ((c.tc : Thread nD τ).loc main_arg13) :=
  (after_of_writes_sub (r := main_arg13) ch2 (R1 m c) ch2_writes (by decide)).trans (R1_arg13 m c)
theorem R3_arg13 : R3 m c (Proc.devRef .tc main_arg13) = m ((c.tc : Thread nD τ).loc main_arg13) :=
  (after_of_writes_sub (r := main_arg13) ch3 (R2 m c) ch3_writes (by decide)).trans (R2_arg13 m c)
theorem R4_arg13 : R4 m c (Proc.devRef .tc main_arg13) = m ((c.tc : Thread nD τ).loc main_arg13) :=
  (after_of_writes_sub (r := main_arg13) ch4 (R3 m c) ch4_writes (by decide)).trans (R3_arg13 m c)
theorem R5_arg13 : R5 m c (Proc.devRef .tc main_arg13) = m ((c.tc : Thread nD τ).loc main_arg13) :=
  (after_of_writes_sub (r := main_arg13) ch5 (R4 m c) ch5_writes (by decide)).trans (R4_arg13 m c)
theorem R6_arg13 : R6 m c (Proc.devRef .tc main_arg13) = m ((c.tc : Thread nD τ).loc main_arg13) :=
  (after_of_writes_sub (r := main_arg13) ch6 (R5 m c) ch6_writes (by decide)).trans (R5_arg13 m c)
theorem R7_arg13 : R7 m c (Proc.devRef .tc main_arg13) = m ((c.tc : Thread nD τ).loc main_arg13) :=
  (after_of_writes_sub (r := main_arg13) ch7 (R6 m c) ch7_writes (by decide)).trans (R6_arg13 m c)
theorem R8_arg13 : R8 m c (Proc.devRef .tc main_arg13) = m ((c.tc : Thread nD τ).loc main_arg13) :=
  (after_of_writes_sub (r := main_arg13) ch8 (R7 m c) ch8_writes (by decide)).trans (R7_arg13 m c)
theorem R9_arg13 : R9 m c (Proc.devRef .tc main_arg13) = m ((c.tc : Thread nD τ).loc main_arg13) :=
  (after_of_writes_sub (r := main_arg13) ch9 (R8 m c) ch9_writes (by decide)).trans (R8_arg13 m c)
theorem R10_arg13 : R10 m c (Proc.devRef .tc main_arg13) = m ((c.tc : Thread nD τ).loc main_arg13) :=
  (after_of_writes_sub (r := main_arg13) ch10 (R9 m c) ch10_writes (by decide)).trans (R9_arg13 m c)
theorem R11_arg13 : R11 m c (Proc.devRef .tc main_arg13) = m ((c.tc : Thread nD τ).loc main_arg13) :=
  (after_of_writes_sub (r := main_arg13) ch11 (R10 m c) ch11_writes (by decide)).trans (R10_arg13 m c)
theorem R12_arg13 : R12 m c (Proc.devRef .tc main_arg13) = m ((c.tc : Thread nD τ).loc main_arg13) :=
  (after_of_writes_sub (r := main_arg13) ch12 (R11 m c) ch12_writes (by decide)).trans (R11_arg13 m c)
theorem R0_arg14 : R0 m c (Proc.devRef .tc main_arg14) = m ((c.tc : Thread nD τ).loc main_arg14) :=
  (after_of_writes_sub (r := main_arg14) ch0 (launchContents m c) ch0_writes (by decide)).trans rfl
theorem R1_arg14 : R1 m c (Proc.devRef .tc main_arg14) = m ((c.tc : Thread nD τ).loc main_arg14) :=
  (after_of_writes_sub (r := main_arg14) ch1 (R0 m c) ch1_writes (by decide)).trans (R0_arg14 m c)
theorem R2_arg14 : R2 m c (Proc.devRef .tc main_arg14) = m ((c.tc : Thread nD τ).loc main_arg14) :=
  (after_of_writes_sub (r := main_arg14) ch2 (R1 m c) ch2_writes (by decide)).trans (R1_arg14 m c)
theorem R3_arg14 : R3 m c (Proc.devRef .tc main_arg14) = m ((c.tc : Thread nD τ).loc main_arg14) :=
  (after_of_writes_sub (r := main_arg14) ch3 (R2 m c) ch3_writes (by decide)).trans (R2_arg14 m c)
theorem R4_arg14 : R4 m c (Proc.devRef .tc main_arg14) = m ((c.tc : Thread nD τ).loc main_arg14) :=
  (after_of_writes_sub (r := main_arg14) ch4 (R3 m c) ch4_writes (by decide)).trans (R3_arg14 m c)
theorem R5_arg14 : R5 m c (Proc.devRef .tc main_arg14) = m ((c.tc : Thread nD τ).loc main_arg14) :=
  (after_of_writes_sub (r := main_arg14) ch5 (R4 m c) ch5_writes (by decide)).trans (R4_arg14 m c)
theorem R6_arg14 : R6 m c (Proc.devRef .tc main_arg14) = m ((c.tc : Thread nD τ).loc main_arg14) :=
  (after_of_writes_sub (r := main_arg14) ch6 (R5 m c) ch6_writes (by decide)).trans (R5_arg14 m c)
theorem R7_arg14 : R7 m c (Proc.devRef .tc main_arg14) = m ((c.tc : Thread nD τ).loc main_arg14) :=
  (after_of_writes_sub (r := main_arg14) ch7 (R6 m c) ch7_writes (by decide)).trans (R6_arg14 m c)
theorem R8_arg14 : R8 m c (Proc.devRef .tc main_arg14) = m ((c.tc : Thread nD τ).loc main_arg14) :=
  (after_of_writes_sub (r := main_arg14) ch8 (R7 m c) ch8_writes (by decide)).trans (R7_arg14 m c)
theorem R9_arg14 : R9 m c (Proc.devRef .tc main_arg14) = m ((c.tc : Thread nD τ).loc main_arg14) :=
  (after_of_writes_sub (r := main_arg14) ch9 (R8 m c) ch9_writes (by decide)).trans (R8_arg14 m c)
theorem R10_arg14 : R10 m c (Proc.devRef .tc main_arg14) = m ((c.tc : Thread nD τ).loc main_arg14) :=
  (after_of_writes_sub (r := main_arg14) ch10 (R9 m c) ch10_writes (by decide)).trans (R9_arg14 m c)
theorem R11_arg14 : R11 m c (Proc.devRef .tc main_arg14) = m ((c.tc : Thread nD τ).loc main_arg14) :=
  (after_of_writes_sub (r := main_arg14) ch11 (R10 m c) ch11_writes (by decide)).trans (R10_arg14 m c)
theorem R12_arg14 : R12 m c (Proc.devRef .tc main_arg14) = m ((c.tc : Thread nD τ).loc main_arg14) :=
  (after_of_writes_sub (r := main_arg14) ch12 (R11 m c) ch12_writes (by decide)).trans (R11_arg14 m c)
theorem R0_arg15 : R0 m c (Proc.devRef .tc main_arg15) = m ((c.tc : Thread nD τ).loc main_arg15) :=
  (after_of_writes_sub (r := main_arg15) ch0 (launchContents m c) ch0_writes (by decide)).trans rfl
theorem R1_arg15 : R1 m c (Proc.devRef .tc main_arg15) = m ((c.tc : Thread nD τ).loc main_arg15) :=
  (after_of_writes_sub (r := main_arg15) ch1 (R0 m c) ch1_writes (by decide)).trans (R0_arg15 m c)
theorem R2_arg15 : R2 m c (Proc.devRef .tc main_arg15) = m ((c.tc : Thread nD τ).loc main_arg15) :=
  (after_of_writes_sub (r := main_arg15) ch2 (R1 m c) ch2_writes (by decide)).trans (R1_arg15 m c)
theorem R3_arg15 : R3 m c (Proc.devRef .tc main_arg15) = m ((c.tc : Thread nD τ).loc main_arg15) :=
  (after_of_writes_sub (r := main_arg15) ch3 (R2 m c) ch3_writes (by decide)).trans (R2_arg15 m c)
theorem R4_arg15 : R4 m c (Proc.devRef .tc main_arg15) = m ((c.tc : Thread nD τ).loc main_arg15) :=
  (after_of_writes_sub (r := main_arg15) ch4 (R3 m c) ch4_writes (by decide)).trans (R3_arg15 m c)
theorem R5_arg15 : R5 m c (Proc.devRef .tc main_arg15) = m ((c.tc : Thread nD τ).loc main_arg15) :=
  (after_of_writes_sub (r := main_arg15) ch5 (R4 m c) ch5_writes (by decide)).trans (R4_arg15 m c)
theorem R6_arg15 : R6 m c (Proc.devRef .tc main_arg15) = m ((c.tc : Thread nD τ).loc main_arg15) :=
  (after_of_writes_sub (r := main_arg15) ch6 (R5 m c) ch6_writes (by decide)).trans (R5_arg15 m c)
theorem R7_arg15 : R7 m c (Proc.devRef .tc main_arg15) = m ((c.tc : Thread nD τ).loc main_arg15) :=
  (after_of_writes_sub (r := main_arg15) ch7 (R6 m c) ch7_writes (by decide)).trans (R6_arg15 m c)
theorem R8_arg15 : R8 m c (Proc.devRef .tc main_arg15) = m ((c.tc : Thread nD τ).loc main_arg15) :=
  (after_of_writes_sub (r := main_arg15) ch8 (R7 m c) ch8_writes (by decide)).trans (R7_arg15 m c)
theorem R9_arg15 : R9 m c (Proc.devRef .tc main_arg15) = m ((c.tc : Thread nD τ).loc main_arg15) :=
  (after_of_writes_sub (r := main_arg15) ch9 (R8 m c) ch9_writes (by decide)).trans (R8_arg15 m c)
theorem R10_arg15 : R10 m c (Proc.devRef .tc main_arg15) = m ((c.tc : Thread nD τ).loc main_arg15) :=
  (after_of_writes_sub (r := main_arg15) ch10 (R9 m c) ch10_writes (by decide)).trans (R9_arg15 m c)
theorem R11_arg15 : R11 m c (Proc.devRef .tc main_arg15) = m ((c.tc : Thread nD τ).loc main_arg15) :=
  (after_of_writes_sub (r := main_arg15) ch11 (R10 m c) ch11_writes (by decide)).trans (R10_arg15 m c)
theorem R12_arg15 : R12 m c (Proc.devRef .tc main_arg15) = m ((c.tc : Thread nD τ).loc main_arg15) :=
  (after_of_writes_sub (r := main_arg15) ch12 (R11 m c) ch12_writes (by decide)).trans (R11_arg15 m c)
theorem R0_arg16 : R0 m c (Proc.devRef .tc main_arg16) = m ((c.tc : Thread nD τ).loc main_arg16) :=
  (after_of_writes_sub (r := main_arg16) ch0 (launchContents m c) ch0_writes (by decide)).trans rfl
theorem R1_arg16 : R1 m c (Proc.devRef .tc main_arg16) = m ((c.tc : Thread nD τ).loc main_arg16) :=
  (after_of_writes_sub (r := main_arg16) ch1 (R0 m c) ch1_writes (by decide)).trans (R0_arg16 m c)
theorem R2_arg16 : R2 m c (Proc.devRef .tc main_arg16) = m ((c.tc : Thread nD τ).loc main_arg16) :=
  (after_of_writes_sub (r := main_arg16) ch2 (R1 m c) ch2_writes (by decide)).trans (R1_arg16 m c)
theorem R3_arg16 : R3 m c (Proc.devRef .tc main_arg16) = m ((c.tc : Thread nD τ).loc main_arg16) :=
  (after_of_writes_sub (r := main_arg16) ch3 (R2 m c) ch3_writes (by decide)).trans (R2_arg16 m c)
theorem R4_arg16 : R4 m c (Proc.devRef .tc main_arg16) = m ((c.tc : Thread nD τ).loc main_arg16) :=
  (after_of_writes_sub (r := main_arg16) ch4 (R3 m c) ch4_writes (by decide)).trans (R3_arg16 m c)
theorem R5_arg16 : R5 m c (Proc.devRef .tc main_arg16) = m ((c.tc : Thread nD τ).loc main_arg16) :=
  (after_of_writes_sub (r := main_arg16) ch5 (R4 m c) ch5_writes (by decide)).trans (R4_arg16 m c)
theorem R6_arg16 : R6 m c (Proc.devRef .tc main_arg16) = m ((c.tc : Thread nD τ).loc main_arg16) :=
  (after_of_writes_sub (r := main_arg16) ch6 (R5 m c) ch6_writes (by decide)).trans (R5_arg16 m c)
theorem R7_arg16 : R7 m c (Proc.devRef .tc main_arg16) = m ((c.tc : Thread nD τ).loc main_arg16) :=
  (after_of_writes_sub (r := main_arg16) ch7 (R6 m c) ch7_writes (by decide)).trans (R6_arg16 m c)
theorem R8_arg16 : R8 m c (Proc.devRef .tc main_arg16) = m ((c.tc : Thread nD τ).loc main_arg16) :=
  (after_of_writes_sub (r := main_arg16) ch8 (R7 m c) ch8_writes (by decide)).trans (R7_arg16 m c)
theorem R9_arg16 : R9 m c (Proc.devRef .tc main_arg16) = m ((c.tc : Thread nD τ).loc main_arg16) :=
  (after_of_writes_sub (r := main_arg16) ch9 (R8 m c) ch9_writes (by decide)).trans (R8_arg16 m c)
theorem R10_arg16 : R10 m c (Proc.devRef .tc main_arg16) = m ((c.tc : Thread nD τ).loc main_arg16) :=
  (after_of_writes_sub (r := main_arg16) ch10 (R9 m c) ch10_writes (by decide)).trans (R9_arg16 m c)
theorem R11_arg16 : R11 m c (Proc.devRef .tc main_arg16) = m ((c.tc : Thread nD τ).loc main_arg16) :=
  (after_of_writes_sub (r := main_arg16) ch11 (R10 m c) ch11_writes (by decide)).trans (R10_arg16 m c)
theorem R12_arg16 : R12 m c (Proc.devRef .tc main_arg16) = m ((c.tc : Thread nD τ).loc main_arg16) :=
  (after_of_writes_sub (r := main_arg16) ch12 (R11 m c) ch12_writes (by decide)).trans (R11_arg16 m c)
theorem R0_arg17 : R0 m c (Proc.devRef .tc main_arg17) = m ((c.tc : Thread nD τ).loc main_arg17) :=
  (after_of_writes_sub (r := main_arg17) ch0 (launchContents m c) ch0_writes (by decide)).trans rfl
theorem R1_arg17 : R1 m c (Proc.devRef .tc main_arg17) = m ((c.tc : Thread nD τ).loc main_arg17) :=
  (after_of_writes_sub (r := main_arg17) ch1 (R0 m c) ch1_writes (by decide)).trans (R0_arg17 m c)
theorem R2_arg17 : R2 m c (Proc.devRef .tc main_arg17) = m ((c.tc : Thread nD τ).loc main_arg17) :=
  (after_of_writes_sub (r := main_arg17) ch2 (R1 m c) ch2_writes (by decide)).trans (R1_arg17 m c)
theorem R3_arg17 : R3 m c (Proc.devRef .tc main_arg17) = m ((c.tc : Thread nD τ).loc main_arg17) :=
  (after_of_writes_sub (r := main_arg17) ch3 (R2 m c) ch3_writes (by decide)).trans (R2_arg17 m c)
theorem R4_arg17 : R4 m c (Proc.devRef .tc main_arg17) = m ((c.tc : Thread nD τ).loc main_arg17) :=
  (after_of_writes_sub (r := main_arg17) ch4 (R3 m c) ch4_writes (by decide)).trans (R3_arg17 m c)
theorem R5_arg17 : R5 m c (Proc.devRef .tc main_arg17) = m ((c.tc : Thread nD τ).loc main_arg17) :=
  (after_of_writes_sub (r := main_arg17) ch5 (R4 m c) ch5_writes (by decide)).trans (R4_arg17 m c)
theorem R6_arg17 : R6 m c (Proc.devRef .tc main_arg17) = m ((c.tc : Thread nD τ).loc main_arg17) :=
  (after_of_writes_sub (r := main_arg17) ch6 (R5 m c) ch6_writes (by decide)).trans (R5_arg17 m c)
theorem R7_arg17 : R7 m c (Proc.devRef .tc main_arg17) = m ((c.tc : Thread nD τ).loc main_arg17) :=
  (after_of_writes_sub (r := main_arg17) ch7 (R6 m c) ch7_writes (by decide)).trans (R6_arg17 m c)
theorem R8_arg17 : R8 m c (Proc.devRef .tc main_arg17) = m ((c.tc : Thread nD τ).loc main_arg17) :=
  (after_of_writes_sub (r := main_arg17) ch8 (R7 m c) ch8_writes (by decide)).trans (R7_arg17 m c)
theorem R9_arg17 : R9 m c (Proc.devRef .tc main_arg17) = m ((c.tc : Thread nD τ).loc main_arg17) :=
  (after_of_writes_sub (r := main_arg17) ch9 (R8 m c) ch9_writes (by decide)).trans (R8_arg17 m c)
theorem R10_arg17 : R10 m c (Proc.devRef .tc main_arg17) = m ((c.tc : Thread nD τ).loc main_arg17) :=
  (after_of_writes_sub (r := main_arg17) ch10 (R9 m c) ch10_writes (by decide)).trans (R9_arg17 m c)
theorem R11_arg17 : R11 m c (Proc.devRef .tc main_arg17) = m ((c.tc : Thread nD τ).loc main_arg17) :=
  (after_of_writes_sub (r := main_arg17) ch11 (R10 m c) ch11_writes (by decide)).trans (R10_arg17 m c)
theorem R12_arg17 : R12 m c (Proc.devRef .tc main_arg17) = m ((c.tc : Thread nD τ).loc main_arg17) :=
  (after_of_writes_sub (r := main_arg17) ch12 (R11 m c) ch12_writes (by decide)).trans (R11_arg17 m c)
theorem R0_arg18 : R0 m c (Proc.devRef .tc main_arg18) = m ((c.tc : Thread nD τ).loc main_arg18) :=
  (after_of_writes_sub (r := main_arg18) ch0 (launchContents m c) ch0_writes (by decide)).trans rfl
theorem R1_arg18 : R1 m c (Proc.devRef .tc main_arg18) = m ((c.tc : Thread nD τ).loc main_arg18) :=
  (after_of_writes_sub (r := main_arg18) ch1 (R0 m c) ch1_writes (by decide)).trans (R0_arg18 m c)
theorem R2_arg18 : R2 m c (Proc.devRef .tc main_arg18) = m ((c.tc : Thread nD τ).loc main_arg18) :=
  (after_of_writes_sub (r := main_arg18) ch2 (R1 m c) ch2_writes (by decide)).trans (R1_arg18 m c)
theorem R3_arg18 : R3 m c (Proc.devRef .tc main_arg18) = m ((c.tc : Thread nD τ).loc main_arg18) :=
  (after_of_writes_sub (r := main_arg18) ch3 (R2 m c) ch3_writes (by decide)).trans (R2_arg18 m c)
theorem R4_arg18 : R4 m c (Proc.devRef .tc main_arg18) = m ((c.tc : Thread nD τ).loc main_arg18) :=
  (after_of_writes_sub (r := main_arg18) ch4 (R3 m c) ch4_writes (by decide)).trans (R3_arg18 m c)
theorem R5_arg18 : R5 m c (Proc.devRef .tc main_arg18) = m ((c.tc : Thread nD τ).loc main_arg18) :=
  (after_of_writes_sub (r := main_arg18) ch5 (R4 m c) ch5_writes (by decide)).trans (R4_arg18 m c)
theorem R6_arg18 : R6 m c (Proc.devRef .tc main_arg18) = m ((c.tc : Thread nD τ).loc main_arg18) :=
  (after_of_writes_sub (r := main_arg18) ch6 (R5 m c) ch6_writes (by decide)).trans (R5_arg18 m c)
theorem R7_arg18 : R7 m c (Proc.devRef .tc main_arg18) = m ((c.tc : Thread nD τ).loc main_arg18) :=
  (after_of_writes_sub (r := main_arg18) ch7 (R6 m c) ch7_writes (by decide)).trans (R6_arg18 m c)
theorem R8_arg18 : R8 m c (Proc.devRef .tc main_arg18) = m ((c.tc : Thread nD τ).loc main_arg18) :=
  (after_of_writes_sub (r := main_arg18) ch8 (R7 m c) ch8_writes (by decide)).trans (R7_arg18 m c)
theorem R9_arg18 : R9 m c (Proc.devRef .tc main_arg18) = m ((c.tc : Thread nD τ).loc main_arg18) :=
  (after_of_writes_sub (r := main_arg18) ch9 (R8 m c) ch9_writes (by decide)).trans (R8_arg18 m c)
theorem R10_arg18 : R10 m c (Proc.devRef .tc main_arg18) = m ((c.tc : Thread nD τ).loc main_arg18) :=
  (after_of_writes_sub (r := main_arg18) ch10 (R9 m c) ch10_writes (by decide)).trans (R9_arg18 m c)
theorem R11_arg18 : R11 m c (Proc.devRef .tc main_arg18) = m ((c.tc : Thread nD τ).loc main_arg18) :=
  (after_of_writes_sub (r := main_arg18) ch11 (R10 m c) ch11_writes (by decide)).trans (R10_arg18 m c)
theorem R12_arg18 : R12 m c (Proc.devRef .tc main_arg18) = m ((c.tc : Thread nD τ).loc main_arg18) :=
  (after_of_writes_sub (r := main_arg18) ch12 (R11 m c) ch12_writes (by decide)).trans (R11_arg18 m c)
theorem R0_arg19 : R0 m c (Proc.devRef .tc main_arg19) = m ((c.tc : Thread nD τ).loc main_arg19) :=
  (after_of_writes_sub (r := main_arg19) ch0 (launchContents m c) ch0_writes (by decide)).trans rfl
theorem R1_arg19 : R1 m c (Proc.devRef .tc main_arg19) = m ((c.tc : Thread nD τ).loc main_arg19) :=
  (after_of_writes_sub (r := main_arg19) ch1 (R0 m c) ch1_writes (by decide)).trans (R0_arg19 m c)
theorem R2_arg19 : R2 m c (Proc.devRef .tc main_arg19) = m ((c.tc : Thread nD τ).loc main_arg19) :=
  (after_of_writes_sub (r := main_arg19) ch2 (R1 m c) ch2_writes (by decide)).trans (R1_arg19 m c)
theorem R3_arg19 : R3 m c (Proc.devRef .tc main_arg19) = m ((c.tc : Thread nD τ).loc main_arg19) :=
  (after_of_writes_sub (r := main_arg19) ch3 (R2 m c) ch3_writes (by decide)).trans (R2_arg19 m c)
theorem R4_arg19 : R4 m c (Proc.devRef .tc main_arg19) = m ((c.tc : Thread nD τ).loc main_arg19) :=
  (after_of_writes_sub (r := main_arg19) ch4 (R3 m c) ch4_writes (by decide)).trans (R3_arg19 m c)
theorem R5_arg19 : R5 m c (Proc.devRef .tc main_arg19) = m ((c.tc : Thread nD τ).loc main_arg19) :=
  (after_of_writes_sub (r := main_arg19) ch5 (R4 m c) ch5_writes (by decide)).trans (R4_arg19 m c)
theorem R6_arg19 : R6 m c (Proc.devRef .tc main_arg19) = m ((c.tc : Thread nD τ).loc main_arg19) :=
  (after_of_writes_sub (r := main_arg19) ch6 (R5 m c) ch6_writes (by decide)).trans (R5_arg19 m c)
theorem R7_arg19 : R7 m c (Proc.devRef .tc main_arg19) = m ((c.tc : Thread nD τ).loc main_arg19) :=
  (after_of_writes_sub (r := main_arg19) ch7 (R6 m c) ch7_writes (by decide)).trans (R6_arg19 m c)
theorem R8_arg19 : R8 m c (Proc.devRef .tc main_arg19) = m ((c.tc : Thread nD τ).loc main_arg19) :=
  (after_of_writes_sub (r := main_arg19) ch8 (R7 m c) ch8_writes (by decide)).trans (R7_arg19 m c)
theorem R9_arg19 : R9 m c (Proc.devRef .tc main_arg19) = m ((c.tc : Thread nD τ).loc main_arg19) :=
  (after_of_writes_sub (r := main_arg19) ch9 (R8 m c) ch9_writes (by decide)).trans (R8_arg19 m c)
theorem R10_arg19 : R10 m c (Proc.devRef .tc main_arg19) = m ((c.tc : Thread nD τ).loc main_arg19) :=
  (after_of_writes_sub (r := main_arg19) ch10 (R9 m c) ch10_writes (by decide)).trans (R9_arg19 m c)
theorem R11_arg19 : R11 m c (Proc.devRef .tc main_arg19) = m ((c.tc : Thread nD τ).loc main_arg19) :=
  (after_of_writes_sub (r := main_arg19) ch11 (R10 m c) ch11_writes (by decide)).trans (R10_arg19 m c)
theorem R12_arg19 : R12 m c (Proc.devRef .tc main_arg19) = m ((c.tc : Thread nD τ).loc main_arg19) :=
  (after_of_writes_sub (r := main_arg19) ch12 (R11 m c) ch12_writes (by decide)).trans (R11_arg19 m c)
theorem R0_arg20 : R0 m c (Proc.devRef .tc main_arg20) = m ((c.tc : Thread nD τ).loc main_arg20) :=
  (after_of_writes_sub (r := main_arg20) ch0 (launchContents m c) ch0_writes (by decide)).trans rfl
theorem R1_arg20 : R1 m c (Proc.devRef .tc main_arg20) = m ((c.tc : Thread nD τ).loc main_arg20) :=
  (after_of_writes_sub (r := main_arg20) ch1 (R0 m c) ch1_writes (by decide)).trans (R0_arg20 m c)
theorem R2_arg20 : R2 m c (Proc.devRef .tc main_arg20) = m ((c.tc : Thread nD τ).loc main_arg20) :=
  (after_of_writes_sub (r := main_arg20) ch2 (R1 m c) ch2_writes (by decide)).trans (R1_arg20 m c)
theorem R3_arg20 : R3 m c (Proc.devRef .tc main_arg20) = m ((c.tc : Thread nD τ).loc main_arg20) :=
  (after_of_writes_sub (r := main_arg20) ch3 (R2 m c) ch3_writes (by decide)).trans (R2_arg20 m c)
theorem R4_arg20 : R4 m c (Proc.devRef .tc main_arg20) = m ((c.tc : Thread nD τ).loc main_arg20) :=
  (after_of_writes_sub (r := main_arg20) ch4 (R3 m c) ch4_writes (by decide)).trans (R3_arg20 m c)
theorem R5_arg20 : R5 m c (Proc.devRef .tc main_arg20) = m ((c.tc : Thread nD τ).loc main_arg20) :=
  (after_of_writes_sub (r := main_arg20) ch5 (R4 m c) ch5_writes (by decide)).trans (R4_arg20 m c)
theorem R6_arg20 : R6 m c (Proc.devRef .tc main_arg20) = m ((c.tc : Thread nD τ).loc main_arg20) :=
  (after_of_writes_sub (r := main_arg20) ch6 (R5 m c) ch6_writes (by decide)).trans (R5_arg20 m c)
theorem R7_arg20 : R7 m c (Proc.devRef .tc main_arg20) = m ((c.tc : Thread nD τ).loc main_arg20) :=
  (after_of_writes_sub (r := main_arg20) ch7 (R6 m c) ch7_writes (by decide)).trans (R6_arg20 m c)
theorem R8_arg20 : R8 m c (Proc.devRef .tc main_arg20) = m ((c.tc : Thread nD τ).loc main_arg20) :=
  (after_of_writes_sub (r := main_arg20) ch8 (R7 m c) ch8_writes (by decide)).trans (R7_arg20 m c)
theorem R9_arg20 : R9 m c (Proc.devRef .tc main_arg20) = m ((c.tc : Thread nD τ).loc main_arg20) :=
  (after_of_writes_sub (r := main_arg20) ch9 (R8 m c) ch9_writes (by decide)).trans (R8_arg20 m c)
theorem R10_arg20 : R10 m c (Proc.devRef .tc main_arg20) = m ((c.tc : Thread nD τ).loc main_arg20) :=
  (after_of_writes_sub (r := main_arg20) ch10 (R9 m c) ch10_writes (by decide)).trans (R9_arg20 m c)
theorem R11_arg20 : R11 m c (Proc.devRef .tc main_arg20) = m ((c.tc : Thread nD τ).loc main_arg20) :=
  (after_of_writes_sub (r := main_arg20) ch11 (R10 m c) ch11_writes (by decide)).trans (R10_arg20 m c)
theorem R12_arg20 : R12 m c (Proc.devRef .tc main_arg20) = m ((c.tc : Thread nD τ).loc main_arg20) :=
  (after_of_writes_sub (r := main_arg20) ch12 (R11 m c) ch12_writes (by decide)).trans (R11_arg20 m c)
theorem R0_arg21 : R0 m c (Proc.devRef .tc main_arg21) = m ((c.tc : Thread nD τ).loc main_arg21) :=
  (after_of_writes_sub (r := main_arg21) ch0 (launchContents m c) ch0_writes (by decide)).trans rfl
theorem R1_arg21 : R1 m c (Proc.devRef .tc main_arg21) = m ((c.tc : Thread nD τ).loc main_arg21) :=
  (after_of_writes_sub (r := main_arg21) ch1 (R0 m c) ch1_writes (by decide)).trans (R0_arg21 m c)
theorem R2_arg21 : R2 m c (Proc.devRef .tc main_arg21) = m ((c.tc : Thread nD τ).loc main_arg21) :=
  (after_of_writes_sub (r := main_arg21) ch2 (R1 m c) ch2_writes (by decide)).trans (R1_arg21 m c)
theorem R3_arg21 : R3 m c (Proc.devRef .tc main_arg21) = m ((c.tc : Thread nD τ).loc main_arg21) :=
  (after_of_writes_sub (r := main_arg21) ch3 (R2 m c) ch3_writes (by decide)).trans (R2_arg21 m c)
theorem R4_arg21 : R4 m c (Proc.devRef .tc main_arg21) = m ((c.tc : Thread nD τ).loc main_arg21) :=
  (after_of_writes_sub (r := main_arg21) ch4 (R3 m c) ch4_writes (by decide)).trans (R3_arg21 m c)
theorem R5_arg21 : R5 m c (Proc.devRef .tc main_arg21) = m ((c.tc : Thread nD τ).loc main_arg21) :=
  (after_of_writes_sub (r := main_arg21) ch5 (R4 m c) ch5_writes (by decide)).trans (R4_arg21 m c)
theorem R6_arg21 : R6 m c (Proc.devRef .tc main_arg21) = m ((c.tc : Thread nD τ).loc main_arg21) :=
  (after_of_writes_sub (r := main_arg21) ch6 (R5 m c) ch6_writes (by decide)).trans (R5_arg21 m c)
theorem R7_arg21 : R7 m c (Proc.devRef .tc main_arg21) = m ((c.tc : Thread nD τ).loc main_arg21) :=
  (after_of_writes_sub (r := main_arg21) ch7 (R6 m c) ch7_writes (by decide)).trans (R6_arg21 m c)
theorem R8_arg21 : R8 m c (Proc.devRef .tc main_arg21) = m ((c.tc : Thread nD τ).loc main_arg21) :=
  (after_of_writes_sub (r := main_arg21) ch8 (R7 m c) ch8_writes (by decide)).trans (R7_arg21 m c)
theorem R9_arg21 : R9 m c (Proc.devRef .tc main_arg21) = m ((c.tc : Thread nD τ).loc main_arg21) :=
  (after_of_writes_sub (r := main_arg21) ch9 (R8 m c) ch9_writes (by decide)).trans (R8_arg21 m c)
theorem R10_arg21 : R10 m c (Proc.devRef .tc main_arg21) = m ((c.tc : Thread nD τ).loc main_arg21) :=
  (after_of_writes_sub (r := main_arg21) ch10 (R9 m c) ch10_writes (by decide)).trans (R9_arg21 m c)
theorem R11_arg21 : R11 m c (Proc.devRef .tc main_arg21) = m ((c.tc : Thread nD τ).loc main_arg21) :=
  (after_of_writes_sub (r := main_arg21) ch11 (R10 m c) ch11_writes (by decide)).trans (R10_arg21 m c)
theorem R12_arg21 : R12 m c (Proc.devRef .tc main_arg21) = m ((c.tc : Thread nD τ).loc main_arg21) :=
  (after_of_writes_sub (r := main_arg21) ch12 (R11 m c) ch12_writes (by decide)).trans (R11_arg21 m c)

theorem R1_v3 : R1 m c (Proc.devRef .tc main_v3) = R0 m c (Proc.devRef .tc main_v3) :=
  after_of_writes_sub (r := main_v3) ch1 (R0 m c) ch1_writes (by decide)
theorem R4_v78 : R4 m c (Proc.devRef .tc main_v78) = R3 m c (Proc.devRef .tc main_v78) :=
  after_of_writes_sub (r := main_v78) ch4 (R3 m c) ch4_writes (by decide)
theorem R7_v153 : R7 m c (Proc.devRef .tc main_v153) = R6 m c (Proc.devRef .tc main_v153) :=
  after_of_writes_sub (r := main_v153) ch7 (R6 m c) ch7_writes (by decide)

end Cert.ReferenceIdeal.Hand

end
-- ==== Proof.RefFold.lean ====
/-
  What the reference's live buffers hold at the boundaries of its lists of operations, as the reference's stages of the
  launch arguments: after the embedding's list the embedding stage; after round 0's neighbour-sum list the neighbour-sum
  stage; after round 0's two lists round 0's stage.  Each stage is defined as exactly the operations of its list nested
  by name, so once the list's fold is read at the result buffer and the operand buffers are replaced by what they were
  shown to hold before the list, the two sides agree by unfolding.
-/
import proofs.«171844_j32538672234672_1_alg».proof.Proof.RefKeep
import proofs.«171844_j32538672234672_1_alg».proof.Proof.ReadP

set_option maxRecDepth 16384

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable (m : (ℓ : Loc nD τ sig) → Buf (Elt Ideal) ℓ) (c : Dev nD)

/-- After the embedding's operations its result buffer holds the embedding stage of the launch arguments. -/
theorem F0 : R0 m c (Proc.devRef .tc main_v3) = val_main_v3 (F := Ideal) (m ((c.tc : Thread nD τ).loc main_arg0)) (m ((c.tc : Thread nD τ).loc main_arg4)) (m ((c.tc : Thread nD τ).loc main_arg5)) := by
  show StableHlo.after ch0 (launchContents m c) (Proc.devRef .tc main_v3) = _
  after_results
  rfl

/-- After round 0's neighbour-sum operations its result buffer holds the neighbour-sum stage. -/
theorem F1 : R1 m c (Proc.devRef .tc main_v13) = val_main_v13 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  have hin : R0 m c (Proc.devRef .tc main_v3) = _ := F0 m c
  have h1 := R0_arg1 m c
  have h2 := R0_arg2 m c
  show StableHlo.after ch1 (R0 m c) (Proc.devRef .tc main_v13) = _
  generalize R0 m c = V at hin h1 h2 ⊢
  after_results
  rw [hin, h1, h2]
  rfl

/-- After round 0's operations its result buffer holds round 0's stage. -/
theorem F3 : R3 m c (Proc.devRef .tc main_v78) = val_main_v78 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  have hh : R1 m c (Proc.devRef .tc main_v3) = _ := (R1_v3 m c).trans (F0 m c)
  have ha : R1 m c (Proc.devRef .tc main_v13) = _ := F1 m c
  have h6 := R1_arg6 m c
  have h7 := R1_arg7 m c
  have h8 := R1_arg8 m c
  have h9 := R1_arg9 m c
  have h10 := R1_arg10 m c
  have h11 := R1_arg11 m c
  have h12 := R1_arg12 m c
  have h13 := R1_arg13 m c
  have h14 := R1_arg14 m c
  have h15 := R1_arg15 m c
  have h16 := R1_arg16 m c
  have h17 := R1_arg17 m c
  show StableHlo.after ch3 (StableHlo.after ch2 (R1 m c)) (Proc.devRef .tc main_v78) = _
  generalize R1 m c = V at hh ha h6 h7 h8 h9 h10 h11 h12 h13 h14 h15 h16 h17 ⊢
  after_results_simp
  rw [hh, ha, h6, h7, h8, h9, h10, h11, h12, h13, h14, h15, h16, h17]
  rfl

end Cert.ReferenceIdeal.Hand

end
-- ==== Proof.RefFoldA.lean ====
/-
  Round 1 of the reference, read off its fold.  The neighbour sum that opens the round (list 4) computes, from round 0's
  result and the two edge arrays, exactly the nested operations that name the round's aggregate; the round's two lists
  (5 and 6) compute, from round 0's result, that aggregate and the round's parameter rows, exactly the nested operations
  that name round 1's result.  Each is the fold unrolled at the one buffer, its operand buffers replaced by what they hold.
-/
import proofs.«171844_j32538672234672_1_alg».proof.Proof.RefKeep
import proofs.«171844_j32538672234672_1_alg».proof.Proof.ReadP

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable (m : (ℓ : Loc nD τ sig) → Buf (Elt Ideal) ℓ) (c : Dev nD)

/-- ROUND 1'S NEIGHBOUR SUM: after list 4 the aggregate's buffer holds the gather of round 0's result along the first
    edge array, scatter-added along the second. -/
theorem F4_of (h3 : R3 m c (Proc.devRef .tc main_v78) = val_main_v78 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) :
    R4 m c (Proc.devRef .tc main_v88) = val_main_v88 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  have h1 := R3_arg1 m c
  have h2 := R3_arg2 m c
  show StableHlo.after ch4 (R3 m c) (Proc.devRef .tc main_v88) = _
  generalize R3 m c = V at h3 h1 h2 ⊢
  after_results_simp
  rw [h3, h1, h2]
  rfl

/-- ROUND 1'S LAYER: after lists 5 and 6 the round's result buffer holds the two normalised, clamped affine maps of round
    0's result plus the aggregate, at the round's parameter rows. -/
theorem F6_of (h3 : R3 m c (Proc.devRef .tc main_v78) = val_main_v78 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))
    (h4 : R4 m c (Proc.devRef .tc main_v88) = val_main_v88 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) :
    R6 m c (Proc.devRef .tc main_v153) = val_main_v153 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  have h78 := (R4_v78 m c).trans h3
  have k6 := R4_arg6 m c
  have k7 := R4_arg7 m c
  have k8 := R4_arg8 m c
  have k9 := R4_arg9 m c
  have k10 := R4_arg10 m c
  have k11 := R4_arg11 m c
  have k12 := R4_arg12 m c
  have k13 := R4_arg13 m c
  have k14 := R4_arg14 m c
  have k15 := R4_arg15 m c
  have k16 := R4_arg16 m c
  have k17 := R4_arg17 m c
  show StableHlo.after ch6 (StableHlo.after ch5 (R4 m c)) (Proc.devRef .tc main_v153) = _
  generalize R4 m c = V at h78 h4 k6 k7 k8 k9 k10 k11 k12 k13 k14 k15 k16 k17 ⊢
  after_results_simp
  rw [h78, h4, k6, k7, k8, k9, k10, k11, k12, k13, k14, k15, k16, k17]
  rfl

end Cert.ReferenceIdeal.Hand

end
-- ==== Proof.RefFoldB.lean ====
/-
  The last three boundary facts of the reference's fold: the third round's result, the per-graph sum and the readout,
  each read off its list of operations from the buffers the list is entered with.  A stage of the reference is the
  program's operations nested by name, and a list's fold at its last buffer is the same operations applied to the
  entry contents; once the entry buffers are rewritten to what they hold, the two are one term.
-/
import proofs.«171844_j32538672234672_1_alg».proof.Proof.RefKeep
import proofs.«171844_j32538672234672_1_alg».proof.Proof.ReadP

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ReadP

variable (m : (ℓ : Loc nD τ sig) → Buf (Elt Ideal) ℓ) (c : Dev nD)

/-- The readout: from the per-graph sums, the four readout parameters being arguments. -/
theorem F12_of (h11 : R11 m c (Proc.devRef .tc main_v231) = val_main_v231 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) :
    R12 m c (Proc.devRef .tc main_v240) = val_main_v240 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  have hin := h11
  have h18 := R11_arg18 m c
  have h19 := R11_arg19 m c
  have h20 := R11_arg20 m c
  have h21 := R11_arg21 m c
  show StableHlo.after ch12 (R11 m c) (Proc.devRef .tc main_v240) = _
  generalize R11 m c = V at hin h18 h19 h20 h21 ⊢
  after_results
  rw [hin, h18, h19, h20, h21]
  rfl

/-- The per-graph sum: from the third round's result, the graph index being an argument. -/
theorem F11_of (h10 : R10 m c (Proc.devRef .tc main_v228) = val_main_v228 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) :
    R11 m c (Proc.devRef .tc main_v231) = val_main_v231 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  have hin := h10
  have h3 := R10_arg3 m c
  show StableHlo.after ch11 (R10 m c) (Proc.devRef .tc main_v231) = _
  generalize R10 m c = V at hin h3 ⊢
  after_results
  rw [hin, h3]
  rfl

/-- The third round: from the second round's result and its neighbour sum, the round's parameters being arguments. -/
theorem F10_of (h6 : R6 m c (Proc.devRef .tc main_v153) = val_main_v153 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))
    (h7 : R7 m c (Proc.devRef .tc main_v163) = val_main_v163 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) :
    R10 m c (Proc.devRef .tc main_v228) = val_main_v228 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  have hx := (R7_v153 m c).trans h6
  have hs := h7
  have h6 := R7_arg6 m c
  have h7 := R7_arg7 m c
  have h8 := R7_arg8 m c
  have h9 := R7_arg9 m c
  have h10 := R7_arg10 m c
  have h11 := R7_arg11 m c
  have h12 := R7_arg12 m c
  have h13 := R7_arg13 m c
  have h14 := R7_arg14 m c
  have h15 := R7_arg15 m c
  have h16 := R7_arg16 m c
  have h17 := R7_arg17 m c
  show StableHlo.after ch10 (StableHlo.after ch9 (StableHlo.after ch8 (R7 m c))) (Proc.devRef .tc main_v228) = _
  generalize R7 m c = V at hx hs h6 h7 h8 h9 h10 h11 h12 h13 h14 h15 h16 h17 ⊢
  after_results_simp
  rw [hx, hs, h6, h7, h8, h9, h10, h11, h12, h13, h14, h15, h16, h17]
  rfl

end Cert.ReferenceIdeal.Hand

end
-- ==== Proof.RefFoldC.lean ====
/-
  Round 2's neighbour sum at its list's boundary: if round 1's result buffer held round 1's stage before the list, the
  list's result buffer holds the neighbour-sum stage after it.  The stage is defined as exactly the list's operations
  nested by name, so after the fold is read at the result buffer the two sides agree by unfolding.
-/
import proofs.«171844_j32538672234672_1_alg».proof.Proof.RefKeep
import proofs.«171844_j32538672234672_1_alg».proof.Proof.ReadP

set_option maxRecDepth 16384

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable (m : (ℓ : Loc nD τ sig) → Buf (Elt Ideal) ℓ) (c : Dev nD)

/-- After round 2's neighbour-sum operations its result buffer holds round 2's neighbour-sum stage, given that round
    1's result buffer held round 1's stage before them. -/
theorem F7_of (h6 : R6 m c (Proc.devRef .tc main_v153) = val_main_v153 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) :
    R7 m c (Proc.devRef .tc main_v163) = val_main_v163 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  have h1 := R6_arg1 m c
  have h2 := R6_arg2 m c
  show StableHlo.after ch7 (R6 m c) (Proc.devRef .tc main_v163) = _
  generalize R6 m c = V at h6 h1 h2 ⊢
  after_results_simp
  rw [h6, h1, h2]
  rfl

end Cert.ReferenceIdeal.Hand

end
-- ==== Proof.RefResult.lean ====
/-
  The reference's run, read.  Every weakly fair execution of the reference's @main terminates with each buffer at the
  fold of the operations over the launch contents; the result buffer there is the last stage of the reference's
  chain of operations, as a function of the argument arrays, and no operation writes an argument.
-/
import proofs.«171844_j32538672234672_1_alg».proof.Proof.RefRun
import proofs.«171844_j32538672234672_1_alg».proof.Proof.RefFold
import proofs.«171844_j32538672234672_1_alg».proof.Proof.RefFoldA
import proofs.«171844_j32538672234672_1_alg».proof.Proof.RefFoldB
import proofs.«171844_j32538672234672_1_alg».proof.Proof.RefFoldC

set_option maxRecDepth 16384

noncomputable section

namespace Cert.ReferenceIdeal.Hand

open Cert.ReferenceIdeal Cert.ReferenceIdeal.Gen Cert.ReferenceIdeal.ReadP
open Idealize.ShloMosaic Idealize.ShloMosaic.TcCoe Idealize.SL.Sem Idealize.ShloMosaic.StableHlo

section Boundaries

variable (m : (ℓ : Loc nD τ sig) → Buf (Elt Ideal) ℓ) (c : Dev nD)

/-- After round 1's neighbour sum. -/
theorem F4 : R4 m c (Proc.devRef .tc main_v88) = val_main_v88 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := F4_of m c (F3 m c)
/-- After round 1. -/
theorem F6 : R6 m c (Proc.devRef .tc main_v153) = val_main_v153 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := F6_of m c (F3 m c) (F4 m c)
/-- After round 2's neighbour sum. -/
theorem F7 : R7 m c (Proc.devRef .tc main_v163) = val_main_v163 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := F7_of m c (F6 m c)
/-- After round 2. -/
theorem F10 : R10 m c (Proc.devRef .tc main_v228) = val_main_v228 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := F10_of m c (F6 m c) (F7 m c)
/-- After the per-graph sum. -/
theorem F11 : R11 m c (Proc.devRef .tc main_v231) = val_main_v231 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := F11_of m c (F10 m c)
/-- After the readout: the result buffer holds the reference's last stage. -/
theorem F12 : R12 m c (Proc.devRef .tc main_v240) = val_main_v240 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := F12_of m c (F11 m c)

end Boundaries

/-- Every weakly fair execution of the reference terminates, nothing faulting, with its result at the last stage of
    its operations on the launch contents and its argument arrays as launched. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v240) = val_main_v240 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun r h c =>
    ⟨(h c main_v240).trans ((congrFun (after_allOps m c) _).trans (F12 m c)),
     (h c main_arg0).trans ((congrFun (after_allOps m c) _).trans (R12_arg0 m c)),
     (h c main_arg1).trans ((congrFun (after_allOps m c) _).trans (R12_arg1 m c)),
     (h c main_arg2).trans ((congrFun (after_allOps m c) _).trans (R12_arg2 m c)),
     (h c main_arg3).trans ((congrFun (after_allOps m c) _).trans (R12_arg3 m c)),
     (h c main_arg4).trans ((congrFun (after_allOps m c) _).trans (R12_arg4 m c)),
     (h c main_arg5).trans ((congrFun (after_allOps m c) _).trans (R12_arg5 m c)),
     (h c main_arg6).trans ((congrFun (after_allOps m c) _).trans (R12_arg6 m c)),
     (h c main_arg7).trans ((congrFun (after_allOps m c) _).trans (R12_arg7 m c)),
     (h c main_arg8).trans ((congrFun (after_allOps m c) _).trans (R12_arg8 m c)),
     (h c main_arg9).trans ((congrFun (after_allOps m c) _).trans (R12_arg9 m c)),
     (h c main_arg10).trans ((congrFun (after_allOps m c) _).trans (R12_arg10 m c)),
     (h c main_arg11).trans ((congrFun (after_allOps m c) _).trans (R12_arg11 m c)),
     (h c main_arg12).trans ((congrFun (after_allOps m c) _).trans (R12_arg12 m c)),
     (h c main_arg13).trans ((congrFun (after_allOps m c) _).trans (R12_arg13 m c)),
     (h c main_arg14).trans ((congrFun (after_allOps m c) _).trans (R12_arg14 m c)),
     (h c main_arg15).trans ((congrFun (after_allOps m c) _).trans (R12_arg15 m c)),
     (h c main_arg16).trans ((congrFun (after_allOps m c) _).trans (R12_arg16 m c)),
     (h c main_arg17).trans ((congrFun (after_allOps m c) _).trans (R12_arg17 m c)),
     (h c main_arg18).trans ((congrFun (after_allOps m c) _).trans (R12_arg18 m c)),
     (h c main_arg19).trans ((congrFun (after_allOps m c) _).trans (R12_arg19 m c)),
     (h c main_arg20).trans ((congrFun (after_allOps m c) _).trans (R12_arg20 m c)),
     (h c main_arg21).trans ((congrFun (after_allOps m c) _).trans (R12_arg21 m c))⟩)
    (run_all m ρ)

end Cert.ReferenceIdeal.Hand

end
-- ==== Proof.lean ====
/-
  The five claims.  The three programs run: the word-level kernel and its idealization by their launch-side
  certificates over the pipelined regions, the reference by its host operations one after another; each leaves its
  argument arrays as launched.  The idealization rewrote nothing, so the kernel's idealized text is its own text
  read over the extended reals.  For the value: the idealized kernel's result buffer ends at the network of its
  arguments (the embedding, three rounds of neighbour sum and two normalised, clamped affine maps, the per-graph sum,
  the readout), and the reference's result is the same network of its arguments; from memories that agree on the
  arguments the two results are therefore equal, entry by entry, with no appeal to the inputs being finite: both
  programs apply the same exact operations in the same order, and the kernel's tiling by rows only chooses which
  grid point computes a row.
-/
import proofs.«171844_j32538672234672_1_alg».proof.Defs
import proofs.«171844_j32538672234672_1_alg».proof.Proof.Gen.Kernel
import proofs.«171844_j32538672234672_1_alg».proof.Proof.Gen.Kernel.Skeleton
import proofs.«171844_j32538672234672_1_alg».proof.Proof.Gen.Kernel.Launch
import proofs.«171844_j32538672234672_1_alg».proof.Proof.Gen.Kernel.Points
import proofs.«171844_j32538672234672_1_alg».proof.Proof.Gen.Kernel.Frame
import proofs.«171844_j32538672234672_1_alg».proof.Proof.Gen.KernelIdeal
import proofs.«171844_j32538672234672_1_alg».proof.Proof.Gen.KernelIdeal.Skeleton
import proofs.«171844_j32538672234672_1_alg».proof.Proof.Gen.KernelIdeal.Launch
import proofs.«171844_j32538672234672_1_alg».proof.Proof.Gen.KernelIdeal.Points
import proofs.«171844_j32538672234672_1_alg».proof.Proof.Gen.KernelIdeal.Frame
import proofs.«171844_j32538672234672_1_alg».proof.Proof.Gen.ReferenceIdeal
import proofs.«171844_j32538672234672_1_alg».proof.Proof.Gen.Pre_finite_inputs
import Idealize.ShloMosaic.Adequacy
import Idealize.ShloMosaic.Init
import proofs.«171844_j32538672234672_1_alg».proof.Proof.RunValue
import proofs.«171844_j32538672234672_1_alg».proof.Proof.FoldValue
import proofs.«171844_j32538672234672_1_alg».proof.Proof.Bridge
import proofs.«171844_j32538672234672_1_alg».proof.Proof.RefResult

set_option maxRecDepth 16384

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Hand.ref_run m ρ)

/-- From memories agreeing on the arguments both idealized programs end with the network of the arguments in their
    result buffers. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Fold.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · exact (θ_run Cert.KernelIdeal.defs _ _).mono
      (fun r h c => ⟨(h c).1.trans (Cert.KernelIdeal.Fold.kernel_value m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Hand.ref_run m' ρ')
    rw [Cert.Bridge.ref_value]
    obtain ⟨e0, e1, e2, e3, e4, e5, e6, e7, e8, e9, e10, e11, e12, e13, e14, e15, e16, e17, e18, e19, e20, e21⟩ := hagree c
    rw [e0, e1, e2, e3, e4, e5, e6, e7, e8, e9, e10, e11, e12, e13, e14, e15, e16, e17, e18, e19, e20, e21]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
